-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x112x8x128x128 : Shape := ⟨5, ![1, 112, 8, 128, 128]⟩
abbrev S224x112 : Shape := ⟨2, ![224, 112]⟩
abbrev S112x112 : Shape := ⟨2, ![112, 112]⟩
abbrev S112 : Shape := ⟨1, ![112]⟩
abbrev S1x28 : Shape := ⟨2, ![1, 28]⟩
abbrev S1 : Shape := ⟨1, ![1]⟩
abbrev S1x64 : Shape := ⟨2, ![1, 64]⟩
abbrev S64x64 : Shape := ⟨2, ![64, 64]⟩
abbrev S_ : Shape := ⟨0, ![]⟩

class Facts : Prop where
  bcast_S_S1x112x8x128x128 : S_.BroadcastsInDim S1x112x8x128x128 (![] : Fin 0 → Fin S1x112x8x128x128.rank)
  reducesTo_S1x112x8x128x128_S_d0_1_2_3_4 : S1x112x8x128x128.ReducesTo [0, 1, 2, 3, 4] S_
  h_S_ : 0 < S_.numel
  bcast_S_S224x112 : S_.BroadcastsInDim S224x112 (![] : Fin 0 → Fin S224x112.rank)
  reducesTo_S224x112_S_d0_1 : S224x112.ReducesTo [0, 1] S_
  bcast_S_S112x112 : S_.BroadcastsInDim S112x112 (![] : Fin 0 → Fin S112x112.rank)
  reducesTo_S112x112_S_d0_1 : S112x112.ReducesTo [0, 1] S_
  bcast_S_S112 : S_.BroadcastsInDim S112 (![] : Fin 0 → Fin S112.rank)
  reducesTo_S112_S_d0 : S112.ReducesTo [0] S_
  bcast_S_S1x28 : S_.BroadcastsInDim S1x28 (![] : Fin 0 → Fin S1x28.rank)
  reducesTo_S1x28_S_d0_1 : S1x28.ReducesTo [0, 1] S_
  bcast_S_S1 : S_.BroadcastsInDim S1 (![] : Fin 0 → Fin S1.rank)
  reducesTo_S1_S_d0 : S1.ReducesTo [0] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S1x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  main_v58

def fn_part2 {F : FTy → Type} [FloatOps F] (main_arg7 : FVec F S1x28 .f32) (main_arg8 : FVec F S1 .f32) (main_arg9 : FVec F S1x64 .f32) (main_arg10 : FVec F S64x64 .f32) (main_arg11 : FVec F S1x64 .f32) (main_v33 : IVec S_ 1) : IVec S_ 1 :=
  let main_v34 : FVec F S1x28 .f32 := Host.absf main_arg7
  let main_cst_12 : FVec F S_ .f32 := constant S_ .f32 0x7F800000#32
  let main_v35 : FVec F S1x28 .f32 := broadcastInDim S1x28 ![] bcast_S_S1x28 main_cst_12
  let main_v36 : IVec S1x28 1 := cmpf .olt main_v34 main_v35
  let main_c_13 : IVec S_ 1 := constantI S_ 1 1#1
  let main_v37 : IVec S_ 1 := (fun x v => Host.reduce IntOp.andi x v reducesTo_S1x28_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S112 .f32) (main_arg5 : FVec F S1x28 .f32) (main_arg6 : FVec F S1 .f32) (main_arg7 : FVec F S1x28 .f32) (main_arg8 : FVec F S1 .f32) (main_arg9 : FVec F S1x64 .f32) (main_arg10 : FVec F S64x64 .f32) (main_arg11 : FVec F S1x64 .f32) (main_v13 : IVec S_ 1) (main_v16 : IVec S112x112 1) : IVec S_ 1 :=
  let main_c_5 : IVec S_ 1 := constantI S_ 1 1#1
  let main_v17 : IVec S_ 1 := (fun x v => Host.reduce IntOp.andi x v reducesTo_S112x112_S_d0_1 h_S_) main_v16 main_c_5
  let main_v18 : IVec S_ 1 := andi main_v13 main_v17
  let main_v19 : FVec F S112 .f32 := Host.absf main_arg4
  let main_cst_6 : FVec F S_ .f32 := constant S_ .f32 0x7F800000#32
  let main_v20 : FVec F S112 .f32 := broadcastInDim S112 ![] bcast_S_S112 main_cst_6
  let main_v21 : IVec S112 1 := cmpf .olt main_v19 main_v20
  let main_c_7 : IVec S_ 1 := constantI S_ 1 1#1
  let main_v22 : IVec S_ 1 := (fun x v => Host.reduce IntOp.andi x v reducesTo_S112_S_d0 h_S_) main_v21 main_c_7
  let main_v23 : IVec S_ 1 := andi main_v18 main_v22
  let main_v24 : FVec F S1x28 .f32 := Host.absf main_arg5
  let main_cst_8 : FVec F S_ .f32 := constant S_ .f32 0x7F800000#32
  let main_v25 : FVec F S1x28 .f32 := broadcastInDim S1x28 ![] bcast_S_S1x28 main_cst_8
  let main_v26 : IVec S1x28 1 := cmpf .olt main_v24 main_v25
  let main_c_9 : IVec S_ 1 := constantI S_ 1 1#1
  let main_v27 : IVec S_ 1 := (fun x v => Host.reduce IntOp.andi x v reducesTo_S1x28_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x112x8x128x128 .f32) (main_arg1 : FVec F S224x112 .f32) (main_arg2 : FVec F S112x112 .f32) (main_arg3 : FVec F S112x112 .f32) (main_arg4 : FVec F S112 .f32) (main_arg5 : FVec F S1x28 .f32) (main_arg6 : FVec F S1 .f32) (main_arg7 : FVec F S1x28 .f32) (main_arg8 : FVec F S1 .f32) (main_arg9 : FVec F S1x64 .f32) (main_arg10 : FVec F S64x64 .f32) (main_arg11 : FVec F S1x64 .f32) : IVec S_ 1 :=
  let main_v0 : FVec F S1x112x8x128x128 .f32 := Host.absf main_arg0
  let main_cst : FVec F S_ .f32 := constant S_ .f32 0x7F800000#32
  let main_v1 : FVec F S1x112x8x128x128 .f32 := broadcastInDim S1x112x8x128x128 ![] bcast_S_S1x112x8x128x128 main_cst
  let main_v2 : IVec S1x112x8x128x128 1 := cmpf .olt main_v0 main_v1
  let main_c : IVec S_ 1 := constantI S_ 1 1#1
  let main_v3 : IVec S_ 1 := (fun x v => Host.reduce IntOp.andi x v reducesTo_S1x112x8x128x128_S_d0_1_2_3_4 h_S_) main_v2 main_c
  let main_v4 : FVec F S224x112 .f32 := Host.absf main_arg1
  let main_cst_0 : FVec F S_ .f32 := constant S_ .f32 0x7F800000#32
  let main_v5 : FVec F S224x112 .f32 := broadcastInDim S224x112 ![] bcast_S_S224x112 main_cst_0
  let main_v6 : IVec S224x112 1 := cmpf .olt main_v4 main_v5
  let main_c_1 : IVec S_ 1 := constantI S_ 1 1#1
  let main_v7 : IVec S_ 1 := (fun x v => Host.reduce IntOp.andi x v reducesTo_S224x112_S_d0_1 h_S_) main_v6 main_c_1
  let main_v8 : IVec S_ 1 := andi main_v3 main_v7
  let main_v9 : FVec F S112x112 .f32 := Host.absf main_arg2
  let main_cst_2 : FVec F S_ .f32 := constant S_ .f32 0x7F800000#32
  let main_v10 : FVec F S112x112 .f32 := broadcastInDim S112x112 ![] bcast_S_S112x112 main_cst_2
  let main_v11 : IVec S112x112 1 := cmpf .olt main_v9 main_v10
  let main_c_3 : IVec S_ 1 := constantI S_ 1 1#1
  let main_v12 : IVec S_ 1 := (fun x v => Host.reduce IntOp.andi x v reducesTo_S112x112_S_d0_1 h_S_) main_v11 main_c_3
  let main_v13 : IVec S_ 1 := andi main_v8 main_v12
  let main_v14 : FVec F S112x112 .f32 := Host.absf main_arg3
  let main_cst_4 : FVec F S_ .f32 := constant S_ .f32 0x7F800000#32
  let main_v15 : FVec F S112x112 .f32 := broadcastInDim S112x112 ![] bcast_S_S112x112 main_cst_4
  let main_v16 : IVec S112x112 1 := cmpf .olt main_v14 main_v15
  fn_part1 (F := F) main_arg4 main_arg5 main_arg6 main_arg7 main_arg8 main_arg9 main_arg10 main_arg11 main_v13 main_v16
-- ==== Kernel.lean ====
abbrev S1x112x8x128x128 : Shape := ⟨5, ![1, 112, 8, 128, 128]⟩
abbrev S224x112 : Shape := ⟨2, ![224, 112]⟩
abbrev S112x112 : Shape := ⟨2, ![112, 112]⟩
abbrev S112 : Shape := ⟨1, ![112]⟩
abbrev S1x28 : Shape := ⟨2, ![1, 28]⟩
abbrev S1 : Shape := ⟨1, ![1]⟩
abbrev S1x64 : Shape := ⟨2, ![1, 64]⟩
abbrev S64x64 : Shape := ⟨2, ![64, 64]⟩
abbrev S1x112x8x4x128 : Shape := ⟨5, ![1, 112, 8, 4, 128]⟩
abbrev S1x112x8x124x128 : Shape := ⟨5, ![1, 112, 8, 124, 128]⟩
abbrev S1x112x8x128x4 : Shape := ⟨5, ![1, 112, 8, 128, 4]⟩
abbrev S1x112x8x128x124 : Shape := ⟨5, ![1, 112, 8, 128, 124]⟩
abbrev S1x112x8x16x8x16x8 : Shape := ⟨7, ![1, 112, 8, 16, 8, 16, 8]⟩
abbrev S1x16x16x8x8x8x112 : Shape := ⟨7, ![1, 16, 16, 8, 8, 8, 112]⟩
abbrev S256x8x64x112 : Shape := ⟨4, ![256, 8, 64, 112]⟩
abbrev S1x8x64x112 : Shape := ⟨4, ![1, 8, 64, 112]⟩
abbrev S512x112 : Shape := ⟨2, ![512, 112]⟩
abbrev S112x224 : Shape := ⟨2, ![112, 224]⟩
abbrev S512x224 : Shape := ⟨2, ![512, 224]⟩
abbrev S8x64x112 : Shape := ⟨3, ![8, 64, 112]⟩
abbrev S28 : Shape := ⟨1, ![28]⟩
abbrev S64 : Shape := ⟨1, ![64]⟩
abbrev S8x64x28 : Shape := ⟨3, ![8, 64, 28]⟩
abbrev S8x64x64 : Shape := ⟨3, ![8, 64, 64]⟩
abbrev S1x1x28 : Shape := ⟨3, ![1, 1, 28]⟩
abbrev S8x64 : Shape := ⟨2, ![8, 64]⟩
abbrev S8x64x1 : Shape := ⟨3, ![8, 64, 1]⟩
abbrev S8x1x64 : Shape := ⟨3, ![8, 1, 64]⟩
abbrev S1x64x64 : Shape := ⟨3, ![1, 64, 64]⟩
abbrev S1x1x64 : Shape := ⟨3, ![1, 1, 64]⟩
abbrev S8 : Shape := ⟨1, ![8]⟩
abbrev S8x1x1 : Shape := ⟨3, ![8, 1, 1]⟩
abbrev S1x112 : Shape := ⟨2, ![1, 112]⟩

abbrev nBuf : Space → Nat
  | .hbm => 31
  | .vmem => 15
  | .smem => 0
  | _ => 0

abbrev bufTy : (tb : Table) → Fin (tcTables nBuf tb) → BufTy
  | .hbm, ⟨0, _⟩ => ⟨S1x112x8x128x128, .f32⟩
  | .hbm, ⟨1, _⟩ => ⟨S224x112, .f32⟩
  | .hbm, ⟨2, _⟩ => ⟨S112x112, .f32⟩
  | .hbm, ⟨3, _⟩ => ⟨S112x112, .f32⟩
  | .hbm, ⟨4, _⟩ => ⟨S112, .f32⟩
  | .hbm, ⟨5, _⟩ => ⟨S1x28, .f32⟩
  | .hbm, ⟨6, _⟩ => ⟨S1, .f32⟩
  | .hbm, ⟨7, _⟩ => ⟨S1x28, .f32⟩
  | .hbm, ⟨8, _⟩ => ⟨S1, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S1x112x8x4x128, .f32⟩
  | .hbm, ⟨13, _⟩ => ⟨S1x112x8x124x128, .f32⟩
  | .hbm, ⟨14, _⟩ => ⟨S1x112x8x128x128, .f32⟩
  | .hbm, ⟨15, _⟩ => ⟨S1x112x8x128x4, .f32⟩
  | .hbm, ⟨16, _⟩ => ⟨S1x112x8x128x124, .f32⟩
  | .hbm, ⟨17, _⟩ => ⟨S1x112x8x128x128, .f32⟩
  | .hbm, ⟨18, _⟩ => ⟨S1x112x8x16x8x16x8, .f32⟩
  | .hbm, ⟨19, _⟩ => ⟨S1x16x16x8x8x8x112, .f32⟩
  | .hbm, ⟨20, _⟩ => ⟨S256x8x64x112, .f32⟩
  | .hbm, ⟨21, _⟩ => ⟨S256x8x64x112, .f32⟩
  | .hbm, ⟨22, _⟩ => ⟨S1x16x16x8x8x8x112, .f32⟩
  | .hbm, ⟨23, _⟩ => ⟨S1x112x8x16x8x16x8, .f32⟩
  | .hbm, ⟨24, _⟩ => ⟨S1x112x8x128x128, .f32⟩
  | .hbm, ⟨25, _⟩ => ⟨S1x112x8x124x128, .f32⟩
  | .hbm, ⟨26, _⟩ => ⟨S1x112x8x4x128, .f32⟩
  | .hbm, ⟨27, _⟩ => ⟨S1x112x8x128x128, .f32⟩
  | .hbm, ⟨28, _⟩ => ⟨S1x112x8x128x124, .f32⟩
  | .hbm, ⟨29, _⟩ => ⟨S1x112x8x128x4, .f32⟩
  | .hbm, ⟨30, _⟩ => ⟨S1x112x8x128x128, .f32⟩
  | .local _ .vmem, ⟨0, _⟩ => ⟨S1x8x64x112, .f32⟩
  | .local _ .vmem, ⟨1, _⟩ => ⟨S1x8x64x112, .f32⟩
  | .local _ .vmem, ⟨2, _⟩ => ⟨S224x112, .f32⟩
  | .local _ .vmem, ⟨3, _⟩ => ⟨S112x112, .f32⟩
  | .local _ .vmem, ⟨4, _⟩ => ⟨S112x112, .f32⟩
  | .local _ .vmem, ⟨5, _⟩ => ⟨S112, .f32⟩
  | .local _ .vmem, ⟨6, _⟩ => ⟨S1x28, .f32⟩
  | .local _ .vmem, ⟨7, _⟩ => ⟨S1, .f32⟩
  | .local _ .vmem, ⟨8, _⟩ => ⟨S1x28, .f32⟩
  | .local _ .vmem, ⟨9, _⟩ => ⟨S1, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S1x8x64x112, .f32⟩
  | .local _ .vmem, ⟨14, _⟩ => ⟨S1x8x64x112, .f32⟩
  | _, _ => ⟨S1x112x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v8 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S112x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x64x112 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S1x112x8x128x128_S1x112x8x4x128_0_0_0_124_0 : S1x112x8x128x128.Slices ![0, 0, 0, 124, 0] S1x112x8x4x128
  slices_S1x112x8x128x128_S1x112x8x124x128_0_0_0_0_0 : S1x112x8x128x128.Slices ![0, 0, 0, 0, 0] S1x112x8x124x128
  concatenates_S1x112x8x4x128_S1x112x8x124x128_S1x112x8x128x128_d3 : Shape.Concatenates [S1x112x8x4x128, S1x112x8x124x128] S1x112x8x128x128 3
  slices_S1x112x8x128x128_S1x112x8x128x4_0_0_0_0_124 : S1x112x8x128x128.Slices ![0, 0, 0, 0, 124] S1x112x8x128x4
  slices_S1x112x8x128x128_S1x112x8x128x124_0_0_0_0_0 : S1x112x8x128x128.Slices ![0, 0, 0, 0, 0] S1x112x8x128x124
  concatenates_S1x112x8x128x4_S1x112x8x128x124_S1x112x8x128x128_d4 : Shape.Concatenates [S1x112x8x128x4, S1x112x8x128x124] S1x112x8x128x128 4
  shapeCasts_S1x112x8x128x128_S1x112x8x16x8x16x8 : S1x112x8x128x128.ShapeCasts S1x112x8x16x8x16x8
  transposes_S1x112x8x16x8x16x8_S1x16x16x8x8x8x112_0_3_5_2_4_6_1 : S1x112x8x16x8x16x8.Transposes [0, 3, 5, 2, 4, 6, 1] S1x16x16x8x8x8x112
  shapeCasts_S1x16x16x8x8x8x112_S256x8x64x112 : S1x16x16x8x8x8x112.ShapeCasts S256x8x64x112
  inb_S1x8x64x112_S1x8x64x112_0_0_0_0 : ∀ a, (![0, 0, 0, 0] : Fin 4 → Nat) a + S1x8x64x112.size a ≤ S1x8x64x112.size a
  h_S1x8x64x112 : 0 < S1x8x64x112.numel
  shapeCasts_S1x8x64x112_S1x8x64x112 : S1x8x64x112.ShapeCasts S1x8x64x112
  bitsLt_bf16_f32 : FTy.bits .bf16 < FTy.bits .f32
  shapeCasts_S1x8x64x112_S512x112 : S1x8x64x112.ShapeCasts S512x112
  inb_S224x112_S224x112_0_0 : ∀ a, (![0, 0] : Fin 2 → Nat) a + S224x112.size a ≤ S224x112.size a
  h_S224x112 : 0 < S224x112.numel
  inb_S112x112_S112x112_0_0 : ∀ a, (![0, 0] : Fin 2 → Nat) a + S112x112.size a ≤ S112x112.size a
  h_S112x112 : 0 < S112x112.numel
  transposes_S224x112_p1_0_S112x224 : S224x112.Transposes [1, 0] S112x224
  transposes_S112x112_p1_0_S112x112 : S112x112.Transposes [1, 0] S112x112
  slices_S512x224_o0_0_S512x112 : S512x224.Slices ![0, 0] S512x112
  shapeCasts_S512x112_S8x64x112 : S512x112.ShapeCasts S8x64x112
  slices_S512x224_o0_112_S512x112 : S512x224.Slices ![0, 112] S512x112
  inb_S1x28_S1x28_0_0 : ∀ a, (![0, 0] : Fin 2 → Nat) a + S1x28.size a ≤ S1x28.size a
  h_S1x28 : 0 < S1x28.numel
  shapeCasts_S1x28_S28 : S1x28.ShapeCasts S28
  inb_S1_S1_0 : ∀ a, (![0] : Fin 1 → Nat) a + S1.size a ≤ S1.size a
  h_S1 : 0 < S1.numel
  inpos_S1_p0 : ∀ a, (![0] : Fin 1 → Nat) a < S1.size a
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64x64_S64x64_0_0 : ∀ a, (![0, 0] : Fin 2 → Nat) a + S64x64.size a ≤ S64x64.size a
  h_S64x64 : 0 < S64x64.numel
  iota_S64x64_d0_w32 : S64x64.Iotas .tc 32 [0]
  iota_S64x64_d1_w32 : S64x64.Iotas .tc 32 [1]
  natLt_1_32 : 1 < 32
  slices_S8x64x112_o0_0_0_S8x64x28 : S8x64x112.Slices ![0, 0, 0] S8x64x28
  shapeCasts_S28_S1x1x28 : S28.ShapeCasts S1x1x28
  broadcasts_S1x1x28_S8x64x28 : S1x1x28.Broadcasts S8x64x28
  reduces_S8x64x28_S8x64 : S8x64x28.Reduces [2] S8x64
  shapeCasts_S8x64_S8x64x1 : S8x64.ShapeCasts S8x64x1
  shapeCasts_S8x64_S8x1x64 : S8x64.ShapeCasts S8x1x64
  broadcasts_S8x64x1_S8x64x64 : S8x64x1.Broadcasts S8x64x64
  broadcasts_S8x1x64_S8x64x64 : S8x1x64.Broadcasts S8x64x64
  shapeCasts_S64x64_S1x64x64 : S64x64.ShapeCasts S1x64x64
  broadcasts_S1x64x64_S8x64x64 : S1x64x64.Broadcasts S8x64x64
  reduces_S8x64x64_S8x64 : S8x64x64.Reduces [2] S8x64
  shapeCasts_S64_S1x1x64 : S64.ShapeCasts S1x1x64
  broadcasts_S1x1x64_S8x64x64 : S1x1x64.Broadcasts S8x64x64
  shapeCasts_S64_S1x64 : S64.ShapeCasts S1x64
  broadcasts_S1x64_S8x64 : S1x64.Broadcasts S8x64
  reduces_S8x64_S8 : S8x64.Reduces [1] S8
  shapeCasts_S8_S8x1x1 : S8.ShapeCasts S8x1x1
  broadcasts_S8x1x1_S8x64x64 : S8x1x1.Broadcasts S8x64x64
  slices_S8x64x112_o0_0_28_S8x64x28 : S8x64x112.Slices ![0, 0, 28] S8x64x28
  slices_S8x64x112_o0_0_56_S8x64x28 : S8x64x112.Slices ![0, 0, 56] S8x64x28
  slices_S8x64x112_o0_0_84_S8x64x28 : S8x64x112.Slices ![0, 0, 84] S8x64x28
  concatenates_S8x64x28_S8x64x28_S8x64x28_S8x64x28_S8x64x112_d2 : Shape.Concatenates [S8x64x28, S8x64x28, S8x64x28, S8x64x28] S8x64x112 2
  shapeCasts_S8x64x112_S512x112 : S8x64x112.ShapeCasts S512x112
  inb_S112_S112_0 : ∀ a, (![0] : Fin 1 → Nat) a + S112.size a ≤ S112.size a
  h_S112 : 0 < S112.numel
  shapeCasts_S112_S1x112 : S112.ShapeCasts S1x112
  broadcasts_S1x112_S512x112 : S1x112.Broadcasts S512x112
  shapeCasts_S512x112_S1x8x64x112 : S512x112.ShapeCasts S1x8x64x112
  shapeCasts_S256x8x64x112_S1x16x16x8x8x8x112 : S256x8x64x112.ShapeCasts S1x16x16x8x8x8x112
  transposes_S1x16x16x8x8x8x112_S1x112x8x16x8x16x8_0_6_3_1_4_2_5 : S1x16x16x8x8x8x112.Transposes [0, 6, 3, 1, 4, 2, 5] S1x112x8x16x8x16x8
  shapeCasts_S1x112x8x16x8x16x8_S1x112x8x128x128 : S1x112x8x16x8x16x8.ShapeCasts S1x112x8x128x128
  slices_S1x112x8x128x128_S1x112x8x124x128_0_0_0_4_0 : S1x112x8x128x128.Slices ![0, 0, 0, 4, 0] S1x112x8x124x128
  slices_S1x112x8x128x128_S1x112x8x4x128_0_0_0_0_0 : S1x112x8x128x128.Slices ![0, 0, 0, 0, 0] S1x112x8x4x128
  concatenates_S1x112x8x124x128_S1x112x8x4x128_S1x112x8x128x128_d3 : Shape.Concatenates [S1x112x8x124x128, S1x112x8x4x128] S1x112x8x128x128 3
  slices_S1x112x8x128x128_S1x112x8x128x124_0_0_0_0_4 : S1x112x8x128x128.Slices ![0, 0, 0, 0, 4] S1x112x8x128x124
  slices_S1x112x8x128x128_S1x112x8x128x4_0_0_0_0_0 : S1x112x8x128x128.Slices ![0, 0, 0, 0, 0] S1x112x8x128x4
  concatenates_S1x112x8x128x124_S1x112x8x128x4_S1x112x8x128x128_d4 : Shape.Concatenates [S1x112x8x128x124, S1x112x8x128x4] S1x112x8x128x128 4
  dot_S512x112_S112x224_S512x224_1_0_0_1_n_n_wf : DotDims.WF S512x112 S112x224 S512x224 [1] [0] [0] [1] [] []
  dot_S512x112_S112x112_S512x112_1_0_0_1_n_n_wf : DotDims.WF S512x112 S112x112 S512x112 [1] [0] [0] [1] [] []
  dot_S8x64x28_S8x64x28_S8x64x64_2_2_1_1_0_0_wf : DotDims.WF S8x64x28 S8x64x28 S8x64x64 [2] [2] [1] [1] [0] [0]
  dot_S8x64x64_S8x64x28_S8x64x28_2_1_1_2_0_0_wf : DotDims.WF S8x64x64 S8x64x28 S8x64x28 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x112.size a ≤ S256x8x64x112.size a
  hwx0_0 : ∀ i : grid0.Coords, EltTy.bits .f32 = 32 ∨ (Rect.block (s := S256x8x64x112) S1x8x64x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S224x112.size a ≤ S224x112.size a
  hwx0_1 : ∀ i : grid0.Coords, EltTy.bits .f32 = 32 ∨ (Rect.block (s := S224x112) S224x112.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S112x112.size a ≤ S112x112.size a
  hwx0_2 : ∀ i : grid0.Coords, EltTy.bits .f32 = 32 ∨ (Rect.block (s := S112x112) S112x112.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S112x112.size a ≤ S112x112.size a
  hwx0_3 : ∀ i : grid0.Coords, EltTy.bits .f32 = 32 ∨ (Rect.block (s := S112x112) S112x112.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S112.size a ≤ S112.size a
  hwx0_4 : ∀ i : grid0.Coords, EltTy.bits .f32 = 32 ∨ (Rect.block (s := S112) S112.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x28.size a ≤ S1x28.size a
  hwx0_5 : ∀ i : grid0.Coords, EltTy.bits .f32 = 32 ∨ (Rect.block (s := S1x28) S1x28.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x28.size a ≤ S1x28.size a
  hwx0_7 : ∀ i : grid0.Coords, EltTy.bits .f32 = 32 ∨ (Rect.block (s := S1x28) S1x28.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x8x64x112.size a ≤ S256x8x64x112.size a
  hwx0_12 : ∀ i : grid0.Coords, EltTy.bits .f32 = 32 ∨ (Rect.block (s := S256x8x64x112) S1x8x64x112.size (cc0_transform_12 i) (hinb0_12 i)).WholeWords (EltTy.packing .f32)

variable [Facts₀]

def dot_S512x112_S112x224_S512x224_1_0_0_1_n_n : DotDims S512x112 S112x224 S512x224 where
  lhsContracting := [1]
  rhsContracting := [0]
  lhsNonContracting := [0]
  rhsNonContracting := [1]
  lhsBatch := []
  rhsBatch := []
  wf := dot_S512x112_S112x224_S512x224_1_0_0_1_n_n_wf
def dot_S512x112_S112x112_S512x112_1_0_0_1_n_n : DotDims S512x112 S112x112 S512x112 where
  lhsContracting := [1]
  rhsContracting := [0]
  lhsNonContracting := [0]
  rhsNonContracting := [1]
  lhsBatch := []
  rhsBatch := []
  wf := dot_S512x112_S112x112_S512x112_1_0_0_1_n_n_wf
def dot_S8x64x28_S8x64x28_S8x64x64_2_2_1_1_0_0 : DotDims S8x64x28 S8x64x28 S8x64x64 where
  lhsContracting := [2]
  rhsContracting := [2]
  lhsNonContracting := [1]
  rhsNonContracting := [1]
  lhsBatch := [0]
  rhsBatch := [0]
  wf := dot_S8x64x28_S8x64x28_S8x64x64_2_2_1_1_0_0_wf
def dot_S8x64x64_S8x64x28_S8x64x28_2_1_1_2_0_0 : DotDims S8x64x64 S8x64x28 S8x64x28 where
  lhsContracting := [2]
  rhsContracting := [1]
  lhsNonContracting := [1]
  rhsNonContracting := [2]
  lhsBatch := [0]
  rhsBatch := [0]
  wf := dot_S8x64x64_S8x64x28_S8x64x28_2_1_1_2_0_0_wf

abbrev win0_0 : Pipeline.Window sig grid0 :=
  Pipeline.Window.ofSpec (Memref.whole main_v3) S1x8x64x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S224x112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S112x112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S112x112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S112.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x28.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x28.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x8x64x112.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x112x8x128x128 : Shape := ⟨5, ![1, 112, 8, 128, 128]⟩
abbrev S224x112 : Shape := ⟨2, ![224, 112]⟩
abbrev S112x112 : Shape := ⟨2, ![112, 112]⟩
abbrev S112 : Shape := ⟨1, ![112]⟩
abbrev S1x28 : Shape := ⟨2, ![1, 28]⟩
abbrev S1 : Shape := ⟨1, ![1]⟩
abbrev S1x64 : Shape := ⟨2, ![1, 64]⟩
abbrev S64x64 : Shape := ⟨2, ![64, 64]⟩
abbrev S1x112x8x4x128 : Shape := ⟨5, ![1, 112, 8, 4, 128]⟩
abbrev S1x112x8x124x128 : Shape := ⟨5, ![1, 112, 8, 124, 128]⟩
abbrev S1x112x8x128x4 : Shape := ⟨5, ![1, 112, 8, 128, 4]⟩
abbrev S1x112x8x128x124 : Shape := ⟨5, ![1, 112, 8, 128, 124]⟩
abbrev S1x112x8x16x8x16x8 : Shape := ⟨7, ![1, 112, 8, 16, 8, 16, 8]⟩
abbrev S1x16x16x8x8x8x112 : Shape := ⟨7, ![1, 16, 16, 8, 8, 8, 112]⟩
abbrev S256x64x8x112 : Shape := ⟨4, ![256, 64, 8, 112]⟩
abbrev S256x64x8x224 : Shape := ⟨4, ![256, 64, 8, 224]⟩
abbrev S256x64x8x4x28 : Shape := ⟨5, ![256, 64, 8, 4, 28]⟩
abbrev S256x4x8x64x28 : Shape := ⟨5, ![256, 4, 8, 64, 28]⟩
abbrev S256x4x8x64x1 : Shape := ⟨5, ![256, 4, 8, 64, 1]⟩
abbrev S1x1x1x1x1 : Shape := ⟨5, ![1, 1, 1, 1, 1]⟩
abbrev S256x4x8x64x64 : Shape := ⟨5, ![256, 4, 8, 64, 64]⟩
abbrev S256x4x8x1x64 : Shape := ⟨5, ![256, 4, 8, 1, 64]⟩
abbrev S64 : Shape := ⟨1, ![64]⟩
abbrev S_ : Shape := ⟨0, ![]⟩
abbrev S64x1 : Shape := ⟨2, ![64, 1]⟩
abbrev S64x2 : Shape := ⟨2, ![64, 2]⟩
abbrev S256x4x8x64 : Shape := ⟨4, ![256, 4, 8, 64]⟩
abbrev S1x1x1x64x64 : Shape := ⟨5, ![1, 1, 1, 64, 64]⟩
abbrev S256x4x8x1 : Shape := ⟨4, ![256, 4, 8, 1]⟩
abbrev S256x4x8x1x1 : Shape := ⟨5, ![256, 4, 8, 1, 1]⟩
abbrev S1x1x1x112 : Shape := ⟨4, ![1, 1, 1, 112]⟩

abbrev nBuf : Space → Nat
  | .hbm => 125
  | .vmem => 0
  | .smem => 0
  | _ => 0

abbrev bufTy : (tb : Table) → Fin (tcTables nBuf tb) → BufTy
  | .hbm, ⟨0, _⟩ => ⟨S1x112x8x128x128, .f32⟩
  | .hbm, ⟨1, _⟩ => ⟨S224x112, .f32⟩
  | .hbm, ⟨2, _⟩ => ⟨S112x112, .f32⟩
  | .hbm, ⟨3, _⟩ => ⟨S112x112, .f32⟩
  | .hbm, ⟨4, _⟩ => ⟨S112, .f32⟩
  | .hbm, ⟨5, _⟩ => ⟨S1x28, .f32⟩
  | .hbm, ⟨6, _⟩ => ⟨S1, .f32⟩
  | .hbm, ⟨7, _⟩ => ⟨S1x28, .f32⟩
  | .hbm, ⟨8, _⟩ => ⟨S1, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S1x112x8x4x128, .f32⟩
  | .hbm, ⟨13, _⟩ => ⟨S1x112x8x124x128, .f32⟩
  | .hbm, ⟨14, _⟩ => ⟨S1x112x8x128x128, .f32⟩
  | .hbm, ⟨15, _⟩ => ⟨S1x112x8x128x4, .f32⟩
  | .hbm, ⟨16, _⟩ => ⟨S1x112x8x128x124, .f32⟩
  | .hbm, ⟨17, _⟩ => ⟨S1x112x8x128x128, .f32⟩
  | .hbm, ⟨18, _⟩ => ⟨S1x112x8x16x8x16x8, .f32⟩
  | .hbm, ⟨19, _⟩ => ⟨S1x16x16x8x8x8x112, .f32⟩
  | .hbm, ⟨20, _⟩ => ⟨S256x64x8x112, .f32⟩
  | .hbm, ⟨21, _⟩ => ⟨S256x64x8x224, .f32⟩
  | .hbm, ⟨22, _⟩ => ⟨S256x64x8x112, .f32⟩
  | .hbm, ⟨23, _⟩ => ⟨S256x64x8x112, .f32⟩
  | .hbm, ⟨24, _⟩ => ⟨S256x64x8x112, .f32⟩
  | .hbm, ⟨25, _⟩ => ⟨S256x64x8x4x28, .f32⟩
  | .hbm, ⟨26, _⟩ => ⟨S256x4x8x64x28, .f32⟩
  | .hbm, ⟨27, _⟩ => ⟨S256x64x8x4x28, .f32⟩
  | .hbm, ⟨28, _⟩ => ⟨S256x4x8x64x28, .f32⟩
  | .hbm, ⟨29, _⟩ => ⟨S256x64x8x4x28, .f32⟩
  | .hbm, ⟨30, _⟩ => ⟨S256x4x8x64x28, .f32⟩
  | .hbm, ⟨31, _⟩ => ⟨S256x4x8x64x1, .f32⟩
  | .hbm, ⟨32, _⟩ => ⟨S1x1x1x1x1, .f32⟩
  | .hbm, ⟨33, _⟩ => ⟨S256x4x8x64x1, .f32⟩
  | .hbm, ⟨34, _⟩ => ⟨S256x4x8x64x1, .f32⟩
  | .hbm, ⟨35, _⟩ => ⟨S256x4x8x64x1, .f32⟩
  | .hbm, ⟨36, _⟩ => ⟨S1x1x1x1x1, .f32⟩
  | .hbm, ⟨37, _⟩ => ⟨S256x4x8x64x1, .f32⟩
  | .hbm, ⟨38, _⟩ => ⟨S256x4x8x64x1, .f32⟩
  | .hbm, ⟨39, _⟩ => ⟨S256x4x8x64x64, .f32⟩
  | .hbm, ⟨40, _⟩ => ⟨S256x4x8x1x64, .f32⟩
  | .hbm, ⟨41, _⟩ => ⟨S256x4x8x64x64, .f32⟩
  | .hbm, ⟨42, _⟩ => ⟨S256x4x8x64x64, .f32⟩
  | .hbm, ⟨43, _⟩ => ⟨S256x4x8x64x64, .f32⟩
  | .hbm, ⟨44, _⟩ => ⟨S64, .i32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S64x1, .i32⟩
  | .hbm, ⟨61, _⟩ => ⟨S64x1, .i32⟩
  | .hbm, ⟨62, _⟩ => ⟨S64x2, .i32⟩
  | .hbm, ⟨63, _⟩ => ⟨S256x4x8x64, .f32⟩
  | .hbm, ⟨64, _⟩ => ⟨S256x4x8x64x1, .f32⟩
  | .hbm, ⟨65, _⟩ => ⟨S64x64, .i32⟩
  | .hbm, ⟨66, _⟩ => ⟨S64x64, .i32⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i1⟩
  | .hbm, ⟨71, _⟩ => ⟨S64x64, .f32⟩
  | .hbm, ⟨72, _⟩ => ⟨S1x1x1x64x64, .f32⟩
  | .hbm, ⟨73, _⟩ => ⟨S256x4x8x64x64, .f32⟩
  | .hbm, ⟨74, _⟩ => ⟨S256x4x8x64x64, .f32⟩
  | .hbm, ⟨75, _⟩ => ⟨S256x4x8x64x64, .f32⟩
  | .hbm, ⟨76, _⟩ => ⟨S256x4x8x64x64, .f32⟩
  | .hbm, ⟨77, _⟩ => ⟨S256x4x8x64x1, .f32⟩
  | .hbm, ⟨78, _⟩ => ⟨S256x4x8x64, .f32⟩
  | .hbm, ⟨79, _⟩ => ⟨S256x4x8x64, .f32⟩
  | .hbm, ⟨80, _⟩ => ⟨S_, .f32⟩
  | .hbm, ⟨81, _⟩ => ⟨S_, .f32⟩
  | .hbm, ⟨82, _⟩ => ⟨S256x4x8x64, .f32⟩
  | .hbm, ⟨83, _⟩ => ⟨S256x4x8x64, .i1⟩
  | .hbm, ⟨84, _⟩ => ⟨S_, .f32⟩
  | .hbm, ⟨85, _⟩ => ⟨S256x4x8x64, .f32⟩
  | .hbm, ⟨86, _⟩ => ⟨S256x4x8x64, .f32⟩
  | .hbm, ⟨87, _⟩ => ⟨S256x4x8x64, .f32⟩
  | .hbm, ⟨88, _⟩ => ⟨S256x4x8x1, .f32⟩
  | .hbm, ⟨89, _⟩ => ⟨S256x4x8x1x1, .f32⟩
  | .hbm, ⟨90, _⟩ => ⟨S256x4x8x64x64, .f32⟩
  | .hbm, ⟨91, _⟩ => ⟨S_, .f32⟩
  | .hbm, ⟨92, _⟩ => ⟨S256x4x8x64, .f32⟩
  | .hbm, ⟨93, _⟩ => ⟨S_, .f32⟩
  | .hbm, ⟨94, _⟩ => ⟨S256x4x8x64, .f32⟩
  | .hbm, ⟨95, _⟩ => ⟨S256x4x8x64, .f32⟩
  | .hbm, ⟨96, _⟩ => ⟨S256x4x8x64x1, .f32⟩
  | .hbm, ⟨97, _⟩ => ⟨S256x4x8x64x64, .f32⟩
  | .hbm, ⟨98, _⟩ => ⟨S256x4x8x64x64, .f32⟩
  | .hbm, ⟨99, _⟩ => ⟨S256x4x8x64x64, .f32⟩
  | .hbm, ⟨100, _⟩ => ⟨S_, .f32⟩
  | .hbm, ⟨101, _⟩ => ⟨S256x4x8x64, .f32⟩
  | .hbm, ⟨102, _⟩ => ⟨S256x4x8x64x1, .f32⟩
  | .hbm, ⟨103, _⟩ => ⟨S256x4x8x64x64, .f32⟩
  | .hbm, ⟨104, _⟩ => ⟨S256x4x8x64x64, .f32⟩
  | .hbm, ⟨105, _⟩ => ⟨S256x4x8x64x64, .f32⟩
  | .hbm, ⟨106, _⟩ => ⟨S256x4x8x64x64, .i1⟩
  | .hbm, ⟨107, _⟩ => ⟨S256x4x8x64x64, .f32⟩
  | .hbm, ⟨108, _⟩ => ⟨S256x4x8x64x64, .f32⟩
  | .hbm, ⟨109, _⟩ => ⟨S256x4x8x64x28, .f32⟩
  | .hbm, ⟨110, _⟩ => ⟨S256x64x8x4x28, .f32⟩
  | .hbm, ⟨111, _⟩ => ⟨S256x64x8x112, .f32⟩
  | .hbm, ⟨112, _⟩ => ⟨S256x64x8x112, .f32⟩
  | .hbm, ⟨113, _⟩ => ⟨S1x1x1x112, .f32⟩
  | .hbm, ⟨114, _⟩ => ⟨S256x64x8x112, .f32⟩
  | .hbm, ⟨115, _⟩ => ⟨S256x64x8x112, .f32⟩
  | .hbm, ⟨116, _⟩ => ⟨S1x16x16x8x8x8x112, .f32⟩
  | .hbm, ⟨117, _⟩ => ⟨S1x112x8x16x8x16x8, .f32⟩
  | .hbm, ⟨118, _⟩ => ⟨S1x112x8x128x128, .f32⟩
  | .hbm, ⟨119, _⟩ => ⟨S1x112x8x124x128, .f32⟩
  | .hbm, ⟨120, _⟩ => ⟨S1x112x8x4x128, .f32⟩
  | .hbm, ⟨121, _⟩ => ⟨S1x112x8x128x128, .f32⟩
  | .hbm, ⟨122, _⟩ => ⟨S1x112x8x128x124, .f32⟩
  | .hbm, ⟨123, _⟩ => ⟨S1x112x8x128x4, .f32⟩
  | .hbm, ⟨124, _⟩ => ⟨S1x112x8x128x128, .f32⟩
  | _, _ => ⟨S1x112x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_call1_v1 : Ref sig .tc := ⟨.hbm, 45, rfl⟩
abbrev main_call1_c : Ref sig .tc := ⟨.hbm, 46, rfl⟩
abbrev main_call1_v2 : Ref sig .tc := ⟨.hbm, 47, rfl⟩
abbrev main_call1_v3 : Ref sig .tc := ⟨.hbm, 48, rfl⟩
abbrev main_call1_c_0 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_c_1 : Ref sig .tc := ⟨.hbm, 53, rfl⟩
abbrev main_call1_v7 : Ref sig .tc := ⟨.hbm, 54, rfl⟩
abbrev main_call1_v8 : Ref sig .tc := ⟨.hbm, 55, rfl⟩
abbrev main_call1_c_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_0 : Ref sig .tc := ⟨.hbm, 91, rfl⟩
abbrev main_v47 : Ref sig .tc := ⟨.hbm, 92, rfl⟩
abbrev main_cst_1 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_2 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v72 : Ref sig .tc := ⟨.hbm, 124, rfl⟩

abbrev nD : Nat := 1
abbrev τ : Topo := Topo.v7x

variable {F : FTy → Type} [FloatOps F]

class Facts₀ : Prop where
  slices_S1x112x8x128x128_S1x112x8x4x128_0_0_0_124_0 : S1x112x8x128x128.Slices ![0, 0, 0, 124, 0] S1x112x8x4x128
  slices_S1x112x8x128x128_S1x112x8x124x128_0_0_0_0_0 : S1x112x8x128x128.Slices ![0, 0, 0, 0, 0] S1x112x8x124x128
  concatenates_S1x112x8x4x128_S1x112x8x124x128_S1x112x8x128x128_d3 : Shape.Concatenates [S1x112x8x4x128, S1x112x8x124x128] S1x112x8x128x128 3
  slices_S1x112x8x128x128_S1x112x8x128x4_0_0_0_0_124 : S1x112x8x128x128.Slices ![0, 0, 0, 0, 124] S1x112x8x128x4
  slices_S1x112x8x128x128_S1x112x8x128x124_0_0_0_0_0 : S1x112x8x128x128.Slices ![0, 0, 0, 0, 0] S1x112x8x128x124
  concatenates_S1x112x8x128x4_S1x112x8x128x124_S1x112x8x128x128_d4 : Shape.Concatenates [S1x112x8x128x4, S1x112x8x128x124] S1x112x8x128x128 4
  shapeCasts_S1x112x8x128x128_S1x112x8x16x8x16x8 : S1x112x8x128x128.ShapeCasts S1x112x8x16x8x16x8
  transposes_S1x112x8x16x8x16x8_S1x16x16x8x8x8x112_0_3_5_4_6_2_1 : S1x112x8x16x8x16x8.Transposes [0, 3, 5, 4, 6, 2, 1] S1x16x16x8x8x8x112
  shapeCasts_S1x16x16x8x8x8x112_S256x64x8x112 : S1x16x16x8x8x8x112.ShapeCasts S256x64x8x112
  slices_S256x64x8x224_S256x64x8x112_0_0_0_0 : S256x64x8x224.Slices ![0, 0, 0, 0] S256x64x8x112
  slices_S256x64x8x224_S256x64x8x112_0_0_0_112 : S256x64x8x224.Slices ![0, 0, 0, 112] S256x64x8x112
  shapeCasts_S256x64x8x112_S256x64x8x4x28 : S256x64x8x112.ShapeCasts S256x64x8x4x28
  transposes_S256x64x8x4x28_S256x4x8x64x28_0_3_2_1_4 : S256x64x8x4x28.Transposes [0, 3, 2, 1, 4] S256x4x8x64x28
  bcast_S1_S1x1x1x1x1_4 : S1.BroadcastsInDim S1x1x1x1x1 (![4] : Fin 1 → Fin S1x1x1x1x1.rank)
  bcast_S1x1x1x1x1_S256x4x8x64x1_0_1_2_3_4 : S1x1x1x1x1.BroadcastsInDim S256x4x8x64x1 (![0, 1, 2, 3, 4] : Fin 5 → Fin S256x4x8x64x1.rank)
  transposes_S256x4x8x64x1_S256x4x8x1x64_0_1_2_4_3 : S256x4x8x64x1.Transposes [0, 1, 2, 4, 3] S256x4x8x1x64
  bcast_S256x4x8x64x1_S256x4x8x64x64_0_1_2_3_4 : S256x4x8x64x1.BroadcastsInDim S256x4x8x64x64 (![0, 1, 2, 3, 4] : Fin 5 → Fin S256x4x8x64x64.rank)
  bcast_S256x4x8x1x64_S256x4x8x64x64_0_1_2_3_4 : S256x4x8x1x64.BroadcastsInDim S256x4x8x64x64 (![0, 1, 2, 3, 4] : Fin 5 → Fin S256x4x8x64x64.rank)
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S256x4x8x64_S256x4x8x64x1_0_1_2_3 : S256x4x8x64.BroadcastsInDim S256x4x8x64x1 (![0, 1, 2, 3] : Fin 4 → Fin S256x4x8x64x1.rank)
  bcast_S_S64x64 : S_.BroadcastsInDim S64x64 (![] : Fin 0 → Fin S64x64.rank)
  bcast_S64x64_S1x1x1x64x64_3_4 : S64x64.BroadcastsInDim S1x1x1x64x64 (![3, 4] : Fin 2 → Fin S1x1x1x64x64.rank)
  bcast_S1x1x1x64x64_S256x4x8x64x64_0_1_2_3_4 : S1x1x1x64x64.BroadcastsInDim S256x4x8x64x64 (![0, 1, 2, 3, 4] : Fin 5 → Fin S256x4x8x64x64.rank)
  shapeCasts_S256x4x8x64x1_S256x4x8x64 : S256x4x8x64x1.ShapeCasts S256x4x8x64
  bcast_S_S256x4x8x64 : S_.BroadcastsInDim S256x4x8x64 (![] : Fin 0 → Fin S256x4x8x64.rank)
  bcast_S256x4x8x1_S256x4x8x1x1_0_1_2_3 : S256x4x8x1.BroadcastsInDim S256x4x8x1x1 (![0, 1, 2, 3] : Fin 4 → Fin S256x4x8x1x1.rank)
  reducesTo_S256x4x8x64x64_S256x4x8x64_d4 : S256x4x8x64x64.ReducesTo [4] S256x4x8x64
  h_S_ : 0 < S_.numel
  bcast_S256x4x8x1x1_S256x4x8x64x64_0_1_2_3_4 : S256x4x8x1x1.BroadcastsInDim S256x4x8x64x64 (![0, 1, 2, 3, 4] : Fin 5 → Fin S256x4x8x64x64.rank)
  transposes_S256x4x8x64x28_S256x64x8x4x28_0_3_2_1_4 : S256x4x8x64x28.Transposes [0, 3, 2, 1, 4] S256x64x8x4x28
  shapeCasts_S256x64x8x4x28_S256x64x8x112 : S256x64x8x4x28.ShapeCasts S256x64x8x112
  bcast_S112_S1x1x1x112_3 : S112.BroadcastsInDim S1x1x1x112 (![3] : Fin 1 → Fin S1x1x1x112.rank)
  bcast_S1x1x1x112_S256x64x8x112_0_1_2_3 : S1x1x1x112.BroadcastsInDim S256x64x8x112 (![0, 1, 2, 3] : Fin 4 → Fin S256x64x8x112.rank)
  shapeCasts_S256x64x8x112_S1x16x16x8x8x8x112 : S256x64x8x112.ShapeCasts S1x16x16x8x8x8x112
  transposes_S1x16x16x8x8x8x112_S1x112x8x16x8x16x8_0_6_5_1_3_2_4 : S1x16x16x8x8x8x112.Transposes [0, 6, 5, 1, 3, 2, 4] S1x112x8x16x8x16x8
  shapeCasts_S1x112x8x16x8x16x8_S1x112x8x128x128 : S1x112x8x16x8x16x8.ShapeCasts S1x112x8x128x128
  slices_S1x112x8x128x128_S1x112x8x124x128_0_0_0_4_0 : S1x112x8x128x128.Slices ![0, 0, 0, 4, 0] S1x112x8x124x128
  slices_S1x112x8x128x128_S1x112x8x4x128_0_0_0_0_0 : S1x112x8x128x128.Slices ![0, 0, 0, 0, 0] S1x112x8x4x128
  concatenates_S1x112x8x124x128_S1x112x8x4x128_S1x112x8x128x128_d3 : Shape.Concatenates [S1x112x8x124x128, S1x112x8x4x128] S1x112x8x128x128 3
  slices_S1x112x8x128x128_S1x112x8x128x124_0_0_0_0_4 : S1x112x8x128x128.Slices ![0, 0, 0, 0, 4] S1x112x8x128x124
  slices_S1x112x8x128x128_S1x112x8x128x4_0_0_0_0_0 : S1x112x8x128x128.Slices ![0, 0, 0, 0, 0] S1x112x8x128x4
  concatenates_S1x112x8x128x124_S1x112x8x128x4_S1x112x8x128x128_d4 : Shape.Concatenates [S1x112x8x128x124, S1x112x8x128x4] S1x112x8x128x128 4
  dot_S256x64x8x112_S224x112_S256x64x8x224_3_1_012_0_n_n_wf : DotDims.WF S256x64x8x112 S224x112 S256x64x8x224 [3] [1] [0, 1, 2] [0] [] []
  dot_S256x64x8x112_S112x112_S256x64x8x112_3_1_012_0_n_n_wf : DotDims.WF S256x64x8x112 S112x112 S256x64x8x112 [3] [1] [0, 1, 2] [0] [] []
  dot_S256x4x8x64x28_S1x28_S256x4x8x64x1_4_1_0123_0_n_n_wf : DotDims.WF S256x4x8x64x28 S1x28 S256x4x8x64x1 [4] [1] [0, 1, 2, 3] [0] [] []
  dot_S256x4x8x64x28_S256x4x8x64x28_S256x4x8x64x64_4_4_3_3_012_012_wf : DotDims.WF S256x4x8x64x28 S256x4x8x64x28 S256x4x8x64x64 [4] [4] [3] [3] [0, 1, 2] [0, 1, 2]
  gather_S256x4x8x64x64_S64x2_S256x4x8x64_012_34_n_n_34_1_2564811_wf : GatherDims.WF S256x4x8x64x64 S64x2 S256x4x8x64 [0, 1, 2] [3, 4] [] [3, 4] [] 1 ![256, 4, 8, 1, 1]
  dot_S256x4x8x64x64_S1x64_S256x4x8x64x1_4_1_0123_0_n_n_wf : DotDims.WF S256x4x8x64x64 S1x64 S256x4x8x64x1 [4] [1] [0, 1, 2, 3] [0] [] []
  dot_S256x4x8x64_S64x64_S256x4x8x64_3_1_012_0_n_n_wf : DotDims.WF S256x4x8x64 S64x64 S256x4x8x64 [3] [1] [0, 1, 2] [0] [] []
  dot_S256x4x8x64_S1x64_S256x4x8x1_3_1_012_0_n_n_wf : DotDims.WF S256x4x8x64 S1x64 S256x4x8x1 [3] [1] [0, 1, 2] [0] [] []
  dot_S256x4x8x64x64_S256x4x8x64x28_S256x4x8x64x28_4_3_3_4_012_012_wf : DotDims.WF S256x4x8x64x64 S256x4x8x64x28 S256x4x8x64x28 [4] [3] [3] [4] [0, 1, 2] [0, 1, 2]

variable [Facts₀]

def dot_S256x64x8x112_S224x112_S256x64x8x224_3_1_012_0_n_n : DotDims S256x64x8x112 S224x112 S256x64x8x224 where
  lhsContracting := [3]
  rhsContracting := [1]
  lhsNonContracting := [0, 1, 2]
  rhsNonContracting := [0]
  lhsBatch := []
  rhsBatch := []
  wf := dot_S256x64x8x112_S224x112_S256x64x8x224_3_1_012_0_n_n_wf
def dot_S256x64x8x112_S112x112_S256x64x8x112_3_1_012_0_n_n : DotDims S256x64x8x112 S112x112 S256x64x8x112 where
  lhsContracting := [3]
  rhsContracting := [1]
  lhsNonContracting := [0, 1, 2]
  rhsNonContracting := [0]
  lhsBatch := []
  rhsBatch := []
  wf := dot_S256x64x8x112_S112x112_S256x64x8x112_3_1_012_0_n_n_wf
def dot_S256x4x8x64x28_S1x28_S256x4x8x64x1_4_1_0123_0_n_n : DotDims S256x4x8x64x28 S1x28 S256x4x8x64x1 where
  lhsContracting := [4]
  rhsContracting := [1]
  lhsNonContracting := [0, 1, 2, 3]
  rhsNonContracting := [0]
  lhsBatch := []
  rhsBatch := []
  wf := dot_S256x4x8x64x28_S1x28_S256x4x8x64x1_4_1_0123_0_n_n_wf
def dot_S256x4x8x64x28_S256x4x8x64x28_S256x4x8x64x64_4_4_3_3_012_012 : DotDims S256x4x8x64x28 S256x4x8x64x28 S256x4x8x64x64 where
  lhsContracting := [4]
  rhsContracting := [4]
  lhsNonContracting := [3]
  rhsNonContracting := [3]
  lhsBatch := [0, 1, 2]
  rhsBatch := [0, 1, 2]
  wf := dot_S256x4x8x64x28_S256x4x8x64x28_S256x4x8x64x64_4_4_3_3_012_012_wf
def gather_S256x4x8x64x64_S64x2_S256x4x8x64_012_34_n_n_34_1_2564811 : GatherDims S256x4x8x64x64 S64x2 S256x4x8x64 where
  offsetDims := [0, 1, 2]
  collapsedSliceDims := [3, 4]
  operandBatchingDims := []
  startIndicesBatchingDims := []
  startIndexMap := [3, 4]
  indexVectorDim := 1
  sliceSizes := ![256, 4, 8, 1, 1]
  wf := gather_S256x4x8x64x64_S64x2_S256x4x8x64_012_34_n_n_34_1_2564811_wf
def dot_S256x4x8x64x64_S1x64_S256x4x8x64x1_4_1_0123_0_n_n : DotDims S256x4x8x64x64 S1x64 S256x4x8x64x1 where
  lhsContracting := [4]
  rhsContracting := [1]
  lhsNonContracting := [0, 1, 2, 3]
  rhsNonContracting := [0]
  lhsBatch := []
  rhsBatch := []
  wf := dot_S256x4x8x64x64_S1x64_S256x4x8x64x1_4_1_0123_0_n_n_wf
def dot_S256x4x8x64_S64x64_S256x4x8x64_3_1_012_0_n_n : DotDims S256x4x8x64 S64x64 S256x4x8x64 where
  lhsContracting := [3]
  rhsContracting := [1]
  lhsNonContracting := [0, 1, 2]
  rhsNonContracting := [0]
  lhsBatch := []
  rhsBatch := []
  wf := dot_S256x4x8x64_S64x64_S256x4x8x64_3_1_012_0_n_n_wf
def dot_S256x4x8x64_S1x64_S256x4x8x1_3_1_012_0_n_n : DotDims S256x4x8x64 S1x64 S256x4x8x1 where
  lhsContracting := [3]
  rhsContracting := [1]
  lhsNonContracting := [0, 1, 2]
  rhsNonContracting := [0]
  lhsBatch := []
  rhsBatch := []
  wf := dot_S256x4x8x64_S1x64_S256x4x8x1_3_1_012_0_n_n_wf
def dot_S256x4x8x64x64_S256x4x8x64x28_S256x4x8x64x28_4_3_3_4_012_012 : DotDims S256x4x8x64x64 S256x4x8x64x28 S256x4x8x64x28 where
  lhsContracting := [4]
  rhsContracting := [3]
  lhsNonContracting := [3]
  rhsNonContracting := [4]
  lhsBatch := [0, 1, 2]
  rhsBatch := [0, 1, 2]
  wf := dot_S256x4x8x64x64_S256x4x8x64x28_S256x4x8x64x28_4_3_3_4_012_012_wf

class Facts : Prop extends Facts₀ where

variable [Facts]
-- ==== Proof.KVec.lean ====
/-
  The body's arithmetic, one head at a time, as vector operations: the similarity of a head's queries and keys, the
  rank-one weight, the threshold, the masked softmax and its product with the values. Each of the four heads of the
  body is this one function of that head's 28 channels; the body's stored block is the four results side by side,
  multiplied by the output weights, plus the bias.
-/
import proofs.«155316_j49177375539263_2_alg».proof.Proof.Gen.KernelIdeal.Frame
import Idealize.ShloMosaic.PureOps.Ideal
import Idealize.ShloMosaic.Lib.ValueIdx

noncomputable section

namespace Cert.KernelIdeal.Body

open Idealize.ShloMosaic Cert.KernelIdeal Cert.KernelIdeal.Gen

/-- The sum over a head's 28 channels. -/
def rsum28 (src : FVec Ideal S8x64x28 .f32) : FVec Ideal S8x64 .f32 :=
  multiReduction .add [2] S8x64 src 0x00000000#32 reduces_S8x64x28_S8x64 (.inl rfl) rfl
/-- The sum along a row of a depth slice's 64 x 64 matrix. -/
def rsum64 (src : FVec Ideal S8x64x64 .f32) : FVec Ideal S8x64 .f32 :=
  multiReduction .add [2] S8x64 src 0x00000000#32 reduces_S8x64x64_S8x64 (.inl rfl) rfl
/-- The sum over the 64 tokens. -/
def rsumTok (src : FVec Ideal S8x64 .f32) : FVec Ideal S8 .f32 :=
  multiReduction .add [1] S8 src 0x00000000#32 reduces_S8x64_S8 (.inl rfl) rfl
/-- The maximum along a row, from minus infinity. -/
def rmax64 (src : FVec Ideal S8x64x64 .f32) : FVec Ideal S8x64 .f32 :=
  multiReduction .maximumf [2] S8x64 src 0xFF800000#32 reduces_S8x64x64_S8x64 (.inl rfl) rfl

/-- q k^T of a head, per depth slice. -/
def simV (v35 : FVec Ideal S8x64x28 .f32) (v36 : FVec Ideal S8x64x28 .f32) : FVec Ideal S8x64x64 .f32 :=
  have cst_20 : FVec Ideal S8x64x64 .f32 := constant S8x64x64 .f32 0x00000000#32
  have v39 : FVec Ideal S8x64x64 .f32 := matmul dot_S8x64x28_S8x64x28_S8x64x64_2_2_1_1_0_0 (some .fp32) v35 v36 cst_20
  v39

/-- The rank-one weight (q.w_pq + b_pq)(k.w_pk + b_pk)^T. -/
def sigmaV (v35 v36 : FVec Ideal S8x64x28 .f32) (v18 : FVec Ideal S28 .f32) (v20 : Ideal .f32) (v22 : FVec Ideal S28 .f32) (v24 : Ideal .f32) : FVec Ideal S8x64x64 .f32 :=
  have v40 : FVec Ideal S1x1x28 .f32 := shapeCast S1x1x28 v18 shapeCasts_S28_S1x1x28
  have v41 : FVec Ideal S8x64x28 .f32 := broadcastTo S8x64x28 v40 broadcasts_S1x1x28_S8x64x28
  have v42 : FVec Ideal S8x64x28 .f32 := mulf v35 v41
  have v43 : FVec Ideal S8x64 .f32 := rsum28 v42
  have v44 : FVec Ideal S8x64 .f32 := broadcast S8x64 v20
  have v45 : FVec Ideal S8x64 .f32 := addf v43 v44
  have v46 : FVec Ideal S1x1x28 .f32 := shapeCast S1x1x28 v22 shapeCasts_S28_S1x1x28
  have v47 : FVec Ideal S8x64x28 .f32 := broadcastTo S8x64x28 v46 broadcasts_S1x1x28_S8x64x28
  have v48 : FVec Ideal S8x64x28 .f32 := mulf v36 v47
  have v49 : FVec Ideal S8x64 .f32 := rsum28 v48
  have v50 : FVec Ideal S8x64 .f32 := broadcast S8x64 v24
  have v51 : FVec Ideal S8x64 .f32 := addf v49 v50
  have v52 : FVec Ideal S8x64x1 .f32 := shapeCast S8x64x1 v45 shapeCasts_S8x64_S8x64x1
  have v53 : FVec Ideal S8x1x64 .f32 := shapeCast S8x1x64 v51 shapeCasts_S8x64_S8x1x64
  have v54 : FVec Ideal S8x64x64 .f32 := broadcastTo S8x64x64 v52 broadcasts_S8x64x1_S8x64x64
  have v55 : FVec Ideal S8x64x64 .f32 := broadcastTo S8x64x64 v53 broadcasts_S8x1x64_S8x64x64
  have v56 : FVec Ideal S8x64x64 .f32 := mulf v54 v55
  v56

/-- The first threshold layer: each row of the similarity, its diagonal entry removed, against w_m1. -/
def thetaRowV (v39 : FVec Ideal S8x64x64 .f32) (v34 : FVec Ideal S64x64 .f32) (v26 : FVec Ideal S64 .f32) : FVec Ideal S8x64 .f32 :=
  have v57 : FVec Ideal S1x64x64 .f32 := shapeCast S1x64x64 v34 shapeCasts_S64x64_S1x64x64
  have v58 : FVec Ideal S8x64x64 .f32 := broadcastTo S8x64x64 v57 broadcasts_S1x64x64_S8x64x64
  have v59 : FVec Ideal S8x64x64 .f32 := mulf v39 v58
  have v60 : FVec Ideal S8x64 .f32 := rsum64 v59
  have v61 : FVec Ideal S8x64x1 .f32 := shapeCast S8x64x1 v60 shapeCasts_S8x64_S8x64x1
  have v62 : FVec Ideal S1x64x64 .f32 := shapeCast S1x64x64 v34 shapeCasts_S64x64_S1x64x64
  have v63 : FVec Ideal S8x64x64 .f32 := broadcastTo S8x64x64 v61 broadcasts_S8x64x1_S8x64x64
  have v64 : FVec Ideal S8x64x64 .f32 := broadcastTo S8x64x64 v62 broadcasts_S1x64x64_S8x64x64
  have v65 : FVec Ideal S8x64x64 .f32 := mulf v63 v64
  have v66 : FVec Ideal S8x64x64 .f32 := subf v39 v65
  have v67 : FVec Ideal S1x1x64 .f32 := shapeCast S1x1x64 v26 shapeCasts_S64_S1x1x64
  have v68 : FVec Ideal S8x64x64 .f32 := broadcastTo S8x64x64 v67 broadcasts_S1x1x64_S8x64x64
  have v69 : FVec Ideal S8x64x64 .f32 := mulf v66 v68
  have v70 : FVec Ideal S8x64 .f32 := rsum64 v69
  v70

/-- The second layer, the leaky rectifier, and the products with w_m2b. -/
def thetaPreV (v70 : FVec Ideal S8x64 .f32) (v27 : Vec Ideal S64x64 .f32) (v29 : FVec Ideal S64 .f32) : FVec Ideal S8x64 .f32 :=
  have v71 : FVec Ideal S8x1x64 .f32 := shapeCast S8x1x64 v70 shapeCasts_S8x64_S8x1x64
  have v72 : FVec Ideal S1x64x64 .f32 := shapeCast S1x64x64 v27 shapeCasts_S64x64_S1x64x64
  have v73 : FVec Ideal S8x64x64 .f32 := broadcastTo S8x64x64 v71 broadcasts_S8x1x64_S8x64x64
  have v74 : FVec Ideal S8x64x64 .f32 := broadcastTo S8x64x64 v72 broadcasts_S1x64x64_S8x64x64
  have v75 : FVec Ideal S8x64x64 .f32 := mulf v73 v74
  have v76 : FVec Ideal S8x64 .f32 := rsum64 v75
  have cst_26 : Ideal .f32 := Scalar.ofBits .f32 0x3DCCCCCD#32
  have cst_27 : Ideal .f32 := Scalar.ofBits .f32 0x00000000#32
  have v77 : FVec Ideal S8x64 .f32 := broadcast S8x64 cst_27
  have v78 : IVec S8x64 1 := cmpf .oge v76 v77
  have v79 : FVec Ideal S8x64 .f32 := broadcast S8x64 cst_26
  have v80 : FVec Ideal S8x64 .f32 := mulf v79 v76
  have v81 : FVec Ideal S8x64 .f32 := select v78 v76 v80
  have v82 : FVec Ideal S1x64 .f32 := shapeCast S1x64 v29 shapeCasts_S64_S1x64
  have v83 : FVec Ideal S8x64 .f32 := broadcastTo S8x64 v82 broadcasts_S1x64_S8x64
  have v84 : FVec Ideal S8x64 .f32 := mulf v81 v83
  v84

/-- Their sum: the threshold, one per depth slice. -/
def thetaFinV (v84 : FVec Ideal S8x64 .f32) : FVec Ideal S8x1x1 .f32 :=
  have v85 : FVec Ideal S8 .f32 := rsumTok v84
  have v86 : FVec Ideal S8x1x1 .f32 := shapeCast S8x1x1 v85 shapeCasts_S8_S8x1x1
  v86

/-- The masked softmax of the weighted score. -/
def attnV (v39 v56 : FVec Ideal S8x64x64 .f32) (v86 : FVec Ideal S8x1x1 .f32) : FVec Ideal S8x64x64 .bf16 :=
  have v87 : FVec Ideal S8x64x64 .f32 := mulf v39 v56
  have v88 : FVec Ideal S8x64 .f32 := rmax64 v87
  have v89 : FVec Ideal S8x64x1 .f32 := shapeCast S8x64x1 v88 shapeCasts_S8x64_S8x64x1
  have v90 : FVec Ideal S8x64x64 .f32 := broadcastTo S8x64x64 v89 broadcasts_S8x64x1_S8x64x64
  have v91 : FVec Ideal S8x64x64 .f32 := subf v87 v90
  have v92 : FVec Ideal S8x64x64 .f32 := exp v91
  have v93 : FVec Ideal S8x64 .f32 := rsum64 v92
  have v94 : FVec Ideal S8x64x1 .f32 := shapeCast S8x64x1 v93 shapeCasts_S8x64_S8x64x1
  have v95 : FVec Ideal S8x64x64 .f32 := broadcastTo S8x64x64 v94 broadcasts_S8x64x1_S8x64x64
  have v96 : FVec Ideal S8x64x64 .f32 := divf v92 v95
  have v97 : FVec Ideal S8x64x64 .f32 := broadcastTo S8x64x64 v86 broadcasts_S8x1x1_S8x64x64
  have v98 : IVec S8x64x64 1 := cmpf .ogt v87 v97
  have v99 : IVec S8x64x64 32 := extui 32 v98 natLt_1_32
  have v100 : FVec Ideal S8x64x64 .f32 := sitofp .f32 v99
  have v101 : FVec Ideal S8x64x64 .f32 := mulf v96 v100
  have v102 : FVec Ideal S8x64x64 .bf16 := truncf .bf16 v101 bitsLt_bf16_f32
  v102

/-- Applied to the values. -/
def outV (v102 : FVec Ideal S8x64x64 .bf16) (v38 : FVec Ideal S8x64x28 .bf16) : FVec Ideal S8x64x28 .f32 :=
  have cst_31 : FVec Ideal S8x64x28 .f32 := constant S8x64x28 .f32 0x00000000#32
  have v103 : FVec Ideal S8x64x28 .f32 := matmul dot_S8x64x64_S8x64x28_S8x64x28_2_1_1_2_0_0 none v102 v38 cst_31
  v103

/-- One head. -/
def headV (q k : FVec Ideal S8x64x28 .f32) (vb : FVec Ideal S8x64x28 .bf16) (v18 : FVec Ideal S28 .f32) (v20 : Ideal .f32)
    (v22 : FVec Ideal S28 .f32) (v24 : Ideal .f32) (v26 : FVec Ideal S64 .f32) (v27 : Vec Ideal S64x64 .f32) (v29 : FVec Ideal S64 .f32)
    (v34 : FVec Ideal S64x64 .f32) : FVec Ideal S8x64x28 .f32 :=
  outV (attnV (simV q k) (sigmaV q k v18 v20 v22 v24) (thetaFinV (thetaPreV (thetaRowV (simV q k) v34 v26) v27 v29))) vb

/-- The heads side by side, the output weights, the bias. -/
def tailV (v103 v172 v241 v310 : FVec Ideal S8x64x28 .f32) (v314 : Vec Ideal S112x112 .f32) (v318 : Vec Ideal S112 .f32) : FVec Ideal S1x8x64x112 .f32 :=
  have v311 : FVec Ideal S8x64x112 .f32 := concatenate S8x64x112 2 [⟨S8x64x28, v103⟩, ⟨S8x64x28, v172⟩, ⟨S8x64x28, v241⟩, ⟨S8x64x28, v310⟩] concatenates_S8x64x28_S8x64x28_S8x64x28_S8x64x28_S8x64x112_d2
  have v312 : FVec Ideal S512x112 .f32 := shapeCast S512x112 v311 shapeCasts_S8x64x112_S512x112
  have v313 : FVec Ideal S512x112 .bf16 := truncf .bf16 v312 bitsLt_bf16_f32
  have v315 : FVec Ideal S112x112 .bf16 := truncf .bf16 v314 bitsLt_bf16_f32
  have v316 : FVec Ideal S112x112 .bf16 := transpose S112x112 [1, 0] v315 transposes_S112x112_p1_0_S112x112
  have cst_70 : FVec Ideal S512x112 .f32 := constant S512x112 .f32 0x00000000#32
  have v317 : FVec Ideal S512x112 .f32 := matmul dot_S512x112_S112x112_S512x112_1_0_0_1_n_n none v313 v316 cst_70
  have v319 : FVec Ideal S1x112 .f32 := shapeCast S1x112 v318 shapeCasts_S112_S1x112
  have v320 : FVec Ideal S512x112 .f32 := broadcastTo S512x112 v319 broadcasts_S1x112_S512x112
  have v321 : FVec Ideal S512x112 .f32 := addf v317 v320
  have v322 : FVec Ideal S1x8x64x112 .f32 := shapeCast S1x8x64x112 v321 shapeCasts_S512x112_S1x8x64x112
  v322

end Cert.KernelIdeal.Body

end
-- ==== Proof.KStruct.lean ====
/-
  The block the body stores is the tail (heads side by side, output weights, bias) of the four heads, each the one
  head function of that head's 28 channels of the projected queries, keys and values: the printed body's named
  pieces substitute to exactly that composition.
-/
import proofs.«155316_j49177375539263_2_alg».proof.Proof.KVec

noncomputable section

namespace Cert.KernelIdeal.Body

open Idealize.ShloMosaic Cert.KernelIdeal Cert.KernelIdeal.Gen

/-- The body's stored value as a function of the twelve loaded blocks. -/
def bodyV (y0 : Vec Ideal S1x8x64x112 .f32) (y1 : Vec Ideal S224x112 .f32) (y2 y3 : Vec Ideal S112x112 .f32) (y4 : Vec Ideal S112 .f32)
    (y5 : Vec Ideal S1x28 .f32) (y6 : Vec Ideal S1 .f32) (y7 : Vec Ideal S1x28 .f32) (y8 : Vec Ideal S1 .f32) (y9 : Vec Ideal S1x64 .f32)
    (y10 : Vec Ideal S64x64 .f32) (y11 : Vec Ideal S1x64 .f32) : FVec Ideal S1x8x64x112 .f32 :=
  tailV
    (headV (k0_pay14 y0 y1) (k0_pay15 y0 y1) (k0_pay16 (k0_pay6 y0 y2)) (k0_pay7 y5) (k0_pay8 y6) (k0_pay9 y7) (k0_pay10 y8) (k0_pay11 y9) y10 (k0_pay12 y11) (k0_pay13 (F := Ideal)))
    (headV (k0_pay21 (k0_pay4 y0 y1)) (k0_pay22 (k0_pay5 y0 y1)) (k0_pay23 (k0_pay6 y0 y2)) (k0_pay7 y5) (k0_pay8 y6) (k0_pay9 y7) (k0_pay10 y8) (k0_pay11 y9) y10 (k0_pay12 y11) (k0_pay13 (F := Ideal)))
    (headV (k0_pay28 (k0_pay4 y0 y1)) (k0_pay29 (k0_pay5 y0 y1)) (k0_pay30 (k0_pay6 y0 y2)) (k0_pay7 y5) (k0_pay8 y6) (k0_pay9 y7) (k0_pay10 y8) (k0_pay11 y9) y10 (k0_pay12 y11) (k0_pay13 (F := Ideal)))
    (headV (k0_pay36 (k0_pay4 y0 y1)) (k0_pay37 (k0_pay5 y0 y1)) (k0_pay38 (k0_pay6 y0 y2)) (k0_pay7 y5) (k0_pay8 y6) (k0_pay9 y7) (k0_pay10 y8) (k0_pay11 y9) y10 (k0_pay12 y11) (k0_pay13 (F := Ideal)))
    y3 y4

set_option maxHeartbeats 400000 in
theorem out0_12_eq (x0 : Vec Ideal S1x8x64x112 .f32) (x1 : Vec Ideal S224x112 .f32) (x2 x3 : Vec Ideal S112x112 .f32) (x4 : Vec Ideal S112 .f32)
    (x5 : Vec Ideal S1x28 .f32) (x6 : Vec Ideal S1 .f32) (x7 : Vec Ideal S1x28 .f32) (x8 : Vec Ideal S1 .f32) (x9 : Vec Ideal S1x64 .f32)
    (x10 : Vec Ideal S64x64 .f32) (x11 : Vec Ideal S1x64 .f32) :
    out0_12 (F := Ideal) x0 x1 x2 x3 x4 x5 x6 x7 x8 x9 x10 x11
      = View.canon [⟨r0_0, bodyV (View.ld x0 r0_0) (View.ld x1 r0_1) (View.ld x2 r0_2) (View.ld x3 r0_2) (View.ld x4 r0_7) (View.ld x5 r0_3)
          (View.ld x6 r0_4) (View.ld x7 r0_3) (View.ld x8 r0_4) (View.ld x9 r0_5) (View.ld x10 r0_6) (View.ld x11 r0_5)⟩] := rfl

end Cert.KernelIdeal.Body

end
-- ==== Proof.Spec.lean ====
/-
  The mathematics both programs compute, stated once over the extended reals, with no program in sight.

  A window is 64 tokens (an 8 x 8 patch of the image, after the image has been rolled by 4 in both spatial
  directions) of 112 channels. Per window and depth slice: three linear projections q, k, v of the tokens; per head
  (4 heads of 28 channels) the score matrix  s i j = (q_i . k_j) * (sq i * sk j)  with  sq, sk  affine in q, k;
  a threshold  theta3  computed from the score matrix with its diagonal removed by two small linear layers and a
  leaky rectifier; the row softmax of  s  multiplied by the indicator  theta3 < s i j ; that matrix applied to v;
  the heads side by side, a last linear layer and its bias. The result goes back to the pixel its token came from.
-/
import Idealize.ShloMosaic.PureOps.Ideal
import Idealize.ShloMosaic.Lib.ValueIdx

noncomputable section

open scoped BigOperators

namespace Cert.Attn

open Idealize.ShloMosaic Idealize.ShloMosaic.ValueIdx

/-- The indicator of a proposition as an extended real. -/
def ind (p : Prop) [Decidable p] : EReal := if p then 1 else 0

/-- The weights, by coordinates. -/
structure Params where
  wqk : Fin 224 → Fin 112 → EReal
  wv : Fin 112 → Fin 112 → EReal
  wout : Fin 112 → Fin 112 → EReal
  bout : Fin 112 → EReal
  wpq : Fin 28 → EReal
  bpq : EReal
  wpk : Fin 28 → EReal
  bpk : EReal
  wm1 : Fin 64 → EReal
  wm2a : Fin 64 → Fin 64 → EReal
  wm2b : Fin 64 → EReal

/-! ## One head: 64 tokens, 28 channels -/

section Head
variable (P : Params) (Q K V : Fin 64 → Fin 28 → EReal)

/-- q_i . k_j -/
def sim (i j : Fin 64) : EReal := ∑ d : Fin 28, Q i d * K j d
/-- The query side's scalar factor of token i. -/
def sq (i : Fin 64) : EReal := (∑ d : Fin 28, Q i d * P.wpq d) + P.bpq
/-- The key side's scalar factor of token j. -/
def sk (j : Fin 64) : EReal := (∑ d : Fin 28, K j d * P.wpk d) + P.bpk
/-- The rank-one weight sq i * sk j. -/
def sigma (i j : Fin 64) : EReal := sq P Q i * sk P K j
/-- The identity matrix. -/
def eye (i j : Fin 64) : EReal := ind (i = j)
/-- The similarity with its diagonal removed. -/
def simn (i j : Fin 64) : EReal := sim Q K i j - sim Q K i i * eye i j
/-- First threshold layer: a linear form of each row. -/
def theta (i : Fin 64) : EReal := ∑ j : Fin 64, simn Q K i j * P.wm1 j
/-- The rectifier's slope on the negative side, the single-precision number nearest one tenth. -/
def slope : EReal := Ideal.ofBits .f32 0x3DCCCCCD#32
/-- The leaky rectifier. -/
def lrelu (x : EReal) : EReal := if 0 ≤ x then x else slope * x
/-- Second threshold layer. -/
def theta2 (m : Fin 64) : EReal := lrelu (∑ n : Fin 64, theta P Q K n * P.wm2a m n)
/-- The threshold of this head. -/
def theta3 : EReal := ∑ m : Fin 64, theta2 P Q K m * P.wm2b m
/-- The weighted score. -/
def score (i j : Fin 64) : EReal := sim Q K i j * sigma P Q K i j
/-- A row's maximum. -/
def rowMax (i : Fin 64) : EReal := (Finset.univ : Finset (Fin 64)).fold max ⊥ (fun j => score P Q K i j)
/-- The shifted exponentials. -/
def pexp (i j : Fin 64) : EReal := Ideal.exp (score P Q K i j - rowMax P Q K i)
/-- Their row sums. -/
def rowSum (i : Fin 64) : EReal := ∑ j : Fin 64, pexp P Q K i j
/-- The masked softmax. -/
def attn (i j : Fin 64) : EReal :=
  Ideal.div (pexp P Q K i j) (rowSum P Q K i) * ind (theta3 P Q K < score P Q K i j)
/-- The head's output. -/
def headOut (i : Fin 64) (d : Fin 28) : EReal := ∑ j : Fin 64, attn P Q K i j * V j d

end Head

/-! ## One window: 64 tokens, 112 channels -/

section Window
variable (P : Params) (X : Fin 64 → Fin 112 → EReal)

/-- Channel d of head h among the 112. -/
def col (h : Fin 4) (d : Fin 28) : Fin 112 := ⟨28 * h.val + d.val, by omega⟩
/-- The row of the stacked weight that makes query channel o … -/
def qrow (o : Fin 112) : Fin 224 := ⟨o.val, by omega⟩
/-- … and key channel o. -/
def krow (o : Fin 112) : Fin 224 := ⟨112 + o.val, by omega⟩
/-- The head of a channel … -/
def headOf (c : Fin 112) : Fin 4 := ⟨c.val / 28, by omega⟩
/-- … and the channel within it. -/
def chanOf (c : Fin 112) : Fin 28 := ⟨c.val % 28, Nat.mod_lt _ (by norm_num)⟩

def Qf (n : Fin 64) (o : Fin 112) : EReal := ∑ c : Fin 112, X n c * P.wqk (qrow o) c
def Kf (n : Fin 64) (o : Fin 112) : EReal := ∑ c : Fin 112, X n c * P.wqk (krow o) c
def Vf (n : Fin 64) (o : Fin 112) : EReal := ∑ c : Fin 112, X n c * P.wv o c

/-- Head h's output, token n, channel d. -/
def headAt (h : Fin 4) (n : Fin 64) (d : Fin 28) : EReal :=
  headOut P (fun i e => Qf P X i (col h e)) (fun i e => Kf P X i (col h e)) (fun i e => Vf P X i (col h e)) n d
/-- The heads side by side. -/
def headsOut (n : Fin 64) (c : Fin 112) : EReal := headAt P X (headOf c) n (chanOf c)
/-- The window's result. -/
def winOut (n : Fin 64) (o : Fin 112) : EReal := (∑ c : Fin 112, headsOut P X n c * P.wout o c) + P.bout o

end Window

/-! ## The image: 1 x 112 x 8 x 128 x 128, windows 16 x 16, the roll by 4 -/

section Image
variable (P : Params) (x : Fin 112 → Fin 8 → Fin 128 → Fin 128 → EReal)

/-- The image row token n of window w is read from … -/
def srcH (w : Fin 256) (n : Fin 64) : Fin 128 := ⟨((w.val / 16) * 8 + n.val / 8 + 124) % 128, Nat.mod_lt _ (by norm_num)⟩
/-- … and the image column. -/
def srcW (w : Fin 256) (n : Fin 64) : Fin 128 := ⟨((w.val % 16) * 8 + n.val % 8 + 124) % 128, Nat.mod_lt _ (by norm_num)⟩
/-- Window w, depth b: its tokens. -/
def tok (w : Fin 256) (b : Fin 8) (n : Fin 64) (c : Fin 112) : EReal := x c b (srcH w n) (srcW w n)
/-- The result in window layout. -/
def arr (w : Fin 256) (b : Fin 8) (n : Fin 64) (o : Fin 112) : EReal := winOut P (tok x w b) n o
/-- The window that pixel (H, W) of the result is taken from … -/
def dstWin (H W : Fin 128) : Fin 256 := ⟨(((H.val + 4) % 128) / 8) * 16 + ((W.val + 4) % 128) / 8, by omega⟩
/-- … and the token. -/
def dstTok (H W : Fin 128) : Fin 64 := ⟨(((H.val + 4) % 128) % 8) * 8 + ((W.val + 4) % 128) % 8, by omega⟩
/-- The result, by coordinates. -/
def out (c : Fin 112) (b : Fin 8) (H W : Fin 128) : EReal := arr P x (dstWin H W) b (dstTok H W) c

end Image

/-! ## The same over the programs' argument arrays -/

/-- The weights read off the eleven weight arrays. -/
def ofArgs (a1 : (⟨2, ![224, 112]⟩ : Shape).Idx → EReal) (a2 a3 : (⟨2, ![112, 112]⟩ : Shape).Idx → EReal)
    (a4 : (⟨1, ![112]⟩ : Shape).Idx → EReal) (a5 : (⟨2, ![1, 28]⟩ : Shape).Idx → EReal) (a6 : (⟨1, ![1]⟩ : Shape).Idx → EReal)
    (a7 : (⟨2, ![1, 28]⟩ : Shape).Idx → EReal) (a8 : (⟨1, ![1]⟩ : Shape).Idx → EReal)
    (a9 : (⟨2, ![1, 64]⟩ : Shape).Idx → EReal) (a10 : (⟨2, ![64, 64]⟩ : Shape).Idx → EReal)
    (a11 : (⟨2, ![1, 64]⟩ : Shape).Idx → EReal) : Params where
  wqk o c := a1 (ix2 o c)
  wv o c := a2 (ix2 o c)
  wout o c := a3 (ix2 o c)
  bout o := a4 (ix1 o)
  wpq d := a5 (ix2 (0 : Fin 1) d)
  bpq := a6 (ix1 (0 : Fin 1))
  wpk d := a7 (ix2 (0 : Fin 1) d)
  bpk := a8 (ix1 (0 : Fin 1))
  wm1 j := a9 (ix2 (0 : Fin 1) j)
  wm2a m n := a10 (ix2 m n)
  wm2b m := a11 (ix2 (0 : Fin 1) m)

/-- The image array by coordinates. -/
def imgOf (a0 : (⟨5, ![1, 112, 8, 128, 128]⟩ : Shape).Idx → EReal) : Fin 112 → Fin 8 → Fin 128 → Fin 128 → EReal :=
  fun c b H W => a0 (ix5 (0 : Fin 1) c b H W)

/-- The result array. -/
def outArr (P : Params) (a0 : (⟨5, ![1, 112, 8, 128, 128]⟩ : Shape).Idx → EReal) :
    (⟨5, ![1, 112, 8, 128, 128]⟩ : Shape).Idx → EReal :=
  fun i => out P (imgOf a0) (i 1) (i 2) (i 3) (i 4)

theorem outArr_ix5 (P : Params) (a0 : (⟨5, ![1, 112, 8, 128, 128]⟩ : Shape).Idx → EReal)
    (z : Fin 1) (c : Fin 112) (b : Fin 8) (H W : Fin 128) :
    outArr P a0 (ix5 z c b H W) = out P (imgOf a0) c b H W := rfl

/-- The window-layout array, 256 x 8 x 64 x 112. -/
def arrArr (P : Params) (a0 : (⟨5, ![1, 112, 8, 128, 128]⟩ : Shape).Idx → EReal) :
    (⟨4, ![256, 8, 64, 112]⟩ : Shape).Idx → EReal :=
  fun i => arr P (imgOf a0) (i 0) (i 1) (i 2) (i 3)

theorem arrArr_ix4 (P : Params) (a0 : (⟨5, ![1, 112, 8, 128, 128]⟩ : Shape).Idx → EReal)
    (w : Fin 256) (b : Fin 8) (n : Fin 64) (o : Fin 112) :
    arrArr P a0 (ix4 w b n o) = arr P (imgOf a0) w b n o := rfl

end Cert.Attn

end
-- ==== Proof.KLayout.lean ====
/-
  The body's layout steps read at an index: a parameter row or column put on new unit axes and broadcast over a
  depth slice's 64 x 64 (or 64 x 28) matrix reads the parameter at the one coordinate it depends on; a sum or a
  maximum along the last axis is the sum or the running maximum over that coordinate.
-/
import proofs.«155316_j49177375539263_2_alg».proof.Proof.KVec
import proofs.«155316_j49177375539263_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

variable {α : Type}

/-- A 28-vector broadcast along depth and token reads its channel entry. -/
theorem bc_28 (v : S28.Idx → α) (h1 : S28.ShapeCasts S1x1x28) (h2 : S1x1x28.Broadcasts S8x64x28) (b : Fin 8) (i : Fin 64) (d : Fin 28) :
    broadcastTo S8x64x28 (shapeCast S1x1x28 v h1) h2 (ix3 b i d) = v (ix1 d) := by
  refine (broadcastTo_apply _ h2 (ix3 b i d) (ix3 (0 : Fin 1) (0 : Fin 1) d) fun a => ?_).trans ?_
  · match a with
    | ⟨0, _⟩ => rfl
    | ⟨1, _⟩ => rfl
    | ⟨2, _⟩ => rfl
  · refine shapeCast_apply v h1 _ (ix1 d) ?_
    rw [Shape.rowMajor_val_one, Shape.rowMajor_val_three]; simp

/-- A 64-vector broadcast along depth and row reads its column entry. -/
theorem bc_row64 (v : S64.Idx → α) (h1 : S64.ShapeCasts S1x1x64) (h2 : S1x1x64.Broadcasts S8x64x64) (b : Fin 8) (i j : Fin 64) :
    broadcastTo S8x64x64 (shapeCast S1x1x64 v h1) h2 (ix3 b i j) = v (ix1 j) := by
  refine (broadcastTo_apply _ h2 (ix3 b i j) (ix3 (0 : Fin 1) (0 : Fin 1) j) fun a => ?_).trans ?_
  · match a with
    | ⟨0, _⟩ => rfl
    | ⟨1, _⟩ => rfl
    | ⟨2, _⟩ => rfl
  · refine shapeCast_apply v h1 _ (ix1 j) ?_
    rw [Shape.rowMajor_val_one, Shape.rowMajor_val_three]; simp

/-- A 64 x 64 matrix broadcast along depth reads its entry. -/
theorem bc_mat64 (v : S64x64.Idx → α) (h1 : S64x64.ShapeCasts S1x64x64) (h2 : S1x64x64.Broadcasts S8x64x64) (b : Fin 8) (i j : Fin 64) :
    broadcastTo S8x64x64 (shapeCast S1x64x64 v h1) h2 (ix3 b i j) = v (ix2 i j) := by
  refine (broadcastTo_apply _ h2 (ix3 b i j) (ix3 (0 : Fin 1) i j) fun a => ?_).trans ?_
  · match a with
    | ⟨0, _⟩ => rfl
    | ⟨1, _⟩ => rfl
    | ⟨2, _⟩ => rfl
  · refine shapeCast_apply v h1 _ (ix2 i j) ?_
    rw [Shape.rowMajor_val_two, Shape.rowMajor_val_three]; simp

/-- A per-(depth, row) value kept as a column and broadcast along the columns. -/
theorem bc_col (v : S8x64.Idx → α) (h1 : S8x64.ShapeCasts S8x64x1) (h2 : S8x64x1.Broadcasts S8x64x64) (b : Fin 8) (i j : Fin 64) :
    broadcastTo S8x64x64 (shapeCast S8x64x1 v h1) h2 (ix3 b i j) = v (ix2 b i) := by
  refine (broadcastTo_apply _ h2 (ix3 b i j) (ix3 b i (0 : Fin 1)) fun a => ?_).trans ?_
  · match a with
    | ⟨0, _⟩ => rfl
    | ⟨1, _⟩ => rfl
    | ⟨2, _⟩ => rfl
  · refine shapeCast_apply v h1 _ (ix2 b i) ?_
    rw [Shape.rowMajor_val_two, Shape.rowMajor_val_three]; simp

/-- A per-(depth, column) value kept as a row and broadcast along the rows. -/
theorem bc_rowv (v : S8x64.Idx → α) (h1 : S8x64.ShapeCasts S8x1x64) (h2 : S8x1x64.Broadcasts S8x64x64) (b : Fin 8) (i j : Fin 64) :
    broadcastTo S8x64x64 (shapeCast S8x1x64 v h1) h2 (ix3 b i j) = v (ix2 b j) := by
  refine (broadcastTo_apply _ h2 (ix3 b i j) (ix3 b (0 : Fin 1) j) fun a => ?_).trans ?_
  · match a with
    | ⟨0, _⟩ => rfl
    | ⟨1, _⟩ => rfl
    | ⟨2, _⟩ => rfl
  · refine shapeCast_apply v h1 _ (ix2 b j) ?_
    rw [Shape.rowMajor_val_two, Shape.rowMajor_val_three]; simp

/-- A per-depth value broadcast over the whole matrix. -/
theorem bc_depth (v : S8.Idx → α) (h1 : S8.ShapeCasts S8x1x1) (h2 : S8x1x1.Broadcasts S8x64x64) (b : Fin 8) (i j : Fin 64) :
    broadcastTo S8x64x64 (shapeCast S8x1x1 v h1) h2 (ix3 b i j) = v (ix1 b) := by
  refine (broadcastTo_apply _ h2 (ix3 b i j) (ix3 b (0 : Fin 1) (0 : Fin 1)) fun a => ?_).trans ?_
  · match a with
    | ⟨0, _⟩ => rfl
    | ⟨1, _⟩ => rfl
    | ⟨2, _⟩ => rfl
  · refine shapeCast_apply v h1 _ (ix1 b) ?_
    rw [Shape.rowMajor_val_one, Shape.rowMajor_val_three]; simp

/-- A 64-vector broadcast along depth reads its entry. -/
theorem bc_vec64 (v : S64.Idx → α) (h1 : S64.ShapeCasts S1x64) (h2 : S1x64.Broadcasts S8x64) (b : Fin 8) (m : Fin 64) :
    broadcastTo S8x64 (shapeCast S1x64 v h1) h2 (ix2 b m) = v (ix1 m) := by
  refine (broadcastTo_apply _ h2 (ix2 b m) (ix2 (0 : Fin 1) m) fun a => ?_).trans ?_
  · match a with
    | ⟨0, _⟩ => rfl
    | ⟨1, _⟩ => rfl
  · refine shapeCast_apply v h1 _ (ix1 m) ?_
    rw [Shape.rowMajor_val_one, Shape.rowMajor_val_two]; simp

/-- A sum along the last axis of a depth slice's 64 x 28 matrix. -/
theorem sum_28 (src : FVec Ideal S8x64x28 .f32) (h : S8x64x28.Reduces [2] S8x64) (hφ : FTy.f32 = FTy.f32 ∨ FTy.f32 = FTy.bf16)
    (hacc : (0x00000000#32 : BitVec 32) = 0x00000000#32) (b : Fin 8) (i : Fin 64) :
    multiReduction .add [2] S8x64 src 0x00000000#32 h hφ hacc (ix2 b i) = ∑ d : Fin 28, src (ix3 b i d) := by
  refine (Ideal.multiReduction_add_single src _ h hφ hacc (ix2 b i)).trans ?_
  refine Finset.sum_congr rfl fun d _ => congrArg src ?_
  funext a; refine Fin.ext ?_
  match a with
  | ⟨0, _⟩ => rfl
  | ⟨1, _⟩ => rfl
  | ⟨2, _⟩ => rfl

/-- A sum along the last axis of a depth slice's 64 x 64 matrix. -/
theorem sum_64 (src : FVec Ideal S8x64x64 .f32) (h : S8x64x64.Reduces [2] S8x64) (hφ : FTy.f32 = FTy.f32 ∨ FTy.f32 = FTy.bf16)
    (hacc : (0x00000000#32 : BitVec 32) = 0x00000000#32) (b : Fin 8) (i : Fin 64) :
    multiReduction .add [2] S8x64 src 0x00000000#32 h hφ hacc (ix2 b i) = ∑ j : Fin 64, src (ix3 b i j) := by
  refine (Ideal.multiReduction_add_single src _ h hφ hacc (ix2 b i)).trans ?_
  refine Finset.sum_congr rfl fun d _ => congrArg src ?_
  funext a; refine Fin.ext ?_
  match a with
  | ⟨0, _⟩ => rfl
  | ⟨1, _⟩ => rfl
  | ⟨2, _⟩ => rfl

/-- A sum along the token axis of a per-(depth, token) value. -/
theorem sum_tok (src : FVec Ideal S8x64 .f32) (h : S8x64.Reduces [1] S8) (hφ : FTy.f32 = FTy.f32 ∨ FTy.f32 = FTy.bf16)
    (hacc : (0x00000000#32 : BitVec 32) = 0x00000000#32) (b : Fin 8) :
    multiReduction .add [1] S8 src 0x00000000#32 h hφ hacc (ix1 b) = ∑ m : Fin 64, src (ix2 b m) := by
  refine (Ideal.multiReduction_add_single src _ h hφ hacc (ix1 b)).trans ?_
  refine Finset.sum_congr rfl fun d _ => congrArg src ?_
  funext a; refine Fin.ext ?_
  match a with
  | ⟨0, _⟩ => rfl
  | ⟨1, _⟩ => rfl

/-- The single-precision word of minus infinity is the bottom of the extended reals. -/
theorem ofBits_neg_inf : Ideal.ofBits .f32 0xFF800000#32 = (⊥ : EReal) := by
  simp [Ideal.ofBits, Ideal.ieee]

/-- A maximum along the last axis of a depth slice's 64 x 64 matrix, from minus infinity. -/
theorem max_64 (src : FVec Ideal S8x64x64 .f32) (h : S8x64x64.Reduces [2] S8x64) (hφ : FTy.f32 = FTy.f32 ∨ FTy.f32 = FTy.bf16)
    (hacc : (0xFF800000#32 : BitVec 32) = 0xFF800000#32) (b : Fin 8) (i : Fin 64) :
    multiReduction .maximumf [2] S8x64 src 0xFF800000#32 h hφ hacc (ix2 b i)
      = (Finset.univ : Finset (Fin 64)).fold max ⊥ (fun j => src (ix3 b i j)) := by
  refine (Ideal.multiReduction_maximumf_single src _ h hφ hacc (ix2 b i)).trans ?_
  rw [Ideal.ofBits_def, ofBits_neg_inf]
  refine congrArg (fun f => (Finset.univ : Finset (Fin 64)).fold max ⊥ f) ?_
  funext j
  refine congrArg src ?_
  funext a; refine Fin.ext ?_
  match a with
  | ⟨0, _⟩ => rfl
  | ⟨1, _⟩ => rfl
  | ⟨2, _⟩ => rfl

/-- The named reductions of the body read at an index. -/
theorem rsum28_apply (src : FVec Ideal S8x64x28 .f32) (b : Fin 8) (i : Fin 64) : rsum28 src (ix2 b i) = ∑ d : Fin 28, src (ix3 b i d) :=
  sum_28 src _ _ _ b i
theorem rsum64_apply (src : FVec Ideal S8x64x64 .f32) (b : Fin 8) (i : Fin 64) : rsum64 src (ix2 b i) = ∑ j : Fin 64, src (ix3 b i j) :=
  sum_64 src _ _ _ b i
theorem rsumTok_apply (src : FVec Ideal S8x64 .f32) (b : Fin 8) : rsumTok src (ix1 b) = ∑ m : Fin 64, src (ix2 b m) :=
  sum_tok src _ _ _ b
theorem rmax64_apply (src : FVec Ideal S8x64x64 .f32) (b : Fin 8) (i : Fin 64) :
    rmax64 src (ix2 b i) = (Finset.univ : Finset (Fin 64)).fold max ⊥ (fun j => src (ix3 b i j)) :=
  max_64 src _ _ _ b i

end Cert.KernelIdeal.Body

end
-- ==== Proof.KHead.lean ====
/-
  One head of the body, read at an index. Every step is the corresponding definition of the specification at depth
  slice b: the similarity is the sum over the 28 channels, the rank-one weight a product of two affine forms, the sum of a row
  against the identity matrix picks the diagonal entry, the rectifier is a comparison and a choice, the mask a
  comparison read as 0 or 1, the softmax the exponentials over their sum after the row maximum is taken off.
-/
import proofs.«155316_j49177375539263_2_alg».proof.Proof.KLayout
import proofs.«155316_j49177375539263_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- Depth slice b of a per-head array, by token and channel. -/
def sl {φ : FTy} (q : FVec Ideal S8x64x28 φ) (b : Fin 8) : Fin 64 → Fin 28 → EReal := fun i d => q (ix3 b i d)

/-! ## Scalars -/

/-- A comparison widened and converted is the indicator. -/
theorem mask_eq (x y : EReal) :
    (FloatOps.sitofp (F := Ideal) .f32 ((FloatOps.cmpf (F := Ideal) (φ := .f32) .ogt x y).setWidth 32) : EReal) = Cert.Attn.ind (y < x) := by
  unfold Cert.Attn.ind
  by_cases h : y < x
  · simp [Ideal.cmpf_def, Ideal.cmp, h, FloatOps.sitofp]
  · simp [Ideal.cmpf_def, Ideal.cmp, h, FloatOps.sitofp]

/-- The comparison with zero and the choice between x and a tenth of x is the leaky rectifier. -/
theorem lrelu_eq (x : EReal) :
    Scalar.select (FloatOps.cmpf (F := Ideal) (φ := .f32) .oge x (Scalar.ofBits (F := Ideal) .f32 0x00000000#32)) x
      ((Scalar.ofBits (F := Ideal) .f32 0x3DCCCCCD#32 : EReal) * x) = Cert.Attn.lrelu x := by
  unfold Cert.Attn.lrelu Cert.Attn.slope
  by_cases h : (0 : EReal) ≤ x
  · simp [Ideal.cmpf_def, Ideal.cmp, h, Scalar.select, Scalar.ofBits]
  · simp [Ideal.cmpf_def, Ideal.cmp, h, Scalar.select, Scalar.ofBits]

theorem exp_apply {s : Shape} (v : FVec Ideal s .f32) (i : s.Idx) : exp v i = Ideal.exp (v i) := rfl

/-- A row against the identity matrix's row i is its entry i. -/
theorem sum_mul_eye (f : Fin 64 → EReal) (i : Fin 64) : ∑ j : Fin 64, f j * Cert.Attn.eye i j = f i := by
  rw [Finset.sum_eq_single i]
  · simp [Cert.Attn.eye, Cert.Attn.ind]
  · intro j _ hj
    have : ¬ i = j := fun h => hj h.symm
    simp [Cert.Attn.eye, Cert.Attn.ind, this]
  · intro h; exact absurd (Finset.mem_univ i) h

/-! ## Two more layout steps -/

/-- A per-depth value on two unit axes. -/
theorem sc_depth {α : Type} (v : S8.Idx → α) (h1 : S8.ShapeCasts S8x1x1) (b : Fin 8) :
    shapeCast S8x1x1 v h1 (ix3 b (0 : Fin 1) (0 : Fin 1)) = v (ix1 b) := by
  refine shapeCast_apply v h1 _ (ix1 b) ?_
  rw [Shape.rowMajor_val_one, Shape.rowMajor_val_three]; simp

/-- Broadcast over the whole matrix. -/
theorem bc_depth' {α : Type} (v : S8x1x1.Idx → α) (h2 : S8x1x1.Broadcasts S8x64x64) (b : Fin 8) (i j : Fin 64) :
    broadcastTo S8x64x64 v h2 (ix3 b i j) = v (ix3 b (0 : Fin 1) (0 : Fin 1)) := by
  refine broadcastTo_apply _ h2 (ix3 b i j) (ix3 b (0 : Fin 1) (0 : Fin 1)) fun a => ?_
  match a with
  | ⟨0, _⟩ => rfl
  | ⟨1, _⟩ => rfl
  | ⟨2, _⟩ => rfl

/-! ## The pieces -/

theorem simV_apply (q k : FVec Ideal S8x64x28 .f32) (b : Fin 8) (i j : Fin 64) :
    simV q k (ix3 b i j) = Cert.Attn.sim (sl q b) (sl k b) i j := by
  unfold simV Cert.Attn.sim sl
  refine (Ideal.matmul_constant_zero_apply _ _ _ _ _).trans ?_
  rw [← Equiv.sum_comp (contrEquiv1 dot_S8x64x28_S8x64x28_S8x64x64_2_2_1_1_0_0 28 rfl rfl).symm]
  refine Finset.sum_congr rfl fun d _ => ?_
  have hl : dot_S8x64x28_S8x64x28_S8x64x64_2_2_1_1_0_0.lhsIdx (ix3 b i j) ((contrEquiv1 dot_S8x64x28_S8x64x28_S8x64x64_2_2_1_1_0_0 28 rfl rfl).symm d) = ix3 b i d := by
    funext a; refine Fin.ext ?_
    match a with
    | ⟨0, _⟩ => rfl
    | ⟨1, _⟩ => rfl
    | ⟨2, _⟩ => rfl
  have hr : dot_S8x64x28_S8x64x28_S8x64x64_2_2_1_1_0_0.rhsIdx (ix3 b i j) ((contrEquiv1 dot_S8x64x28_S8x64x28_S8x64x64_2_2_1_1_0_0 28 rfl rfl).symm d) = ix3 b j d := by
    funext a; refine Fin.ext ?_
    match a with
    | ⟨0, _⟩ => rfl
    | ⟨1, _⟩ => rfl
    | ⟨2, _⟩ => rfl
  rw [hl, hr]

theorem sigmaV_apply (P : Cert.Attn.Params) (q k : FVec Ideal S8x64x28 .f32) (v18 : FVec Ideal S28 .f32) (v20 : Ideal .f32)
    (v22 : FVec Ideal S28 .f32) (v24 : Ideal .f32) (h18 : ∀ d, v18 (ix1 d) = P.wpq d) (h20 : v20 = P.bpq)
    (h22 : ∀ d, v22 (ix1 d) = P.wpk d) (h24 : v24 = P.bpk) (b : Fin 8) (i j : Fin 64) :
    sigmaV q k v18 v20 v22 v24 (ix3 b i j) = Cert.Attn.sigma P (sl q b) (sl k b) i j := by
  unfold sigmaV Cert.Attn.sigma Cert.Attn.sq Cert.Attn.sk sl
  simp only [mulf_apply, addf_apply, bc_col, bc_rowv, rsum28_apply, bc_28, broadcast_apply, h18, h20, h22, h24]

theorem thetaRowV_apply (P : Cert.Attn.Params) (Q K : Fin 64 → Fin 28 → EReal) (sim : FVec Ideal S8x64x64 .f32)
    (v34 : FVec Ideal S64x64 .f32) (v26 : FVec Ideal S64 .f32) (b : Fin 8)
    (hsim : ∀ i j, sim (ix3 b i j) = Cert.Attn.sim Q K i j) (heye : ∀ i j, v34 (ix2 i j) = Cert.Attn.eye i j)
    (hw : ∀ j, v26 (ix1 j) = P.wm1 j) (i : Fin 64) :
    thetaRowV sim v34 v26 (ix2 b i) = Cert.Attn.theta P Q K i := by
  unfold thetaRowV Cert.Attn.theta Cert.Attn.simn
  simp only [rsum64_apply, mulf_apply, subf_apply, bc_col, bc_mat64, bc_row64, hsim, heye, hw, sum_mul_eye]

theorem thetaPreV_apply (P : Cert.Attn.Params) (Q K : Fin 64 → Fin 28 → EReal) (th : FVec Ideal S8x64 .f32)
    (v27 : Vec Ideal S64x64 .f32) (v29 : FVec Ideal S64 .f32) (b : Fin 8)
    (hth : ∀ n, th (ix2 b n) = Cert.Attn.theta P Q K n) (hw27 : ∀ m n, v27 (ix2 m n) = P.wm2a m n)
    (hw29 : ∀ m, v29 (ix1 m) = P.wm2b m) (m : Fin 64) :
    thetaPreV th v27 v29 (ix2 b m) = Cert.Attn.theta2 P Q K m * P.wm2b m := by
  unfold thetaPreV Cert.Attn.theta2
  simp only [mulf_apply, select_apply, cmpf_apply, broadcast_apply, bc_vec64, rsum64_apply, bc_rowv, bc_mat64, lrelu_eq, hth, hw27, hw29]

theorem thetaFinV_apply (P : Cert.Attn.Params) (Q K : Fin 64 → Fin 28 → EReal) (pre : FVec Ideal S8x64 .f32) (b : Fin 8)
    (hpre : ∀ m, pre (ix2 b m) = Cert.Attn.theta2 P Q K m * P.wm2b m) :
    thetaFinV pre (ix3 b (0 : Fin 1) (0 : Fin 1)) = Cert.Attn.theta3 P Q K := by
  unfold thetaFinV Cert.Attn.theta3
  simp only [sc_depth, rsumTok_apply, hpre]

theorem attnV_apply (P : Cert.Attn.Params) (Q K : Fin 64 → Fin 28 → EReal) (sim sig : FVec Ideal S8x64x64 .f32)
    (th : FVec Ideal S8x1x1 .f32) (b : Fin 8)
    (hsim : ∀ i j, sim (ix3 b i j) = Cert.Attn.sim Q K i j) (hsig : ∀ i j, sig (ix3 b i j) = Cert.Attn.sigma P Q K i j)
    (hth : th (ix3 b (0 : Fin 1) (0 : Fin 1)) = Cert.Attn.theta3 P Q K) (i j : Fin 64) :
    attnV sim sig th (ix3 b i j) = Cert.Attn.attn P Q K i j := by
  unfold attnV
  simp only [Cert.Attn.attn, Cert.Attn.pexp, Cert.Attn.rowSum, Cert.Attn.rowMax, Cert.Attn.score, truncf_apply, mulf_apply, divf_apply, exp_apply, subf_apply, bc_col, rmax64_apply, rsum64_apply, bc_depth',
    sitofp_apply, extui_apply, cmpf_apply, mask_eq, hsim, hsig, hth]
  rfl

theorem outV_apply (a : FVec Ideal S8x64x64 .bf16) (vb : FVec Ideal S8x64x28 .bf16) (b : Fin 8) (i : Fin 64) (d : Fin 28) :
    outV a vb (ix3 b i d) = ∑ j : Fin 64, a (ix3 b i j) * vb (ix3 b j d) := by
  unfold outV
  refine (Ideal.matmul_constant_zero_apply dot_S8x64x64_S8x64x28_S8x64x28_2_1_1_2_0_0 none a vb (ix3 b i d)).trans ?_
  rw [← Equiv.sum_comp (contrEquiv1 dot_S8x64x64_S8x64x28_S8x64x28_2_1_1_2_0_0 64 rfl rfl).symm]
  refine Finset.sum_congr rfl fun j _ => ?_
  have hl : dot_S8x64x64_S8x64x28_S8x64x28_2_1_1_2_0_0.lhsIdx (ix3 b i d) ((contrEquiv1 dot_S8x64x64_S8x64x28_S8x64x28_2_1_1_2_0_0 64 rfl rfl).symm j) = ix3 b i j := by
    funext a; refine Fin.ext ?_
    match a with
    | ⟨0, _⟩ => rfl
    | ⟨1, _⟩ => rfl
    | ⟨2, _⟩ => rfl
  have hr : dot_S8x64x64_S8x64x28_S8x64x28_2_1_1_2_0_0.rhsIdx (ix3 b i d) ((contrEquiv1 dot_S8x64x64_S8x64x28_S8x64x28_2_1_1_2_0_0 64 rfl rfl).symm j) = ix3 b j d := by
    funext a; refine Fin.ext ?_
    match a with
    | ⟨0, _⟩ => rfl
    | ⟨1, _⟩ => rfl
    | ⟨2, _⟩ => rfl
  rw [hl, hr]

/-- One head of the body at (b, i, d) is the specification's head on depth slice b. -/
theorem headV_apply (P : Cert.Attn.Params) (q k : FVec Ideal S8x64x28 .f32) (vb : FVec Ideal S8x64x28 .bf16)
    (v18 : FVec Ideal S28 .f32) (v20 : Ideal .f32) (v22 : FVec Ideal S28 .f32) (v24 : Ideal .f32) (v26 : FVec Ideal S64 .f32)
    (v27 : Vec Ideal S64x64 .f32) (v29 : FVec Ideal S64 .f32) (v34 : FVec Ideal S64x64 .f32)
    (h18 : ∀ d, v18 (ix1 d) = P.wpq d) (h20 : v20 = P.bpq) (h22 : ∀ d, v22 (ix1 d) = P.wpk d) (h24 : v24 = P.bpk)
    (h26 : ∀ j, v26 (ix1 j) = P.wm1 j) (h27 : ∀ m n, v27 (ix2 m n) = P.wm2a m n) (h29 : ∀ m, v29 (ix1 m) = P.wm2b m)
    (h34 : ∀ i j, v34 (ix2 i j) = Cert.Attn.eye i j) (b : Fin 8) (i : Fin 64) (d : Fin 28) :
    headV q k vb v18 v20 v22 v24 v26 v27 v29 v34 (ix3 b i d) = Cert.Attn.headOut P (sl q b) (sl k b) (sl vb b) i d := by
  unfold headV Cert.Attn.headOut
  rw [outV_apply]
  refine Finset.sum_congr rfl fun j _ => ?_
  have hsim : ∀ i j, simV q k (ix3 b i j) = Cert.Attn.sim (sl q b) (sl k b) i j := fun i j => simV_apply q k b i j
  rw [attnV_apply P (sl q b) (sl k b) (simV q k) (sigmaV q k v18 v20 v22 v24) _ b hsim
    (fun i j => sigmaV_apply P q k v18 v20 v22 v24 h18 h20 h22 h24 b i j)
    (thetaFinV_apply P (sl q b) (sl k b) _ b fun m =>
      thetaPreV_apply P (sl q b) (sl k b) _ v27 v29 b
        (fun n => thetaRowV_apply P (sl q b) (sl k b) (simV q k) v34 v26 b hsim h34 h26 n) h27 h29 m) i j]
  rfl

end Cert.KernelIdeal.Body

end
-- ==== Proof.KProj.lean ====
/-
  The body's three projections read at an index. The token block [1,8,64,112] is flattened to 512 rows (row
  64 b + n), multiplied by the transposed stacked query/key weight [224,112] and by the transposed value weight
  [112,112]; the query and key halves are the column ranges [0,112) and [112,224) of the first product; each is
  viewed again as [8,64,112]. So each projected entry is the dot product of a token with one row of a weight.
-/
import proofs.«155316_j49177375539263_2_alg».proof.Proof.KVec
import proofs.«155316_j49177375539263_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- The row of the flattened token block that holds token n of depth slice b. -/
def row (b : Fin 8) (n : Fin 64) : Fin 512 := ⟨64 * b.val + n.val, by omega⟩

/-- The flattened token block: row 64 b + n, column c is the token's channel c. -/
theorem pay2_apply (y0 : Vec Ideal S1x8x64x112 .f32) (b : Fin 8) (n : Fin 64) (c : Fin 112) :
    k0_pay2 (F := Ideal) y0 (ix2 (row b n) c) = y0 (ix4 (0 : Fin 1) b n c) := by
  unfold k0_pay2
  refine (shapeCast_apply _ _ (ix2 (row b n) c) (ix4 (0 : Fin 1) b n c) ?_).trans ?_
  · rw [Shape.rowMajor_val_four, Shape.rowMajor_val_two]
    show ((0 * 8 + b.val) * 64 + n.val) * 112 + c.val = (64 * b.val + n.val) * 112 + c.val
    omega
  · exact congrFun (shapeCast_self y0 _) _

/-- The product with the transposed stacked weight: entry (64 b + n, r) is token (b, n) against weight row r. -/
theorem pay3_apply (y0 : Vec Ideal S1x8x64x112 .f32) (y1 : Vec Ideal S224x112 .f32) (b : Fin 8) (n : Fin 64) (r : Fin 224) :
    k0_pay3 (F := Ideal) y0 y1 (ix2 (row b n) r) = ∑ c : Fin 112, y0 (ix4 (0 : Fin 1) b n c) * y1 (ix2 r c) := by
  unfold k0_pay3
  refine (Ideal.matmul_constant_zero_apply _ none _ _ _).trans ?_
  rw [← Equiv.sum_comp (contrEquiv1 dot_S512x112_S112x224_S512x224_1_0_0_1_n_n 112 rfl rfl).symm]
  refine Finset.sum_congr rfl fun c _ => ?_
  have hl : dot_S512x112_S112x224_S512x224_1_0_0_1_n_n.lhsIdx (ix2 (row b n) r) ((contrEquiv1 dot_S512x112_S112x224_S512x224_1_0_0_1_n_n 112 rfl rfl).symm c) = ix2 (row b n) c := by
    funext a; refine Fin.ext ?_
    match a with
    | ⟨0, _⟩ => rfl
    | ⟨1, _⟩ => rfl
  have hr : dot_S512x112_S112x224_S512x224_1_0_0_1_n_n.rhsIdx (ix2 (row b n) r) ((contrEquiv1 dot_S512x112_S112x224_S512x224_1_0_0_1_n_n 112 rfl rfl).symm c) = ix2 c r := by
    funext a; refine Fin.ext ?_
    match a with
    | ⟨0, _⟩ => rfl
    | ⟨1, _⟩ => rfl
  rw [hl, hr, pay2_apply]
  exact congrArg (_ * ·) (transpose_ix2_apply _ _ c r)

/-- The projected queries. -/
theorem pay4_apply (y0 : Vec Ideal S1x8x64x112 .f32) (y1 : Vec Ideal S224x112 .f32) (b : Fin 8) (n : Fin 64) (o : Fin 112) :
    k0_pay4 (F := Ideal) y0 y1 (ix3 b n o) = ∑ c : Fin 112, y0 (ix4 (0 : Fin 1) b n c) * y1 (ix2 (Cert.Attn.qrow o) c) := by
  unfold k0_pay4
  refine (shapeCast_apply _ _ (ix3 b n o) (ix2 (row b n) o) ?_).trans ?_
  · rw [Shape.rowMajor_val_two, Shape.rowMajor_val_three]
    show (64 * b.val + n.val) * 112 + o.val = (b.val * 64 + n.val) * 112 + o.val
    omega
  refine (slice2_axis1_apply 0 _ _ (row b n) o (Cert.Attn.qrow o) ?_).trans ?_
  · show o.val = 0 + o.val
    omega
  exact pay3_apply y0 y1 b n _

/-- The projected keys. -/
theorem pay5_apply (y0 : Vec Ideal S1x8x64x112 .f32) (y1 : Vec Ideal S224x112 .f32) (b : Fin 8) (n : Fin 64) (o : Fin 112) :
    k0_pay5 (F := Ideal) y0 y1 (ix3 b n o) = ∑ c : Fin 112, y0 (ix4 (0 : Fin 1) b n c) * y1 (ix2 (Cert.Attn.krow o) c) := by
  unfold k0_pay5
  refine (shapeCast_apply _ _ (ix3 b n o) (ix2 (row b n) o) ?_).trans ?_
  · rw [Shape.rowMajor_val_two, Shape.rowMajor_val_three]
    show (64 * b.val + n.val) * 112 + o.val = (b.val * 64 + n.val) * 112 + o.val
    omega
  refine (slice2_axis1_apply 112 _ _ (row b n) o (Cert.Attn.krow o) ?_).trans ?_
  · show 112 + o.val = 112 + o.val
    rfl
  exact pay3_apply y0 y1 b n _

/-- The projected values. -/
theorem pay6_apply (y0 : Vec Ideal S1x8x64x112 .f32) (y2 : Vec Ideal S112x112 .f32) (b : Fin 8) (n : Fin 64) (o : Fin 112) :
    k0_pay6 (F := Ideal) y0 y2 (ix3 b n o) = ∑ c : Fin 112, y0 (ix4 (0 : Fin 1) b n c) * y2 (ix2 o c) := by
  unfold k0_pay6
  refine (shapeCast_apply _ _ (ix3 b n o) (ix2 (row b n) o) ?_).trans ?_
  · rw [Shape.rowMajor_val_two, Shape.rowMajor_val_three]
    show (64 * b.val + n.val) * 112 + o.val = (b.val * 64 + n.val) * 112 + o.val
    omega
  refine (Ideal.matmul_constant_zero_apply _ none _ _ _).trans ?_
  rw [← Equiv.sum_comp (contrEquiv1 dot_S512x112_S112x112_S512x112_1_0_0_1_n_n 112 rfl rfl).symm]
  refine Finset.sum_congr rfl fun c _ => ?_
  have hl : dot_S512x112_S112x112_S512x112_1_0_0_1_n_n.lhsIdx (ix2 (row b n) o) ((contrEquiv1 dot_S512x112_S112x112_S512x112_1_0_0_1_n_n 112 rfl rfl).symm c) = ix2 (row b n) c := by
    funext a; refine Fin.ext ?_
    match a with
    | ⟨0, _⟩ => rfl
    | ⟨1, _⟩ => rfl
  have hr : dot_S512x112_S112x112_S512x112_1_0_0_1_n_n.rhsIdx (ix2 (row b n) o) ((contrEquiv1 dot_S512x112_S112x112_S512x112_1_0_0_1_n_n 112 rfl rfl).symm c) = ix2 c o := by
    funext a; refine Fin.ext ?_
    match a with
    | ⟨0, _⟩ => rfl
    | ⟨1, _⟩ => rfl
  rw [hl, hr, pay2_apply]
  exact congrArg (_ * ·) (transpose_ix2_apply _ _ c o)

/-! ## The per-head slices: 28 consecutive channels from 28 h -/

/-- A rank-3 array cut along its last axis from `o` reads, at (a, e, j), the source at (a, e, k) with k = o + j. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

theorem col_val (h : Fin 4) (d : Fin 28) : (Cert.Attn.col h d).val = 28 * h.val + d.val := rfl

theorem pay14_apply (y0 : Vec Ideal S1x8x64x112 .f32) (y1 : Vec Ideal S224x112 .f32) (b : Fin 8) (n : Fin 64) (d : Fin 28) :
    k0_pay14 (F := Ideal) y0 y1 (ix3 b n d) = k0_pay4 y0 y1 (ix3 b n (Cert.Attn.col 0 d)) := by
  unfold k0_pay14
  exact slice3_axis2_apply 0 _ _ b n d (Cert.Attn.col 0 d) (by rw [col_val]; show 28 * 0 + d.val = 0 + d.val; omega)

theorem pay15_apply (y0 : Vec Ideal S1x8x64x112 .f32) (y1 : Vec Ideal S224x112 .f32) (b : Fin 8) (n : Fin 64) (d : Fin 28) :
    k0_pay15 (F := Ideal) y0 y1 (ix3 b n d) = k0_pay5 y0 y1 (ix3 b n (Cert.Attn.col 0 d)) := by
  unfold k0_pay15
  exact slice3_axis2_apply 0 _ _ b n d (Cert.Attn.col 0 d) (by rw [col_val]; show 28 * 0 + d.val = 0 + d.val; omega)

theorem pay16_apply (v : FVec Ideal S8x64x112 .f32) (b : Fin 8) (n : Fin 64) (d : Fin 28) :
    k0_pay16 v (ix3 b n d) = v (ix3 b n (Cert.Attn.col 0 d)) := by
  unfold k0_pay16
  show extractStridedSlice S8x64x28 ![0, 0, 0] v slices_S8x64x112_o0_0_0_S8x64x28 (ix3 b n d) = _
  exact slice3_axis2_apply 0 _ _ b n d (Cert.Attn.col 0 d) (by rw [col_val]; show 28 * 0 + d.val = 0 + d.val; omega)

theorem pay21_apply (q : FVec Ideal S8x64x112 .f32) (b : Fin 8) (n : Fin 64) (d : Fin 28) :
    k0_pay21 q (ix3 b n d) = q (ix3 b n (Cert.Attn.col 1 d)) := by
  unfold k0_pay21
  exact slice3_axis2_apply 28 _ _ b n d (Cert.Attn.col 1 d) (by rw [col_val]; show 28 * 1 + d.val = 28 + d.val; omega)

theorem pay22_apply (k : FVec Ideal S8x64x112 .f32) (b : Fin 8) (n : Fin 64) (d : Fin 28) :
    k0_pay22 k (ix3 b n d) = k (ix3 b n (Cert.Attn.col 1 d)) := by
  unfold k0_pay22
  exact slice3_axis2_apply 28 _ _ b n d (Cert.Attn.col 1 d) (by rw [col_val]; show 28 * 1 + d.val = 28 + d.val; omega)

theorem pay23_apply (v : FVec Ideal S8x64x112 .f32) (b : Fin 8) (n : Fin 64) (d : Fin 28) :
    k0_pay23 v (ix3 b n d) = v (ix3 b n (Cert.Attn.col 1 d)) := by
  unfold k0_pay23
  show extractStridedSlice S8x64x28 ![0, 0, 28] v slices_S8x64x112_o0_0_28_S8x64x28 (ix3 b n d) = _
  exact slice3_axis2_apply 28 _ _ b n d (Cert.Attn.col 1 d) (by rw [col_val]; show 28 * 1 + d.val = 28 + d.val; omega)

theorem pay28_apply (q : FVec Ideal S8x64x112 .f32) (b : Fin 8) (n : Fin 64) (d : Fin 28) :
    k0_pay28 q (ix3 b n d) = q (ix3 b n (Cert.Attn.col 2 d)) := by
  unfold k0_pay28
  exact slice3_axis2_apply 56 _ _ b n d (Cert.Attn.col 2 d) (by rw [col_val]; show 28 * 2 + d.val = 56 + d.val; omega)

theorem pay29_apply (k : FVec Ideal S8x64x112 .f32) (b : Fin 8) (n : Fin 64) (d : Fin 28) :
    k0_pay29 k (ix3 b n d) = k (ix3 b n (Cert.Attn.col 2 d)) := by
  unfold k0_pay29
  exact slice3_axis2_apply 56 _ _ b n d (Cert.Attn.col 2 d) (by rw [col_val]; show 28 * 2 + d.val = 56 + d.val; omega)

theorem pay30_apply (v : FVec Ideal S8x64x112 .f32) (b : Fin 8) (n : Fin 64) (d : Fin 28) :
    k0_pay30 v (ix3 b n d) = v (ix3 b n (Cert.Attn.col 2 d)) := by
  unfold k0_pay30
  show extractStridedSlice S8x64x28 ![0, 0, 56] v slices_S8x64x112_o0_0_56_S8x64x28 (ix3 b n d) = _
  exact slice3_axis2_apply 56 _ _ b n d (Cert.Attn.col 2 d) (by rw [col_val]; show 28 * 2 + d.val = 56 + d.val; omega)

theorem pay36_apply (q : FVec Ideal S8x64x112 .f32) (b : Fin 8) (n : Fin 64) (d : Fin 28) :
    k0_pay36 q (ix3 b n d) = q (ix3 b n (Cert.Attn.col 3 d)) := by
  unfold k0_pay36
  exact slice3_axis2_apply 84 _ _ b n d (Cert.Attn.col 3 d) (by rw [col_val]; show 28 * 3 + d.val = 84 + d.val; omega)

theorem pay37_apply (k : FVec Ideal S8x64x112 .f32) (b : Fin 8) (n : Fin 64) (d : Fin 28) :
    k0_pay37 k (ix3 b n d) = k (ix3 b n (Cert.Attn.col 3 d)) := by
  unfold k0_pay37
  exact slice3_axis2_apply 84 _ _ b n d (Cert.Attn.col 3 d) (by rw [col_val]; show 28 * 3 + d.val = 84 + d.val; omega)

theorem pay38_apply (v : FVec Ideal S8x64x112 .f32) (b : Fin 8) (n : Fin 64) (d : Fin 28) :
    k0_pay38 v (ix3 b n d) = v (ix3 b n (Cert.Attn.col 3 d)) := by
  unfold k0_pay38
  show extractStridedSlice S8x64x28 ![0, 0, 84] v slices_S8x64x112_o0_0_84_S8x64x28 (ix3 b n d) = _
  exact slice3_axis2_apply 84 _ _ b n d (Cert.Attn.col 3 d) (by rw [col_val]; show 28 * 3 + d.val = 84 + d.val; omega)

/-! ## The parameters -/

theorem pay7_apply (y5 : Vec Ideal S1x28 .f32) (d : Fin 28) : k0_pay7 y5 (ix1 d) = y5 (ix2 (0 : Fin 1) d) := by
  unfold k0_pay7
  exact shapeCast_1a_a_apply _ _ d

theorem pay9_apply (y7 : Vec Ideal S1x28 .f32) (d : Fin 28) : k0_pay9 y7 (ix1 d) = y7 (ix2 (0 : Fin 1) d) := by
  unfold k0_pay9
  exact shapeCast_1a_a_apply _ _ d

theorem pay8_eq (y6 : Vec Ideal S1 .f32) : k0_pay8 y6 = y6 (ix1 (0 : Fin 1)) := by
  unfold k0_pay8 extractAt
  exact congrArg y6 (funext fun a => match a with | ⟨0, _⟩ => rfl)

theorem pay10_eq (y8 : Vec Ideal S1 .f32) : k0_pay10 y8 = y8 (ix1 (0 : Fin 1)) := by
  unfold k0_pay10 extractAt
  exact congrArg y8 (funext fun a => match a with | ⟨0, _⟩ => rfl)

theorem pay11_apply (y9 : Vec Ideal S1x64 .f32) (j : Fin 64) : k0_pay11 y9 (ix1 j) = y9 (ix2 (0 : Fin 1) j) := by
  unfold k0_pay11
  exact shapeCast_1a_a_apply _ _ j

theorem pay12_apply (y11 : Vec Ideal S1x64 .f32) (j : Fin 64) : k0_pay12 y11 (ix1 j) = y11 (ix2 (0 : Fin 1) j) := by
  unfold k0_pay12
  exact shapeCast_1a_a_apply _ _ j

/-- Two token numbers compared as 32-bit words: the one-bit answer, widened and read as a signed integer. -/
theorem eq_word (i j : Fin 64) :
    ((IntOp.cmpi .eq (BitVec.ofNat 32 i.val) (BitVec.ofNat 32 j.val)).setWidth 32).toInt = if i = j then 1 else 0 := by
  by_cases h : i = j
  · subst h
    have e : IntOp.cmpi .eq (BitVec.ofNat 32 i.val) (BitVec.ofNat 32 i.val) = 1#1 := by simp [IntOp.cmpi]
    rw [e, if_pos rfl]
    decide
  · have hne : BitVec.ofNat 32 i.val ≠ BitVec.ofNat 32 j.val := by
      intro hh
      apply h
      have := congrArg BitVec.toNat hh
      rw [BitVec.toNat_ofNat, BitVec.toNat_ofNat, Nat.mod_eq_of_lt (by omega), Nat.mod_eq_of_lt (by omega)] at this
      exact Fin.ext this
    have e : IntOp.cmpi .eq (BitVec.ofNat 32 i.val) (BitVec.ofNat 32 j.val) = 0#1 := by
      show BitVec.ofBool (BitVec.ofNat 32 i.val == BitVec.ofNat 32 j.val) = 0#1
      rw [beq_eq_false_iff_ne.2 hne]
      rfl
    rw [e, if_neg h]
    decide

/-- The 64 x 64 identity matrix the body builds from two coordinate arrays. -/
theorem pay13_apply (i j : Fin 64) : k0_pay13 (F := Ideal) (ix2 i j) = Cert.Attn.eye i j := by
  unfold k0_pay13
  show ((((IntOp.cmpi .eq (iota .tc S64x64 32 [0] iota_S64x64_d0_w32 (ix2 i j)) (iota .tc S64x64 32 [1] iota_S64x64_d1_w32 (ix2 i j))).setWidth 32).toInt : ℝ) : EReal) = _
  rw [iota_single_apply, iota_single_apply]
  show ((((IntOp.cmpi .eq (BitVec.ofNat 32 i.val) (BitVec.ofNat 32 j.val)).setWidth 32).toInt : ℝ) : EReal) = _
  rw [eq_word]
  unfold Cert.Attn.eye Cert.Attn.ind
  split <;> simp

end Cert.KernelIdeal.Body

end
-- ==== Proof.KTail.lean ====
/-
  The body's tail read at an index. The four heads' results [8,64,28] are laid side by side along the channel axis
  (channel c of the 112 is channel c mod 28 of head c div 28), the block is flattened to 512 rows (row 64 b + n),
  multiplied by the transposed output weight [112,112], the bias row is added to every row, and the result is
  viewed as [1,8,64,112].
-/
import proofs.«155316_j49177375539263_2_alg».proof.Proof.KVec
import proofs.«155316_j49177375539263_2_alg».proof.Proof.Spec
import proofs.«155316_j49177375539263_2_alg».proof.Proof.KProj
import Idealize.ShloMosaic.PureOps.Ideal.Laws
import Idealize.ShloMosaic.Lib.Pipeline.Value
import Idealize.ShloMosaic.Lib.ValueLayout

noncomputable section

open scoped BigOperators

namespace Cert.KernelIdeal.Body

open Idealize.ShloMosaic Idealize.ShloMosaic.ValueIdx Cert.KernelIdeal Cert.KernelIdeal.Gen

/-- One of four head results, by head number. -/
def pick4 (o0 o1 o2 o3 : FVec Ideal S8x64x28 .f32) : Fin 4 → FVec Ideal S8x64x28 .f32 := fun h =>
  match h with
  | ⟨0, _⟩ => o0
  | ⟨1, _⟩ => o1
  | ⟨2, _⟩ => o2
  | ⟨3, _⟩ => o3

/-- Four blocks of 28 channels side by side: channel c is channel c mod 28 of block c div 28. -/
theorem concat4_apply (o0 o1 o2 o3 : FVec Ideal S8x64x28 .f32) (b : Fin 8) (n : Fin 64) (c : Fin 112) :
    concatenate S8x64x112 2 [⟨S8x64x28, o0⟩, ⟨S8x64x28, o1⟩, ⟨S8x64x28, o2⟩, ⟨S8x64x28, o3⟩]
        concatenates_S8x64x28_S8x64x28_S8x64x28_S8x64x28_S8x64x112_d2 (ix3 b n c)
      = pick4 o0 o1 o2 o3 (Cert.Attn.headOf c) (ix3 b n (Cert.Attn.chanOf c)) := by
  have hc := c.isLt
  rcases (show c.val / 28 = 0 ∨ c.val / 28 = 1 ∨ c.val / 28 = 2 ∨ c.val / 28 = 3 by omega) with h | h | h | h
  · have hh : Cert.Attn.headOf c = (0 : Fin 4) := Fin.ext h
    rw [hh]
    exact concatenate_apply_piece (2 : Fin 3) [⟨S8x64x28, o0⟩, ⟨S8x64x28, o1⟩, ⟨S8x64x28, o2⟩, ⟨S8x64x28, o3⟩] _ (ix3 b n c) 0 (by show 0 < 4; omega) S8x64x28 o0 rfl rfl 0 rfl
      (ix3 b n (Cert.Attn.chanOf c))
      (fun bb hb => by
        match bb with
        | ⟨0, _⟩ => rfl
        | ⟨1, _⟩ => rfl
        | ⟨2, _⟩ => exact absurd rfl hb)
      (by show 0 + c.val % 28 = c.val; omega)
  · have hh : Cert.Attn.headOf c = (1 : Fin 4) := Fin.ext h
    rw [hh]
    exact concatenate_apply_piece (2 : Fin 3) [⟨S8x64x28, o0⟩, ⟨S8x64x28, o1⟩, ⟨S8x64x28, o2⟩, ⟨S8x64x28, o3⟩] _ (ix3 b n c) 1 (by show 1 < 4; omega) S8x64x28 o1 rfl rfl 28 rfl
      (ix3 b n (Cert.Attn.chanOf c))
      (fun bb hb => by
        match bb with
        | ⟨0, _⟩ => rfl
        | ⟨1, _⟩ => rfl
        | ⟨2, _⟩ => exact absurd rfl hb)
      (by show 28 + c.val % 28 = c.val; omega)
  · have hh : Cert.Attn.headOf c = (2 : Fin 4) := Fin.ext h
    rw [hh]
    exact concatenate_apply_piece (2 : Fin 3) [⟨S8x64x28, o0⟩, ⟨S8x64x28, o1⟩, ⟨S8x64x28, o2⟩, ⟨S8x64x28, o3⟩] _ (ix3 b n c) 2 (by show 2 < 4; omega) S8x64x28 o2 rfl rfl 56 rfl
      (ix3 b n (Cert.Attn.chanOf c))
      (fun bb hb => by
        match bb with
        | ⟨0, _⟩ => rfl
        | ⟨1, _⟩ => rfl
        | ⟨2, _⟩ => exact absurd rfl hb)
      (by show 56 + c.val % 28 = c.val; omega)
  · have hh : Cert.Attn.headOf c = (3 : Fin 4) := Fin.ext h
    rw [hh]
    exact concatenate_apply_piece (2 : Fin 3) [⟨S8x64x28, o0⟩, ⟨S8x64x28, o1⟩, ⟨S8x64x28, o2⟩, ⟨S8x64x28, o3⟩] _ (ix3 b n c) 3 (by show 3 < 4; omega) S8x64x28 o3 rfl rfl 84 rfl
      (ix3 b n (Cert.Attn.chanOf c))
      (fun bb hb => by
        match bb with
        | ⟨0, _⟩ => rfl
        | ⟨1, _⟩ => rfl
        | ⟨2, _⟩ => exact absurd rfl hb)
      (by show 84 + c.val % 28 = c.val; omega)

/-- The tail: the heads side by side against row o of the output weight, plus the bias. -/
theorem tailV_apply (o0 o1 o2 o3 : FVec Ideal S8x64x28 .f32) (w : Vec Ideal S112x112 .f32) (bias : Vec Ideal S112 .f32)
    (b : Fin 8) (n : Fin 64) (o : Fin 112) :
    tailV o0 o1 o2 o3 w bias (ix4 (0 : Fin 1) b n o)
      = (∑ c : Fin 112, pick4 o0 o1 o2 o3 (Cert.Attn.headOf c) (ix3 b n (Cert.Attn.chanOf c)) * w (ix2 o c)) + bias (ix1 o) := by
  unfold tailV
  refine (shapeCast_apply _ _ (ix4 (0 : Fin 1) b n o) (ix2 (row b n) o) ?_).trans ?_
  · rw [Shape.rowMajor_val_two, Shape.rowMajor_val_four]
    show (64 * b.val + n.val) * 112 + o.val = ((0 * 8 + b.val) * 64 + n.val) * 112 + o.val
    omega
  refine (addf_apply _ _ _).trans ?_
  refine congrArg₂ (· + ·) ?_ ?_
  · refine (Ideal.matmul_constant_zero_apply _ none _ _ _).trans ?_
    rw [← Equiv.sum_comp (contrEquiv1 dot_S512x112_S112x112_S512x112_1_0_0_1_n_n 112 rfl rfl).symm]
    refine Finset.sum_congr rfl fun c _ => ?_
    have hl : dot_S512x112_S112x112_S512x112_1_0_0_1_n_n.lhsIdx (ix2 (row b n) o) ((contrEquiv1 dot_S512x112_S112x112_S512x112_1_0_0_1_n_n 112 rfl rfl).symm c) = ix2 (row b n) c := by
      funext a; refine Fin.ext ?_
      match a with
      | ⟨0, _⟩ => rfl
      | ⟨1, _⟩ => rfl
    have hr : dot_S512x112_S112x112_S512x112_1_0_0_1_n_n.rhsIdx (ix2 (row b n) o) ((contrEquiv1 dot_S512x112_S112x112_S512x112_1_0_0_1_n_n 112 rfl rfl).symm c) = ix2 c o := by
      funext a; refine Fin.ext ?_
      match a with
      | ⟨0, _⟩ => rfl
      | ⟨1, _⟩ => rfl
    rw [hl, hr]
    refine congrArg₂ (· * ·) ?_ ?_
    · refine (truncf_apply (ψ := .bf16) _ bitsLt_bf16_f32 _).trans ?_
      refine (shapeCast_apply _ _ (ix2 (row b n) c) (ix3 b n c) ?_).trans ?_
      · rw [Shape.rowMajor_val_three, Shape.rowMajor_val_two]
        show (b.val * 64 + n.val) * 112 + c.val = (64 * b.val + n.val) * 112 + c.val
        omega
      exact concat4_apply o0 o1 o2 o3 b n c
    · exact transpose_ix2_apply _ _ c o
  · refine (broadcastTo_1b_ab_apply _ _ (row b n) o).trans ?_
    exact shapeCast_a_1a_apply _ _ (0 : Fin 1) o

end Cert.KernelIdeal.Body

end
-- ==== Proof.BodyStmt.lean ====
/-
  What one grid point's body computes, as a proposition: the block the body leaves in the output window's buffer is,
  token by token and channel by channel, the attention of the window it was handed — depth slice b of the block is
  the window function of depth slice b of the input block, under the weights as the body finds them.
-/
import proofs.«155316_j49177375539263_2_alg».proof.Proof.Gen.KernelIdeal.Frame
import proofs.«155316_j49177375539263_2_alg».proof.Proof.Spec

noncomputable section

namespace Cert.KernelIdeal.Body

open Idealize.ShloMosaic Idealize.ShloMosaic.ValueIdx Cert.KernelIdeal Cert.KernelIdeal.Gen

/-- The body's block at (0, b, n, o) is the window function of the input block's slice b. -/
def BodySpec : Prop :=
  ∀ (x0 : Vec Ideal S1x8x64x112 .f32) (x1 : Vec Ideal S224x112 .f32) (x2 : Vec Ideal S112x112 .f32) (x3 : Vec Ideal S112x112 .f32)
    (x4 : Vec Ideal S112 .f32) (x5 : Vec Ideal S1x28 .f32) (x6 : Vec Ideal S1 .f32) (x7 : Vec Ideal S1x28 .f32) (x8 : Vec Ideal S1 .f32)
    (x9 : Vec Ideal S1x64 .f32) (x10 : Vec Ideal S64x64 .f32) (x11 : Vec Ideal S1x64 .f32) (b : Fin 8) (n : Fin 64) (o : Fin 112),
    out0_12 (F := Ideal) x0 x1 x2 x3 x4 x5 x6 x7 x8 x9 x10 x11 (ix4 (0 : Fin 1) b n o)
      = Cert.Attn.winOut (Cert.Attn.ofArgs x1 x2 x3 x4 x5 x6 x7 x8 x9 x10 x11) (fun n' c' => x0 (ix4 (0 : Fin 1) b n' c')) n o

end Cert.KernelIdeal.Body

end
-- ==== Proof.Body.lean ====
/-
  One grid point's body, whole: the stored block is the four heads' outputs side by side against the output
  weights plus the bias, each head the specification's head of depth slice b of the projected tokens; the
  projections are sums over the 112 channels of the tokens against the rows of the stacked weights.
-/
import proofs.«155316_j49177375539263_2_alg».proof.Proof.KStruct
import proofs.«155316_j49177375539263_2_alg».proof.Proof.KHead
import proofs.«155316_j49177375539263_2_alg».proof.Proof.KProj
import proofs.«155316_j49177375539263_2_alg».proof.Proof.KTail
import proofs.«155316_j49177375539263_2_alg».proof.Proof.BodyStmt

noncomputable section

open scoped BigOperators

namespace Cert.KernelIdeal.Body

open Idealize.ShloMosaic Idealize.ShloMosaic.ValueIdx Cert.KernelIdeal Cert.KernelIdeal.Gen

theorem hz4 : (![0, 0, 0, 0] : Fin 4 → Nat) = fun _ => 0 := by funext a; fin_cases a <;> rfl
theorem hz2 : (![0, 0] : Fin 2 → Nat) = fun _ => 0 := by funext a; fin_cases a <;> rfl
theorem hz1 : (![0] : Fin 1 → Nat) = fun _ => 0 := by funext a; fin_cases a <;> rfl

section
variable (y0 : Vec Ideal S1x8x64x112 .f32) (y1 : Vec Ideal S224x112 .f32) (y2 y3 : Vec Ideal S112x112 .f32) (y4 : Vec Ideal S112 .f32)
  (y5 : Vec Ideal S1x28 .f32) (y6 : Vec Ideal S1 .f32) (y7 : Vec Ideal S1x28 .f32) (y8 : Vec Ideal S1 .f32) (y9 : Vec Ideal S1x64 .f32)
  (y10 : Vec Ideal S64x64 .f32) (y11 : Vec Ideal S1x64 .f32)

/-- The weights as the body finds them. -/
abbrev PP : Cert.Attn.Params := Cert.Attn.ofArgs y1 y2 y3 y4 y5 y6 y7 y8 y9 y10 y11
/-- Depth slice b of the token block. -/
abbrev XX (b : Fin 8) : Fin 64 → Fin 112 → EReal := fun n' c' => y0 (ix4 (0 : Fin 1) b n' c')

theorem q_eq (b : Fin 8) (n : Fin 64) (o : Fin 112) :
    k0_pay4 (F := Ideal) y0 y1 (ix3 b n o) = Cert.Attn.Qf (PP y1 y2 y3 y4 y5 y6 y7 y8 y9 y10 y11) (XX y0 b) n o := pay4_apply y0 y1 b n o
theorem k_eq (b : Fin 8) (n : Fin 64) (o : Fin 112) :
    k0_pay5 (F := Ideal) y0 y1 (ix3 b n o) = Cert.Attn.Kf (PP y1 y2 y3 y4 y5 y6 y7 y8 y9 y10 y11) (XX y0 b) n o := pay5_apply y0 y1 b n o
theorem v_eq (b : Fin 8) (n : Fin 64) (o : Fin 112) :
    k0_pay6 (F := Ideal) y0 y2 (ix3 b n o) = Cert.Attn.Vf (PP y1 y2 y3 y4 y5 y6 y7 y8 y9 y10 y11) (XX y0 b) n o := pay6_apply y0 y2 b n o

/-- Each head of the body is the specification's head. -/
theorem head_eq (qh kh : FVec Ideal S8x64x28 .f32) (vh : FVec Ideal S8x64x28 .bf16) (h : Fin 4) (b : Fin 8)
    (hq : ∀ i e, qh (ix3 b i e) = Cert.Attn.Qf (PP y1 y2 y3 y4 y5 y6 y7 y8 y9 y10 y11) (XX y0 b) i (Cert.Attn.col h e))
    (hk : ∀ i e, kh (ix3 b i e) = Cert.Attn.Kf (PP y1 y2 y3 y4 y5 y6 y7 y8 y9 y10 y11) (XX y0 b) i (Cert.Attn.col h e))
    (hv : ∀ i e, vh (ix3 b i e) = Cert.Attn.Vf (PP y1 y2 y3 y4 y5 y6 y7 y8 y9 y10 y11) (XX y0 b) i (Cert.Attn.col h e))
    (n : Fin 64) (d : Fin 28) :
    headV qh kh vh (k0_pay7 y5) (k0_pay8 y6) (k0_pay9 y7) (k0_pay10 y8) (k0_pay11 y9) y10 (k0_pay12 y11) (k0_pay13 (F := Ideal)) (ix3 b n d)
      = Cert.Attn.headAt (PP y1 y2 y3 y4 y5 y6 y7 y8 y9 y10 y11) (XX y0 b) h n d := by
  rw [headV_apply (PP y1 y2 y3 y4 y5 y6 y7 y8 y9 y10 y11) qh kh vh _ _ _ _ _ _ _ _
    (fun d => pay7_apply y5 d) (pay8_eq y6) (fun d => pay9_apply y7 d) (pay10_eq y8) (fun j => pay11_apply y9 j)
    (fun m n => rfl) (fun m => pay12_apply y11 m) (fun i j => pay13_apply i j) b n d]
  unfold Cert.Attn.headAt
  have e1 : sl qh b = fun i e => Cert.Attn.Qf (PP y1 y2 y3 y4 y5 y6 y7 y8 y9 y10 y11) (XX y0 b) i (Cert.Attn.col h e) := by
    funext i e; exact hq i e
  have e2 : sl kh b = fun i e => Cert.Attn.Kf (PP y1 y2 y3 y4 y5 y6 y7 y8 y9 y10 y11) (XX y0 b) i (Cert.Attn.col h e) := by
    funext i e; exact hk i e
  have e3 : sl vh b = fun i e => Cert.Attn.Vf (PP y1 y2 y3 y4 y5 y6 y7 y8 y9 y10 y11) (XX y0 b) i (Cert.Attn.col h e) := by
    funext i e; exact hv i e
  rw [e1, e2, e3]

/-- The body's value at (0, b, n, o). -/
theorem bodyV_apply (b : Fin 8) (n : Fin 64) (o : Fin 112) :
    bodyV y0 y1 y2 y3 y4 y5 y6 y7 y8 y9 y10 y11 (ix4 (0 : Fin 1) b n o)
      = Cert.Attn.winOut (PP y1 y2 y3 y4 y5 y6 y7 y8 y9 y10 y11) (XX y0 b) n o := by
  unfold bodyV Cert.Attn.winOut
  rw [tailV_apply]
  refine congrArg₂ (· + ·) (Finset.sum_congr rfl fun c _ => congrArg₂ (· * ·) ?_ rfl) rfl
  unfold Cert.Attn.headsOut
  have h0 := fun n d => head_eq y0 y1 y2 y3 y4 y5 y6 y7 y8 y9 y10 y11 (k0_pay14 y0 y1) (k0_pay15 y0 y1) (k0_pay16 (k0_pay6 y0 y2)) 0 b
    (fun i e => (pay14_apply y0 y1 b i e).trans (q_eq y0 y1 y2 y3 y4 y5 y6 y7 y8 y9 y10 y11 b i _))
    (fun i e => (pay15_apply y0 y1 b i e).trans (k_eq y0 y1 y2 y3 y4 y5 y6 y7 y8 y9 y10 y11 b i _))
    (fun i e => (pay16_apply _ b i e).trans (v_eq y0 y1 y2 y3 y4 y5 y6 y7 y8 y9 y10 y11 b i _)) n d
  have h1 := fun n d => head_eq y0 y1 y2 y3 y4 y5 y6 y7 y8 y9 y10 y11 (k0_pay21 (k0_pay4 y0 y1)) (k0_pay22 (k0_pay5 y0 y1)) (k0_pay23 (k0_pay6 y0 y2)) 1 b
    (fun i e => (pay21_apply _ b i e).trans (q_eq y0 y1 y2 y3 y4 y5 y6 y7 y8 y9 y10 y11 b i _))
    (fun i e => (pay22_apply _ b i e).trans (k_eq y0 y1 y2 y3 y4 y5 y6 y7 y8 y9 y10 y11 b i _))
    (fun i e => (pay23_apply _ b i e).trans (v_eq y0 y1 y2 y3 y4 y5 y6 y7 y8 y9 y10 y11 b i _)) n d
  have h2 := fun n d => head_eq y0 y1 y2 y3 y4 y5 y6 y7 y8 y9 y10 y11 (k0_pay28 (k0_pay4 y0 y1)) (k0_pay29 (k0_pay5 y0 y1)) (k0_pay30 (k0_pay6 y0 y2)) 2 b
    (fun i e => (pay28_apply _ b i e).trans (q_eq y0 y1 y2 y3 y4 y5 y6 y7 y8 y9 y10 y11 b i _))
    (fun i e => (pay29_apply _ b i e).trans (k_eq y0 y1 y2 y3 y4 y5 y6 y7 y8 y9 y10 y11 b i _))
    (fun i e => (pay30_apply _ b i e).trans (v_eq y0 y1 y2 y3 y4 y5 y6 y7 y8 y9 y10 y11 b i _)) n d
  have h3 := fun n d => head_eq y0 y1 y2 y3 y4 y5 y6 y7 y8 y9 y10 y11 (k0_pay36 (k0_pay4 y0 y1)) (k0_pay37 (k0_pay5 y0 y1)) (k0_pay38 (k0_pay6 y0 y2)) 3 b
    (fun i e => (pay36_apply _ b i e).trans (q_eq y0 y1 y2 y3 y4 y5 y6 y7 y8 y9 y10 y11 b i _))
    (fun i e => (pay37_apply _ b i e).trans (k_eq y0 y1 y2 y3 y4 y5 y6 y7 y8 y9 y10 y11 b i _))
    (fun i e => (pay38_apply _ b i e).trans (v_eq y0 y1 y2 y3 y4 y5 y6 y7 y8 y9 y10 y11 b i _)) n d
  generalize Cert.Attn.headOf c = h
  match h with
  | ⟨0, _⟩ => exact h0 n _
  | ⟨1, _⟩ => exact h1 n _
  | ⟨2, _⟩ => exact h2 n _
  | ⟨3, _⟩ => exact h3 n _

end

/-- What one grid point's body leaves in the output block. -/
theorem body_spec : BodySpec := by
  intro x0 x1 x2 x3 x4 x5 x6 x7 x8 x9 x10 x11 b n o
  rw [out0_12_eq, View.canon_unit_zero (S := S1x8x64x112) hz4]
  simp only [View.ld_unit_zero (S := S1x8x64x112) hz4, View.ld_unit_zero (S := S224x112) hz2, View.ld_unit_zero (S := S112x112) hz2, View.ld_unit_zero (S := S1x28) hz2, View.ld_unit_zero (S := S1x64) hz2, View.ld_unit_zero (S := S64x64) hz2, View.ld_unit_zero (S := S1) hz1, View.ld_unit_zero (S := S112) hz1]
  exact bodyV_apply x0 x1 x2 x3 x4 x5 x6 x7 x8 x9 x10 x11 b n o

end Cert.KernelIdeal.Body

end
-- ==== Proof.KHostIdx.lean ====
/-
  Rank-7 indices by coordinates, and the row-major position of a rank-7 index as one sum of products: the forms the
  image's seven-axis splitting (two spatial axes cut into window and offset) is read through.
-/
import Idealize.ShloMosaic.Lib.ValueIdx
import Idealize.ShloMosaic.Lib.ValueIdxRank6

namespace Cert.KernelIdeal.KHost

open Idealize.ShloMosaic Idealize.ShloMosaic.ValueIdx

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

end Cert.KernelIdeal.KHost
-- ==== Proof.KHostIn.lean ====
/-
  The image on its way to the windows, as a function of arrays and index by index.

  The program first rolls the image by 4 along both spatial axes (each roll is written as the last 4 rows or columns set
  in front of the first 124), then splits each spatial axis of extent 128 into 16 windows of 8, brings the two window axes
  to the front and the channels to the back, and merges (window row, window column) into one axis of 256 windows and
  (row in window, column in window) into one axis of 64 tokens. Read at window w, depth b, token n, channel ch this is the
  image at channel ch, depth b, and the pixel 4 before (cyclically) row (w / 16) * 8 + n / 8, column (w % 16) * 8 + n % 8.
-/
import proofs.«155316_j49177375539263_2_alg».proof.Proof.Gen.KernelIdeal
import proofs.«155316_j49177375539263_2_alg».proof.Proof.KHostIdx
import Idealize.ShloMosaic.Lib.Pipeline.Value

noncomputable section

namespace Cert.KernelIdeal.KHost

open Idealize.ShloMosaic Idealize.ShloMosaic.ValueIdx Cert.KernelIdeal Cert.KernelIdeal.Gen

variable {α : Type}

/-- The roll by 4 along the rows: the last 4 rows, then the first 124. -/
def rollH (x : S1x112x8x128x128.Idx → α) : S1x112x8x128x128.Idx → α :=
  concatenate S1x112x8x128x128 3
    [⟨S1x112x8x4x128, extractStridedSlice S1x112x8x4x128 ![0, 0, 0, 124, 0] x slices_S1x112x8x128x128_S1x112x8x4x128_0_0_0_124_0⟩,
     ⟨S1x112x8x124x128, extractStridedSlice S1x112x8x124x128 ![0, 0, 0, 0, 0] x slices_S1x112x8x128x128_S1x112x8x124x128_0_0_0_0_0⟩]
    concatenates_S1x112x8x4x128_S1x112x8x124x128_S1x112x8x128x128_d3

/-- The roll by 4 along the columns: the last 4 columns, then the first 124. -/
def rollW (x : S1x112x8x128x128.Idx → α) : S1x112x8x128x128.Idx → α :=
  concatenate S1x112x8x128x128 4
    [⟨S1x112x8x128x4, extractStridedSlice S1x112x8x128x4 ![0, 0, 0, 0, 124] x slices_S1x112x8x128x128_S1x112x8x128x4_0_0_0_0_124⟩,
     ⟨S1x112x8x128x124, extractStridedSlice S1x112x8x128x124 ![0, 0, 0, 0, 0] x slices_S1x112x8x128x128_S1x112x8x128x124_0_0_0_0_0⟩]
    concatenates_S1x112x8x128x4_S1x112x8x128x124_S1x112x8x128x128_d4

/-- Row H of the rolled image is row H + 124 (mod 128) of the image. -/
theorem rollH_apply (x : S1x112x8x128x128.Idx → α) (z : Fin 1) (ch : Fin 112) (b : Fin 8) (H W : Fin 128) (H' : Fin 128)
    (hH : H'.val = (H.val + 124) % 128) : rollH x (ix5 z ch b H W) = x (ix5 z ch b H' W) := by
  unfold rollH
  by_cases h : H.val < 4
  · refine (concatenate_pair_apply_left (s₁ := S1x112x8x4x128) (s₂ := S1x112x8x124x128) (3 : Fin S1x112x8x128x128.rank) _ _ _ (ix5 z ch b H W) rfl
      (ix5 z ch b (⟨H.val, h⟩ : Fin 4) W) (fun a => ?_)).trans ?_
    · match a with
      | ⟨0, _⟩ => rfl
      | ⟨1, _⟩ => rfl
      | ⟨2, _⟩ => rfl
      | ⟨3, _⟩ => rfl
      | ⟨4, _⟩ => rfl
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H'.val = 124 + H.val; omega
      | ⟨4, _⟩ => show W.val = 0 + W.val; omega
  · have hlt : H.val < 128 := H.isLt
    refine (concatenate_pair_apply_right (s₁ := S1x112x8x4x128) (s₂ := S1x112x8x124x128) (3 : Fin S1x112x8x128x128.rank) _ _ _ (ix5 z ch b H W) rfl rfl
      (ix5 z ch b (⟨H.val - 4, by omega⟩ : Fin 124) W) (fun a hne => ?_) ?_).trans ?_
    · match a, hne with
      | ⟨0, _⟩, _ => rfl
      | ⟨1, _⟩, _ => rfl
      | ⟨2, _⟩, _ => rfl
      | ⟨3, _⟩, hne => exact absurd rfl hne
      | ⟨4, _⟩, _ => rfl
    · show H.val - 4 + 4 = H.val; omega
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H'.val = 0 + (H.val - 4); omega
      | ⟨4, _⟩ => show W.val = 0 + W.val; omega

/-- Column W of the rolled image is column W + 124 (mod 128) of the image. -/
theorem rollW_apply (x : S1x112x8x128x128.Idx → α) (z : Fin 1) (ch : Fin 112) (b : Fin 8) (H W : Fin 128) (W' : Fin 128)
    (hW : W'.val = (W.val + 124) % 128) : rollW x (ix5 z ch b H W) = x (ix5 z ch b H W') := by
  unfold rollW
  by_cases h : W.val < 4
  · refine (concatenate_pair_apply_left (s₁ := S1x112x8x128x4) (s₂ := S1x112x8x128x124) (4 : Fin S1x112x8x128x128.rank) _ _ _ (ix5 z ch b H W) rfl
      (ix5 z ch b H (⟨W.val, h⟩ : Fin 4)) (fun a => ?_)).trans ?_
    · match a with
      | ⟨0, _⟩ => rfl
      | ⟨1, _⟩ => rfl
      | ⟨2, _⟩ => rfl
      | ⟨3, _⟩ => rfl
      | ⟨4, _⟩ => rfl
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H.val = 0 + H.val; omega
      | ⟨4, _⟩ => show W'.val = 124 + W.val; omega
  · have hlt : W.val < 128 := W.isLt
    refine (concatenate_pair_apply_right (s₁ := S1x112x8x128x4) (s₂ := S1x112x8x128x124) (4 : Fin S1x112x8x128x128.rank) _ _ _ (ix5 z ch b H W) rfl rfl
      (ix5 z ch b H (⟨W.val - 4, by omega⟩ : Fin 124)) (fun a hne => ?_) ?_).trans ?_
    · match a, hne with
      | ⟨0, _⟩, _ => rfl
      | ⟨1, _⟩, _ => rfl
      | ⟨2, _⟩, _ => rfl
      | ⟨3, _⟩, _ => rfl
      | ⟨4, _⟩, hne => exact absurd rfl hne
    · show W.val - 4 + 4 = W.val; omega
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H.val = 0 + H.val; omega
      | ⟨4, _⟩ => show W'.val = 0 + (W.val - 4); omega

/-- The image cut into 256 windows of 64 tokens: each spatial axis split into (window, offset), the window axes in
    front, the channels last, then (window row, window column) and (row offset, column offset) merged. -/
def toWin (x : S1x112x8x128x128.Idx → α) : S256x8x64x112.Idx → α :=
  shapeCast S256x8x64x112
    (transpose S1x16x16x8x8x8x112 [0, 3, 5, 2, 4, 6, 1]
      (shapeCast S1x112x8x16x8x16x8 x shapeCasts_S1x112x8x128x128_S1x112x8x16x8x16x8)
      transposes_S1x112x8x16x8x16x8_S1x16x16x8x8x8x112_0_3_5_2_4_6_1)
    shapeCasts_S1x16x16x8x8x8x112_S256x8x64x112

/-- Window w, token n is the pixel in row (w / 16) * 8 + n / 8 and column (w % 16) * 8 + n % 8. -/
theorem toWin_apply (x : S1x112x8x128x128.Idx → α) (w : Fin 256) (b : Fin 8) (n : Fin 64) (ch : Fin 112) (H W : Fin 128)
    (hH : H.val = (w.val / 16) * 8 + n.val / 8) (hW : W.val = (w.val % 16) * 8 + n.val % 8) :
    toWin x (ix4 w b n ch) = x (ix5 (0 : Fin 1) ch b H W) := by
  unfold toWin
  have hw : w.val < 256 := w.isLt
  have hn : n.val < 64 := n.isLt
  have hb : b.val < 8 := b.isLt
  have hc : ch.val < 112 := ch.isLt
  refine (shapeCast_apply _ _ (ix4 w b n ch)
    (ix7 (0 : Fin 1) (⟨w.val / 16, by omega⟩ : Fin 16) (⟨w.val % 16, by omega⟩ : Fin 16) b (⟨n.val / 8, by omega⟩ : Fin 8)
      (⟨n.val % 8, by omega⟩ : Fin 8) ch) ?_).trans ?_
  · rw [rowMajor_val_seven, Shape.rowMajor_val_four]
    exact (by omega : (((((0 * 16 + w.val / 16) * 16 + w.val % 16) * 8 + b.val) * 8 + n.val / 8) * 8 + n.val % 8) * 112 + ch.val
      = ((w.val * 8 + b.val) * 64 + n.val) * 112 + ch.val)
  refine (transpose_apply _ _ _ _
    (ix7 (0 : Fin 1) ch b (⟨w.val / 16, by omega⟩ : Fin 16) (⟨n.val / 8, by omega⟩ : Fin 8) (⟨w.val % 16, by omega⟩ : Fin 16)
      (⟨n.val % 8, by omega⟩ : Fin 8)) (fun a => ?_)).trans ?_
  · match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  refine shapeCast_apply x _ _ (ix5 (0 : Fin 1) ch b H W) ?_
  rw [Shape.rowMajor_val_five, rowMajor_val_seven]
  exact (by omega : (((0 * 112 + ch.val) * 8 + b.val) * 128 + H.val) * 128 + W.val
    = (((((0 * 112 + ch.val) * 8 + b.val) * 16 + w.val / 16) * 8 + n.val / 8) * 16 + w.val % 16) * 8 + n.val % 8)

/-- The tokens' array as the program computes it from the image: both rolls, then the cut into windows. -/
def pre (x : S1x112x8x128x128.Idx → α) : S256x8x64x112.Idx → α := toWin (rollW (rollH x))

/-- Read at (window, depth, token, channel): the image 4 rows and 4 columns before (cyclically) the token's pixel. -/
theorem pre_apply (x : S1x112x8x128x128.Idx → α) (w : Fin 256) (b : Fin 8) (n : Fin 64) (ch : Fin 112) (H W : Fin 128)
    (hH : H.val = ((w.val / 16) * 8 + n.val / 8 + 124) % 128) (hW : W.val = ((w.val % 16) * 8 + n.val % 8 + 124) % 128) :
    pre x (ix4 w b n ch) = x (ix5 (0 : Fin 1) ch b H W) := by
  unfold pre
  have hw : w.val < 256 := w.isLt
  have hn : n.val < 64 := n.isLt
  refine (toWin_apply _ w b n ch (⟨(w.val / 16) * 8 + n.val / 8, by omega⟩ : Fin 128)
    (⟨(w.val % 16) * 8 + n.val % 8, by omega⟩ : Fin 128) rfl rfl).trans ?_
  refine (rollW_apply _ 0 ch b _ _ W hW).trans ?_
  exact rollH_apply x 0 ch b _ _ H hH

end Cert.KernelIdeal.KHost

end
-- ==== Proof.KHostGrid.lean ====
/-
  The one launch, from its grid points to the whole window array.

  The grid has 256 points. Point t is handed window t of the tokens' array (all 8 depth slices, 64 tokens, 112 channels)
  and every weight array whole, and what its body leaves is written to window t of the result array. So if each body
  leaves, depth slice by depth slice, the window function of what it was handed, the result array after the launch is the
  window function of each window of the tokens, and the tokens are the rolled image cut into windows.
-/
import proofs.«155316_j49177375539263_2_alg».proof.Proof.Gen.KernelIdeal.Frame
import proofs.«155316_j49177375539263_2_alg».proof.Proof.Spec
import proofs.«155316_j49177375539263_2_alg».proof.Proof.BodyStmt
import proofs.«155316_j49177375539263_2_alg».proof.Proof.KHostIn
import Idealize.ShloMosaic.Lib.Pipeline.Value
import Idealize.ShloMosaic.Lib.Tactic

noncomputable section

namespace Cert.KernelIdeal.KHost

open Idealize.ShloMosaic Idealize.ShloMosaic.ValueIdx Cert.KernelIdeal Cert.KernelIdeal.Gen

open Idealize.ShloMosaic.TcCoe Idealize.SL.Sem
open Idealize.ShloMosaic.Pipeline (Dat)

variable (m : (ℓ : Loc nD τ sig) → Buf (Elt Ideal) ℓ)

/-! ## The tokens' array as the launch finds it -/

/-- Window w, depth b, token n, channel ch of the tokens' array, as the host lines before the launch leave it, is the
    image's token: the cut into windows, then the two rolls, each read at the index. -/
theorem tokens_eq (c : Dev nD) (w : Fin 256) (b : Fin 8) (n : Fin 64) (ch : Fin 112) :
    (Gen.V m c main_v3 : S256x8x64x112.Idx → EReal) (ix4 w b n ch)
      = Cert.Attn.tok (Cert.Attn.imgOf (m ((c : Thread nD τ).loc main_arg0))) w b n ch := by
  have hw : w.val < 256 := w.isLt
  have hn : n.val < 64 := n.isLt
  dsimp only [Gen.V, Gen.V0]
  simp only [Gen.hostOps0, Gen.hostOps0_1, List.flatten_cons, List.flatten_nil, List.append_nil, List.cons_append,
    List.nil_append]
  after_results
  refine (toWin_apply _ w b n ch (⟨(w.val / 16) * 8 + n.val / 8, by omega⟩ : Fin 128)
    (⟨(w.val % 16) * 8 + n.val % 8, by omega⟩ : Fin 128) rfl rfl).trans ?_
  dsimp only [StableHlo.TRef.toBuf, StableHlo.TRef.ofBuf, cast_eq]
  refine (rollW_apply _ 0 ch b _ _ (Cert.Attn.srcW w n) ?_).trans ?_
  · rfl
  refine rollH_apply _ 0 ch b _ _ (Cert.Attn.srcH w n) ?_
  rfl

/-! ## The index maps over the grid -/

/-- The tokens' and the result's block at point t is block (t, 0, 0, 0). -/
theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx12 : ∀ t : Fin cfg0.N, win0_12.index t (0 : Fin 4) = t.val ∧ win0_12.index t (1 : Fin 4) = 0
    ∧ win0_12.index t (2 : Fin 4) = 0 ∧ win0_12.index t (3 : Fin 4) = 0 :=
  (by decide +kernel : ∀ t : Fin grid0.N, _)
/-- Every weight's block is block 0 on every axis, at every point. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)

/-! ## The blocks a point is handed -/

/-- A weight's block, read off any contents of the weight's array, is the contents: the block is the whole array. -/
theorem blk1_read (f : S224x112.Idx → EReal) (t : Fin cfg0.N) :
    (((cfg0.win 1).blk t).view.read (Elt Ideal) f : Vec Ideal S224x112 .f32) = f := by
  have hz : (fun a => win0_1.index t a * main_arg1.ty.shape.size a) = fun _ => 0 := funext fun a => by
    match a with
    | ⟨0, _⟩ => show win0_1.index t (0 : Fin 2) * 224 = 0; rw [(idx1 t).1]
    | ⟨1, _⟩ => show win0_1.index t (1 : Fin 2) * 112 = 0; rw [(idx1 t).2]
  exact Memref.read_access_unit_zero (Elt Ideal) main_arg1 hz (fun a => by rw [congrFun hz a]; simp) f
theorem iblk1 (c : Dev nD) (t : Fin cfg0.N) :
    (iblk m c 1 t : Vec Ideal S224x112 .f32) = m ((c : Thread nD τ).loc main_arg1) :=
  (blk1_read (Gen.V m c main_arg1) t).trans (V_main_arg1 m c)
theorem blk2_read (f : S112x112.Idx → EReal) (t : Fin cfg0.N) :
    (((cfg0.win 2).blk t).view.read (Elt Ideal) f : Vec Ideal S112x112 .f32) = f := by
  have hz : (fun a => win0_2.index t a * main_arg2.ty.shape.size a) = fun _ => 0 := funext fun a => by
    match a with
    | ⟨0, _⟩ => show win0_2.index t (0 : Fin 2) * 112 = 0; rw [(idx2 t).1]
    | ⟨1, _⟩ => show win0_2.index t (1 : Fin 2) * 112 = 0; rw [(idx2 t).2]
  exact Memref.read_access_unit_zero (Elt Ideal) main_arg2 hz (fun a => by rw [congrFun hz a]; simp) f
theorem iblk2 (c : Dev nD) (t : Fin cfg0.N) :
    (iblk m c 2 t : Vec Ideal S112x112 .f32) = m ((c : Thread nD τ).loc main_arg2) :=
  (blk2_read (Gen.V m c main_arg2) t).trans (V_main_arg2 m c)
theorem blk3_read (f : S112x112.Idx → EReal) (t : Fin cfg0.N) :
    (((cfg0.win 3).blk t).view.read (Elt Ideal) f : Vec Ideal S112x112 .f32) = f := by
  have hz : (fun a => win0_3.index t a * main_arg3.ty.shape.size a) = fun _ => 0 := funext fun a => by
    match a with
    | ⟨0, _⟩ => show win0_3.index t (0 : Fin 2) * 112 = 0; rw [(idx3 t).1]
    | ⟨1, _⟩ => show win0_3.index t (1 : Fin 2) * 112 = 0; rw [(idx3 t).2]
  exact Memref.read_access_unit_zero (Elt Ideal) main_arg3 hz (fun a => by rw [congrFun hz a]; simp) f
theorem iblk3 (c : Dev nD) (t : Fin cfg0.N) :
    (iblk m c 3 t : Vec Ideal S112x112 .f32) = m ((c : Thread nD τ).loc main_arg3) :=
  (blk3_read (Gen.V m c main_arg3) t).trans (V_main_arg3 m c)
theorem blk4_read (f : S112.Idx → EReal) (t : Fin cfg0.N) :
    (((cfg0.win 4).blk t).view.read (Elt Ideal) f : Vec Ideal S112 .f32) = f := by
  have hz : (fun a => win0_4.index t a * main_arg4.ty.shape.size a) = fun _ => 0 := funext fun a => by
    match a with
    | ⟨0, _⟩ => show win0_4.index t (0 : Fin 1) * 112 = 0; rw [idx4 t]
  exact Memref.read_access_unit_zero (Elt Ideal) main_arg4 hz (fun a => by rw [congrFun hz a]; simp) f
theorem iblk4 (c : Dev nD) (t : Fin cfg0.N) :
    (iblk m c 4 t : Vec Ideal S112 .f32) = m ((c : Thread nD τ).loc main_arg4) :=
  (blk4_read (Gen.V m c main_arg4) t).trans (V_main_arg4 m c)
theorem blk5_read (f : S1x28.Idx → EReal) (t : Fin cfg0.N) :
    (((cfg0.win 5).blk t).view.read (Elt Ideal) f : Vec Ideal S1x28 .f32) = f := by
  have hz : (fun a => win0_5.index t a * main_arg5.ty.shape.size a) = fun _ => 0 := funext fun a => by
    match a with
    | ⟨0, _⟩ => show win0_5.index t (0 : Fin 2) * 1 = 0; rw [(idx5 t).1]
    | ⟨1, _⟩ => show win0_5.index t (1 : Fin 2) * 28 = 0; rw [(idx5 t).2]
  exact Memref.read_access_unit_zero (Elt Ideal) main_arg5 hz (fun a => by rw [congrFun hz a]; simp) f
theorem iblk5 (c : Dev nD) (t : Fin cfg0.N) :
    (iblk m c 5 t : Vec Ideal S1x28 .f32) = m ((c : Thread nD τ).loc main_arg5) :=
  (blk5_read (Gen.V m c main_arg5) t).trans (V_main_arg5 m c)
theorem blk6_read (f : S1.Idx → EReal) (t : Fin cfg0.N) :
    (((cfg0.win 6).blk t).view.read (Elt Ideal) f : Vec Ideal S1 .f32) = f := by
  have hz : (fun a => win0_6.index t a * main_arg6.ty.shape.size a) = fun _ => 0 := funext fun a => by
    match a with
    | ⟨0, _⟩ => show win0_6.index t (0 : Fin 1) * 1 = 0; rw [idx6 t]
  exact Memref.read_access_unit_zero (Elt Ideal) main_arg6 hz (fun a => by rw [congrFun hz a]; simp) f
theorem iblk6 (c : Dev nD) (t : Fin cfg0.N) :
    (iblk m c 6 t : Vec Ideal S1 .f32) = m ((c : Thread nD τ).loc main_arg6) :=
  (blk6_read (Gen.V m c main_arg6) t).trans (V_main_arg6 m c)
theorem blk7_read (f : S1x28.Idx → EReal) (t : Fin cfg0.N) :
    (((cfg0.win 7).blk t).view.read (Elt Ideal) f : Vec Ideal S1x28 .f32) = f := by
  have hz : (fun a => win0_7.index t a * main_arg7.ty.shape.size a) = fun _ => 0 := funext fun a => by
    match a with
    | ⟨0, _⟩ => show win0_7.index t (0 : Fin 2) * 1 = 0; rw [(idx7 t).1]
    | ⟨1, _⟩ => show win0_7.index t (1 : Fin 2) * 28 = 0; rw [(idx7 t).2]
  exact Memref.read_access_unit_zero (Elt Ideal) main_arg7 hz (fun a => by rw [congrFun hz a]; simp) f
theorem iblk7 (c : Dev nD) (t : Fin cfg0.N) :
    (iblk m c 7 t : Vec Ideal S1x28 .f32) = m ((c : Thread nD τ).loc main_arg7) :=
  (blk7_read (Gen.V m c main_arg7) t).trans (V_main_arg7 m c)
theorem blk8_read (f : S1.Idx → EReal) (t : Fin cfg0.N) :
    (((cfg0.win 8).blk t).view.read (Elt Ideal) f : Vec Ideal S1 .f32) = f := by
  have hz : (fun a => win0_8.index t a * main_arg8.ty.shape.size a) = fun _ => 0 := funext fun a => by
    match a with
    | ⟨0, _⟩ => show win0_8.index t (0 : Fin 1) * 1 = 0; rw [idx8 t]
  exact Memref.read_access_unit_zero (Elt Ideal) main_arg8 hz (fun a => by rw [congrFun hz a]; simp) f
theorem iblk8 (c : Dev nD) (t : Fin cfg0.N) :
    (iblk m c 8 t : Vec Ideal S1 .f32) = m ((c : Thread nD τ).loc main_arg8) :=
  (blk8_read (Gen.V m c main_arg8) t).trans (V_main_arg8 m c)
theorem blk9_read (f : S1x64.Idx → EReal) (t : Fin cfg0.N) :
    (((cfg0.win 9).blk t).view.read (Elt Ideal) f : Vec Ideal S1x64 .f32) = f := by
  have hz : (fun a => win0_9.index t a * main_arg9.ty.shape.size a) = fun _ => 0 := funext fun a => by
    match a with
    | ⟨0, _⟩ => show win0_9.index t (0 : Fin 2) * 1 = 0; rw [(idx9 t).1]
    | ⟨1, _⟩ => show win0_9.index t (1 : Fin 2) * 64 = 0; rw [(idx9 t).2]
  exact Memref.read_access_unit_zero (Elt Ideal) main_arg9 hz (fun a => by rw [congrFun hz a]; simp) f
theorem iblk9 (c : Dev nD) (t : Fin cfg0.N) :
    (iblk m c 9 t : Vec Ideal S1x64 .f32) = m ((c : Thread nD τ).loc main_arg9) :=
  (blk9_read (Gen.V m c main_arg9) t).trans (V_main_arg9 m c)
theorem blk10_read (f : S64x64.Idx → EReal) (t : Fin cfg0.N) :
    (((cfg0.win 10).blk t).view.read (Elt Ideal) f : Vec Ideal S64x64 .f32) = f := by
  have hz : (fun a => win0_10.index t a * main_arg10.ty.shape.size a) = fun _ => 0 := funext fun a => by
    match a with
    | ⟨0, _⟩ => show win0_10.index t (0 : Fin 2) * 64 = 0; rw [(idx10 t).1]
    | ⟨1, _⟩ => show win0_10.index t (1 : Fin 2) * 64 = 0; rw [(idx10 t).2]
  exact Memref.read_access_unit_zero (Elt Ideal) main_arg10 hz (fun a => by rw [congrFun hz a]; simp) f
theorem iblk10 (c : Dev nD) (t : Fin cfg0.N) :
    (iblk m c 10 t : Vec Ideal S64x64 .f32) = m ((c : Thread nD τ).loc main_arg10) :=
  (blk10_read (Gen.V m c main_arg10) t).trans (V_main_arg10 m c)
theorem blk11_read (f : S1x64.Idx → EReal) (t : Fin cfg0.N) :
    (((cfg0.win 11).blk t).view.read (Elt Ideal) f : Vec Ideal S1x64 .f32) = f := by
  have hz : (fun a => win0_11.index t a * main_arg11.ty.shape.size a) = fun _ => 0 := funext fun a => by
    match a with
    | ⟨0, _⟩ => show win0_11.index t (0 : Fin 2) * 1 = 0; rw [(idx11 t).1]
    | ⟨1, _⟩ => show win0_11.index t (1 : Fin 2) * 64 = 0; rw [(idx11 t).2]
  exact Memref.read_access_unit_zero (Elt Ideal) main_arg11 hz (fun a => by rw [congrFun hz a]; simp) f
theorem iblk11 (c : Dev nD) (t : Fin cfg0.N) :
    (iblk m c 11 t : Vec Ideal S1x64 .f32) = m ((c : Thread nD τ).loc main_arg11) :=
  (blk11_read (Gen.V m c main_arg11) t).trans (V_main_arg11 m c)

/-- The tokens' block at point t, read off any contents of the tokens' array, is window t of them. -/
theorem blk0_read (f : S256x8x64x112.Idx → EReal) (t : Fin cfg0.N) (y : S1x8x64x112.Idx) (i : S256x8x64x112.Idx)
    (h0 : (i 0).val = t.val + (y 0).val) (h1 : (i 1).val = (y 1).val) (h2 : (i 2).val = (y 2).val) (h3 : (i 3).val = (y 3).val) :
    (((cfg0.win 0).blk t).view.read (Elt Ideal) f : Vec Ideal S1x8x64x112 .f32) y = f i := by
  obtain ⟨e0, e1, e2, e3⟩ := idx0 t
  rw [View.read_apply]
  show f _ = f i
  congr 1
  funext a
  apply Fin.ext
  match a with
  | ⟨0, _⟩ => show win0_0.index t (0 : Fin 4) * 1 + 1 * (y 0).val = (i 0).val; rw [e0, h0]; omega
  | ⟨1, _⟩ => show win0_0.index t (1 : Fin 4) * 8 + 1 * (y 1).val = (i 1).val; rw [e1, h1]; omega
  | ⟨2, _⟩ => show win0_0.index t (2 : Fin 4) * 64 + 1 * (y 2).val = (i 2).val; rw [e2, h2]; omega
  | ⟨3, _⟩ => show win0_0.index t (3 : Fin 4) * 112 + 1 * (y 3).val = (i 3).val; rw [e3, h3]; omega

/-- The tokens' block at point t is window t of the tokens' array as the launch finds it. -/
theorem iblk0_apply (c : Dev nD) (t : Fin cfg0.N) (y : S1x8x64x112.Idx) (i : S256x8x64x112.Idx)
    (h0 : (i 0).val = t.val + (y 0).val) (h1 : (i 1).val = (y 1).val) (h2 : (i 2).val = (y 2).val) (h3 : (i 3).val = (y 3).val) :
    (iblk m c 0 t : Vec Ideal S1x8x64x112 .f32) y = (Gen.V m c main_v3 : S256x8x64x112.Idx → EReal) i :=
  blk0_read (Gen.V m c main_v3) t y i h0 h1 h2 h3

/-! ## What a point writes back -/

/-- The result in window layout, as a function of the argument arrays. -/
abbrev G (c : Dev nD) : S256x8x64x112.Idx → EReal :=
  Cert.Attn.arrArr (Cert.Attn.ofArgs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0))

/-- One entry of what a body leaves, when the body is handed window w of the tokens and the weights: the entry of the
    result in window layout. -/
theorem point_eq (hbody : Cert.KernelIdeal.Body.BodySpec) (x0 : Vec Ideal S1x8x64x112 .f32) (x1 : Vec Ideal S224x112 .f32) (x2 : Vec Ideal S112x112 .f32) (x3 : Vec Ideal S112x112 .f32) (x4 : Vec Ideal S112 .f32) (x5 : Vec Ideal S1x28 .f32) (x6 : Vec Ideal S1 .f32) (x7 : Vec Ideal S1x28 .f32) (x8 : Vec Ideal S1 .f32) (x9 : Vec Ideal S1x64 .f32) (x10 : Vec Ideal S64x64 .f32) (x11 : Vec Ideal S1x64 .f32)
    (a1 : Vec Ideal S224x112 .f32) (a2 : Vec Ideal S112x112 .f32) (a3 : Vec Ideal S112x112 .f32) (a4 : Vec Ideal S112 .f32) (a5 : Vec Ideal S1x28 .f32) (a6 : Vec Ideal S1 .f32) (a7 : Vec Ideal S1x28 .f32) (a8 : Vec Ideal S1 .f32) (a9 : Vec Ideal S1x64 .f32) (a10 : Vec Ideal S64x64 .f32) (a11 : Vec Ideal S1x64 .f32)
    (h1 : x1 = a1) (h2 : x2 = a2) (h3 : x3 = a3) (h4 : x4 = a4) (h5 : x5 = a5) (h6 : x6 = a6) (h7 : x7 = a7) (h8 : x8 = a8) (h9 : x9 = a9) (h10 : x10 = a10) (h11 : x11 = a11)
    (a0 : S1x112x8x128x128.Idx → EReal) (w : Fin 256)
    (hx0 : ∀ (b : Fin 8) (n : Fin 64) (ch : Fin 112), x0 (ix4 (0 : Fin 1) b n ch) = Cert.Attn.tok (Cert.Attn.imgOf a0) w b n ch)
    (b : Fin 8) (n : Fin 64) (o : Fin 112) (y : S1x8x64x112.Idx) (i : S256x8x64x112.Idx)
    (hy : y = ix4 (0 : Fin 1) b n o) (hi : i = ix4 w b n o) :
    out0_12 (F := Ideal) x0 x1 x2 x3 x4 x5 x6 x7 x8 x9 x10 x11 y
      = Cert.Attn.arrArr (Cert.Attn.ofArgs a1 a2 a3 a4 a5 a6 a7 a8 a9 a10 a11) a0 i := by
  subst h1 h2 h3 h4 h5 h6 h7 h8 h9 h10 h11 hy hi
  rw [Cert.Attn.arrArr_ix4]
  unfold Cert.Attn.arr
  have hX : (fun (n' : Fin 64) (c' : Fin 112) => x0 (ix4 (0 : Fin 1) b n' c')) = Cert.Attn.tok (Cert.Attn.imgOf a0) w b :=
    funext fun n' => funext fun c' => hx0 b n' c'
  rw [← hX]
  exact hbody x0 x1 x2 x3 x4 x5 x6 x7 x8 x9 x10 x11 b n o

theorem N256 : cfg0.N = 256 := N_0

/-- What point t writes back is window t of the result in window layout. -/
theorem flushed_eq (hbody : Cert.KernelIdeal.Body.BodySpec) (c : Dev nD) (t : Fin cfg0.N) :
    (dats m 0 c).flushed 12 t = ((cfg0.win 12).blk t).view.read (Elt Ideal) (G m c) := by
  show (cfg0.win 12).cut (grid0.coords t) ((dats m 0 c).after 12 t) = _
  rw [after0_12]
  obtain ⟨e0, e1, e2, e3⟩ := idx12 t
  funext y
  rw [View.read_apply]
  show out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y = G m c (((cfg0.win 12).blk t).view.emb y)
  refine point_eq hbody (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (iblk1 m c t) (iblk2 m c t) (iblk3 m c t) (iblk4 m c t) (iblk5 m c t) (iblk6 m c t) (iblk7 m c t) (iblk8 m c t) (iblk9 m c t)
    (iblk10 m c t) (iblk11 m c t) (m ((c : Thread nD τ).loc main_arg0)) ⟨t.val, N256 ▸ t.isLt⟩ (fun b n ch => ?_) (y 1) (y 2) (y 3) y
    (((cfg0.win 12).blk t).view.emb y) ?_ ?_
  · refine (iblk0_apply m c t (ix4 (0 : Fin 1) b n ch) (ix4 (⟨t.val, N256 ▸ t.isLt⟩ : Fin 256) b n ch) ?_ rfl rfl rfl).trans
      (tokens_eq m c _ b n ch)
    show t.val = t.val + 0
    omega
  · funext a
    match a with
    | ⟨0, _⟩ => exact Fin.ext (by show (y 0).val = 0; have h : (y 0).val < 1 := (y 0).isLt; omega)
    | ⟨1, _⟩ => rfl
    | ⟨2, _⟩ => rfl
    | ⟨3, _⟩ => rfl
  · funext a
    apply Fin.ext
    match a with
    | ⟨0, _⟩ =>
      show win0_12.index t (0 : Fin 4) * 1 + 1 * (y 0).val = t.val
      have h : (y 0).val < 1 := (y 0).isLt
      rw [e0]; omega
    | ⟨1, _⟩ =>
      show win0_12.index t (1 : Fin 4) * 8 + 1 * (y 1).val = (y 1).val
      rw [e1]; omega
    | ⟨2, _⟩ =>
      show win0_12.index t (2 : Fin 4) * 64 + 1 * (y 2).val = (y 2).val
      rw [e2]; omega
    | ⟨3, _⟩ =>
      show win0_12.index t (3 : Fin 4) * 112 + 1 * (y 3).val = (y 3).val
      rw [e3]; omega

/-- An index of the result array is in point t's block iff each coordinate is in the block's range on its axis. -/
theorem mem_blk (t : Fin cfg0.N) (i : S256x8x64x112.Idx) :
    i ∈ ((cfg0.win 12).blk t).view.set ↔ ∀ a : Fin 4, win0_12.index t a * S1x8x64x112.size a ≤ (i a).val
      ∧ (i a).val < win0_12.index t a * S1x8x64x112.size a + S1x8x64x112.size a := by
  show i ∈ ((View.whole main_v4).slice (win0_12.rect t)).set ↔ _
  rw [View.set_slice_whole, Rect.mem_set_unit]
  exact Iff.rfl

/-- Window w of the result array is covered by point w. -/
theorem cover (i : S256x8x64x112.Idx) :
    ∃ t : Fin cfg0.N, (cfg0.win 12).flush t = true ∧ i ∈ ((cfg0.win 12).blk t).view.set := by
  have hi0 : (i 0).val < 256 := (i 0).isLt
  have hi1 : (i 1).val < 8 := (i 1).isLt
  have hi2 : (i 2).val < 64 := (i 2).isLt
  have hi3 : (i 3).val < 112 := (i 3).isLt
  have ht : (i 0).val < cfg0.N := by rw [N256]; exact hi0
  obtain ⟨e0', e1, e2, e3⟩ := idx12 ⟨(i 0).val, ht⟩
  have e0 : win0_12.index ⟨(i 0).val, ht⟩ (0 : Fin 4) = (i 0).val := e0'
  refine ⟨⟨(i 0).val, ht⟩, flush0_12 _, ?_⟩
  rw [mem_blk]
  intro a
  match a with
  | ⟨0, _⟩ =>
    show win0_12.index ⟨(i 0).val, ht⟩ (0 : Fin 4) * 1 ≤ (i 0).val ∧ (i 0).val < win0_12.index ⟨(i 0).val, ht⟩ (0 : Fin 4) * 1 + 1
    rw [e0]; exact ⟨by omega, by omega⟩
  | ⟨1, _⟩ =>
    show win0_12.index ⟨(i 0).val, ht⟩ (1 : Fin 4) * 8 ≤ (i 1).val ∧ (i 1).val < win0_12.index ⟨(i 0).val, ht⟩ (1 : Fin 4) * 8 + 8
    rw [e1]; exact ⟨by omega, by omega⟩
  | ⟨2, _⟩ =>
    show win0_12.index ⟨(i 0).val, ht⟩ (2 : Fin 4) * 64 ≤ (i 2).val ∧ (i 2).val < win0_12.index ⟨(i 0).val, ht⟩ (2 : Fin 4) * 64 + 64
    rw [e2]; exact ⟨by omega, by omega⟩
  | ⟨3, _⟩ =>
    show win0_12.index ⟨(i 0).val, ht⟩ (3 : Fin 4) * 112 ≤ (i 3).val ∧ (i 3).val < win0_12.index ⟨(i 0).val, ht⟩ (3 : Fin 4) * 112 + 112
    rw [e3]; exact ⟨by omega, by omega⟩

/-- The result array after the launch is the result in window layout. -/
theorem result_arr (hbody : Cert.KernelIdeal.Body.BodySpec) (m : (ℓ : Loc nD τ sig) → Buf (Elt Ideal) ℓ) (c : Dev nD) :
    (dats m 0 c).arrAt 12 cfg0.N
      = Cert.Attn.arrArr (Cert.Attn.ofArgs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg0)) :=
  (dats m 0 c).arrAt_eq_of_cover 12 (G m c) (fun t _ => flushed_eq m hbody c t) cover

end Cert.KernelIdeal.KHost

end
-- ==== Proof.KHostOut.lean ====
/-
  The windows' results on their way back to the image, as a function of arrays and index by index.

  The program splits the window axis of 256 into (window row, window column) and the token axis of 64 into (row offset,
  column offset), brings the channels and the depth to the front and pairs each window axis with its offset axis, merges
  the pairs into the two spatial axes of extent 128, and rolls back by 4 along both (each roll is written as the last 124
  rows or columns set in front of the first 4). Read at channel ch, depth b, pixel (H, W) this is the window array at the
  window and token that hold the pixel 4 after (cyclically) (H, W).
-/
import proofs.«155316_j49177375539263_2_alg».proof.Proof.Gen.KernelIdeal
import proofs.«155316_j49177375539263_2_alg».proof.Proof.KHostIdx
import Idealize.ShloMosaic.Lib.Pipeline.Value

noncomputable section

namespace Cert.KernelIdeal.KHost

open Idealize.ShloMosaic Idealize.ShloMosaic.ValueIdx Cert.KernelIdeal Cert.KernelIdeal.Gen

variable {α : Type}

/-- The roll back by 4 along the rows: the last 124 rows, then the first 4. -/
def unrollH (x : S1x112x8x128x128.Idx → α) : S1x112x8x128x128.Idx → α :=
  concatenate S1x112x8x128x128 3
    [⟨S1x112x8x124x128, extractStridedSlice S1x112x8x124x128 ![0, 0, 0, 4, 0] x slices_S1x112x8x128x128_S1x112x8x124x128_0_0_0_4_0⟩,
     ⟨S1x112x8x4x128, extractStridedSlice S1x112x8x4x128 ![0, 0, 0, 0, 0] x slices_S1x112x8x128x128_S1x112x8x4x128_0_0_0_0_0⟩]
    concatenates_S1x112x8x124x128_S1x112x8x4x128_S1x112x8x128x128_d3

/-- The roll back by 4 along the columns: the last 124 columns, then the first 4. -/
def unrollW (x : S1x112x8x128x128.Idx → α) : S1x112x8x128x128.Idx → α :=
  concatenate S1x112x8x128x128 4
    [⟨S1x112x8x128x124, extractStridedSlice S1x112x8x128x124 ![0, 0, 0, 0, 4] x slices_S1x112x8x128x128_S1x112x8x128x124_0_0_0_0_4⟩,
     ⟨S1x112x8x128x4, extractStridedSlice S1x112x8x128x4 ![0, 0, 0, 0, 0] x slices_S1x112x8x128x128_S1x112x8x128x4_0_0_0_0_0⟩]
    concatenates_S1x112x8x128x124_S1x112x8x128x4_S1x112x8x128x128_d4

/-- Row H after the roll back is row H + 4 (mod 128) before it. -/
theorem unrollH_apply (x : S1x112x8x128x128.Idx → α) (z : Fin 1) (ch : Fin 112) (b : Fin 8) (H W : Fin 128) (H' : Fin 128)
    (hH : H'.val = (H.val + 4) % 128) : unrollH x (ix5 z ch b H W) = x (ix5 z ch b H' W) := by
  unfold unrollH
  have hlt : H.val < 128 := H.isLt
  by_cases h : H.val < 124
  · refine (concatenate_pair_apply_left (s₁ := S1x112x8x124x128) (s₂ := S1x112x8x4x128) (3 : Fin S1x112x8x128x128.rank) _ _ _
      (ix5 z ch b H W) rfl (ix5 z ch b (⟨H.val, h⟩ : Fin 124) W) (fun a => ?_)).trans ?_
    · match a with
      | ⟨0, _⟩ => rfl
      | ⟨1, _⟩ => rfl
      | ⟨2, _⟩ => rfl
      | ⟨3, _⟩ => rfl
      | ⟨4, _⟩ => rfl
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H'.val = 4 + H.val; omega
      | ⟨4, _⟩ => show W.val = 0 + W.val; omega
  · refine (concatenate_pair_apply_right (s₁ := S1x112x8x124x128) (s₂ := S1x112x8x4x128) (3 : Fin S1x112x8x128x128.rank) _ _ _
      (ix5 z ch b H W) rfl rfl (ix5 z ch b (⟨H.val - 124, by omega⟩ : Fin 4) W) (fun a hne => ?_) ?_).trans ?_
    · match a, hne with
      | ⟨0, _⟩, _ => rfl
      | ⟨1, _⟩, _ => rfl
      | ⟨2, _⟩, _ => rfl
      | ⟨3, _⟩, hne => exact absurd rfl hne
      | ⟨4, _⟩, _ => rfl
    · show H.val - 124 + 124 = H.val; omega
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H'.val = 0 + (H.val - 124); omega
      | ⟨4, _⟩ => show W.val = 0 + W.val; omega

/-- Column W after the roll back is column W + 4 (mod 128) before it. -/
theorem unrollW_apply (x : S1x112x8x128x128.Idx → α) (z : Fin 1) (ch : Fin 112) (b : Fin 8) (H W : Fin 128) (W' : Fin 128)
    (hW : W'.val = (W.val + 4) % 128) : unrollW x (ix5 z ch b H W) = x (ix5 z ch b H W') := by
  unfold unrollW
  have hlt : W.val < 128 := W.isLt
  by_cases h : W.val < 124
  · refine (concatenate_pair_apply_left (s₁ := S1x112x8x128x124) (s₂ := S1x112x8x128x4) (4 : Fin S1x112x8x128x128.rank) _ _ _
      (ix5 z ch b H W) rfl (ix5 z ch b H (⟨W.val, h⟩ : Fin 124)) (fun a => ?_)).trans ?_
    · match a with
      | ⟨0, _⟩ => rfl
      | ⟨1, _⟩ => rfl
      | ⟨2, _⟩ => rfl
      | ⟨3, _⟩ => rfl
      | ⟨4, _⟩ => rfl
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H.val = 0 + H.val; omega
      | ⟨4, _⟩ => show W'.val = 4 + W.val; omega
  · refine (concatenate_pair_apply_right (s₁ := S1x112x8x128x124) (s₂ := S1x112x8x128x4) (4 : Fin S1x112x8x128x128.rank) _ _ _
      (ix5 z ch b H W) rfl rfl (ix5 z ch b H (⟨W.val - 124, by omega⟩ : Fin 4)) (fun a hne => ?_) ?_).trans ?_
    · match a, hne with
      | ⟨0, _⟩, _ => rfl
      | ⟨1, _⟩, _ => rfl
      | ⟨2, _⟩, _ => rfl
      | ⟨3, _⟩, _ => rfl
      | ⟨4, _⟩, hne => exact absurd rfl hne
    · show W.val - 124 + 124 = W.val; omega
    · refine extractStridedSlice_apply _ x _ _ _ (fun a => ?_)
      match a with
      | ⟨0, _⟩ => show z.val = 0 + z.val; omega
      | ⟨1, _⟩ => show ch.val = 0 + ch.val; omega
      | ⟨2, _⟩ => show b.val = 0 + b.val; omega
      | ⟨3, _⟩ => show H.val = 0 + H.val; omega
      | ⟨4, _⟩ => show W'.val = 0 + (W.val - 124); omega

/-- The windows set back into an image: the window axis split into (window row, window column), the token axis into
    (row offset, column offset), channels and depth in front, each window axis paired with its offset axis and merged. -/
def fromWin (y : S256x8x64x112.Idx → α) : S1x112x8x128x128.Idx → α :=
  shapeCast S1x112x8x128x128
    (transpose S1x112x8x16x8x16x8 [0, 6, 3, 1, 4, 2, 5]
      (shapeCast S1x16x16x8x8x8x112 y shapeCasts_S256x8x64x112_S1x16x16x8x8x8x112)
      transposes_S1x16x16x8x8x8x112_S1x112x8x16x8x16x8_0_6_3_1_4_2_5)
    shapeCasts_S1x112x8x16x8x16x8_S1x112x8x128x128

/-- Pixel (H, W) is token (H % 8) * 8 + W % 8 of window (H / 8) * 16 + W / 8. -/
theorem fromWin_apply (y : S256x8x64x112.Idx → α) (z : Fin 1) (ch : Fin 112) (b : Fin 8) (H W : Fin 128) (w : Fin 256) (n : Fin 64)
    (hw : w.val = (H.val / 8) * 16 + W.val / 8) (hn : n.val = (H.val % 8) * 8 + W.val % 8) :
    fromWin y (ix5 z ch b H W) = y (ix4 w b n ch) := by
  unfold fromWin
  have hH : H.val < 128 := H.isLt
  have hW : W.val < 128 := W.isLt
  have hz : z.val = 0 := by have := z.isLt; omega
  refine (shapeCast_apply _ _ (ix5 z ch b H W)
    (ix7 z ch b (⟨H.val / 8, by omega⟩ : Fin 16) (⟨H.val % 8, by omega⟩ : Fin 8) (⟨W.val / 8, by omega⟩ : Fin 16)
      (⟨W.val % 8, by omega⟩ : Fin 8)) ?_).trans ?_
  · rw [rowMajor_val_seven, Shape.rowMajor_val_five]
    exact (by omega : (((((z.val * 112 + ch.val) * 8 + b.val) * 16 + H.val / 8) * 8 + H.val % 8) * 16 + W.val / 8) * 8 + W.val % 8
      = (((z.val * 112 + ch.val) * 8 + b.val) * 128 + H.val) * 128 + W.val)
  refine (transpose_apply _ _ _ _
    (ix7 z (⟨H.val / 8, by omega⟩ : Fin 16) (⟨W.val / 8, by omega⟩ : Fin 16) b (⟨H.val % 8, by omega⟩ : Fin 8)
      (⟨W.val % 8, by omega⟩ : Fin 8) ch) (fun a => ?_)).trans ?_
  · match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  refine shapeCast_apply y _ _ (ix4 w b n ch) ?_
  rw [Shape.rowMajor_val_four, rowMajor_val_seven]
  exact (by omega : ((w.val * 8 + b.val) * 64 + n.val) * 112 + ch.val
    = (((((z.val * 16 + H.val / 8) * 16 + W.val / 8) * 8 + b.val) * 8 + H.val % 8) * 8 + W.val % 8) * 112 + ch.val)

/-- The result as the program computes it from the windows' array: set back into an image, then both rolls back. -/
def post (y : S256x8x64x112.Idx → α) : S1x112x8x128x128.Idx → α := unrollW (unrollH (fromWin y))

/-- Read at (channel, depth, pixel): the windows' array at the window and token of the pixel 4 rows and 4 columns after. -/
theorem post_apply (y : S256x8x64x112.Idx → α) (z : Fin 1) (ch : Fin 112) (b : Fin 8) (H W : Fin 128) (w : Fin 256) (n : Fin 64)
    (hw : w.val = (((H.val + 4) % 128) / 8) * 16 + ((W.val + 4) % 128) / 8)
    (hn : n.val = (((H.val + 4) % 128) % 8) * 8 + ((W.val + 4) % 128) % 8) :
    post y (ix5 z ch b H W) = y (ix4 w b n ch) := by
  unfold post
  refine (unrollW_apply _ z ch b H W (⟨(W.val + 4) % 128, Nat.mod_lt _ (by norm_num)⟩ : Fin 128) rfl).trans ?_
  refine (unrollH_apply _ z ch b H _ (⟨(H.val + 4) % 128, Nat.mod_lt _ (by norm_num)⟩ : Fin 128) rfl).trans ?_
  exact fromWin_apply y z ch b _ _ w n hw hn

end Cert.KernelIdeal.KHost

end
-- ==== Proof.KHostRun.lean ====
/-
  The whole program of the kernel side, read: from the argument arrays to the result array.

  After the launch the result in window layout goes through the host lines that set the windows back into an image and
  roll it back by 4. Read at channel ch, depth b, pixel (H, W) they give the window array at the window and token that
  hold pixel (H + 4, W + 4) (cyclically), which is the specification's result at (ch, b, H, W). The argument arrays end as
  they were launched: no host line writes them and the launch only reads them.
-/
import proofs.«155316_j49177375539263_2_alg».proof.Proof.KHostGrid
import proofs.«155316_j49177375539263_2_alg».proof.Proof.KHostOut
import Idealize.ShloMosaic.Lib.Pipeline.FrameSuffix

noncomputable section

namespace Cert.KernelIdeal.KHost

open Idealize.ShloMosaic Idealize.ShloMosaic.ValueIdx Cert.KernelIdeal Cert.KernelIdeal.Gen

open Idealize.ShloMosaic.TcCoe Idealize.SL.Sem
open Idealize.ShloMosaic.Pipeline (Dat)

variable (m : (ℓ : Loc nD τ sig) → Buf (Elt Ideal) ℓ) (ρ : Dev nD → PrngReg)

/-- A list of host lines run after another is the second run from where the first ends. -/
theorem after_append {Val : EltTy → Type} (l₁ l₂ : List (HloOp τ sig Val)) (F : Valuation τ sig Val) :
    StableHlo.after (l₁ ++ l₂) F = StableHlo.after l₂ (StableHlo.after l₁ F) := by
  induction l₁ generalizing F with
  | nil => rfl
  | cons op ops ih => exact ih _

/-- The first stretch after the launch (split the window and token axes, reorder, merge into the spatial axes), from any
    contents: pixel (H, W) of what it leaves is token (H % 8) * 8 + W % 8 of window (H / 8) * 16 + W / 8 of the result array
    of the launch. -/
theorem v7_apply (F : Valuation τ sig (Elt Ideal)) (z : Fin 1) (ch : Fin 112) (b : Fin 8) (H W : Fin 128) (w : Fin 256) (n : Fin 64)
    (hw : w.val = (H.val / 8) * 16 + W.val / 8) (hn : n.val = (H.val % 8) * 8 + W.val % 8) :
    (StableHlo.after (hostOps1 (F := Ideal)) F (Proc.devRef .tc main_v7) : S1x112x8x128x128.Idx → EReal) (ix5 z ch b H W)
      = (F (Proc.devRef .tc main_v4) : S256x8x64x112.Idx → EReal) (ix4 w b n ch) := by
  simp only [Gen.hostOps1]
  after_results
  exact fromWin_apply _ z ch b H W w n hw hn

/-- The second stretch after the launch (the two rolls back), from any contents: pixel (H, W) of what it leaves is
    pixel (H + 4, W + 4) (cyclically) of what the first stretch left. -/
theorem v8_apply (F : Valuation τ sig (Elt Ideal)) (z : Fin 1) (ch : Fin 112) (b : Fin 8) (H W : Fin 128) :
    (StableHlo.after (hostOps1_1 (F := Ideal)) F (Proc.devRef .tc main_v8) : S1x112x8x128x128.Idx → EReal) (ix5 z ch b H W)
      = (F (Proc.devRef .tc main_v7) : S1x112x8x128x128.Idx → EReal)
          (ix5 z ch b (⟨(H.val + 4) % 128, Nat.mod_lt _ (by norm_num)⟩ : Fin 128) (⟨(W.val + 4) % 128, Nat.mod_lt _ (by norm_num)⟩ : Fin 128)) := by
  simp only [Gen.hostOps1_1]
  after_results
  dsimp only [StableHlo.TRef.toBuf, StableHlo.TRef.ofBuf, cast_eq]
  refine (unrollW_apply _ z ch b H W (⟨(W.val + 4) % 128, Nat.mod_lt _ (by norm_num)⟩ : Fin 128) rfl).trans ?_
  exact unrollH_apply _ z ch b H _ (⟨(H.val + 4) % 128, Nat.mod_lt _ (by norm_num)⟩ : Fin 128) rfl

/-- The program's result array, as the host lines after the launch leave it, read at channel ch, depth b, pixel (H, W):
    the two rolls back and the setting back into an image, each read at the index, reach the result array of the launch at
    the window and the token of pixel (H + 4, W + 4). -/
theorem out_apply (hbody : Cert.KernelIdeal.Body.BodySpec) (c : Dev nD) (z : Fin 1) (ch : Fin 112) (b : Fin 8) (H W : Fin 128) :
    (Pipeline.afterTail₀ cfgs (dats m) 0 (V0 m) [hostOps1, hostOps1_1] c main_v8 : S1x112x8x128x128.Idx → EReal) (ix5 z ch b H W)
      = Cert.Attn.arrArr (Cert.Attn.ofArgs (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg0))
          (ix4 (Cert.Attn.dstWin H W) b (Cert.Attn.dstTok H W) ch) := by
  unfold Pipeline.afterTail₀
  simp only [List.flatten_cons, List.flatten_nil, List.append_nil]
  rw [after_append]
  refine (v8_apply _ z ch b H W).trans ?_
  refine (v7_apply _ z ch b _ _ (Cert.Attn.dstWin H W) (Cert.Attn.dstTok H W) ?_ ?_).trans ?_
  · rfl
  · rfl
  refine Eq.trans (congrFun (Pipeline.withArrays_arr spec0 launch0.win.arr_inj c _ _ 12) _) ?_
  exact congrFun (result_arr hbody m c) _

/-- The result array of the program is the specification's result. -/
theorem out_eq (hbody : Cert.KernelIdeal.Body.BodySpec) (c : Dev nD) :
    (Pipeline.afterTail₀ cfgs (dats m) 0 (V0 m) [hostOps1, hostOps1_1] c main_v8 : S1x112x8x128x128.Idx → EReal)
      = Cert.Attn.outArr (Cert.Attn.ofArgs (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg0)) := by
  funext i
  obtain ⟨z, ch, b, H, W, rfl⟩ : ∃ (z : Fin 1) (ch : Fin 112) (b : Fin 8) (H W : Fin 128), i = ix5 z ch b H W :=
    ⟨i 0, i 1, i 2, i 3, i 4, eq_ix5 i⟩
  rw [Cert.Attn.outArr_ix5]
  refine (out_apply m hbody c z ch b H W).trans ?_
  rw [Cert.Attn.arrArr_ix4]
  rfl

/-- Every weakly fair execution of the kernel side's program ends with the result array at the specification's result
    of the argument arrays, and the argument arrays as launched — given what one grid point's body computes. -/
theorem kernel_run (hbody : Cert.KernelIdeal.Body.BodySpec) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
        = Cert.Attn.outArr (Cert.Attn.ofArgs (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).2 main_v8 (Pipeline.mem_restRefs_of main_v8 (by decide) (by decide))).trans (out_eq m hbody c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.KernelIdeal.KHost

end
-- ==== Proof.RefStages.lean ====
/- The reference program's @main, value by value: one definition per tensor value, each the host
   operation of its line applied to the definitions of its operands (the values of the functions @main
   calls are listed where the call stands, under the names of the call's buffers). `refOut` is the
   returned value as a function of the twelve arguments. -/
import proofs.«155316_j49177375539263_2_alg».proof.ReferenceIdeal

noncomputable section

namespace Cert.ReferenceIdeal.RefRun

open Cert.ReferenceIdeal Idealize.ShloMosaic Idealize.SL.Sem
open Cert.ReferenceIdeal.Facts₀ Cert.ReferenceIdeal.Facts

variable {F : FTy → Type} [FloatOps F] [Facts]

def st_call0_v0 (a0 : (⟨S1x112x8x128x128, .f32⟩ : BufTy).Contents (Elt F)) :
    (⟨S1x112x8x4x128, .f32⟩ : BufTy).Contents (Elt F) :=
  extractStridedSlice S1x112x8x4x128 ![0, 0, 0, 124, 0] a0 slices_S1x112x8x128x128_S1x112x8x4x128_0_0_0_124_0

def st_call0_v1 (a0 : (⟨S1x112x8x128x128, .f32⟩ : BufTy).Contents (Elt F)) :
    (⟨S1x112x8x124x128, .f32⟩ : BufTy).Contents (Elt F) :=
  extractStridedSlice S1x112x8x124x128 ![0, 0, 0, 0, 0] a0 slices_S1x112x8x128x128_S1x112x8x124x128_0_0_0_0_0

def st_call0_v2 (a0 : (⟨S1x112x8x128x128, .f32⟩ : BufTy).Contents (Elt F)) :
    (⟨S1x112x8x128x128, .f32⟩ : BufTy).Contents (Elt F) :=
  concatenate S1x112x8x128x128 3 [⟨S1x112x8x4x128, (st_call0_v0 (F := F) a0)⟩, ⟨S1x112x8x124x128, (st_call0_v1 (F := F) a0)⟩] concatenates_S1x112x8x4x128_S1x112x8x124x128_S1x112x8x128x128_d3

def st_call0_v3 (a0 : (⟨S1x112x8x128x128, .f32⟩ : BufTy).Contents (Elt F)) :
    (⟨S1x112x8x128x4, .f32⟩ : BufTy).Contents (Elt F) :=
  extractStridedSlice S1x112x8x128x4 ![0, 0, 0, 0, 124] (st_call0_v2 (F := F) a0) slices_S1x112x8x128x128_S1x112x8x128x4_0_0_0_0_124

def st_call0_v4 (a0 : (⟨S1x112x8x128x128, .f32⟩ : BufTy).Contents (Elt F)) :
    (⟨S1x112x8x128x124, .f32⟩ : BufTy).Contents (Elt F) :=
  extractStridedSlice S1x112x8x128x124 ![0, 0, 0, 0, 0] (st_call0_v2 (F := F) a0) slices_S1x112x8x128x128_S1x112x8x128x124_0_0_0_0_0

def st_v0 (a0 : (⟨S1x112x8x128x128, .f32⟩ : BufTy).Contents (Elt F)) :
    (⟨S1x112x8x128x128, .f32⟩ : BufTy).Contents (Elt F) :=
  concatenate S1x112x8x128x128 4 [⟨S1x112x8x128x4, (st_call0_v3 (F := F) a0)⟩, ⟨S1x112x8x128x124, (st_call0_v4 (F := F) a0)⟩] concatenates_S1x112x8x128x4_S1x112x8x128x124_S1x112x8x128x128_d4

def st_v1 (a0 : (⟨S1x112x8x128x128, .f32⟩ : BufTy).Contents (Elt F)) :
    (⟨S1x112x8x16x8x16x8, .f32⟩ : BufTy).Contents (Elt F) :=
  shapeCast S1x112x8x16x8x16x8 (st_v0 (F := F) a0) shapeCasts_S1x112x8x128x128_S1x112x8x16x8x16x8

def st_v2 (a0 : (⟨S1x112x8x128x128, .f32⟩ : BufTy).Contents (Elt F)) :
    (⟨S1x16x16x8x8x8x112, .f32⟩ : BufTy).Contents (Elt F) :=
  transpose S1x16x16x8x8x8x112 [0, 3, 5, 4, 6, 2, 1] (st_v1 (F := F) a0) transposes_S1x112x8x16x8x16x8_S1x16x16x8x8x8x112_0_3_5_4_6_2_1

def st_v3 (a0 : (⟨S1x112x8x128x128, .f32⟩ : BufTy).Contents (Elt F)) :
    (⟨S256x64x8x112, .f32⟩ : BufTy).Contents (Elt F) :=
  shapeCast S256x64x8x112 (st_v2 (F := F) a0) shapeCasts_S1x16x16x8x8x8x112_S256x64x8x112

def st_v4 (a0 : (⟨S1x112x8x128x128, .f32⟩ : BufTy).Contents (Elt F)) (a1 : (⟨S224x112, .f32⟩ : BufTy).Contents (Elt F)) :
    (⟨S256x64x8x224, .f32⟩ : BufTy).Contents (Elt F) :=
  Host.dotGeneral dot_S256x64x8x112_S224x112_S256x64x8x224_3_1_012_0_n_n none (st_v3 (F := F) a0) a1

def st_v5 (a0 : (⟨S1x112x8x128x128, .f32⟩ : BufTy).Contents (Elt F)) (a1 : (⟨S224x112, .f32⟩ : BufTy).Contents (Elt F)) :
    (⟨S256x64x8x112, .f32⟩ : BufTy).Contents (Elt F) :=
  extractStridedSlice S256x64x8x112 ![0, 0, 0, 0] (st_v4 (F := F) a0 a1) slices_S256x64x8x224_S256x64x8x112_0_0_0_0

def st_v6 (a0 : (⟨S1x112x8x128x128, .f32⟩ : BufTy).Contents (Elt F)) (a1 : (⟨S224x112, .f32⟩ : BufTy).Contents (Elt F)) :
    (⟨S256x64x8x112, .f32⟩ : BufTy).Contents (Elt F) :=
  extractStridedSlice S256x64x8x112 ![0, 0, 0, 112] (st_v4 (F := F) a0 a1) slices_S256x64x8x224_S256x64x8x112_0_0_0_112

def st_v7 (a0 : (⟨S1x112x8x128x128, .f32⟩ : BufTy).Contents (Elt F)) (a2 : (⟨S112x112, .f32⟩ : BufTy).Contents (Elt F)) :
    (⟨S256x64x8x112, .f32⟩ : BufTy).Contents (Elt F) :=
  Host.dotGeneral dot_S256x64x8x112_S112x112_S256x64x8x112_3_1_012_0_n_n none (st_v3 (F := F) a0) a2

def st_v8 (a0 : (⟨S1x112x8x128x128, .f32⟩ : BufTy).Contents (Elt F)) (a1 : (⟨S224x112, .f32⟩ : BufTy).Contents (Elt F)) :
    (⟨S256x64x8x4x28, .f32⟩ : BufTy).Contents (Elt F) :=
  shapeCast S256x64x8x4x28 (st_v5 (F := F) a0 a1) shapeCasts_S256x64x8x112_S256x64x8x4x28

def st_v9 (a0 : (⟨S1x112x8x128x128, .f32⟩ : BufTy).Contents (Elt F)) (a1 : (⟨S224x112, .f32⟩ : BufTy).Contents (Elt F)) :
    (⟨S256x4x8x64x28, .f32⟩ : BufTy).Contents (Elt F) :=
  transpose S256x4x8x64x28 [0, 3, 2, 1, 4] (st_v8 (F := F) a0 a1) transposes_S256x64x8x4x28_S256x4x8x64x28_0_3_2_1_4

def st_v10 (a0 : (⟨S1x112x8x128x128, .f32⟩ : BufTy).Contents (Elt F)) (a1 : (⟨S224x112, .f32⟩ : BufTy).Contents (Elt F)) :
    (⟨S256x64x8x4x28, .f32⟩ : BufTy).Contents (Elt F) :=
  shapeCast S256x64x8x4x28 (st_v6 (F := F) a0 a1) shapeCasts_S256x64x8x112_S256x64x8x4x28

def st_v11 (a0 : (⟨S1x112x8x128x128, .f32⟩ : BufTy).Contents (Elt F)) (a1 : (⟨S224x112, .f32⟩ : BufTy).Contents (Elt F)) :
    (⟨S256x4x8x64x28, .f32⟩ : BufTy).Contents (Elt F) :=
  transpose S256x4x8x64x28 [0, 3, 2, 1, 4] (st_v10 (F := F) a0 a1) transposes_S256x64x8x4x28_S256x4x8x64x28_0_3_2_1_4

def st_v12 (a0 : (⟨S1x112x8x128x128, .f32⟩ : BufTy).Contents (Elt F)) (a2 : (⟨S112x112, .f32⟩ : BufTy).Contents (Elt F)) :
    (⟨S256x64x8x4x28, .f32⟩ : BufTy).Contents (Elt F) :=
  shapeCast S256x64x8x4x28 (st_v7 (F := F) a0 a2) shapeCasts_S256x64x8x112_S256x64x8x4x28

def st_v13 (a0 : (⟨S1x112x8x128x128, .f32⟩ : BufTy).Contents (Elt F)) (a2 : (⟨S112x112, .f32⟩ : BufTy).Contents (Elt F)) :
    (⟨S256x4x8x64x28, .f32⟩ : BufTy).Contents (Elt F) :=
  transpose S256x4x8x64x28 [0, 3, 2, 1, 4] (st_v12 (F := F) a0 a2) transposes_S256x64x8x4x28_S256x4x8x64x28_0_3_2_1_4

def st_v14 (a0 : (⟨S1x112x8x128x128, .f32⟩ : BufTy).Contents (Elt F)) (a1 : (⟨S224x112, .f32⟩ : BufTy).Contents (Elt F)) (a5 : (⟨S1x28, .f32⟩ : BufTy).Contents (Elt F)) :
    (⟨S256x4x8x64x1, .f32⟩ : BufTy).Contents (Elt F) :=
  Host.dotGeneral dot_S256x4x8x64x28_S1x28_S256x4x8x64x1_4_1_0123_0_n_n none (st_v9 (F := F) a0 a1) a5

def st_v15 (a6 : (⟨S1, .f32⟩ : BufTy).Contents (Elt F)) :
    (⟨S1x1x1x1x1, .f32⟩ : BufTy).Contents (Elt F) :=
  broadcastInDim S1x1x1x1x1 ![4] bcast_S1_S1x1x1x1x1_4 a6

def st_v16 (a6 : (⟨S1, .f32⟩ : BufTy).Contents (Elt F)) :
    (⟨S256x4x8x64x1, .f32⟩ : BufTy).Contents (Elt F) :=
  broadcastInDim S256x4x8x64x1 ![0, 1, 2, 3, 4] bcast_S1x1x1x1x1_S256x4x8x64x1_0_1_2_3_4 (st_v15 (F := F) a6)

def st_v17 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) :
    (⟨S256x4x8x64x1, .f32⟩ : BufTy).Contents (Elt F) :=
  addf (st_v14 (F := F) a0 a1 a5) (st_v16 (F := F) a6)

def st_v18 (a0 : (⟨S1x112x8x128x128, .f32⟩ : BufTy).Contents (Elt F)) (a1 : (⟨S224x112, .f32⟩ : BufTy).Contents (Elt F)) (a7 : (⟨S1x28, .f32⟩ : BufTy).Contents (Elt F)) :
    (⟨S256x4x8x64x1, .f32⟩ : BufTy).Contents (Elt F) :=
  Host.dotGeneral dot_S256x4x8x64x28_S1x28_S256x4x8x64x1_4_1_0123_0_n_n none (st_v11 (F := F) a0 a1) a7

def st_v19 (a8 : (⟨S1, .f32⟩ : BufTy).Contents (Elt F)) :
    (⟨S1x1x1x1x1, .f32⟩ : BufTy).Contents (Elt F) :=
  broadcastInDim S1x1x1x1x1 ![4] bcast_S1_S1x1x1x1x1_4 a8

def st_v20 (a8 : (⟨S1, .f32⟩ : BufTy).Contents (Elt F)) :
    (⟨S256x4x8x64x1, .f32⟩ : BufTy).Contents (Elt F) :=
  broadcastInDim S256x4x8x64x1 ![0, 1, 2, 3, 4] bcast_S1x1x1x1x1_S256x4x8x64x1_0_1_2_3_4 (st_v19 (F := F) a8)

def st_v21 (a0 : (⟨S1x112x8x128x128, .f32⟩ : BufTy).Contents (Elt F)) (a1 : (⟨S224x112, .f32⟩ : BufTy).Contents (Elt F)) (a7 : (⟨S1x28, .f32⟩ : BufTy).Contents (Elt F)) (a8 : (⟨S1, .f32⟩ : BufTy).Contents (Elt F)) :
    (⟨S256x4x8x64x1, .f32⟩ : BufTy).Contents (Elt F) :=
  addf (st_v18 (F := F) a0 a1 a7) (st_v20 (F := F) a8)

def st_v22 (a0 : (⟨S1x112x8x128x128, .f32⟩ : BufTy).Contents (Elt F)) (a1 : (⟨S224x112, .f32⟩ : BufTy).Contents (Elt F)) :
    (⟨S256x4x8x64x64, .f32⟩ : BufTy).Contents (Elt F) :=
  Host.dotGeneral dot_S256x4x8x64x28_S256x4x8x64x28_S256x4x8x64x64_4_4_3_3_012_012 none (st_v9 (F := F) a0 a1) (st_v11 (F := F) a0 a1)

def st_v23 (a0 : (⟨S1x112x8x128x128, .f32⟩ : BufTy).Contents (Elt F)) (a1 : (⟨S224x112, .f32⟩ : BufTy).Contents (Elt F)) (a7 : (⟨S1x28, .f32⟩ : BufTy).Contents (Elt F)) (a8 : (⟨S1, .f32⟩ : BufTy).Contents (Elt F)) :
    (⟨S256x4x8x1x64, .f32⟩ : BufTy).Contents (Elt F) :=
  transpose S256x4x8x1x64 [0, 1, 2, 4, 3] (st_v21 (F := F) a0 a1 a7 a8) transposes_S256x4x8x64x1_S256x4x8x1x64_0_1_2_4_3

def st_v24 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) :
    (⟨S256x4x8x64x64, .f32⟩ : BufTy).Contents (Elt F) :=
  broadcastInDim S256x4x8x64x64 ![0, 1, 2, 3, 4] bcast_S256x4x8x64x1_S256x4x8x64x64_0_1_2_3_4 (st_v17 (F := F) a0 a1 a5 a6)

def st_v25 (a0 : (⟨S1x112x8x128x128, .f32⟩ : BufTy).Contents (Elt F)) (a1 : (⟨S224x112, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  broadcastInDim S256x4x8x64x64 ![0, 1, 2, 3, 4] bcast_S256x4x8x1x64_S256x4x8x64x64_0_1_2_3_4 (st_v23 (F := F) a0 a1 a7 a8)

def st_v26 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  mulf (st_v24 (F := F) a0 a1 a5 a6) (st_v25 (F := F) a0 a1 a7 a8)

def st_call1_v0 :
    (⟨S64, .i32⟩ : BufTy).Contents (Elt F) :=
  iotaInDim S64 32 0

def st_call1_v1 :
    (⟨S64, .i32⟩ : BufTy).Contents (Elt F) :=
  iotaInDim S64 32 0

def st_call1_c :
    (⟨S_, .i32⟩ : BufTy).Contents (Elt F) :=
  constantI S_ 32 0#32

def st_call1_v2 :
    (⟨S64, .i32⟩ : BufTy).Contents (Elt F) :=
  broadcastInDim S64 ![] bcast_S_S64 (st_call1_c (F := F))

def st_call1_v3 :
    (⟨S64, .i1⟩ : BufTy).Contents (Elt F) :=
  cmpi .slt (st_call1_v0 (F := F)) (st_call1_v2 (F := F))

def st_call1_c_0 :
    (⟨S_, .i32⟩ : BufTy).Contents (Elt F) :=
  constantI S_ 32 64#32

def st_call1_v4 :
    (⟨S64, .i32⟩ : BufTy).Contents (Elt F) :=
  broadcastInDim S64 ![] bcast_S_S64 (st_call1_c_0 (F := F))

def st_call1_v5 :
    (⟨S64, .i32⟩ : BufTy).Contents (Elt F) :=
  addi (st_call1_v0 (F := F)) (st_call1_v4 (F := F))

def st_call1_v6 :
    (⟨S64, .i32⟩ : BufTy).Contents (Elt F) :=
  select (st_call1_v3 (F := F)) (st_call1_v5 (F := F)) (st_call1_v0 (F := F))

def st_call1_c_1 :
    (⟨S_, .i32⟩ : BufTy).Contents (Elt F) :=
  constantI S_ 32 0#32

def st_call1_v7 :
    (⟨S64, .i32⟩ : BufTy).Contents (Elt F) :=
  broadcastInDim S64 ![] bcast_S_S64 (st_call1_c_1 (F := F))

def st_call1_v8 :
    (⟨S64, .i1⟩ : BufTy).Contents (Elt F) :=
  cmpi .slt (st_call1_v1 (F := F)) (st_call1_v7 (F := F))

def st_call1_c_2 :
    (⟨S_, .i32⟩ : BufTy).Contents (Elt F) :=
  constantI S_ 32 64#32

def st_call1_v9 :
    (⟨S64, .i32⟩ : BufTy).Contents (Elt F) :=
  broadcastInDim S64 ![] bcast_S_S64 (st_call1_c_2 (F := F))

def st_call1_v10 :
    (⟨S64, .i32⟩ : BufTy).Contents (Elt F) :=
  addi (st_call1_v1 (F := F)) (st_call1_v9 (F := F))

def st_call1_v11 :
    (⟨S64, .i32⟩ : BufTy).Contents (Elt F) :=
  select (st_call1_v8 (F := F)) (st_call1_v10 (F := F)) (st_call1_v1 (F := F))

def st_call1_v12 :
    (⟨S64x1, .i32⟩ : BufTy).Contents (Elt F) :=
  broadcastInDim S64x1 ![0] bcast_S64_S64x1_0 (st_call1_v6 (F := F))

def st_call1_v13 :
    (⟨S64x1, .i32⟩ : BufTy).Contents (Elt F) :=
  broadcastInDim S64x1 ![0] bcast_S64_S64x1_0 (st_call1_v11 (F := F))

def st_call1_v14 :
    (⟨S64x2, .i32⟩ : BufTy).Contents (Elt F) :=
  concatenate S64x2 1 [⟨S64x1, (st_call1_v12 (F := F))⟩, ⟨S64x1, (st_call1_v13 (F := F))⟩] concatenates_S64x1_S64x1_S64x2_d1

def st_v27 (a0 : (⟨S1x112x8x128x128, .f32⟩ : BufTy).Contents (Elt F)) (a1 : (⟨S224x112, .f32⟩ : BufTy).Contents (Elt F)) :
    (⟨S256x4x8x64, .f32⟩ : BufTy).Contents (Elt F) :=
  Host.gather gather_S256x4x8x64x64_S64x2_S256x4x8x64_012_34_n_n_34_1_2564811 (st_v22 (F := F) a0 a1) (st_call1_v14 (F := F))

def st_v28 (a0 : (⟨S1x112x8x128x128, .f32⟩ : BufTy).Contents (Elt F)) (a1 : (⟨S224x112, .f32⟩ : BufTy).Contents (Elt F)) :
    (⟨S256x4x8x64x1, .f32⟩ : BufTy).Contents (Elt F) :=
  broadcastInDim S256x4x8x64x1 ![0, 1, 2, 3] bcast_S256x4x8x64_S256x4x8x64x1_0_1_2_3 (st_v27 (F := F) a0 a1)

def st_v29 :
    (⟨S64x64, .i32⟩ : BufTy).Contents (Elt F) :=
  iotaInDim S64x64 32 0

def st_v30 :
    (⟨S64x64, .i32⟩ : BufTy).Contents (Elt F) :=
  iotaInDim S64x64 32 1

def st_c :
    (⟨S_, .i32⟩ : BufTy).Contents (Elt F) :=
  constantI S_ 32 0#32

def st_v31 :
    (⟨S64x64, .i32⟩ : BufTy).Contents (Elt F) :=
  broadcastInDim S64x64 ![] bcast_S_S64x64 (st_c (F := F))

def st_v32 :
    (⟨S64x64, .i32⟩ : BufTy).Contents (Elt F) :=
  addi (st_v29 (F := F)) (st_v31 (F := F))

def st_v33 :
    (⟨S64x64, .i1⟩ : BufTy).Contents (Elt F) :=
  cmpi .eq (st_v32 (F := F)) (st_v30 (F := F))

def st_v34 :
    (⟨S64x64, .f32⟩ : BufTy).Contents (Elt F) :=
  uitofp .f32 (st_v33 (F := F))

def st_v35 :
    (⟨S1x1x1x64x64, .f32⟩ : BufTy).Contents (Elt F) :=
  broadcastInDim S1x1x1x64x64 ![3, 4] bcast_S64x64_S1x1x1x64x64_3_4 (st_v34 (F := F))

def st_v36 (a0 : (⟨S1x112x8x128x128, .f32⟩ : BufTy).Contents (Elt F)) (a1 : (⟨S224x112, .f32⟩ : BufTy).Contents (Elt F)) :
    (⟨S256x4x8x64x64, .f32⟩ : BufTy).Contents (Elt F) :=
  broadcastInDim S256x4x8x64x64 ![0, 1, 2, 3, 4] bcast_S256x4x8x64x1_S256x4x8x64x64_0_1_2_3_4 (st_v28 (F := F) a0 a1)

def st_v37 :
    (⟨S256x4x8x64x64, .f32⟩ : BufTy).Contents (Elt F) :=
  broadcastInDim S256x4x8x64x64 ![0, 1, 2, 3, 4] bcast_S1x1x1x64x64_S256x4x8x64x64_0_1_2_3_4 (st_v35 (F := F))

def st_v38 (a0 : (⟨S1x112x8x128x128, .f32⟩ : BufTy).Contents (Elt F)) (a1 : (⟨S224x112, .f32⟩ : BufTy).Contents (Elt F)) :
    (⟨S256x4x8x64x64, .f32⟩ : BufTy).Contents (Elt F) :=
  mulf (st_v36 (F := F) a0 a1) (st_v37 (F := F))

def st_v39 (a0 : (⟨S1x112x8x128x128, .f32⟩ : BufTy).Contents (Elt F)) (a1 : (⟨S224x112, .f32⟩ : BufTy).Contents (Elt F)) :
    (⟨S256x4x8x64x64, .f32⟩ : BufTy).Contents (Elt F) :=
  subf (st_v22 (F := F) a0 a1) (st_v38 (F := F) a0 a1)

def st_v40 (a0 : (⟨S1x112x8x128x128, .f32⟩ : BufTy).Contents (Elt F)) (a1 : (⟨S224x112, .f32⟩ : BufTy).Contents (Elt F)) (a9 : (⟨S1x64, .f32⟩ : BufTy).Contents (Elt F)) :
    (⟨S256x4x8x64x1, .f32⟩ : BufTy).Contents (Elt F) :=
  Host.dotGeneral dot_S256x4x8x64x64_S1x64_S256x4x8x64x1_4_1_0123_0_n_n none (st_v39 (F := F) a0 a1) a9

def st_v41 (a0 : (⟨S1x112x8x128x128, .f32⟩ : BufTy).Contents (Elt F)) (a1 : (⟨S224x112, .f32⟩ : BufTy).Contents (Elt F)) (a9 : (⟨S1x64, .f32⟩ : BufTy).Contents (Elt F)) :
    (⟨S256x4x8x64, .f32⟩ : BufTy).Contents (Elt F) :=
  shapeCast S256x4x8x64 (st_v40 (F := F) a0 a1 a9) shapeCasts_S256x4x8x64x1_S256x4x8x64

def st_v42 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) :
    (⟨S256x4x8x64, .f32⟩ : BufTy).Contents (Elt F) :=
  Host.dotGeneral dot_S256x4x8x64_S64x64_S256x4x8x64_3_1_012_0_n_n none (st_v41 (F := F) a0 a1 a9) a10

def st_cst :
    (⟨S_, .f32⟩ : BufTy).Contents (Elt F) :=
  constant S_ .f32 0x3DCCCCCD#32

def st_call2_cst :
    (⟨S_, .f32⟩ : BufTy).Contents (Elt F) :=
  constant S_ .f32 0x00000000#32

def st_call2_v0 :
    (⟨S256x4x8x64, .f32⟩ : BufTy).Contents (Elt F) :=
  broadcastInDim S256x4x8x64 ![] bcast_S_S256x4x8x64 (st_call2_cst (F := F))

def st_call2_v1 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) :
    (⟨S256x4x8x64, .i1⟩ : BufTy).Contents (Elt F) :=
  cmpf .oge (st_v42 (F := F) a0 a1 a9 a10) (st_call2_v0 (F := F))

def st_call2_v2 :
    (⟨S_, .f32⟩ : BufTy).Contents (Elt F) :=
  id (st_cst (F := F))

def st_call2_v3 :
    (⟨S256x4x8x64, .f32⟩ : BufTy).Contents (Elt F) :=
  broadcastInDim S256x4x8x64 ![] bcast_S_S256x4x8x64 (st_call2_v2 (F := F))

def st_call2_v4 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) :
    (⟨S256x4x8x64, .f32⟩ : BufTy).Contents (Elt F) :=
  mulf (st_call2_v3 (F := F)) (st_v42 (F := F) a0 a1 a9 a10)

def st_v43 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) :
    (⟨S256x4x8x64, .f32⟩ : BufTy).Contents (Elt F) :=
  select (st_call2_v1 (F := F) a0 a1 a9 a10) (st_v42 (F := F) a0 a1 a9 a10) (st_call2_v4 (F := F) a0 a1 a9 a10)

def st_v44 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x1, .f32⟩ : BufTy).Contents (Elt F) :=
  Host.dotGeneral dot_S256x4x8x64_S1x64_S256x4x8x1_3_1_012_0_n_n none (st_v43 (F := F) a0 a1 a9 a10) a11

def st_v45 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x1x1, .f32⟩ : BufTy).Contents (Elt F) :=
  broadcastInDim S256x4x8x1x1 ![0, 1, 2, 3] bcast_S256x4x8x1_S256x4x8x1x1_0_1_2_3 (st_v44 (F := F) a0 a1 a9 a10 a11)

def st_v46 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  mulf (st_v22 (F := F) a0 a1) (st_v26 (F := F) a0 a1 a5 a6 a7 a8)

def st_cst_0 :
    (⟨S_, .f32⟩ : BufTy).Contents (Elt F) :=
  constant S_ .f32 0xFF800000#32

def st_v47 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64, .f32⟩ : BufTy).Contents (Elt F) :=
  Host.reduce FloatOps.maximumf (st_v46 (F := F) a0 a1 a5 a6 a7 a8) (st_cst_0 (F := F)) reducesTo_S256x4x8x64x64_S256x4x8x64_d4 h_S_

def st_cst_1 :
    (⟨S_, .f32⟩ : BufTy).Contents (Elt F) :=
  constant S_ .f32 0xFF800000#32

def st_v48 :
    (⟨S256x4x8x64, .f32⟩ : BufTy).Contents (Elt F) :=
  broadcastInDim S256x4x8x64 ![] bcast_S_S256x4x8x64 (st_cst_1 (F := F))

def st_v49 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64, .f32⟩ : BufTy).Contents (Elt F) :=
  maximumf (st_v48 (F := F)) (st_v47 (F := F) a0 a1 a5 a6 a7 a8)

def st_v50 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x1, .f32⟩ : BufTy).Contents (Elt F) :=
  broadcastInDim S256x4x8x64x1 ![0, 1, 2, 3] bcast_S256x4x8x64_S256x4x8x64x1_0_1_2_3 (st_v49 (F := F) a0 a1 a5 a6 a7 a8)

def st_v51 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  broadcastInDim S256x4x8x64x64 ![0, 1, 2, 3, 4] bcast_S256x4x8x64x1_S256x4x8x64x64_0_1_2_3_4 (st_v50 (F := F) a0 a1 a5 a6 a7 a8)

def st_v52 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  subf (st_v46 (F := F) a0 a1 a5 a6 a7 a8) (st_v51 (F := F) a0 a1 a5 a6 a7 a8)

def st_v53 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  Host.exp (st_v52 (F := F) a0 a1 a5 a6 a7 a8)

def st_cst_2 :
    (⟨S_, .f32⟩ : BufTy).Contents (Elt F) :=
  constant S_ .f32 0x00000000#32

def st_v54 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64, .f32⟩ : BufTy).Contents (Elt F) :=
  Host.reduceAdd (st_v53 (F := F) a0 a1 a5 a6 a7 a8) (st_cst_2 (F := F)) reducesTo_S256x4x8x64x64_S256x4x8x64_d4 h_S_

def st_v55 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x1, .f32⟩ : BufTy).Contents (Elt F) :=
  broadcastInDim S256x4x8x64x1 ![0, 1, 2, 3] bcast_S256x4x8x64_S256x4x8x64x1_0_1_2_3 (st_v54 (F := F) a0 a1 a5 a6 a7 a8)

def st_v56 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  broadcastInDim S256x4x8x64x64 ![0, 1, 2, 3, 4] bcast_S256x4x8x64x1_S256x4x8x64x64_0_1_2_3_4 (st_v55 (F := F) a0 a1 a5 a6 a7 a8)

def st_v57 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) :
    (⟨S256x4x8x64x64, .f32⟩ : BufTy).Contents (Elt F) :=
  Host.divf (st_v53 (F := F) a0 a1 a5 a6 a7 a8) (st_v56 (F := F) a0 a1 a5 a6 a7 a8)

def st_v58 (a0 : (⟨S1x112x8x128x128, .f32⟩ : BufTy).Contents (Elt F)) (a1 : (⟨S224x112, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x64x64, .f32⟩ : BufTy).Contents (Elt F) :=
  broadcastInDim S256x4x8x64x64 ![0, 1, 2, 3, 4] bcast_S256x4x8x1x1_S256x4x8x64x64_0_1_2_3_4 (st_v45 (F := F) a0 a1 a9 a10 a11)

def st_v59 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x64x64, .i1⟩ : BufTy).Contents (Elt F) :=
  cmpf .ogt (st_v46 (F := F) a0 a1 a5 a6 a7 a8) (st_v58 (F := F) a0 a1 a9 a10 a11)

def st_v60 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x64x64, .f32⟩ : BufTy).Contents (Elt F) :=
  uitofp .f32 (st_v59 (F := F) a0 a1 a5 a6 a7 a8 a9 a10 a11)

def st_v61 (a0 : (⟨S1x112x8x128x128, .f32⟩ : BufTy).Contents (Elt F)) (a1 : (⟨S224x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x64x64, .f32⟩ : BufTy).Contents (Elt F) :=
  mulf (st_v57 (F := F) a0 a1 a5 a6 a7 a8) (st_v60 (F := F) a0 a1 a5 a6 a7 a8 a9 a10 a11)

def st_v62 (a0 : (⟨S1x112x8x128x128, .f32⟩ : BufTy).Contents (Elt F)) (a1 : (⟨S224x112, .f32⟩ : BufTy).Contents (Elt F)) (a2 : (⟨S112x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x4x8x64x28, .f32⟩ : BufTy).Contents (Elt F) :=
  Host.dotGeneral dot_S256x4x8x64x64_S256x4x8x64x28_S256x4x8x64x28_4_3_3_4_012_012 none (st_v61 (F := F) a0 a1 a5 a6 a7 a8 a9 a10 a11) (st_v13 (F := F) a0 a2)

def st_v63 (a0 : (⟨S1x112x8x128x128, .f32⟩ : BufTy).Contents (Elt F)) (a1 : (⟨S224x112, .f32⟩ : BufTy).Contents (Elt F)) (a2 : (⟨S112x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x64x8x4x28, .f32⟩ : BufTy).Contents (Elt F) :=
  transpose S256x64x8x4x28 [0, 3, 2, 1, 4] (st_v62 (F := F) a0 a1 a2 a5 a6 a7 a8 a9 a10 a11) transposes_S256x4x8x64x28_S256x64x8x4x28_0_3_2_1_4

def st_v64 (a0 : (⟨S1x112x8x128x128, .f32⟩ : BufTy).Contents (Elt F)) (a1 : (⟨S224x112, .f32⟩ : BufTy).Contents (Elt F)) (a2 : (⟨S112x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x64x8x112, .f32⟩ : BufTy).Contents (Elt F) :=
  shapeCast S256x64x8x112 (st_v63 (F := F) a0 a1 a2 a5 a6 a7 a8 a9 a10 a11) shapeCasts_S256x64x8x4x28_S256x64x8x112

def st_v65 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x64x8x112, .f32⟩ : BufTy).Contents (Elt F) :=
  Host.dotGeneral dot_S256x64x8x112_S112x112_S256x64x8x112_3_1_012_0_n_n none (st_v64 (F := F) a0 a1 a2 a5 a6 a7 a8 a9 a10 a11) a3

def st_v66 (a4 : (⟨S112, .f32⟩ : BufTy).Contents (Elt F)) :
    (⟨S1x1x1x112, .f32⟩ : BufTy).Contents (Elt F) :=
  broadcastInDim S1x1x1x112 ![3] bcast_S112_S1x1x1x112_3 a4

def st_v67 (a4 : (⟨S112, .f32⟩ : BufTy).Contents (Elt F)) :
    (⟨S256x64x8x112, .f32⟩ : BufTy).Contents (Elt F) :=
  broadcastInDim S256x64x8x112 ![0, 1, 2, 3] bcast_S1x1x1x112_S256x64x8x112_0_1_2_3 (st_v66 (F := F) a4)

def st_v68 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S256x64x8x112, .f32⟩ : BufTy).Contents (Elt F) :=
  addf (st_v65 (F := F) a0 a1 a2 a3 a5 a6 a7 a8 a9 a10 a11) (st_v67 (F := F) a4)

def st_v69 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x16x16x8x8x8x112, .f32⟩ : BufTy).Contents (Elt F) :=
  shapeCast S1x16x16x8x8x8x112 (st_v68 (F := F) a0 a1 a2 a3 a4 a5 a6 a7 a8 a9 a10 a11) shapeCasts_S256x64x8x112_S1x16x16x8x8x8x112

def st_v70 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x16x8x16x8, .f32⟩ : BufTy).Contents (Elt F) :=
  transpose S1x112x8x16x8x16x8 [0, 6, 5, 1, 3, 2, 4] (st_v69 (F := F) a0 a1 a2 a3 a4 a5 a6 a7 a8 a9 a10 a11) transposes_S1x16x16x8x8x8x112_S1x112x8x16x8x16x8_0_6_5_1_3_2_4

def st_v71 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x128, .f32⟩ : BufTy).Contents (Elt F) :=
  shapeCast S1x112x8x128x128 (st_v70 (F := F) a0 a1 a2 a3 a4 a5 a6 a7 a8 a9 a10 a11) shapeCasts_S1x112x8x16x8x16x8_S1x112x8x128x128

def st_call3_v0 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x124x128, .f32⟩ : BufTy).Contents (Elt F) :=
  extractStridedSlice S1x112x8x124x128 ![0, 0, 0, 4, 0] (st_v71 (F := F) a0 a1 a2 a3 a4 a5 a6 a7 a8 a9 a10 a11) slices_S1x112x8x128x128_S1x112x8x124x128_0_0_0_4_0

def st_call3_v1 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x4x128, .f32⟩ : BufTy).Contents (Elt F) :=
  extractStridedSlice S1x112x8x4x128 ![0, 0, 0, 0, 0] (st_v71 (F := F) a0 a1 a2 a3 a4 a5 a6 a7 a8 a9 a10 a11) slices_S1x112x8x128x128_S1x112x8x4x128_0_0_0_0_0

def st_call3_v2 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x128, .f32⟩ : BufTy).Contents (Elt F) :=
  concatenate S1x112x8x128x128 3 [⟨S1x112x8x124x128, (st_call3_v0 (F := F) a0 a1 a2 a3 a4 a5 a6 a7 a8 a9 a10 a11)⟩, ⟨S1x112x8x4x128, (st_call3_v1 (F := F) a0 a1 a2 a3 a4 a5 a6 a7 a8 a9 a10 a11)⟩] concatenates_S1x112x8x124x128_S1x112x8x4x128_S1x112x8x128x128_d3

def st_call3_v3 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x124, .f32⟩ : BufTy).Contents (Elt F) :=
  extractStridedSlice S1x112x8x128x124 ![0, 0, 0, 0, 4] (st_call3_v2 (F := F) a0 a1 a2 a3 a4 a5 a6 a7 a8 a9 a10 a11) slices_S1x112x8x128x128_S1x112x8x128x124_0_0_0_0_4

def st_call3_v4 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x4, .f32⟩ : BufTy).Contents (Elt F) :=
  extractStridedSlice S1x112x8x128x4 ![0, 0, 0, 0, 0] (st_call3_v2 (F := F) a0 a1 a2 a3 a4 a5 a6 a7 a8 a9 a10 a11) slices_S1x112x8x128x128_S1x112x8x128x4_0_0_0_0_0

def st_v72 (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x128, .f32⟩ : BufTy).Contents (Elt F) :=
  concatenate S1x112x8x128x128 4 [⟨S1x112x8x128x124, (st_call3_v3 (F := F) a0 a1 a2 a3 a4 a5 a6 a7 a8 a9 a10 a11)⟩, ⟨S1x112x8x128x4, (st_call3_v4 (F := F) a0 a1 a2 a3 a4 a5 a6 a7 a8 a9 a10 a11)⟩] concatenates_S1x112x8x128x124_S1x112x8x128x4_S1x112x8x128x128_d4

/-- The returned value, as a function of the twelve arguments. -/
def refOut (a0 : (⟨S1x112x8x128x128, .f32⟩ : BufTy).Contents (Elt F)) (a1 : (⟨S224x112, .f32⟩ : BufTy).Contents (Elt F)) (a2 : (⟨S112x112, .f32⟩ : BufTy).Contents (Elt F)) (a3 : (⟨S112x112, .f32⟩ : BufTy).Contents (Elt F)) (a4 : (⟨S112, .f32⟩ : BufTy).Contents (Elt F)) (a5 : (⟨S1x28, .f32⟩ : BufTy).Contents (Elt F)) (a6 : (⟨S1, .f32⟩ : BufTy).Contents (Elt F)) (a7 : (⟨S1x28, .f32⟩ : BufTy).Contents (Elt F)) (a8 : (⟨S1, .f32⟩ : BufTy).Contents (Elt F)) (a9 : (⟨S1x64, .f32⟩ : BufTy).Contents (Elt F)) (a10 : (⟨S64x64, .f32⟩ : BufTy).Contents (Elt F)) (a11 : (⟨S1x64, .f32⟩ : BufTy).Contents (Elt F)) :
    (⟨S1x112x8x128x128, .f32⟩ : BufTy).Contents (Elt F) :=
  st_v72 (F := F) a0 a1 a2 a3 a4 a5 a6 a7 a8 a9 a10 a11

end Cert.ReferenceIdeal.RefRun

end
-- ==== Proof.RefRunOps.lean ====
/- The reference program's @main as the list of its host operations, the lines of the functions it calls
   listed where the calls stand, each over the buffers of its call. -/
import proofs.«155316_j49177375539263_2_alg».proof.Proof.Gen.ReferenceIdeal
import proofs.«155316_j49177375539263_2_alg».proof.Proof.RefStages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 113 operations, in order: each call replaced by the called function's lines over the call's buffers. -/
abbrev ops : List (HloOp τ sig (Elt F)) :=
  [ StableHlo.unary main_arg0 main_call0_v0 ((extractStridedSlice S1x112x8x4x128 ![0, 0, 0, 124, 0] · slices_S1x112x8x128x128_S1x112x8x4x128_0_0_0_124_0) : (⟨S1x112x8x128x128, .f32⟩ : BufTy).Contents (Elt F) → (⟨S1x112x8x4x128, .f32⟩ : BufTy).Contents (Elt F)),
    StableHlo.unary main_arg0 main_call0_v1 ((extractStridedSlice S1x112x8x124x128 ![0, 0, 0, 0, 0] · slices_S1x112x8x128x128_S1x112x8x124x128_0_0_0_0_0) : (⟨S1x112x8x128x128, .f32⟩ : BufTy).Contents (Elt F) → (⟨S1x112x8x124x128, .f32⟩ : BufTy).Contents (Elt F)),
    StableHlo.binary main_call0_v0 main_call0_v1 main_call0_v2 ((fun a b => concatenate S1x112x8x128x128 3 [⟨S1x112x8x4x128, a⟩, ⟨S1x112x8x124x128, b⟩] concatenates_S1x112x8x4x128_S1x112x8x124x128_S1x112x8x128x128_d3) : (⟨S1x112x8x4x128, .f32⟩ : BufTy).Contents (Elt F) → (⟨S1x112x8x124x128, .f32⟩ : BufTy).Contents (Elt F) → (⟨S1x112x8x128x128, .f32⟩ : BufTy).Contents (Elt F)),
    StableHlo.unary main_call0_v2 main_call0_v3 ((extractStridedSlice S1x112x8x128x4 ![0, 0, 0, 0, 124] · slices_S1x112x8x128x128_S1x112x8x128x4_0_0_0_0_124) : (⟨S1x112x8x128x128, .f32⟩ : BufTy).Contents (Elt F) → (⟨S1x112x8x128x4, .f32⟩ : BufTy).Contents (Elt F)),
    StableHlo.unary main_call0_v2 main_call0_v4 ((extractStridedSlice S1x112x8x128x124 ![0, 0, 0, 0, 0] · slices_S1x112x8x128x128_S1x112x8x128x124_0_0_0_0_0) : (⟨S1x112x8x128x128, .f32⟩ : BufTy).Contents (Elt F) → (⟨S1x112x8x128x124, .f32⟩ : BufTy).Contents (Elt F)),
    StableHlo.binary main_call0_v3 main_call0_v4 main_v0 ((fun a b => concatenate S1x112x8x128x128 4 [⟨S1x112x8x128x4, a⟩, ⟨S1x112x8x128x124, b⟩] concatenates_S1x112x8x128x4_S1x112x8x128x124_S1x112x8x128x128_d4) : (⟨S1x112x8x128x4, .f32⟩ : BufTy).Contents (Elt F) → (⟨S1x112x8x128x124, .f32⟩ : BufTy).Contents (Elt F) → (⟨S1x112x8x128x128, .f32⟩ : BufTy).Contents (Elt F)),
    StableHlo.reshape main_v0 main_v1 rfl shapeCasts_S1x112x8x128x128_S1x112x8x16x8x16x8,
    StableHlo.unary main_v1 main_v2 ((transpose S1x16x16x8x8x8x112 [0, 3, 5, 4, 6, 2, 1] · transposes_S1x112x8x16x8x16x8_S1x16x16x8x8x8x112_0_3_5_4_6_2_1) : (⟨S1x112x8x16x8x16x8, .f32⟩ : BufTy).Contents (Elt F) → (⟨S1x16x16x8x8x8x112, .f32⟩ : BufTy).Contents (Elt F)),
    StableHlo.reshape main_v2 main_v3 rfl shapeCasts_S1x16x16x8x8x8x112_S256x64x8x112,
    StableHlo.binary main_v3 main_arg1 main_v4 ((fun l r => Host.dotGeneral dot_S256x64x8x112_S224x112_S256x64x8x224_3_1_012_0_n_n none l r) : (⟨S256x64x8x112, .f32⟩ : BufTy).Contents (Elt F) → (⟨S224x112, .f32⟩ : BufTy).Contents (Elt F) → (⟨S256x64x8x224, .f32⟩ : BufTy).Contents (Elt F)),
    StableHlo.unary main_v4 main_v5 ((extractStridedSlice S256x64x8x112 ![0, 0, 0, 0] · slices_S256x64x8x224_S256x64x8x112_0_0_0_0) : (⟨S256x64x8x224, .f32⟩ : BufTy).Contents (Elt F) → (⟨S256x64x8x112, .f32⟩ : BufTy).Contents (Elt F)),
    StableHlo.unary main_v4 main_v6 ((extractStridedSlice S256x64x8x112 ![0, 0, 0, 112] · slices_S256x64x8x224_S256x64x8x112_0_0_0_112) : (⟨S256x64x8x224, .f32⟩ : BufTy).Contents (Elt F) → (⟨S256x64x8x112, .f32⟩ : BufTy).Contents (Elt F)),
    StableHlo.binary main_v3 main_arg2 main_v7 ((fun l r => Host.dotGeneral dot_S256x64x8x112_S112x112_S256x64x8x112_3_1_012_0_n_n none l r) : (⟨S256x64x8x112, .f32⟩ : BufTy).Contents (Elt F) → (⟨S112x112, .f32⟩ : BufTy).Contents (Elt F) → (⟨S256x64x8x112, .f32⟩ : BufTy).Contents (Elt F)),
    StableHlo.reshape main_v5 main_v8 rfl shapeCasts_S256x64x8x112_S256x64x8x4x28,
    StableHlo.unary main_v8 main_v9 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.reshape main_v6 main_v10 rfl shapeCasts_S256x64x8x112_S256x64x8x4x28,
    StableHlo.unary main_v10 main_v11 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.reshape main_v7 main_v12 rfl shapeCasts_S256x64x8x112_S256x64x8x4x28,
    StableHlo.unary main_v12 main_v13 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.binary main_v9 main_arg5 main_v14 ((fun l r => Host.dotGeneral dot_S256x4x8x64x28_S1x28_S256x4x8x64x1_4_1_0123_0_n_n none l r) : (⟨S256x4x8x64x28, .f32⟩ : BufTy).Contents (Elt F) → (⟨S1x28, .f32⟩ : BufTy).Contents (Elt F) → (⟨S256x4x8x64x1, .f32⟩ : BufTy).Contents (Elt F)),
    StableHlo.unary main_arg6 main_v15 (broadcastInDim S1x1x1x1x1 ![4] bcast_S1_S1x1x1x1x1_4 : (⟨S1, .f32⟩ : BufTy).Contents (Elt F) → (⟨S1x1x1x1x1, .f32⟩ : BufTy).Contents (Elt F)),
    StableHlo.unary main_v15 main_v16 (broadcastInDim S256x4x8x64x1 ![0, 1, 2, 3, 4] bcast_S1x1x1x1x1_S256x4x8x64x1_0_1_2_3_4 : (⟨S1x1x1x1x1, .f32⟩ : BufTy).Contents (Elt F) → (⟨S256x4x8x64x1, .f32⟩ : BufTy).Contents (Elt F)),
    StableHlo.binary main_v14 main_v16 main_v17 (addf : (⟨S256x4x8x64x1, .f32⟩ : BufTy).Contents (Elt F) → (⟨S256x4x8x64x1, .f32⟩ : BufTy).Contents (Elt F) → (⟨S256x4x8x64x1, .f32⟩ : BufTy).Contents (Elt F)),
    StableHlo.binary main_v11 main_arg7 main_v18 ((fun l r => Host.dotGeneral dot_S256x4x8x64x28_S1x28_S256x4x8x64x1_4_1_0123_0_n_n none l r) : (⟨S256x4x8x64x28, .f32⟩ : BufTy).Contents (Elt F) → (⟨S1x28, .f32⟩ : BufTy).Contents (Elt F) → (⟨S256x4x8x64x1, .f32⟩ : BufTy).Contents (Elt F)),
    StableHlo.unary main_arg8 main_v19 (broadcastInDim S1x1x1x1x1 ![4] bcast_S1_S1x1x1x1x1_4 : (⟨S1, .f32⟩ : BufTy).Contents (Elt F) → (⟨S1x1x1x1x1, .f32⟩ : BufTy).Contents (Elt F)),
    StableHlo.unary main_v19 main_v20 (broadcastInDim S256x4x8x64x1 ![0, 1, 2, 3, 4] bcast_S1x1x1x1x1_S256x4x8x64x1_0_1_2_3_4 : (⟨S1x1x1x1x1, .f32⟩ : BufTy).Contents (Elt F) → (⟨S256x4x8x64x1, .f32⟩ : BufTy).Contents (Elt F)),
    StableHlo.binary main_v18 main_v20 main_v21 (addf : (⟨S256x4x8x64x1, .f32⟩ : BufTy).Contents (Elt F) → (⟨S256x4x8x64x1, .f32⟩ : BufTy).Contents (Elt F) → (⟨S256x4x8x64x1, .f32⟩ : BufTy).Contents (Elt F)),
    StableHlo.binary main_v9 main_v11 main_v22 ((fun l r => Host.dotGeneral dot_S256x4x8x64x28_S256x4x8x64x28_S256x4x8x64x64_4_4_3_3_012_012 none l r) : (⟨S256x4x8x64x28, .f32⟩ : BufTy).Contents (Elt F) → (⟨S256x4x8x64x28, .f32⟩ : BufTy).Contents (Elt F) → (⟨S256x4x8x64x64, .f32⟩ : BufTy).Contents (Elt F)),
    StableHlo.unary main_v21 main_v23 ((transpose S256x4x8x1x64 [0, 1, 2, 4, 3] · transposes_S256x4x8x64x1_S256x4x8x1x64_0_1_2_4_3) : (⟨S256x4x8x64x1, .f32⟩ : BufTy).Contents (Elt F) → (⟨S256x4x8x1x64, .f32⟩ : BufTy).Contents (Elt F)),
    StableHlo.unary main_v17 main_v24 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.unary main_v23 main_v25 (broadcastInDim S256x4x8x64x64 ![0, 1, 2, 3, 4] bcast_S256x4x8x1x64_S256x4x8x64x64_0_1_2_3_4 : (⟨S256x4x8x1x64, .f32⟩ : BufTy).Contents (Elt F) → (⟨S256x4x8x64x64, .f32⟩ : BufTy).Contents (Elt F)),
    StableHlo.binary main_v24 main_v25 main_v26 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.nullary main_call1_v0 (iotaInDim S64 32 0 : (⟨S64, .i32⟩ : BufTy).Contents (Elt F)),
    StableHlo.nullary main_call1_v1 (iotaInDim S64 32 0 : (⟨S64, .i32⟩ : BufTy).Contents (Elt F)),
    StableHlo.nullary main_call1_c (constantI S_ 32 0#32 : (⟨S_, .i32⟩ : BufTy).Contents (Elt F)),
    StableHlo.unary main_call1_c main_call1_v2 ((broadcastInDim S64 ![] bcast_S_S64) : (⟨S_, .i32⟩ : BufTy).Contents (Elt F) → (⟨S64, .i32⟩ : BufTy).Contents (Elt F)),
    StableHlo.binary main_call1_v0 main_call1_v2 main_call1_v3 ((cmpi .slt) : (⟨S64, .i32⟩ : BufTy).Contents (Elt F) → (⟨S64, .i32⟩ : BufTy).Contents (Elt F) → (⟨S64, .i1⟩ : BufTy).Contents (Elt F)),
    StableHlo.nullary main_call1_c_0 (constantI S_ 32 64#32 : (⟨S_, .i32⟩ : BufTy).Contents (Elt F)),
    StableHlo.unary main_call1_c_0 main_call1_v4 ((broadcastInDim S64 ![] bcast_S_S64) : (⟨S_, .i32⟩ : BufTy).Contents (Elt F) → (⟨S64, .i32⟩ : BufTy).Contents (Elt F)),
    StableHlo.binary main_call1_v0 main_call1_v4 main_call1_v5 (addi : (⟨S64, .i32⟩ : BufTy).Contents (Elt F) → (⟨S64, .i32⟩ : BufTy).Contents (Elt F) → (⟨S64, .i32⟩ : BufTy).Contents (Elt F)),
    StableHlo.ternary main_call1_v3 main_call1_v5 main_call1_v0 main_call1_v6 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_call1_c_1 (constantI S_ 32 0#32 : (⟨S_, .i32⟩ : BufTy).Contents (Elt F)),
    StableHlo.unary main_call1_c_1 main_call1_v7 ((broadcastInDim S64 ![] bcast_S_S64) : (⟨S_, .i32⟩ : BufTy).Contents (Elt F) → (⟨S64, .i32⟩ : BufTy).Contents (Elt F)),
    StableHlo.binary main_call1_v1 main_call1_v7 main_call1_v8 ((cmpi .slt) : (⟨S64, .i32⟩ : BufTy).Contents (Elt F) → (⟨S64, .i32⟩ : BufTy).Contents (Elt F) → (⟨S64, .i1⟩ : BufTy).Contents (Elt F)),
    StableHlo.nullary main_call1_c_2 (constantI S_ 32 64#32 : (⟨S_, .i32⟩ : BufTy).Contents (Elt F)),
    StableHlo.unary main_call1_c_2 main_call1_v9 ((broadcastInDim S64 ![] bcast_S_S64) : (⟨S_, .i32⟩ : BufTy).Contents (Elt F) → (⟨S64, .i32⟩ : BufTy).Contents (Elt F)),
    StableHlo.binary main_call1_v1 main_call1_v9 main_call1_v10 (addi : (⟨S64, .i32⟩ : BufTy).Contents (Elt F) → (⟨S64, .i32⟩ : BufTy).Contents (Elt F) → (⟨S64, .i32⟩ : BufTy).Contents (Elt F)),
    StableHlo.ternary main_call1_v8 main_call1_v10 main_call1_v1 main_call1_v11 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_call1_v6 main_call1_v12 ((broadcastInDim S64x1 ![0] bcast_S64_S64x1_0) : (⟨S64, .i32⟩ : BufTy).Contents (Elt F) → (⟨S64x1, .i32⟩ : BufTy).Contents (Elt F)),
    StableHlo.unary main_call1_v11 main_call1_v13 ((broadcastInDim S64x1 ![0] bcast_S64_S64x1_0) : (⟨S64, .i32⟩ : BufTy).Contents (Elt F) → (⟨S64x1, .i32⟩ : BufTy).Contents (Elt F)),
    StableHlo.binary main_call1_v12 main_call1_v13 main_call1_v14 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v22 main_call1_v14 main_v27 ((fun x i => Host.gather gather_S256x4x8x64x64_S64x2_S256x4x8x64_012_34_n_n_34_1_2564811 x i) : (⟨S256x4x8x64x64, .f32⟩ : BufTy).Contents (Elt F) → (⟨S64x2, .i32⟩ : BufTy).Contents (Elt F) → (⟨S256x4x8x64, .f32⟩ : BufTy).Contents (Elt F)),
    StableHlo.unary main_v27 main_v28 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.nullary main_v29 (iotaInDim S64x64 32 0),
    StableHlo.nullary main_v30 (iotaInDim S64x64 32 1),
    StableHlo.nullary main_c (constantI S_ 32 0#32),
    StableHlo.unary main_c main_v31 (broadcastInDim S64x64 ![] bcast_S_S64x64 : (⟨S_, .i32⟩ : BufTy).Contents (Elt F) → (⟨S64x64, .i32⟩ : BufTy).Contents (Elt F)),
    StableHlo.binary main_v29 main_v31 main_v32 (addi : (⟨S64x64, .i32⟩ : BufTy).Contents (Elt F) → (⟨S64x64, .i32⟩ : BufTy).Contents (Elt F) → (⟨S64x64, .i32⟩ : BufTy).Contents (Elt F)),
    StableHlo.binary main_v32 main_v30 main_v33 (cmpi .eq : (⟨S64x64, .i32⟩ : BufTy).Contents (Elt F) → (⟨S64x64, .i32⟩ : BufTy).Contents (Elt F) → (⟨S64x64, .i1⟩ : BufTy).Contents (Elt F)),
    StableHlo.unary main_v33 main_v34 (uitofp .f32 : (⟨S64x64, .i1⟩ : BufTy).Contents (Elt F) → (⟨S64x64, .f32⟩ : BufTy).Contents (Elt F)),
    StableHlo.unary main_v34 main_v35 (broadcastInDim S1x1x1x64x64 ![3, 4] bcast_S64x64_S1x1x1x64x64_3_4 : (⟨S64x64, .f32⟩ : BufTy).Contents (Elt F) → (⟨S1x1x1x64x64, .f32⟩ : BufTy).Contents (Elt F)),
    StableHlo.unary main_v28 main_v36 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.unary main_v35 main_v37 (broadcastInDim S256x4x8x64x64 ![0, 1, 2, 3, 4] bcast_S1x1x1x64x64_S256x4x8x64x64_0_1_2_3_4 : (⟨S1x1x1x64x64, .f32⟩ : BufTy).Contents (Elt F) → (⟨S256x4x8x64x64, .f32⟩ : BufTy).Contents (Elt F)),
    StableHlo.binary main_v36 main_v37 main_v38 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v22 main_v38 main_v39 (subf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v39 main_arg9 main_v40 ((fun l r => Host.dotGeneral dot_S256x4x8x64x64_S1x64_S256x4x8x64x1_4_1_0123_0_n_n none l r) : (⟨S256x4x8x64x64, .f32⟩ : BufTy).Contents (Elt F) → (⟨S1x64, .f32⟩ : BufTy).Contents (Elt F) → (⟨S256x4x8x64x1, .f32⟩ : BufTy).Contents (Elt F)),
    StableHlo.reshape main_v40 main_v41 rfl shapeCasts_S256x4x8x64x1_S256x4x8x64,
    StableHlo.binary main_v41 main_arg10 main_v42 ((fun l r => Host.dotGeneral dot_S256x4x8x64_S64x64_S256x4x8x64_3_1_012_0_n_n none l r) : (⟨S256x4x8x64, .f32⟩ : BufTy).Contents (Elt F) → (⟨S64x64, .f32⟩ : BufTy).Contents (Elt F) → (⟨S256x4x8x64, .f32⟩ : BufTy).Contents (Elt F)),
    StableHlo.nullary main_cst (constant S_ .f32 0x3DCCCCCD#32),
    StableHlo.nullary main_call2_cst (constant S_ .f32 0x00000000#32 : (⟨S_, .f32⟩ : BufTy).Contents (Elt F)),
    StableHlo.unary main_call2_cst main_call2_v0 ((broadcastInDim S256x4x8x64 ![] bcast_S_S256x4x8x64) : (⟨S_, .f32⟩ : BufTy).Contents (Elt F) → (⟨S256x4x8x64, .f32⟩ : BufTy).Contents (Elt F)),
    StableHlo.binary main_v42 main_call2_v0 main_call2_v1 ((cmpf .oge) : (⟨S256x4x8x64, .f32⟩ : BufTy).Contents (Elt F) → (⟨S256x4x8x64, .f32⟩ : BufTy).Contents (Elt F) → (⟨S256x4x8x64, .i1⟩ : BufTy).Contents (Elt F)),
    StableHlo.unary main_cst main_call2_v2 (id : (⟨S_, .f32⟩ : BufTy).Contents (Elt F) → (⟨S_, .f32⟩ : BufTy).Contents (Elt F)),
    StableHlo.unary main_call2_v2 main_call2_v3 ((broadcastInDim S256x4x8x64 ![] bcast_S_S256x4x8x64) : (⟨S_, .f32⟩ : BufTy).Contents (Elt F) → (⟨S256x4x8x64, .f32⟩ : BufTy).Contents (Elt F)),
    StableHlo.binary main_call2_v3 main_v42 main_call2_v4 (mulf : (⟨S256x4x8x64, .f32⟩ : BufTy).Contents (Elt F) → (⟨S256x4x8x64, .f32⟩ : BufTy).Contents (Elt F) → (⟨S256x4x8x64, .f32⟩ : BufTy).Contents (Elt F)),
    StableHlo.ternary main_call2_v1 main_v42 main_call2_v4 main_v43 (select : (⟨S256x4x8x64, .i1⟩ : BufTy).Contents (Elt F) → (⟨S256x4x8x64, .f32⟩ : BufTy).Contents (Elt F) → (⟨S256x4x8x64, .f32⟩ : BufTy).Contents (Elt F) → (⟨S256x4x8x64, .f32⟩ : BufTy).Contents (Elt F)),
    StableHlo.binary main_v43 main_arg11 main_v44 ((fun l r => Host.dotGeneral dot_S256x4x8x64_S1x64_S256x4x8x1_3_1_012_0_n_n none l r) : (⟨S256x4x8x64, .f32⟩ : BufTy).Contents (Elt F) → (⟨S1x64, .f32⟩ : BufTy).Contents (Elt F) → (⟨S256x4x8x1, .f32⟩ : BufTy).Contents (Elt F)),
    StableHlo.unary main_v44 main_v45 (broadcastInDim S256x4x8x1x1 ![0, 1, 2, 3] bcast_S256x4x8x1_S256x4x8x1x1_0_1_2_3 : (⟨S256x4x8x1, .f32⟩ : BufTy).Contents (Elt F) → (⟨S256x4x8x1x1, .f32⟩ : BufTy).Contents (Elt F)),
    StableHlo.binary main_v22 main_v26 main_v46 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.nullary main_cst_0 (constant S_ .f32 0xFF800000#32),
    StableHlo.binary main_v46 main_cst_0 main_v47 ((fun x v => Host.reduce FloatOps.maximumf x v reducesTo_S256x4x8x64x64_S256x4x8x64_d4 h_S_) : (⟨S256x4x8x64x64, .f32⟩ : BufTy).Contents (Elt F) → (⟨S_, .f32⟩ : BufTy).Contents (Elt F) → (⟨S256x4x8x64, .f32⟩ : BufTy).Contents (Elt F)),
    StableHlo.nullary main_cst_1 (constant S_ .f32 0xFF800000#32),
    StableHlo.unary main_cst_1 main_v48 (broadcastInDim S256x4x8x64 ![] bcast_S_S256x4x8x64 : (⟨S_, .f32⟩ : BufTy).Contents (Elt F) → (⟨S256x4x8x64, .f32⟩ : BufTy).Contents (Elt F)),
    StableHlo.binary main_v48 main_v47 main_v49 (maximumf : (⟨S256x4x8x64, .f32⟩ : BufTy).Contents (Elt F) → (⟨S256x4x8x64, .f32⟩ : BufTy).Contents (Elt F) → (⟨S256x4x8x64, .f32⟩ : BufTy).Contents (Elt F)),
    StableHlo.unary main_v49 main_v50 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.unary main_v50 main_v51 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.binary main_v46 main_v51 main_v52 (subf : (⟨S256x4x8x64x64, .f32⟩ : BufTy).Contents (Elt F) → (⟨S256x4x8x64x64, .f32⟩ : BufTy).Contents (Elt F) → (⟨S256x4x8x64x64, .f32⟩ : BufTy).Contents (Elt F)),
    StableHlo.unary main_v52 main_v53 (Host.exp : (⟨S256x4x8x64x64, .f32⟩ : BufTy).Contents (Elt F) → (⟨S256x4x8x64x64, .f32⟩ : BufTy).Contents (Elt F)),
    StableHlo.nullary main_cst_2 (constant S_ .f32 0x00000000#32),
    StableHlo.binary main_v53 main_cst_2 main_v54 ((fun x v => Host.reduceAdd x v reducesTo_S256x4x8x64x64_S256x4x8x64_d4 h_S_) : (⟨S256x4x8x64x64, .f32⟩ : BufTy).Contents (Elt F) → (⟨S_, .f32⟩ : BufTy).Contents (Elt F) → (⟨S256x4x8x64, .f32⟩ : BufTy).Contents (Elt F)),
    StableHlo.unary main_v54 main_v55 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.unary main_v55 main_v56 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.binary main_v53 main_v56 main_v57 (Host.divf : (⟨S256x4x8x64x64, .f32⟩ : BufTy).Contents (Elt F) → (⟨S256x4x8x64x64, .f32⟩ : BufTy).Contents (Elt F) → (⟨S256x4x8x64x64, .f32⟩ : BufTy).Contents (Elt F)),
    StableHlo.unary main_v45 main_v58 (broadcastInDim S256x4x8x64x64 ![0, 1, 2, 3, 4] bcast_S256x4x8x1x1_S256x4x8x64x64_0_1_2_3_4 : (⟨S256x4x8x1x1, .f32⟩ : BufTy).Contents (Elt F) → (⟨S256x4x8x64x64, .f32⟩ : BufTy).Contents (Elt F)),
    StableHlo.binary main_v46 main_v58 main_v59 (cmpf .ogt : (⟨S256x4x8x64x64, .f32⟩ : BufTy).Contents (Elt F) → (⟨S256x4x8x64x64, .f32⟩ : BufTy).Contents (Elt F) → (⟨S256x4x8x64x64, .i1⟩ : BufTy).Contents (Elt F)),
    StableHlo.unary main_v59 main_v60 (uitofp .f32 : (⟨S256x4x8x64x64, .i1⟩ : BufTy).Contents (Elt F) → (⟨S256x4x8x64x64, .f32⟩ : BufTy).Contents (Elt F)),
    StableHlo.binary main_v57 main_v60 main_v61 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v61 main_v13 main_v62 ((fun l r => Host.dotGeneral dot_S256x4x8x64x64_S256x4x8x64x28_S256x4x8x64x28_4_3_3_4_012_012 none l r) : (⟨S256x4x8x64x64, .f32⟩ : BufTy).Contents (Elt F) → (⟨S256x4x8x64x28, .f32⟩ : BufTy).Contents (Elt F) → (⟨S256x4x8x64x28, .f32⟩ : BufTy).Contents (Elt F)),
    StableHlo.unary main_v62 main_v63 ((transpose S256x64x8x4x28 [0, 3, 2, 1, 4] · transposes_S256x4x8x64x28_S256x64x8x4x28_0_3_2_1_4) : (⟨S256x4x8x64x28, .f32⟩ : BufTy).Contents (Elt F) → (⟨S256x64x8x4x28, .f32⟩ : BufTy).Contents (Elt F)),
    StableHlo.reshape main_v63 main_v64 rfl shapeCasts_S256x64x8x4x28_S256x64x8x112,
    StableHlo.binary main_v64 main_arg3 main_v65 ((fun l r => Host.dotGeneral dot_S256x64x8x112_S112x112_S256x64x8x112_3_1_012_0_n_n none l r) : (⟨S256x64x8x112, .f32⟩ : BufTy).Contents (Elt F) → (⟨S112x112, .f32⟩ : BufTy).Contents (Elt F) → (⟨S256x64x8x112, .f32⟩ : BufTy).Contents (Elt F)),
    StableHlo.unary main_arg4 main_v66 (broadcastInDim S1x1x1x112 ![3] bcast_S112_S1x1x1x112_3 : (⟨S112, .f32⟩ : BufTy).Contents (Elt F) → (⟨S1x1x1x112, .f32⟩ : BufTy).Contents (Elt F)),
    StableHlo.unary main_v66 main_v67 (broadcastInDim S256x64x8x112 ![0, 1, 2, 3] bcast_S1x1x1x112_S256x64x8x112_0_1_2_3 : (⟨S1x1x1x112, .f32⟩ : BufTy).Contents (Elt F) → (⟨S256x64x8x112, .f32⟩ : BufTy).Contents (Elt F)),
    StableHlo.binary main_v65 main_v67 main_v68 (addf : (⟨S256x64x8x112, .f32⟩ : BufTy).Contents (Elt F) → (⟨S256x64x8x112, .f32⟩ : BufTy).Contents (Elt F) → (⟨S256x64x8x112, .f32⟩ : BufTy).Contents (Elt F)),
    StableHlo.reshape main_v68 main_v69 rfl shapeCasts_S256x64x8x112_S1x16x16x8x8x8x112,
    StableHlo.unary main_v69 main_v70 ((transpose S1x112x8x16x8x16x8 [0, 6, 5, 1, 3, 2, 4] · transposes_S1x16x16x8x8x8x112_S1x112x8x16x8x16x8_0_6_5_1_3_2_4) : (⟨S1x16x16x8x8x8x112, .f32⟩ : BufTy).Contents (Elt F) → (⟨S1x112x8x16x8x16x8, .f32⟩ : BufTy).Contents (Elt F)),
    StableHlo.reshape main_v70 main_v71 rfl shapeCasts_S1x112x8x16x8x16x8_S1x112x8x128x128,
    StableHlo.unary main_v71 main_call3_v0 ((extractStridedSlice S1x112x8x124x128 ![0, 0, 0, 4, 0] · slices_S1x112x8x128x128_S1x112x8x124x128_0_0_0_4_0) : (⟨S1x112x8x128x128, .f32⟩ : BufTy).Contents (Elt F) → (⟨S1x112x8x124x128, .f32⟩ : BufTy).Contents (Elt F)),
    StableHlo.unary main_v71 main_call3_v1 ((extractStridedSlice S1x112x8x4x128 ![0, 0, 0, 0, 0] · slices_S1x112x8x128x128_S1x112x8x4x128_0_0_0_0_0) : (⟨S1x112x8x128x128, .f32⟩ : BufTy).Contents (Elt F) → (⟨S1x112x8x4x128, .f32⟩ : BufTy).Contents (Elt F)),
    StableHlo.binary main_call3_v0 main_call3_v1 main_call3_v2 ((fun a b => concatenate S1x112x8x128x128 3 [⟨S1x112x8x124x128, a⟩, ⟨S1x112x8x4x128, b⟩] concatenates_S1x112x8x124x128_S1x112x8x4x128_S1x112x8x128x128_d3) : (⟨S1x112x8x124x128, .f32⟩ : BufTy).Contents (Elt F) → (⟨S1x112x8x4x128, .f32⟩ : BufTy).Contents (Elt F) → (⟨S1x112x8x128x128, .f32⟩ : BufTy).Contents (Elt F)),
    StableHlo.unary main_call3_v2 main_call3_v3 ((extractStridedSlice S1x112x8x128x124 ![0, 0, 0, 0, 4] · slices_S1x112x8x128x128_S1x112x8x128x124_0_0_0_0_4) : (⟨S1x112x8x128x128, .f32⟩ : BufTy).Contents (Elt F) → (⟨S1x112x8x128x124, .f32⟩ : BufTy).Contents (Elt F)),
    StableHlo.unary main_call3_v2 main_call3_v4 ((extractStridedSlice S1x112x8x128x4 ![0, 0, 0, 0, 0] · slices_S1x112x8x128x128_S1x112x8x128x4_0_0_0_0_0) : (⟨S1x112x8x128x128, .f32⟩ : BufTy).Contents (Elt F) → (⟨S1x112x8x128x4, .f32⟩ : BufTy).Contents (Elt F)),
    StableHlo.binary main_call3_v3 main_call3_v4 main_v72 ((fun a b => concatenate S1x112x8x128x128 4 [⟨S1x112x8x128x124, a⟩, ⟨S1x112x8x128x4, b⟩] concatenates_S1x112x8x128x124_S1x112x8x128x4_S1x112x8x128x128_d4) : (⟨S1x112x8x128x124, .f32⟩ : BufTy).Contents (Elt F) → (⟨S1x112x8x128x4, .f32⟩ : BufTy).Contents (Elt F) → (⟨S1x112x8x128x128, .f32⟩ : BufTy).Contents (Elt F)) ]

set_option maxRecDepth 16384 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub ..,
    reshape_bufs_sub .., unary_bufs_sub .., reshape_bufs_sub .., binary_bufs_sub .., unary_bufs_sub .., unary_bufs_sub ..,
    binary_bufs_sub .., reshape_bufs_sub .., unary_bufs_sub .., reshape_bufs_sub .., unary_bufs_sub .., reshape_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., unary_bufs_sub .., unary_bufs_sub ..,
    unary_bufs_sub .., binary_bufs_sub .., nullary_bufs_sub .., nullary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., unary_bufs_sub .., nullary_bufs_sub ..,
    nullary_bufs_sub .., nullary_bufs_sub .., unary_bufs_sub .., binary_bufs_sub .., binary_bufs_sub .., unary_bufs_sub ..,
    unary_bufs_sub .., unary_bufs_sub .., unary_bufs_sub .., binary_bufs_sub .., binary_bufs_sub .., binary_bufs_sub ..,
    reshape_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., binary_bufs_sub .., unary_bufs_sub ..,
    binary_bufs_sub .., binary_bufs_sub .., unary_bufs_sub .., reshape_bufs_sub .., binary_bufs_sub .., unary_bufs_sub ..,
    unary_bufs_sub .., binary_bufs_sub .., reshape_bufs_sub .., unary_bufs_sub .., reshape_bufs_sub .., unary_bufs_sub ..,
    unary_bufs_sub .., binary_bufs_sub .., unary_bufs_sub .., unary_bufs_sub .., binary_bufs_sub ..⟩

end Cert.ReferenceIdeal.RefRun

end
-- ==== Proof.RefRun.lean ====
/- The reference program's run: what every weakly fair execution of @main leaves in memory — the returned
   value is `refOut` of the arguments' initial contents, and the arguments are unchanged. The operation list is
   read a stretch of operations at a time: after each stretch, every buffer still to be read holds its value's definition. -/
import proofs.«155316_j49177375539263_2_alg».proof.Proof.RefRunOps
import Idealize.ShloMosaic.Lib.Pipeline.Frame

set_option Elab.async false

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations 1 … 10 of 113. -/
abbrev seg0 : List (HloOp τ sig (Elt F)) :=
  [ StableHlo.unary main_arg0 main_call0_v0 ((extractStridedSlice S1x112x8x4x128 ![0, 0, 0, 124, 0] · slices_S1x112x8x128x128_S1x112x8x4x128_0_0_0_124_0) : (⟨S1x112x8x128x128, .f32⟩ : BufTy).Contents (Elt F) → (⟨S1x112x8x4x128, .f32⟩ : BufTy).Contents (Elt F)),
    StableHlo.unary main_arg0 main_call0_v1 ((extractStridedSlice S1x112x8x124x128 ![0, 0, 0, 0, 0] · slices_S1x112x8x128x128_S1x112x8x124x128_0_0_0_0_0) : (⟨S1x112x8x128x128, .f32⟩ : BufTy).Contents (Elt F) → (⟨S1x112x8x124x128, .f32⟩ : BufTy).Contents (Elt F)),
    StableHlo.binary main_call0_v0 main_call0_v1 main_call0_v2 ((fun a b => concatenate S1x112x8x128x128 3 [⟨S1x112x8x4x128, a⟩, ⟨S1x112x8x124x128, b⟩] concatenates_S1x112x8x4x128_S1x112x8x124x128_S1x112x8x128x128_d3) : (⟨S1x112x8x4x128, .f32⟩ : BufTy).Contents (Elt F) → (⟨S1x112x8x124x128, .f32⟩ : BufTy).Contents (Elt F) → (⟨S1x112x8x128x128, .f32⟩ : BufTy).Contents (Elt F)),
    StableHlo.unary main_call0_v2 main_call0_v3 ((extractStridedSlice S1x112x8x128x4 ![0, 0, 0, 0, 124] · slices_S1x112x8x128x128_S1x112x8x128x4_0_0_0_0_124) : (⟨S1x112x8x128x128, .f32⟩ : BufTy).Contents (Elt F) → (⟨S1x112x8x128x4, .f32⟩ : BufTy).Contents (Elt F)),
    StableHlo.unary main_call0_v2 main_call0_v4 ((extractStridedSlice S1x112x8x128x124 ![0, 0, 0, 0, 0] · slices_S1x112x8x128x128_S1x112x8x128x124_0_0_0_0_0) : (⟨S1x112x8x128x128, .f32⟩ : BufTy).Contents (Elt F) → (⟨S1x112x8x128x124, .f32⟩ : BufTy).Contents (Elt F)),
    StableHlo.binary main_call0_v3 main_call0_v4 main_v0 ((fun a b => concatenate S1x112x8x128x128 4 [⟨S1x112x8x128x4, a⟩, ⟨S1x112x8x128x124, b⟩] concatenates_S1x112x8x128x4_S1x112x8x128x124_S1x112x8x128x128_d4) : (⟨S1x112x8x128x4, .f32⟩ : BufTy).Contents (Elt F) → (⟨S1x112x8x128x124, .f32⟩ : BufTy).Contents (Elt F) → (⟨S1x112x8x128x128, .f32⟩ : BufTy).Contents (Elt F)),
    StableHlo.reshape main_v0 main_v1 rfl shapeCasts_S1x112x8x128x128_S1x112x8x16x8x16x8,
    StableHlo.unary main_v1 main_v2 ((transpose S1x16x16x8x8x8x112 [0, 3, 5, 4, 6, 2, 1] · transposes_S1x112x8x16x8x16x8_S1x16x16x8x8x8x112_0_3_5_4_6_2_1) : (⟨S1x112x8x16x8x16x8, .f32⟩ : BufTy).Contents (Elt F) → (⟨S1x16x16x8x8x8x112, .f32⟩ : BufTy).Contents (Elt F)),
    StableHlo.reshape main_v2 main_v3 rfl shapeCasts_S1x16x16x8x8x8x112_S256x64x8x112,
    StableHlo.binary main_v3 main_arg1 main_v4 ((fun l r => Host.dotGeneral dot_S256x64x8x112_S224x112_S256x64x8x224_3_1_012_0_n_n none l r) : (⟨S256x64x8x112, .f32⟩ : BufTy).Contents (Elt F) → (⟨S224x112, .f32⟩ : BufTy).Contents (Elt F) → (⟨S256x64x8x224, .f32⟩ : BufTy).Contents (Elt F)) ]

/-- Operations 11 … 20 of 113. -/
abbrev seg1 : List (HloOp τ sig (Elt F)) :=
  [ StableHlo.unary main_v4 main_v5 ((extractStridedSlice S256x64x8x112 ![0, 0, 0, 0] · slices_S256x64x8x224_S256x64x8x112_0_0_0_0) : (⟨S256x64x8x224, .f32⟩ : BufTy).Contents (Elt F) → (⟨S256x64x8x112, .f32⟩ : BufTy).Contents (Elt F)),
    StableHlo.unary main_v4 main_v6 ((extractStridedSlice S256x64x8x112 ![0, 0, 0, 112] · slices_S256x64x8x224_S256x64x8x112_0_0_0_112) : (⟨S256x64x8x224, .f32⟩ : BufTy).Contents (Elt F) → (⟨S256x64x8x112, .f32⟩ : BufTy).Contents (Elt F)),
    StableHlo.binary main_v3 main_arg2 main_v7 ((fun l r => Host.dotGeneral dot_S256x64x8x112_S112x112_S256x64x8x112_3_1_012_0_n_n none l r) : (⟨S256x64x8x112, .f32⟩ : BufTy).Contents (Elt F) → (⟨S112x112, .f32⟩ : BufTy).Contents (Elt F) → (⟨S256x64x8x112, .f32⟩ : BufTy).Contents (Elt F)),
    StableHlo.reshape main_v5 main_v8 rfl shapeCasts_S256x64x8x112_S256x64x8x4x28,
    StableHlo.unary main_v8 main_v9 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.reshape main_v6 main_v10 rfl shapeCasts_S256x64x8x112_S256x64x8x4x28,
    StableHlo.unary main_v10 main_v11 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.reshape main_v7 main_v12 rfl shapeCasts_S256x64x8x112_S256x64x8x4x28,
    StableHlo.unary main_v12 main_v13 ((transpose S256x4x8x64x28 [0, 3, 2, 1, 4] · transposes_S256x64x8x4x28_S256x4x8x64x28_0_3_2_1_4) : (⟨S256x64x8x4x28, .f32⟩ : BufTy).Contents (Elt F) → (⟨S256x4x8x64x28, .f32⟩ : BufTy).Contents (Elt F)),
    StableHlo.binary main_v9 main_arg5 main_v14 ((fun l r => Host.dotGeneral dot_S256x4x8x64x28_S1x28_S256x4x8x64x1_4_1_0123_0_n_n none l r) : (⟨S256x4x8x64x28, .f32⟩ : BufTy).Contents (Elt F) → (⟨S1x28, .f32⟩ : BufTy).Contents (Elt F) → (⟨S256x4x8x64x1, .f32⟩ : BufTy).Contents (Elt F)) ]

/-- Operations 21 … 30 of 113. -/
abbrev seg2 : List (HloOp τ sig (Elt F)) :=
  [ StableHlo.unary main_arg6 main_v15 (broadcastInDim S1x1x1x1x1 ![4] bcast_S1_S1x1x1x1x1_4 : (⟨S1, .f32⟩ : BufTy).Contents (Elt F) → (⟨S1x1x1x1x1, .f32⟩ : BufTy).Contents (Elt F)),
    StableHlo.unary main_v15 main_v16 (broadcastInDim S256x4x8x64x1 ![0, 1, 2, 3, 4] bcast_S1x1x1x1x1_S256x4x8x64x1_0_1_2_3_4 : (⟨S1x1x1x1x1, .f32⟩ : BufTy).Contents (Elt F) → (⟨S256x4x8x64x1, .f32⟩ : BufTy).Contents (Elt F)),
    StableHlo.binary main_v14 main_v16 main_v17 (addf : (⟨S256x4x8x64x1, .f32⟩ : BufTy).Contents (Elt F) → (⟨S256x4x8x64x1, .f32⟩ : BufTy).Contents (Elt F) → (⟨S256x4x8x64x1, .f32⟩ : BufTy).Contents (Elt F)),
    StableHlo.binary main_v11 main_arg7 main_v18 ((fun l r => Host.dotGeneral dot_S256x4x8x64x28_S1x28_S256x4x8x64x1_4_1_0123_0_n_n none l r) : (⟨S256x4x8x64x28, .f32⟩ : BufTy).Contents (Elt F) → (⟨S1x28, .f32⟩ : BufTy).Contents (Elt F) → (⟨S256x4x8x64x1, .f32⟩ : BufTy).Contents (Elt F)),
    StableHlo.unary main_arg8 main_v19 (broadcastInDim S1x1x1x1x1 ![4] bcast_S1_S1x1x1x1x1_4 : (⟨S1, .f32⟩ : BufTy).Contents (Elt F) → (⟨S1x1x1x1x1, .f32⟩ : BufTy).Contents (Elt F)),
    StableHlo.unary main_v19 main_v20 (broadcastInDim S256x4x8x64x1 ![0, 1, 2, 3, 4] bcast_S1x1x1x1x1_S256x4x8x64x1_0_1_2_3_4 : (⟨S1x1x1x1x1, .f32⟩ : BufTy).Contents (Elt F) → (⟨S256x4x8x64x1, .f32⟩ : BufTy).Contents (Elt F)),
    StableHlo.binary main_v18 main_v20 main_v21 (addf : (⟨S256x4x8x64x1, .f32⟩ : BufTy).Contents (Elt F) → (⟨S256x4x8x64x1, .f32⟩ : BufTy).Contents (Elt F) → (⟨S256x4x8x64x1, .f32⟩ : BufTy).Contents (Elt F)),
    StableHlo.binary main_v9 main_v11 main_v22 ((fun l r => Host.dotGeneral dot_S256x4x8x64x28_S256x4x8x64x28_S256x4x8x64x64_4_4_3_3_012_012 none l r) : (⟨S256x4x8x64x28, .f32⟩ : BufTy).Contents (Elt F) → (⟨S256x4x8x64x28, .f32⟩ : BufTy).Contents (Elt F) → (⟨S256x4x8x64x64, .f32⟩ : BufTy).Contents (Elt F)),
    StableHlo.unary main_v21 main_v23 ((transpose S256x4x8x1x64 [0, 1, 2, 4, 3] · transposes_S256x4x8x64x1_S256x4x8x1x64_0_1_2_4_3) : (⟨S256x4x8x64x1, .f32⟩ : BufTy).Contents (Elt F) → (⟨S256x4x8x1x64, .f32⟩ : BufTy).Contents (Elt F)),
    StableHlo.unary main_v17 main_v24 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)) ]

/-- Operations 31 … 40 of 113. -/
abbrev seg3 : List (HloOp τ sig (Elt F)) :=
  [ StableHlo.unary main_v23 main_v25 (broadcastInDim S256x4x8x64x64 ![0, 1, 2, 3, 4] bcast_S256x4x8x1x64_S256x4x8x64x64_0_1_2_3_4 : (⟨S256x4x8x1x64, .f32⟩ : BufTy).Contents (Elt F) → (⟨S256x4x8x64x64, .f32⟩ : BufTy).Contents (Elt F)),
    StableHlo.binary main_v24 main_v25 main_v26 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.nullary main_call1_v0 (iotaInDim S64 32 0 : (⟨S64, .i32⟩ : BufTy).Contents (Elt F)),
    StableHlo.nullary main_call1_v1 (iotaInDim S64 32 0 : (⟨S64, .i32⟩ : BufTy).Contents (Elt F)),
    StableHlo.nullary main_call1_c (constantI S_ 32 0#32 : (⟨S_, .i32⟩ : BufTy).Contents (Elt F)),
    StableHlo.unary main_call1_c main_call1_v2 ((broadcastInDim S64 ![] bcast_S_S64) : (⟨S_, .i32⟩ : BufTy).Contents (Elt F) → (⟨S64, .i32⟩ : BufTy).Contents (Elt F)),
    StableHlo.binary main_call1_v0 main_call1_v2 main_call1_v3 ((cmpi .slt) : (⟨S64, .i32⟩ : BufTy).Contents (Elt F) → (⟨S64, .i32⟩ : BufTy).Contents (Elt F) → (⟨S64, .i1⟩ : BufTy).Contents (Elt F)),
    StableHlo.nullary main_call1_c_0 (constantI S_ 32 64#32 : (⟨S_, .i32⟩ : BufTy).Contents (Elt F)),
    StableHlo.unary main_call1_c_0 main_call1_v4 ((broadcastInDim S64 ![] bcast_S_S64) : (⟨S_, .i32⟩ : BufTy).Contents (Elt F) → (⟨S64, .i32⟩ : BufTy).Contents (Elt F)),
    StableHlo.binary main_call1_v0 main_call1_v4 main_call1_v5 (addi : (⟨S64, .i32⟩ : BufTy).Contents (Elt F) → (⟨S64, .i32⟩ : BufTy).Contents (Elt F) → (⟨S64, .i32⟩ : BufTy).Contents (Elt F)) ]

/-- Operations 41 … 50 of 113. -/
abbrev seg4 : List (HloOp τ sig (Elt F)) :=
  [ StableHlo.ternary main_call1_v3 main_call1_v5 main_call1_v0 main_call1_v6 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_call1_c_1 (constantI S_ 32 0#32 : (⟨S_, .i32⟩ : BufTy).Contents (Elt F)),
    StableHlo.unary main_call1_c_1 main_call1_v7 ((broadcastInDim S64 ![] bcast_S_S64) : (⟨S_, .i32⟩ : BufTy).Contents (Elt F) → (⟨S64, .i32⟩ : BufTy).Contents (Elt F)),
    StableHlo.binary main_call1_v1 main_call1_v7 main_call1_v8 ((cmpi .slt) : (⟨S64, .i32⟩ : BufTy).Contents (Elt F) → (⟨S64, .i32⟩ : BufTy).Contents (Elt F) → (⟨S64, .i1⟩ : BufTy).Contents (Elt F)),
    StableHlo.nullary main_call1_c_2 (constantI S_ 32 64#32 : (⟨S_, .i32⟩ : BufTy).Contents (Elt F)),
    StableHlo.unary main_call1_c_2 main_call1_v9 ((broadcastInDim S64 ![] bcast_S_S64) : (⟨S_, .i32⟩ : BufTy).Contents (Elt F) → (⟨S64, .i32⟩ : BufTy).Contents (Elt F)),
    StableHlo.binary main_call1_v1 main_call1_v9 main_call1_v10 (addi : (⟨S64, .i32⟩ : BufTy).Contents (Elt F) → (⟨S64, .i32⟩ : BufTy).Contents (Elt F) → (⟨S64, .i32⟩ : BufTy).Contents (Elt F)),
    StableHlo.ternary main_call1_v8 main_call1_v10 main_call1_v1 main_call1_v11 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_call1_v6 main_call1_v12 ((broadcastInDim S64x1 ![0] bcast_S64_S64x1_0) : (⟨S64, .i32⟩ : BufTy).Contents (Elt F) → (⟨S64x1, .i32⟩ : BufTy).Contents (Elt F)),
    StableHlo.unary main_call1_v11 main_call1_v13 ((broadcastInDim S64x1 ![0] bcast_S64_S64x1_0) : (⟨S64, .i32⟩ : BufTy).Contents (Elt F) → (⟨S64x1, .i32⟩ : BufTy).Contents (Elt F)) ]

/-- Operations 51 … 60 of 113. -/
abbrev seg5 : List (HloOp τ sig (Elt F)) :=
  [ StableHlo.binary main_call1_v12 main_call1_v13 main_call1_v14 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v22 main_call1_v14 main_v27 ((fun x i => Host.gather gather_S256x4x8x64x64_S64x2_S256x4x8x64_012_34_n_n_34_1_2564811 x i) : (⟨S256x4x8x64x64, .f32⟩ : BufTy).Contents (Elt F) → (⟨S64x2, .i32⟩ : BufTy).Contents (Elt F) → (⟨S256x4x8x64, .f32⟩ : BufTy).Contents (Elt F)),
    StableHlo.unary main_v27 main_v28 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.nullary main_v29 (iotaInDim S64x64 32 0),
    StableHlo.nullary main_v30 (iotaInDim S64x64 32 1),
    StableHlo.nullary main_c (constantI S_ 32 0#32),
    StableHlo.unary main_c main_v31 (broadcastInDim S64x64 ![] bcast_S_S64x64 : (⟨S_, .i32⟩ : BufTy).Contents (Elt F) → (⟨S64x64, .i32⟩ : BufTy).Contents (Elt F)),
    StableHlo.binary main_v29 main_v31 main_v32 (addi : (⟨S64x64, .i32⟩ : BufTy).Contents (Elt F) → (⟨S64x64, .i32⟩ : BufTy).Contents (Elt F) → (⟨S64x64, .i32⟩ : BufTy).Contents (Elt F)),
    StableHlo.binary main_v32 main_v30 main_v33 (cmpi .eq : (⟨S64x64, .i32⟩ : BufTy).Contents (Elt F) → (⟨S64x64, .i32⟩ : BufTy).Contents (Elt F) → (⟨S64x64, .i1⟩ : BufTy).Contents (Elt F)),
    StableHlo.unary main_v33 main_v34 (uitofp .f32 : (⟨S64x64, .i1⟩ : BufTy).Contents (Elt F) → (⟨S64x64, .f32⟩ : BufTy).Contents (Elt F)) ]

/-- Operations 61 … 70 of 113. -/
abbrev seg6 : List (HloOp τ sig (Elt F)) :=
  [ StableHlo.unary main_v34 main_v35 (broadcastInDim S1x1x1x64x64 ![3, 4] bcast_S64x64_S1x1x1x64x64_3_4 : (⟨S64x64, .f32⟩ : BufTy).Contents (Elt F) → (⟨S1x1x1x64x64, .f32⟩ : BufTy).Contents (Elt F)),
    StableHlo.unary main_v28 main_v36 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.unary main_v35 main_v37 (broadcastInDim S256x4x8x64x64 ![0, 1, 2, 3, 4] bcast_S1x1x1x64x64_S256x4x8x64x64_0_1_2_3_4 : (⟨S1x1x1x64x64, .f32⟩ : BufTy).Contents (Elt F) → (⟨S256x4x8x64x64, .f32⟩ : BufTy).Contents (Elt F)),
    StableHlo.binary main_v36 main_v37 main_v38 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v22 main_v38 main_v39 (subf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v39 main_arg9 main_v40 ((fun l r => Host.dotGeneral dot_S256x4x8x64x64_S1x64_S256x4x8x64x1_4_1_0123_0_n_n none l r) : (⟨S256x4x8x64x64, .f32⟩ : BufTy).Contents (Elt F) → (⟨S1x64, .f32⟩ : BufTy).Contents (Elt F) → (⟨S256x4x8x64x1, .f32⟩ : BufTy).Contents (Elt F)),
    StableHlo.reshape main_v40 main_v41 rfl shapeCasts_S256x4x8x64x1_S256x4x8x64,
    StableHlo.binary main_v41 main_arg10 main_v42 ((fun l r => Host.dotGeneral dot_S256x4x8x64_S64x64_S256x4x8x64_3_1_012_0_n_n none l r) : (⟨S256x4x8x64, .f32⟩ : BufTy).Contents (Elt F) → (⟨S64x64, .f32⟩ : BufTy).Contents (Elt F) → (⟨S256x4x8x64, .f32⟩ : BufTy).Contents (Elt F)),
    StableHlo.nullary main_cst (constant S_ .f32 0x3DCCCCCD#32),
    StableHlo.nullary main_call2_cst (constant S_ .f32 0x00000000#32 : (⟨S_, .f32⟩ : BufTy).Contents (Elt F)) ]

/-- Operations 71 … 80 of 113. -/
abbrev seg7 : List (HloOp τ sig (Elt F)) :=
  [ StableHlo.unary main_call2_cst main_call2_v0 ((broadcastInDim S256x4x8x64 ![] bcast_S_S256x4x8x64) : (⟨S_, .f32⟩ : BufTy).Contents (Elt F) → (⟨S256x4x8x64, .f32⟩ : BufTy).Contents (Elt F)),
    StableHlo.binary main_v42 main_call2_v0 main_call2_v1 ((cmpf .oge) : (⟨S256x4x8x64, .f32⟩ : BufTy).Contents (Elt F) → (⟨S256x4x8x64, .f32⟩ : BufTy).Contents (Elt F) → (⟨S256x4x8x64, .i1⟩ : BufTy).Contents (Elt F)),
    StableHlo.unary main_cst main_call2_v2 (id : (⟨S_, .f32⟩ : BufTy).Contents (Elt F) → (⟨S_, .f32⟩ : BufTy).Contents (Elt F)),
    StableHlo.unary main_call2_v2 main_call2_v3 ((broadcastInDim S256x4x8x64 ![] bcast_S_S256x4x8x64) : (⟨S_, .f32⟩ : BufTy).Contents (Elt F) → (⟨S256x4x8x64, .f32⟩ : BufTy).Contents (Elt F)),
    StableHlo.binary main_call2_v3 main_v42 main_call2_v4 (mulf : (⟨S256x4x8x64, .f32⟩ : BufTy).Contents (Elt F) → (⟨S256x4x8x64, .f32⟩ : BufTy).Contents (Elt F) → (⟨S256x4x8x64, .f32⟩ : BufTy).Contents (Elt F)),
    StableHlo.ternary main_call2_v1 main_v42 main_call2_v4 main_v43 (select : (⟨S256x4x8x64, .i1⟩ : BufTy).Contents (Elt F) → (⟨S256x4x8x64, .f32⟩ : BufTy).Contents (Elt F) → (⟨S256x4x8x64, .f32⟩ : BufTy).Contents (Elt F) → (⟨S256x4x8x64, .f32⟩ : BufTy).Contents (Elt F)),
    StableHlo.binary main_v43 main_arg11 main_v44 ((fun l r => Host.dotGeneral dot_S256x4x8x64_S1x64_S256x4x8x1_3_1_012_0_n_n none l r) : (⟨S256x4x8x64, .f32⟩ : BufTy).Contents (Elt F) → (⟨S1x64, .f32⟩ : BufTy).Contents (Elt F) → (⟨S256x4x8x1, .f32⟩ : BufTy).Contents (Elt F)),
    StableHlo.unary main_v44 main_v45 (broadcastInDim S256x4x8x1x1 ![0, 1, 2, 3] bcast_S256x4x8x1_S256x4x8x1x1_0_1_2_3 : (⟨S256x4x8x1, .f32⟩ : BufTy).Contents (Elt F) → (⟨S256x4x8x1x1, .f32⟩ : BufTy).Contents (Elt F)),
    StableHlo.binary main_v22 main_v26 main_v46 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.nullary main_cst_0 (constant S_ .f32 0xFF800000#32) ]

/-- Operations 81 … 90 of 113. -/
abbrev seg8 : List (HloOp τ sig (Elt F)) :=
  [ StableHlo.binary main_v46 main_cst_0 main_v47 ((fun x v => Host.reduce FloatOps.maximumf x v reducesTo_S256x4x8x64x64_S256x4x8x64_d4 h_S_) : (⟨S256x4x8x64x64, .f32⟩ : BufTy).Contents (Elt F) → (⟨S_, .f32⟩ : BufTy).Contents (Elt F) → (⟨S256x4x8x64, .f32⟩ : BufTy).Contents (Elt F)),
    StableHlo.nullary main_cst_1 (constant S_ .f32 0xFF800000#32),
    StableHlo.unary main_cst_1 main_v48 (broadcastInDim S256x4x8x64 ![] bcast_S_S256x4x8x64 : (⟨S_, .f32⟩ : BufTy).Contents (Elt F) → (⟨S256x4x8x64, .f32⟩ : BufTy).Contents (Elt F)),
    StableHlo.binary main_v48 main_v47 main_v49 (maximumf : (⟨S256x4x8x64, .f32⟩ : BufTy).Contents (Elt F) → (⟨S256x4x8x64, .f32⟩ : BufTy).Contents (Elt F) → (⟨S256x4x8x64, .f32⟩ : BufTy).Contents (Elt F)),
    StableHlo.unary main_v49 main_v50 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.unary main_v50 main_v51 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.binary main_v46 main_v51 main_v52 (subf : (⟨S256x4x8x64x64, .f32⟩ : BufTy).Contents (Elt F) → (⟨S256x4x8x64x64, .f32⟩ : BufTy).Contents (Elt F) → (⟨S256x4x8x64x64, .f32⟩ : BufTy).Contents (Elt F)),
    StableHlo.unary main_v52 main_v53 (Host.exp : (⟨S256x4x8x64x64, .f32⟩ : BufTy).Contents (Elt F) → (⟨S256x4x8x64x64, .f32⟩ : BufTy).Contents (Elt F)),
    StableHlo.nullary main_cst_2 (constant S_ .f32 0x00000000#32),
    StableHlo.binary main_v53 main_cst_2 main_v54 ((fun x v => Host.reduceAdd x v reducesTo_S256x4x8x64x64_S256x4x8x64_d4 h_S_) : (⟨S256x4x8x64x64, .f32⟩ : BufTy).Contents (Elt F) → (⟨S_, .f32⟩ : BufTy).Contents (Elt F) → (⟨S256x4x8x64, .f32⟩ : BufTy).Contents (Elt F)) ]

/-- Operations 91 … 100 of 113. -/
abbrev seg9 : List (HloOp τ sig (Elt F)) :=
  [ StableHlo.unary main_v54 main_v55 (broadcastInDim S256x4x8x64x1 ![0, 1, 2, 3] bcast_S256x4x8x64_S256x4x8x64x1_0_1_2_3 : (⟨S256x4x8x64, .f32⟩ : BufTy).Contents (Elt F) → (⟨S256x4x8x64x1, .f32⟩ : BufTy).Contents (Elt F)),
    StableHlo.unary main_v55 main_v56 (broadcastInDim S256x4x8x64x64 ![0, 1, 2, 3, 4] bcast_S256x4x8x64x1_S256x4x8x64x64_0_1_2_3_4 : (⟨S256x4x8x64x1, .f32⟩ : BufTy).Contents (Elt F) → (⟨S256x4x8x64x64, .f32⟩ : BufTy).Contents (Elt F)),
    StableHlo.binary main_v53 main_v56 main_v57 (Host.divf : (⟨S256x4x8x64x64, .f32⟩ : BufTy).Contents (Elt F) → (⟨S256x4x8x64x64, .f32⟩ : BufTy).Contents (Elt F) → (⟨S256x4x8x64x64, .f32⟩ : BufTy).Contents (Elt F)),
    StableHlo.unary main_v45 main_v58 (broadcastInDim S256x4x8x64x64 ![0, 1, 2, 3, 4] bcast_S256x4x8x1x1_S256x4x8x64x64_0_1_2_3_4 : (⟨S256x4x8x1x1, .f32⟩ : BufTy).Contents (Elt F) → (⟨S256x4x8x64x64, .f32⟩ : BufTy).Contents (Elt F)),
    StableHlo.binary main_v46 main_v58 main_v59 (cmpf .ogt : (⟨S256x4x8x64x64, .f32⟩ : BufTy).Contents (Elt F) → (⟨S256x4x8x64x64, .f32⟩ : BufTy).Contents (Elt F) → (⟨S256x4x8x64x64, .i1⟩ : BufTy).Contents (Elt F)),
    StableHlo.unary main_v59 main_v60 (uitofp .f32 : (⟨S256x4x8x64x64, .i1⟩ : BufTy).Contents (Elt F) → (⟨S256x4x8x64x64, .f32⟩ : BufTy).Contents (Elt F)),
    StableHlo.binary main_v57 main_v60 main_v61 (mulf : (⟨S256x4x8x64x64, .f32⟩ : BufTy).Contents (Elt F) → (⟨S256x4x8x64x64, .f32⟩ : BufTy).Contents (Elt F) → (⟨S256x4x8x64x64, .f32⟩ : BufTy).Contents (Elt F)),
    StableHlo.binary main_v61 main_v13 main_v62 ((fun l r => Host.dotGeneral dot_S256x4x8x64x64_S256x4x8x64x28_S256x4x8x64x28_4_3_3_4_012_012 none l r) : (⟨S256x4x8x64x64, .f32⟩ : BufTy).Contents (Elt F) → (⟨S256x4x8x64x28, .f32⟩ : BufTy).Contents (Elt F) → (⟨S256x4x8x64x28, .f32⟩ : BufTy).Contents (Elt F)),
    StableHlo.unary main_v62 main_v63 ((transpose S256x64x8x4x28 [0, 3, 2, 1, 4] · transposes_S256x4x8x64x28_S256x64x8x4x28_0_3_2_1_4) : (⟨S256x4x8x64x28, .f32⟩ : BufTy).Contents (Elt F) → (⟨S256x64x8x4x28, .f32⟩ : BufTy).Contents (Elt F)),
    StableHlo.reshape main_v63 main_v64 rfl shapeCasts_S256x64x8x4x28_S256x64x8x112 ]

/-- Operations 101 … 110 of 113. -/
abbrev seg10 : List (HloOp τ sig (Elt F)) :=
  [ StableHlo.binary main_v64 main_arg3 main_v65 ((fun l r => Host.dotGeneral dot_S256x64x8x112_S112x112_S256x64x8x112_3_1_012_0_n_n none l r) : (⟨S256x64x8x112, .f32⟩ : BufTy).Contents (Elt F) → (⟨S112x112, .f32⟩ : BufTy).Contents (Elt F) → (⟨S256x64x8x112, .f32⟩ : BufTy).Contents (Elt F)),
    StableHlo.unary main_arg4 main_v66 (broadcastInDim S1x1x1x112 ![3] bcast_S112_S1x1x1x112_3 : (⟨S112, .f32⟩ : BufTy).Contents (Elt F) → (⟨S1x1x1x112, .f32⟩ : BufTy).Contents (Elt F)),
    StableHlo.unary main_v66 main_v67 (broadcastInDim S256x64x8x112 ![0, 1, 2, 3] bcast_S1x1x1x112_S256x64x8x112_0_1_2_3 : (⟨S1x1x1x112, .f32⟩ : BufTy).Contents (Elt F) → (⟨S256x64x8x112, .f32⟩ : BufTy).Contents (Elt F)),
    StableHlo.binary main_v65 main_v67 main_v68 (addf : (⟨S256x64x8x112, .f32⟩ : BufTy).Contents (Elt F) → (⟨S256x64x8x112, .f32⟩ : BufTy).Contents (Elt F) → (⟨S256x64x8x112, .f32⟩ : BufTy).Contents (Elt F)),
    StableHlo.reshape main_v68 main_v69 rfl shapeCasts_S256x64x8x112_S1x16x16x8x8x8x112,
    StableHlo.unary main_v69 main_v70 ((transpose S1x112x8x16x8x16x8 [0, 6, 5, 1, 3, 2, 4] · transposes_S1x16x16x8x8x8x112_S1x112x8x16x8x16x8_0_6_5_1_3_2_4) : (⟨S1x16x16x8x8x8x112, .f32⟩ : BufTy).Contents (Elt F) → (⟨S1x112x8x16x8x16x8, .f32⟩ : BufTy).Contents (Elt F)),
    StableHlo.reshape main_v70 main_v71 rfl shapeCasts_S1x112x8x16x8x16x8_S1x112x8x128x128,
    StableHlo.unary main_v71 main_call3_v0 ((extractStridedSlice S1x112x8x124x128 ![0, 0, 0, 4, 0] · slices_S1x112x8x128x128_S1x112x8x124x128_0_0_0_4_0) : (⟨S1x112x8x128x128, .f32⟩ : BufTy).Contents (Elt F) → (⟨S1x112x8x124x128, .f32⟩ : BufTy).Contents (Elt F)),
    StableHlo.unary main_v71 main_call3_v1 ((extractStridedSlice S1x112x8x4x128 ![0, 0, 0, 0, 0] · slices_S1x112x8x128x128_S1x112x8x4x128_0_0_0_0_0) : (⟨S1x112x8x128x128, .f32⟩ : BufTy).Contents (Elt F) → (⟨S1x112x8x4x128, .f32⟩ : BufTy).Contents (Elt F)),
    StableHlo.binary main_call3_v0 main_call3_v1 main_call3_v2 ((fun a b => concatenate S1x112x8x128x128 3 [⟨S1x112x8x124x128, a⟩, ⟨S1x112x8x4x128, b⟩] concatenates_S1x112x8x124x128_S1x112x8x4x128_S1x112x8x128x128_d3) : (⟨S1x112x8x124x128, .f32⟩ : BufTy).Contents (Elt F) → (⟨S1x112x8x4x128, .f32⟩ : BufTy).Contents (Elt F) → (⟨S1x112x8x128x128, .f32⟩ : BufTy).Contents (Elt F)) ]

/-- Operations 111 … 113 of 113. -/
abbrev seg11 : List (HloOp τ sig (Elt F)) :=
  [ StableHlo.unary main_call3_v2 main_call3_v3 ((extractStridedSlice S1x112x8x128x124 ![0, 0, 0, 0, 4] · slices_S1x112x8x128x128_S1x112x8x128x124_0_0_0_0_4) : (⟨S1x112x8x128x128, .f32⟩ : BufTy).Contents (Elt F) → (⟨S1x112x8x128x124, .f32⟩ : BufTy).Contents (Elt F)),
    StableHlo.unary main_call3_v2 main_call3_v4 ((extractStridedSlice S1x112x8x128x4 ![0, 0, 0, 0, 0] · slices_S1x112x8x128x128_S1x112x8x128x4_0_0_0_0_0) : (⟨S1x112x8x128x128, .f32⟩ : BufTy).Contents (Elt F) → (⟨S1x112x8x128x4, .f32⟩ : BufTy).Contents (Elt F)),
    StableHlo.binary main_call3_v3 main_call3_v4 main_v72 ((fun a b => concatenate S1x112x8x128x128 4 [⟨S1x112x8x128x124, a⟩, ⟨S1x112x8x128x4, b⟩] concatenates_S1x112x8x128x124_S1x112x8x128x4_S1x112x8x128x128_d4) : (⟨S1x112x8x128x124, .f32⟩ : BufTy).Contents (Elt F) → (⟨S1x112x8x128x4, .f32⟩ : BufTy).Contents (Elt F) → (⟨S1x112x8x128x128, .f32⟩ : BufTy).Contents (Elt F)) ]

set_option maxRecDepth 16384 in
theorem ops_segs : (ops : List (HloOp τ sig (Elt F))) = seg0 ++ (seg1 ++ (seg2 ++ (seg3 ++ (seg4 ++ (seg5 ++ (seg6 ++ (seg7 ++ (seg8 ++ (seg9 ++ (seg10 ++ (seg11))))))))))) := rfl

/-- The buffers' contents before the first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl

/-- The buffers' contents after the first 10 operations. -/
def val1 (V0 : Valuation τ sig (Elt F)) : Valuation τ sig (Elt F) := after seg0 (val0 V0)
/-- The buffers operations 1 … 10 write. -/
abbrev seg0_W : List (Ref sig .tc) := [main_call0_v0, main_call0_v1, main_call0_v2, main_call0_v3, main_call0_v4, main_v0, main_v1, main_v2, main_v3, main_v4]
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val1_keep (V0 : Valuation τ sig (Elt F)) (r : Ref sig .tc) (h : r ∉ seg0_W) :
    val1 V0 (Proc.devRef .tc r) = val0 V0 (Proc.devRef .tc r) :=
  after_of_writes_sub seg0 _ seg0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
set_option maxRecDepth 16384 in
set_option maxHeartbeats 2000000 in
theorem val1_main_v3 (V0 : Valuation τ sig (Elt F)) : val1 V0 (no_index (Proc.devRef .tc main_v3)) = st_v3 (F := F) (V0 (Proc.devRef .tc main_arg0)) := by
  unfold val1
  simp only [seg0]
  after_results <;> (repeat (first | rw [val0_main_arg0] | fail)) <;> rfl
set_option maxRecDepth 16384 in
set_option maxHeartbeats 2000000 in
theorem val1_main_v4 (V0 : Valuation τ sig (Elt F)) : val1 V0 (no_index (Proc.devRef .tc main_v4)) = st_v4 (F := F) (V0 (Proc.devRef .tc main_arg0)) (V0 (Proc.devRef .tc main_arg1)) := by
  unfold val1
  simp only [seg0]
  after_results <;> (repeat (first | rw [val0_main_arg1] | rw [val0_main_arg0] | fail)) <;> rfl

/-- The buffers' contents after the first 20 operations. -/
def val2 (V0 : Valuation τ sig (Elt F)) : Valuation τ sig (Elt F) := after seg1 (val1 V0)
/-- The buffers operations 11 … 20 write. -/
abbrev seg1_W : List (Ref sig .tc) := [main_v5, main_v6, main_v7, main_v8, main_v9, main_v10, main_v11, main_v12, main_v13, main_v14]
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val2_keep (V0 : Valuation τ sig (Elt F)) (r : Ref sig .tc) (h : r ∉ seg1_W) :
    val2 V0 (Proc.devRef .tc r) = val1 V0 (Proc.devRef .tc r) :=
  after_of_writes_sub seg1 _ seg1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
set_option maxRecDepth 16384 in
set_option maxHeartbeats 2000000 in
theorem val2_main_v9 (V0 : Valuation τ sig (Elt F)) : val2 V0 (no_index (Proc.devRef .tc main_v9)) = st_v9 (F := F) (V0 (Proc.devRef .tc main_arg0)) (V0 (Proc.devRef .tc main_arg1)) := by
  unfold val2
  simp only [seg1]
  after_results_simp
  simp only [val1_main_v4] <;> rfl
set_option maxRecDepth 16384 in
set_option maxHeartbeats 2000000 in
theorem val2_main_v11 (V0 : Valuation τ sig (Elt F)) : val2 V0 (no_index (Proc.devRef .tc main_v11)) = st_v11 (F := F) (V0 (Proc.devRef .tc main_arg0)) (V0 (Proc.devRef .tc main_arg1)) := by
  unfold val2
  simp only [seg1]
  after_results_simp
  simp only [val1_main_v4] <;> rfl
set_option maxRecDepth 16384 in
set_option maxHeartbeats 2000000 in
theorem val2_main_v13 (V0 : Valuation τ sig (Elt F)) : val2 V0 (no_index (Proc.devRef .tc main_v13)) = st_v13 (F := F) (V0 (Proc.devRef .tc main_arg0)) (V0 (Proc.devRef .tc main_arg2)) := by
  unfold val2
  simp only [seg1]
  after_results_simp
  simp only [val1_main_arg2, val1_main_v3] <;> rfl
set_option maxRecDepth 16384 in
set_option maxHeartbeats 2000000 in
theorem val2_main_v14 (V0 : Valuation τ sig (Elt F)) : val2 V0 (no_index (Proc.devRef .tc main_v14)) = st_v14 (F := F) (V0 (Proc.devRef .tc main_arg0)) (V0 (Proc.devRef .tc main_arg1)) (V0 (Proc.devRef .tc main_arg5)) := by
  unfold val2
  simp only [seg1]
  after_results_simp
  simp only [val1_main_arg5, val1_main_v4] <;> rfl

/-- The buffers' contents after the first 30 operations. -/
def val3 (V0 : Valuation τ sig (Elt F)) : Valuation τ sig (Elt F) := after seg2 (val2 V0)
/-- The buffers operations 21 … 30 write. -/
abbrev seg2_W : List (Ref sig .tc) := [main_v15, main_v16, main_v17, main_v18, main_v19, main_v20, main_v21, main_v22, main_v23, main_v24]
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val3_keep (V0 : Valuation τ sig (Elt F)) (r : Ref sig .tc) (h : r ∉ seg2_W) :
    val3 V0 (Proc.devRef .tc r) = val2 V0 (Proc.devRef .tc r) :=
  after_of_writes_sub seg2 _ seg2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_v13 (V0 : Valuation τ sig (Elt F)) : val3 V0 (no_index (Proc.devRef .tc main_v13)) = st_v13 (F := F) (V0 (Proc.devRef .tc main_arg0)) (V0 (Proc.devRef .tc main_arg2)) :=
  (val3_keep V0 main_v13 (by decide)).trans (val2_main_v13 V0)
set_option maxRecDepth 16384 in
set_option maxHeartbeats 2000000 in
theorem val3_main_v22 (V0 : Valuation τ sig (Elt F)) : val3 V0 (no_index (Proc.devRef .tc main_v22)) = st_v22 (F := F) (V0 (Proc.devRef .tc main_arg0)) (V0 (Proc.devRef .tc main_arg1)) := by
  unfold val3
  simp only [seg2]
  after_results_simp
  simp only [val2_main_v11, val2_main_v9] <;> rfl
set_option maxRecDepth 16384 in
set_option maxHeartbeats 2000000 in
theorem val3_main_v23 (V0 : Valuation τ sig (Elt F)) : val3 V0 (no_index (Proc.devRef .tc main_v23)) = st_v23 (F := F) (V0 (Proc.devRef .tc main_arg0)) (V0 (Proc.devRef .tc main_arg1)) (V0 (Proc.devRef .tc main_arg7)) (V0 (Proc.devRef .tc main_arg8)) := by
  unfold val3
  simp only [seg2]
  after_results_simp
  simp only [val2_main_arg8, val2_main_arg7, val2_main_v11] <;> rfl
set_option maxRecDepth 16384 in
set_option maxHeartbeats 2000000 in
theorem val3_main_v24 (V0 : Valuation τ sig (Elt F)) : val3 V0 (no_index (Proc.devRef .tc main_v24)) = st_v24 (F := F) (V0 (Proc.devRef .tc main_arg0)) (V0 (Proc.devRef .tc main_arg1)) (V0 (Proc.devRef .tc main_arg5)) (V0 (Proc.devRef .tc main_arg6)) := by
  unfold val3
  simp only [seg2]
  after_results_simp
  simp only [val2_main_arg6, val2_main_v14] <;> rfl

/-- The buffers' contents after the first 40 operations. -/
def val4 (V0 : Valuation τ sig (Elt F)) : Valuation τ sig (Elt F) := after seg3 (val3 V0)
/-- The buffers operations 31 … 40 write. -/
abbrev seg3_W : List (Ref sig .tc) := [main_v25, main_v26, main_call1_v0, main_call1_v1, main_call1_c, main_call1_v2, main_call1_v3, main_call1_c_0, main_call1_v4, main_call1_v5]
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val4_keep (V0 : Valuation τ sig (Elt F)) (r : Ref sig .tc) (h : r ∉ seg3_W) :
    val4 V0 (Proc.devRef .tc r) = val3 V0 (Proc.devRef .tc r) :=
  after_of_writes_sub seg3 _ seg3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_v13 (V0 : Valuation τ sig (Elt F)) : val4 V0 (no_index (Proc.devRef .tc main_v13)) = st_v13 (F := F) (V0 (Proc.devRef .tc main_arg0)) (V0 (Proc.devRef .tc main_arg2)) :=
  (val4_keep V0 main_v13 (by decide)).trans (val3_main_v13 V0)
theorem val4_main_v22 (V0 : Valuation τ sig (Elt F)) : val4 V0 (no_index (Proc.devRef .tc main_v22)) = st_v22 (F := F) (V0 (Proc.devRef .tc main_arg0)) (V0 (Proc.devRef .tc main_arg1)) :=
  (val4_keep V0 main_v22 (by decide)).trans (val3_main_v22 V0)
set_option maxRecDepth 16384 in
set_option maxHeartbeats 2000000 in
theorem val4_main_v26 (V0 : Valuation τ sig (Elt F)) : val4 V0 (no_index (Proc.devRef .tc main_v26)) = st_v26 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) := by
  unfold val4
  simp only [seg3]
  after_results_simp
  simp only [val3_main_v23, val3_main_v24] <;> rfl
set_option maxRecDepth 16384 in
set_option maxHeartbeats 2000000 in
theorem val4_main_call1_v0 (V0 : Valuation τ sig (Elt F)) : val4 V0 (no_index (Proc.devRef .tc main_call1_v0)) = st_call1_v0 (F := F) := by
  unfold val4
  simp only [seg3]
  after_results_simp
  all_goals rfl
set_option maxRecDepth 16384 in
set_option maxHeartbeats 2000000 in
theorem val4_main_call1_v1 (V0 : Valuation τ sig (Elt F)) : val4 V0 (no_index (Proc.devRef .tc main_call1_v1)) = st_call1_v1 (F := F) := by
  unfold val4
  simp only [seg3]
  after_results_simp
  all_goals rfl
set_option maxRecDepth 16384 in
set_option maxHeartbeats 2000000 in
theorem val4_main_call1_v3 (V0 : Valuation τ sig (Elt F)) : val4 V0 (no_index (Proc.devRef .tc main_call1_v3)) = st_call1_v3 (F := F) := by
  unfold val4
  simp only [seg3]
  after_results_simp
  all_goals rfl
set_option maxRecDepth 16384 in
set_option maxHeartbeats 2000000 in
theorem val4_main_call1_v5 (V0 : Valuation τ sig (Elt F)) : val4 V0 (no_index (Proc.devRef .tc main_call1_v5)) = st_call1_v5 (F := F) := by
  unfold val4
  simp only [seg3]
  after_results_simp
  all_goals rfl

/-- The buffers' contents after the first 50 operations. -/
def val5 (V0 : Valuation τ sig (Elt F)) : Valuation τ sig (Elt F) := after seg4 (val4 V0)
/-- The buffers operations 41 … 50 write. -/
abbrev seg4_W : List (Ref sig .tc) := [main_call1_v6, main_call1_c_1, main_call1_v7, main_call1_v8, main_call1_c_2, main_call1_v9, main_call1_v10, main_call1_v11, main_call1_v12, main_call1_v13]
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val5_keep (V0 : Valuation τ sig (Elt F)) (r : Ref sig .tc) (h : r ∉ seg4_W) :
    val5 V0 (Proc.devRef .tc r) = val4 V0 (Proc.devRef .tc r) :=
  after_of_writes_sub seg4 _ seg4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_v13 (V0 : Valuation τ sig (Elt F)) : val5 V0 (no_index (Proc.devRef .tc main_v13)) = st_v13 (F := F) (V0 (Proc.devRef .tc main_arg0)) (V0 (Proc.devRef .tc main_arg2)) :=
  (val5_keep V0 main_v13 (by decide)).trans (val4_main_v13 V0)
theorem val5_main_v22 (V0 : Valuation τ sig (Elt F)) : val5 V0 (no_index (Proc.devRef .tc main_v22)) = st_v22 (F := F) (V0 (Proc.devRef .tc main_arg0)) (V0 (Proc.devRef .tc main_arg1)) :=
  (val5_keep V0 main_v22 (by decide)).trans (val4_main_v22 V0)
theorem val5_main_v26 (V0 : Valuation τ sig (Elt F)) : val5 V0 (no_index (Proc.devRef .tc main_v26)) = st_v26 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) :=
  (val5_keep V0 main_v26 (by decide)).trans (val4_main_v26 V0)
set_option maxRecDepth 16384 in
set_option maxHeartbeats 2000000 in
theorem val5_main_call1_v12 (V0 : Valuation τ sig (Elt F)) : val5 V0 (no_index (Proc.devRef .tc main_call1_v12)) = st_call1_v12 (F := F) := by
  unfold val5
  simp only [seg4]
  after_results_simp
  simp only [val4_main_call1_v0, val4_main_call1_v5, val4_main_call1_v3] <;> rfl
set_option maxRecDepth 16384 in
set_option maxHeartbeats 2000000 in
theorem val5_main_call1_v13 (V0 : Valuation τ sig (Elt F)) : val5 V0 (no_index (Proc.devRef .tc main_call1_v13)) = st_call1_v13 (F := F) := by
  unfold val5
  simp only [seg4]
  after_results_simp
  simp only [val4_main_call1_v1] <;> rfl

/-- The buffers' contents after the first 60 operations. -/
def val6 (V0 : Valuation τ sig (Elt F)) : Valuation τ sig (Elt F) := after seg5 (val5 V0)
/-- The buffers operations 51 … 60 write. -/
abbrev seg5_W : List (Ref sig .tc) := [main_call1_v14, main_v27, main_v28, main_v29, main_v30, main_c, main_v31, main_v32, main_v33, main_v34]
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val6_keep (V0 : Valuation τ sig (Elt F)) (r : Ref sig .tc) (h : r ∉ seg5_W) :
    val6 V0 (Proc.devRef .tc r) = val5 V0 (Proc.devRef .tc r) :=
  after_of_writes_sub seg5 _ seg5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_v13 (V0 : Valuation τ sig (Elt F)) : val6 V0 (no_index (Proc.devRef .tc main_v13)) = st_v13 (F := F) (V0 (Proc.devRef .tc main_arg0)) (V0 (Proc.devRef .tc main_arg2)) :=
  (val6_keep V0 main_v13 (by decide)).trans (val5_main_v13 V0)
theorem val6_main_v22 (V0 : Valuation τ sig (Elt F)) : val6 V0 (no_index (Proc.devRef .tc main_v22)) = st_v22 (F := F) (V0 (Proc.devRef .tc main_arg0)) (V0 (Proc.devRef .tc main_arg1)) :=
  (val6_keep V0 main_v22 (by decide)).trans (val5_main_v22 V0)
theorem val6_main_v26 (V0 : Valuation τ sig (Elt F)) : val6 V0 (no_index (Proc.devRef .tc main_v26)) = st_v26 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) :=
  (val6_keep V0 main_v26 (by decide)).trans (val5_main_v26 V0)
set_option maxRecDepth 16384 in
set_option maxHeartbeats 2000000 in
theorem val6_main_v28 (V0 : Valuation τ sig (Elt F)) : val6 V0 (no_index (Proc.devRef .tc main_v28)) = st_v28 (F := F) (V0 (Proc.devRef .tc main_arg0)) (V0 (Proc.devRef .tc main_arg1)) := by
  unfold val6
  simp only [seg5]
  after_results <;> (repeat (first | rw [val5_main_call1_v13] | rw [val5_main_call1_v12] | rw [val5_main_v22] | fail)) <;> rfl
set_option maxRecDepth 16384 in
set_option maxHeartbeats 2000000 in
theorem val6_main_v34 (V0 : Valuation τ sig (Elt F)) : val6 V0 (no_index (Proc.devRef .tc main_v34)) = st_v34 (F := F) := by
  unfold val6
  simp only [seg5]
  after_results <;> rfl

/-- The buffers' contents after the first 70 operations. -/
def val7 (V0 : Valuation τ sig (Elt F)) : Valuation τ sig (Elt F) := after seg6 (val6 V0)
/-- The buffers operations 61 … 70 write. -/
abbrev seg6_W : List (Ref sig .tc) := [main_v35, main_v36, main_v37, main_v38, main_v39, main_v40, main_v41, main_v42, main_cst, main_call2_cst]
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val7_keep (V0 : Valuation τ sig (Elt F)) (r : Ref sig .tc) (h : r ∉ seg6_W) :
    val7 V0 (Proc.devRef .tc r) = val6 V0 (Proc.devRef .tc r) :=
  after_of_writes_sub seg6 _ seg6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_v13 (V0 : Valuation τ sig (Elt F)) : val7 V0 (no_index (Proc.devRef .tc main_v13)) = st_v13 (F := F) (V0 (Proc.devRef .tc main_arg0)) (V0 (Proc.devRef .tc main_arg2)) :=
  (val7_keep V0 main_v13 (by decide)).trans (val6_main_v13 V0)
theorem val7_main_v22 (V0 : Valuation τ sig (Elt F)) : val7 V0 (no_index (Proc.devRef .tc main_v22)) = st_v22 (F := F) (V0 (Proc.devRef .tc main_arg0)) (V0 (Proc.devRef .tc main_arg1)) :=
  (val7_keep V0 main_v22 (by decide)).trans (val6_main_v22 V0)
theorem val7_main_v26 (V0 : Valuation τ sig (Elt F)) : val7 V0 (no_index (Proc.devRef .tc main_v26)) = st_v26 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) :=
  (val7_keep V0 main_v26 (by decide)).trans (val6_main_v26 V0)
set_option maxRecDepth 16384 in
set_option maxHeartbeats 2000000 in
theorem val7_main_v42 (V0 : Valuation τ sig (Elt F)) : val7 V0 (no_index (Proc.devRef .tc main_v42)) = st_v42 (F := F) (V0 (Proc.devRef .tc main_arg0)) (V0 (Proc.devRef .tc main_arg1)) (V0 (Proc.devRef .tc main_arg9)) (V0 (Proc.devRef .tc main_arg10)) := by
  unfold val7
  simp only [seg6]
  after_results_simp
  simp only [val6_main_arg10, val6_main_arg9, val6_main_v34, val6_main_v28, val6_main_v22] <;> rfl
set_option maxRecDepth 16384 in
set_option maxHeartbeats 2000000 in
theorem val7_main_cst (V0 : Valuation τ sig (Elt F)) : val7 V0 (no_index (Proc.devRef .tc main_cst)) = st_cst (F := F) := by
  unfold val7
  simp only [seg6]
  after_results_simp
  all_goals rfl
set_option maxRecDepth 16384 in
set_option maxHeartbeats 2000000 in
theorem val7_main_call2_cst (V0 : Valuation τ sig (Elt F)) : val7 V0 (no_index (Proc.devRef .tc main_call2_cst)) = st_call2_cst (F := F) := by
  unfold val7
  simp only [seg6]
  after_results_simp
  all_goals rfl

/-- The buffers' contents after the first 80 operations. -/
def val8 (V0 : Valuation τ sig (Elt F)) : Valuation τ sig (Elt F) := after seg7 (val7 V0)
/-- The buffers operations 71 … 80 write. -/
abbrev seg7_W : List (Ref sig .tc) := [main_call2_v0, main_call2_v1, main_call2_v2, main_call2_v3, main_call2_v4, main_v43, main_v44, main_v45, main_v46, main_cst_0]
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val8_keep (V0 : Valuation τ sig (Elt F)) (r : Ref sig .tc) (h : r ∉ seg7_W) :
    val8 V0 (Proc.devRef .tc r) = val7 V0 (Proc.devRef .tc r) :=
  after_of_writes_sub seg7 _ seg7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_v13 (V0 : Valuation τ sig (Elt F)) : val8 V0 (no_index (Proc.devRef .tc main_v13)) = st_v13 (F := F) (V0 (Proc.devRef .tc main_arg0)) (V0 (Proc.devRef .tc main_arg2)) :=
  (val8_keep V0 main_v13 (by decide)).trans (val7_main_v13 V0)
set_option maxRecDepth 16384 in
set_option maxHeartbeats 2000000 in
theorem val8_main_v45 (V0 : Valuation τ sig (Elt F)) : val8 V0 (no_index (Proc.devRef .tc main_v45)) = st_v45 (F := F) (V0 (Proc.devRef .tc main_arg0)) (V0 (Proc.devRef .tc main_arg1)) (V0 (Proc.devRef .tc main_arg9)) (V0 (Proc.devRef .tc main_arg10)) (V0 (Proc.devRef .tc main_arg11)) := by
  unfold val8
  simp only [seg7]
  after_results_simp
  simp only [val7_main_arg11, val7_main_cst, val7_main_v42, val7_main_call2_cst] <;> rfl
set_option maxRecDepth 16384 in
set_option maxHeartbeats 2000000 in
theorem val8_main_v46 (V0 : Valuation τ sig (Elt F)) : val8 V0 (no_index (Proc.devRef .tc main_v46)) = st_v46 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) := by
  unfold val8
  simp only [seg7]
  after_results_simp
  simp only [val7_main_v26, val7_main_v22] <;> rfl
set_option maxRecDepth 16384 in
set_option maxHeartbeats 2000000 in
theorem val8_main_cst_0 (V0 : Valuation τ sig (Elt F)) : val8 V0 (no_index (Proc.devRef .tc main_cst_0)) = st_cst_0 (F := F) := by
  unfold val8
  simp only [seg7]
  after_results_simp
  all_goals rfl

/-- The buffers' contents after the first 90 operations. -/
def val9 (V0 : Valuation τ sig (Elt F)) : Valuation τ sig (Elt F) := after seg8 (val8 V0)
/-- The buffers operations 81 … 90 write. -/
abbrev seg8_W : List (Ref sig .tc) := [main_v47, main_cst_1, main_v48, main_v49, main_v50, main_v51, main_v52, main_v53, main_cst_2, main_v54]
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val9_keep (V0 : Valuation τ sig (Elt F)) (r : Ref sig .tc) (h : r ∉ seg8_W) :
    val9 V0 (Proc.devRef .tc r) = val8 V0 (Proc.devRef .tc r) :=
  after_of_writes_sub seg8 _ seg8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_v13 (V0 : Valuation τ sig (Elt F)) : val9 V0 (no_index (Proc.devRef .tc main_v13)) = st_v13 (F := F) (V0 (Proc.devRef .tc main_arg0)) (V0 (Proc.devRef .tc main_arg2)) :=
  (val9_keep V0 main_v13 (by decide)).trans (val8_main_v13 V0)
theorem val9_main_v45 (V0 : Valuation τ sig (Elt F)) : val9 V0 (no_index (Proc.devRef .tc main_v45)) = st_v45 (F := F) (V0 (Proc.devRef .tc main_arg0)) (V0 (Proc.devRef .tc main_arg1)) (V0 (Proc.devRef .tc main_arg9)) (V0 (Proc.devRef .tc main_arg10)) (V0 (Proc.devRef .tc main_arg11)) :=
  (val9_keep V0 main_v45 (by decide)).trans (val8_main_v45 V0)
theorem val9_main_v46 (V0 : Valuation τ sig (Elt F)) : val9 V0 (no_index (Proc.devRef .tc main_v46)) = st_v46 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) :=
  (val9_keep V0 main_v46 (by decide)).trans (val8_main_v46 V0)
set_option maxRecDepth 16384 in
set_option maxHeartbeats 2000000 in
theorem val9_main_v53 (V0 : Valuation τ sig (Elt F)) : val9 V0 (no_index (Proc.devRef .tc main_v53)) = st_v53 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) := by
  unfold val9
  simp only [seg8]
  after_results_simp
  simp only [val8_main_cst_0, val8_main_v46] <;> rfl
set_option maxRecDepth 16384 in
set_option maxHeartbeats 2000000 in
theorem val9_main_v54 (V0 : Valuation τ sig (Elt F)) : val9 V0 (no_index (Proc.devRef .tc main_v54)) = st_v54 (F := F) (V0 (Proc.devRef .tc main_arg0)) (V0 (Proc.devRef .tc main_arg1)) (V0 (Proc.devRef .tc main_arg5)) (V0 (Proc.devRef .tc main_arg6)) (V0 (Proc.devRef .tc main_arg7)) (V0 (Proc.devRef .tc main_arg8)) := by
  unfold val9
  simp only [seg8]
  after_results_simp
  simp only [val8_main_cst_0, val8_main_v46] <;> rfl

/-- The buffers' contents after the first 100 operations. -/
def val10 (V0 : Valuation τ sig (Elt F)) : Valuation τ sig (Elt F) := after seg9 (val9 V0)
/-- The buffers operations 91 … 100 write. -/
abbrev seg9_W : List (Ref sig .tc) := [main_v55, main_v56, main_v57, main_v58, main_v59, main_v60, main_v61, main_v62, main_v63, main_v64]
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val10_keep (V0 : Valuation τ sig (Elt F)) (r : Ref sig .tc) (h : r ∉ seg9_W) :
    val10 V0 (Proc.devRef .tc r) = val9 V0 (Proc.devRef .tc r) :=
  after_of_writes_sub seg9 _ seg9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
set_option maxRecDepth 16384 in
set_option maxHeartbeats 2000000 in
theorem val10_main_v64 (V0 : Valuation τ sig (Elt F)) : val10 V0 (no_index (Proc.devRef .tc main_v64)) = st_v64 (F := F) (V0 (Proc.devRef .tc main_arg0)) (V0 (Proc.devRef .tc main_arg1)) (V0 (Proc.devRef .tc main_arg2)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val10
  simp only [seg9]
  after_results_simp
  simp only [val9_main_v13, val9_main_v45, val9_main_v46, val9_main_v54, val9_main_v53] <;> rfl

/-- The buffers' contents after the first 110 operations. -/
def val11 (V0 : Valuation τ sig (Elt F)) : Valuation τ sig (Elt F) := after seg10 (val10 V0)
/-- The buffers operations 101 … 110 write. -/
abbrev seg10_W : List (Ref sig .tc) := [main_v65, main_v66, main_v67, main_v68, main_v69, main_v70, main_v71, main_call3_v0, main_call3_v1, main_call3_v2]
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val11_keep (V0 : Valuation τ sig (Elt F)) (r : Ref sig .tc) (h : r ∉ seg10_W) :
    val11 V0 (Proc.devRef .tc r) = val10 V0 (Proc.devRef .tc r) :=
  after_of_writes_sub seg10 _ seg10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
set_option maxRecDepth 16384 in
set_option maxHeartbeats 2000000 in
theorem val11_main_call3_v2 (V0 : Valuation τ sig (Elt F)) : val11 V0 (no_index (Proc.devRef .tc main_call3_v2)) = st_call3_v2 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val11
  simp only [seg10]
  after_results <;> (repeat (first | rw [val10_main_arg4] | rw [val10_main_arg3] | rw [val10_main_v64] | fail)) <;> rfl

/-- The buffers' contents after the first 113 operations. -/
def val12 (V0 : Valuation τ sig (Elt F)) : Valuation τ sig (Elt F) := after seg11 (val11 V0)
/-- The buffers operations 111 … 113 write. -/
abbrev seg11_W : List (Ref sig .tc) := [main_call3_v3, main_call3_v4, main_v72]
theorem seg11_writes : (seg11 : List (HloOp τ sig (Elt F))).Forall fun op => op.writes ⊆ (seg11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer those operations do not write keeps its contents. -/
theorem val12_keep (V0 : Valuation τ sig (Elt F)) (r : Ref sig .tc) (h : r ∉ seg11_W) :
    val12 V0 (Proc.devRef .tc r) = val11 V0 (Proc.devRef .tc r) :=
  after_of_writes_sub seg11 _ seg11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
set_option maxRecDepth 16384 in
set_option maxHeartbeats 2000000 in
theorem val12_main_v72 (V0 : Valuation τ sig (Elt F)) : val12 V0 (no_index (Proc.devRef .tc main_v72)) = st_v72 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  unfold val12
  simp only [seg11]
  after_results <;> (repeat (first | rw [val11_main_call3_v2] | fail)) <;> rfl

set_option maxRecDepth 16384 in
theorem after_ops (V0 : Valuation τ sig (Elt F)) : after ops V0 = val12 V0 := by
  rw [ops_segs]
  simp only [after_append]
  rfl

/-- The returned buffer after all the operations: `refOut` of the arguments' contents. -/
theorem out_eq (V0 : Valuation τ sig (Elt F)) :
    after ops V0 (Proc.devRef .tc main_v72) = refOut (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [after_ops]
  exact val12_main_v72 V0

/-- An argument's buffer after all the operations: what it held. -/
theorem arg0_eq (V0 : Valuation τ sig (Elt F)) : after ops V0 (Proc.devRef .tc main_arg0) = V0 (Proc.devRef .tc main_arg0) := by
  rw [after_ops]; exact val12_main_arg0 V0
theorem arg1_eq (V0 : Valuation τ sig (Elt F)) : after ops V0 (Proc.devRef .tc main_arg1) = V0 (Proc.devRef .tc main_arg1) := by
  rw [after_ops]; exact val12_main_arg1 V0
theorem arg2_eq (V0 : Valuation τ sig (Elt F)) : after ops V0 (Proc.devRef .tc main_arg2) = V0 (Proc.devRef .tc main_arg2) := by
  rw [after_ops]; exact val12_main_arg2 V0
theorem arg3_eq (V0 : Valuation τ sig (Elt F)) : after ops V0 (Proc.devRef .tc main_arg3) = V0 (Proc.devRef .tc main_arg3) := by
  rw [after_ops]; exact val12_main_arg3 V0
theorem arg4_eq (V0 : Valuation τ sig (Elt F)) : after ops V0 (Proc.devRef .tc main_arg4) = V0 (Proc.devRef .tc main_arg4) := by
  rw [after_ops]; exact val12_main_arg4 V0
theorem arg5_eq (V0 : Valuation τ sig (Elt F)) : after ops V0 (Proc.devRef .tc main_arg5) = V0 (Proc.devRef .tc main_arg5) := by
  rw [after_ops]; exact val12_main_arg5 V0
theorem arg6_eq (V0 : Valuation τ sig (Elt F)) : after ops V0 (Proc.devRef .tc main_arg6) = V0 (Proc.devRef .tc main_arg6) := by
  rw [after_ops]; exact val12_main_arg6 V0
theorem arg7_eq (V0 : Valuation τ sig (Elt F)) : after ops V0 (Proc.devRef .tc main_arg7) = V0 (Proc.devRef .tc main_arg7) := by
  rw [after_ops]; exact val12_main_arg7 V0
theorem arg8_eq (V0 : Valuation τ sig (Elt F)) : after ops V0 (Proc.devRef .tc main_arg8) = V0 (Proc.devRef .tc main_arg8) := by
  rw [after_ops]; exact val12_main_arg8 V0
theorem arg9_eq (V0 : Valuation τ sig (Elt F)) : after ops V0 (Proc.devRef .tc main_arg9) = V0 (Proc.devRef .tc main_arg9) := by
  rw [after_ops]; exact val12_main_arg9 V0
theorem arg10_eq (V0 : Valuation τ sig (Elt F)) : after ops V0 (Proc.devRef .tc main_arg10) = V0 (Proc.devRef .tc main_arg10) := by
  rw [after_ops]; exact val12_main_arg10 V0
theorem arg11_eq (V0 : Valuation τ sig (Elt F)) : after ops V0 (Proc.devRef .tc main_arg11) = V0 (Proc.devRef .tc main_arg11) := by
  rw [after_ops]; exact val12_main_arg11 V0

set_option maxRecDepth 16384 in
set_option maxHeartbeats 4000000 in
/-- On every device, for any float values, from any memory with zero counters: every weakly fair execution of
    @main terminates with the returned buffer at `refOut` of the arguments' initial contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v72) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v72).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c))⟩)
    (run_seq scopedRefs_eq scopedSems_eq defs main (fun _ => ops) main_eq (fun _ => ops_sub) m ρ)

end Cert.ReferenceIdeal.RefRun

end
-- ==== Proof.RefValueLay.lean ====
/-
  Layout operations of the reference read at an index given by coordinates: the roll of the two spatial axes by four
  pixels (two slices and a concatenation per axis), and its inverse.
-/
import proofs.«155316_j49177375539263_2_alg».proof.ReferenceIdeal
import Idealize.ShloMosaic.Lib.ValueLayout

noncomputable section

open scoped BigOperators

namespace Cert.ReferenceIdeal.RefValue

open Idealize.ShloMosaic Idealize.ShloMosaic.ValueIdx Cert.ReferenceIdeal

variable {α : Type}

/-- Rolling axis 3 forward by four: position H reads position H + 124 modulo 128. -/
theorem rollH_apply (x : S1x112x8x128x128.Idx → α)
    (h0 : S1x112x8x128x128.Slices ![0, 0, 0, 124, 0] S1x112x8x4x128)
    (h1 : S1x112x8x128x128.Slices ![0, 0, 0, 0, 0] S1x112x8x124x128)
    (hc : Shape.Concatenates [S1x112x8x4x128, S1x112x8x124x128] S1x112x8x128x128 3)
    (z : Fin 1) (c : Fin 112) (b : Fin 8) (H W : Fin 128) :
    concatenate S1x112x8x128x128 3 [⟨S1x112x8x4x128, extractStridedSlice S1x112x8x4x128 ![0, 0, 0, 124, 0] x h0⟩,
      ⟨S1x112x8x124x128, extractStridedSlice S1x112x8x124x128 ![0, 0, 0, 0, 0] x h1⟩] hc (ix5 z c b H W)
      = x (ix5 z c b (⟨(H.val + 124) % 128, Nat.mod_lt _ (by norm_num)⟩ : Fin 128) W) := by
  by_cases hH : H.val < 4
  · refine (concatenate_pair_apply_left (t := S1x112x8x128x128) (s₁ := S1x112x8x4x128) (s₂ := S1x112x8x124x128) 3 _ _ hc (ix5 z c b H W) rfl (ix5 z c b (⟨H.val, hH⟩ : Fin 4) W) ?_).trans ?_
    · intro a
      match a with
      | ⟨0, _⟩ => rfl
      | ⟨1, _⟩ => rfl
      | ⟨2, _⟩ => rfl
      | ⟨3, _⟩ => rfl
      | ⟨4, _⟩ => rfl
    · refine slice5_axis3_apply 124 x h0 z c b (⟨H.val, hH⟩ : Fin 4) W _ ?_
      show (H.val + 124) % 128 = 124 + H.val
      omega
  · have hH' : H.val - 4 < 124 := by have := H.isLt; omega
    refine (concatenate_pair_apply_right (t := S1x112x8x128x128) (s₁ := S1x112x8x4x128) (s₂ := S1x112x8x124x128) 3 _ _ hc (ix5 z c b H W) rfl rfl (ix5 z c b (⟨H.val - 4, hH'⟩ : Fin 124) W) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show H.val - 4 + 4 = H.val
      omega
    · refine slice5_axis3_apply 0 x h1 z c b (⟨H.val - 4, hH'⟩ : Fin 124) W _ ?_
      show (H.val + 124) % 128 = 0 + (H.val - 4)
      omega

/-- Rolling axis 4 forward by four: position W reads position W + 124 modulo 128. -/
theorem rollW_apply (x : S1x112x8x128x128.Idx → α)
    (h0 : S1x112x8x128x128.Slices ![0, 0, 0, 0, 124] S1x112x8x128x4)
    (h1 : S1x112x8x128x128.Slices ![0, 0, 0, 0, 0] S1x112x8x128x124)
    (hc : Shape.Concatenates [S1x112x8x128x4, S1x112x8x128x124] S1x112x8x128x128 4)
    (z : Fin 1) (c : Fin 112) (b : Fin 8) (H W : Fin 128) :
    concatenate S1x112x8x128x128 4 [⟨S1x112x8x128x4, extractStridedSlice S1x112x8x128x4 ![0, 0, 0, 0, 124] x h0⟩,
      ⟨S1x112x8x128x124, extractStridedSlice S1x112x8x128x124 ![0, 0, 0, 0, 0] x h1⟩] hc (ix5 z c b H W)
      = x (ix5 z c b H (⟨(W.val + 124) % 128, Nat.mod_lt _ (by norm_num)⟩ : Fin 128)) := by
  by_cases hW : W.val < 4
  · refine (concatenate_pair_apply_left (t := S1x112x8x128x128) (s₁ := S1x112x8x128x4) (s₂ := S1x112x8x128x124) 4 _ _ hc (ix5 z c b H W) rfl (ix5 z c b H (⟨W.val, hW⟩ : Fin 4)) ?_).trans ?_
    · intro a
      match a with
      | ⟨0, _⟩ => rfl
      | ⟨1, _⟩ => rfl
      | ⟨2, _⟩ => rfl
      | ⟨3, _⟩ => rfl
      | ⟨4, _⟩ => rfl
    · refine slice5_axis4_apply 124 x h0 z c b H (⟨W.val, hW⟩ : Fin 4) _ ?_
      show (W.val + 124) % 128 = 124 + W.val
      omega
  · have hW' : W.val - 4 < 124 := by have := W.isLt; omega
    refine (concatenate_pair_apply_right (t := S1x112x8x128x128) (s₁ := S1x112x8x128x4) (s₂ := S1x112x8x128x124) 4 _ _ hc (ix5 z c b H W) rfl rfl (ix5 z c b H (⟨W.val - 4, hW'⟩ : Fin 124)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · show W.val - 4 + 4 = W.val
      omega
    · refine slice5_axis4_apply 0 x h1 z c b H (⟨W.val - 4, hW'⟩ : Fin 124) _ ?_
      show (W.val + 124) % 128 = 0 + (W.val - 4)
      omega

/-- Rolling axis 3 back by four: position H reads position H + 4 modulo 128. -/
theorem rollHb_apply (x : S1x112x8x128x128.Idx → α)
    (h0 : S1x112x8x128x128.Slices ![0, 0, 0, 4, 0] S1x112x8x124x128)
    (h1 : S1x112x8x128x128.Slices ![0, 0, 0, 0, 0] S1x112x8x4x128)
    (hc : Shape.Concatenates [S1x112x8x124x128, S1x112x8x4x128] S1x112x8x128x128 3)
    (z : Fin 1) (c : Fin 112) (b : Fin 8) (H W : Fin 128) :
    concatenate S1x112x8x128x128 3 [⟨S1x112x8x124x128, extractStridedSlice S1x112x8x124x128 ![0, 0, 0, 4, 0] x h0⟩,
      ⟨S1x112x8x4x128, extractStridedSlice S1x112x8x4x128 ![0, 0, 0, 0, 0] x h1⟩] hc (ix5 z c b H W)
      = x (ix5 z c b (⟨(H.val + 4) % 128, Nat.mod_lt _ (by norm_num)⟩ : Fin 128) W) := by
  by_cases hH : H.val < 124
  · refine (concatenate_pair_apply_left (t := S1x112x8x128x128) (s₁ := S1x112x8x124x128) (s₂ := S1x112x8x4x128) 3 _ _ hc (ix5 z c b H W) rfl (ix5 z c b (⟨H.val, hH⟩ : Fin 124) W) ?_).trans ?_
    · intro a
      match a with
      | ⟨0, _⟩ => rfl
      | ⟨1, _⟩ => rfl
      | ⟨2, _⟩ => rfl
      | ⟨3, _⟩ => rfl
      | ⟨4, _⟩ => rfl
    · refine slice5_axis3_apply 4 x h0 z c b (⟨H.val, hH⟩ : Fin 124) W _ ?_
      show (H.val + 4) % 128 = 4 + H.val
      omega
  · have hH' : H.val - 124 < 4 := by have := H.isLt; omega
    refine (concatenate_pair_apply_right (t := S1x112x8x128x128) (s₁ := S1x112x8x124x128) (s₂ := S1x112x8x4x128) 3 _ _ hc (ix5 z c b H W) rfl rfl (ix5 z c b (⟨H.val - 124, hH'⟩ : Fin 4) W) ?_ ?_).trans ?_
    · intro a ha
      match a with
      | ⟨0, _⟩ => rfl
      | ⟨1, _⟩ => rfl
      | ⟨2, _⟩ => rfl
      | ⟨3, _⟩ => exact absurd rfl ha
      | ⟨4, _⟩ => rfl
    · show H.val - 124 + 124 = H.val
      omega
    · refine slice5_axis3_apply 0 x h1 z c b (⟨H.val - 124, hH'⟩ : Fin 4) W _ ?_
      show (H.val + 4) % 128 = 0 + (H.val - 124)
      omega

/-- Rolling axis 4 back by four: position W reads position W + 4 modulo 128. -/
theorem rollWb_apply (x : S1x112x8x128x128.Idx → α)
    (h0 : S1x112x8x128x128.Slices ![0, 0, 0, 0, 4] S1x112x8x128x124)
    (h1 : S1x112x8x128x128.Slices ![0, 0, 0, 0, 0] S1x112x8x128x4)
    (hc : Shape.Concatenates [S1x112x8x128x124, S1x112x8x128x4] S1x112x8x128x128 4)
    (z : Fin 1) (c : Fin 112) (b : Fin 8) (H W : Fin 128) :
    concatenate S1x112x8x128x128 4 [⟨S1x112x8x128x124, extractStridedSlice S1x112x8x128x124 ![0, 0, 0, 0, 4] x h0⟩,
      ⟨S1x112x8x128x4, extractStridedSlice S1x112x8x128x4 ![0, 0, 0, 0, 0] x h1⟩] hc (ix5 z c b H W)
      = x (ix5 z c b H (⟨(W.val + 4) % 128, Nat.mod_lt _ (by norm_num)⟩ : Fin 128)) := by
  by_cases hW : W.val < 124
  · refine (concatenate_pair_apply_left (t := S1x112x8x128x128) (s₁ := S1x112x8x128x124) (s₂ := S1x112x8x128x4) 4 _ _ hc (ix5 z c b H W) rfl (ix5 z c b H (⟨W.val, hW⟩ : Fin 124)) ?_).trans ?_
    · intro a
      match a with
      | ⟨0, _⟩ => rfl
      | ⟨1, _⟩ => rfl
      | ⟨2, _⟩ => rfl
      | ⟨3, _⟩ => rfl
      | ⟨4, _⟩ => rfl
    · refine slice5_axis4_apply 4 x h0 z c b H (⟨W.val, hW⟩ : Fin 124) _ ?_
      show (W.val + 4) % 128 = 4 + W.val
      omega
  · have hW' : W.val - 124 < 4 := by have := W.isLt; omega
    refine (concatenate_pair_apply_right (t := S1x112x8x128x128) (s₁ := S1x112x8x128x124) (s₂ := S1x112x8x128x4) 4 _ _ hc (ix5 z c b H W) rfl rfl (ix5 z c b H (⟨W.val - 124, hW'⟩ : Fin 4)) ?_ ?_).trans ?_
    · intro a ha
      match a with
      | ⟨0, _⟩ => rfl
      | ⟨1, _⟩ => rfl
      | ⟨2, _⟩ => rfl
      | ⟨3, _⟩ => rfl
      | ⟨4, _⟩ => exact absurd rfl ha
    · show W.val - 124 + 124 = W.val
      omega
    · refine slice5_axis4_apply 0 x h1 z c b H (⟨W.val - 124, hW'⟩ : Fin 4) _ ?_
      show (W.val + 4) % 128 = 0 + (W.val - 124)
      omega

/-! ## Rank seven: the image cut into windows -/

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

/-- A rank-7 row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The image with each spatial axis split into 16 blocks of 8. -/
theorem split_apply (x : S1x112x8x128x128.Idx → α) (h : S1x112x8x128x128.ShapeCasts S1x112x8x16x8x16x8)
    (z : Fin 1) (c : Fin 112) (b : Fin 8) (hb : Fin 16) (hi : Fin 8) (wb : Fin 16) (wi : Fin 8) :
    shapeCast S1x112x8x16x8x16x8 x h (ix7 z c b hb hi wb wi)
      = x (ix5 z c b (⟨hb.val * 8 + hi.val, by omega⟩ : Fin 128) (⟨wb.val * 8 + wi.val, by omega⟩ : Fin 128)) := by
  refine shapeCast_apply x h _ _ ?_
  refine (Shape.rowMajor_val_five _).trans (Eq.trans ?_ (rowMajor_val_seven _).symm)
  show (((z.val * 112 + c.val) * 8 + b.val) * 128 + (hb.val * 8 + hi.val)) * 128 + (wb.val * 8 + wi.val)
    = (((((z.val * 112 + c.val) * 8 + b.val) * 16 + hb.val) * 8 + hi.val) * 16 + wb.val) * 8 + wi.val
  omega

/-- The blocks brought to the front, depth and channel to the back. -/
theorem perm_apply (x : S1x112x8x16x8x16x8.Idx → α) (h : S1x112x8x16x8x16x8.Transposes [0, 3, 5, 4, 6, 2, 1] S1x16x16x8x8x8x112)
    (z : Fin 1) (c : Fin 112) (b : Fin 8) (hb : Fin 16) (hi : Fin 8) (wb : Fin 16) (wi : Fin 8) :
    transpose S1x16x16x8x8x8x112 [0, 3, 5, 4, 6, 2, 1] x h (ix7 z hb wb hi wi b c) = x (ix7 z c b hb hi wb wi) := by
  refine transpose_apply _ x h _ _ ?_
  intro a
  match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl

/-- Blocks to windows, pixels of a block to tokens. -/
theorem windows_apply (x : S1x16x16x8x8x8x112.Idx → α) (h : S1x16x16x8x8x8x112.ShapeCasts S256x64x8x112)
    (w : Fin 256) (n : Fin 64) (b : Fin 8) (c : Fin 112) :
    shapeCast S256x64x8x112 x h (ix4 w n b c)
      = x (ix7 (0 : Fin 1) (⟨w.val / 16, by omega⟩ : Fin 16) (⟨w.val % 16, by omega⟩ : Fin 16) (⟨n.val / 8, by omega⟩ : Fin 8)
          (⟨n.val % 8, by omega⟩ : Fin 8) b c) := by
  refine shapeCast_apply x h _ _ ?_
  refine (rowMajor_val_seven _).trans (Eq.trans ?_ (Shape.rowMajor_val_four _).symm)
  show (((((0 * 16 + w.val / 16) * 16 + w.val % 16) * 8 + n.val / 8) * 8 + n.val % 8) * 8 + b.val) * 112 + c.val
    = ((w.val * 64 + n.val) * 8 + b.val) * 112 + c.val
  omega

/-- Windows back to blocks. -/
theorem unwindows_apply (x : S256x64x8x112.Idx → α) (h : S256x64x8x112.ShapeCasts S1x16x16x8x8x8x112)
    (z : Fin 1) (c : Fin 112) (b : Fin 8) (hb : Fin 16) (hi : Fin 8) (wb : Fin 16) (wi : Fin 8) :
    shapeCast S1x16x16x8x8x8x112 x h (ix7 z hb wb hi wi b c)
      = x (ix4 (⟨hb.val * 16 + wb.val, by omega⟩ : Fin 256) (⟨hi.val * 8 + wi.val, by omega⟩ : Fin 64) b c) := by
  refine shapeCast_apply x h _ _ ?_
  refine (Shape.rowMajor_val_four _).trans (Eq.trans ?_ (rowMajor_val_seven _).symm)
  show (((hb.val * 16 + wb.val) * 64 + (hi.val * 8 + wi.val)) * 8 + b.val) * 112 + c.val
    = (((((z.val * 16 + hb.val) * 16 + wb.val) * 8 + hi.val) * 8 + wi.val) * 8 + b.val) * 112 + c.val
  have := z.isLt
  omega

/-- Channel and depth back to the front. -/
theorem unperm_apply (x : S1x16x16x8x8x8x112.Idx → α) (h : S1x16x16x8x8x8x112.Transposes [0, 6, 5, 1, 3, 2, 4] S1x112x8x16x8x16x8)
    (z : Fin 1) (c : Fin 112) (b : Fin 8) (hb : Fin 16) (hi : Fin 8) (wb : Fin 16) (wi : Fin 8) :
    transpose S1x112x8x16x8x16x8 [0, 6, 5, 1, 3, 2, 4] x h (ix7 z c b hb hi wb wi) = x (ix7 z hb wb hi wi b c) := by
  refine transpose_apply _ x h _ _ ?_
  intro a
  match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl

/-- The blocks merged back into the two spatial axes. -/
theorem unsplit_apply (x : S1x112x8x16x8x16x8.Idx → α) (h : S1x112x8x16x8x16x8.ShapeCasts S1x112x8x128x128)
    (z : Fin 1) (c : Fin 112) (b : Fin 8) (H W : Fin 128) :
    shapeCast S1x112x8x128x128 x h (ix5 z c b H W)
      = x (ix7 z c b (⟨H.val / 8, by omega⟩ : Fin 16) (⟨H.val % 8, by omega⟩ : Fin 8) (⟨W.val / 8, by omega⟩ : Fin 16)
          (⟨W.val % 8, by omega⟩ : Fin 8)) := by
  refine shapeCast_apply x h _ _ ?_
  refine (rowMajor_val_seven _).trans (Eq.trans ?_ (Shape.rowMajor_val_five _).symm)
  show (((((z.val * 112 + c.val) * 8 + b.val) * 16 + H.val / 8) * 8 + H.val % 8) * 16 + W.val / 8) * 8 + W.val % 8
    = (((z.val * 112 + c.val) * 8 + b.val) * 128 + H.val) * 128 + W.val
  omega

/-! ## Channels split into heads, and back -/

/-- The first 112 of the 224 projected channels. -/
theorem sliceQ_apply (x : S256x64x8x224.Idx → α) (h : S256x64x8x224.Slices ![0, 0, 0, 0] S256x64x8x112)
    (w : Fin 256) (n : Fin 64) (b : Fin 8) (o : Fin 112) :
    extractStridedSlice S256x64x8x112 ![0, 0, 0, 0] x h (ix4 w n b o) = x (ix4 w n b (⟨o.val, by omega⟩ : Fin 224)) := by
  refine extractStridedSlice_apply _ x h _ _ ?_
  intro a
  match a with
      | ⟨0, _⟩ => exact (Nat.zero_add _).symm
      | ⟨1, _⟩ => exact (Nat.zero_add _).symm
      | ⟨2, _⟩ => exact (Nat.zero_add _).symm
      | ⟨3, _⟩ => exact (Nat.zero_add _).symm

/-- The last 112 of the 224 projected channels. -/
theorem sliceK_apply (x : S256x64x8x224.Idx → α) (h : S256x64x8x224.Slices ![0, 0, 0, 112] S256x64x8x112)
    (w : Fin 256) (n : Fin 64) (b : Fin 8) (o : Fin 112) :
    extractStridedSlice S256x64x8x112 ![0, 0, 0, 112] x h (ix4 w n b o) = x (ix4 w n b (⟨112 + o.val, by omega⟩ : Fin 224)) := by
  refine extractStridedSlice_apply _ x h _ _ ?_
  intro a
  match a with
      | ⟨0, _⟩ => exact (Nat.zero_add _).symm
      | ⟨1, _⟩ => exact (Nat.zero_add _).symm
      | ⟨2, _⟩ => exact (Nat.zero_add _).symm
      | ⟨3, _⟩ => rfl

/-- 112 channels as 4 heads of 28. -/
theorem heads_apply (x : S256x64x8x112.Idx → α) (h : S256x64x8x112.ShapeCasts S256x64x8x4x28)
    (w : Fin 256) (n : Fin 64) (b : Fin 8) (hd : Fin 4) (d : Fin 28) :
    shapeCast S256x64x8x4x28 x h (ix5 w n b hd d) = x (ix4 w n b (⟨28 * hd.val + d.val, by omega⟩ : Fin 112)) := by
  refine shapeCast_apply x h _ _ ?_
  refine (Shape.rowMajor_val_four _).trans (Eq.trans ?_ (Shape.rowMajor_val_five _).symm)
  show ((w.val * 64 + n.val) * 8 + b.val) * 112 + (28 * hd.val + d.val)
    = (((w.val * 64 + n.val) * 8 + b.val) * 4 + hd.val) * 28 + d.val
  omega

/-- Heads in front of depth and tokens. -/
theorem headsT_apply (x : S256x64x8x4x28.Idx → α) (h : S256x64x8x4x28.Transposes [0, 3, 2, 1, 4] S256x4x8x64x28)
    (w : Fin 256) (n : Fin 64) (b : Fin 8) (hd : Fin 4) (d : Fin 28) :
    transpose S256x4x8x64x28 [0, 3, 2, 1, 4] x h (ix5 w hd b n d) = x (ix5 w n b hd d) := by
  refine transpose_apply _ x h _ _ ?_
  intro a
  match a with
      | ⟨0, _⟩ => rfl
      | ⟨1, _⟩ => rfl
      | ⟨2, _⟩ => rfl
      | ⟨3, _⟩ => rfl
      | ⟨4, _⟩ => rfl

/-- Tokens back in front of depth and heads. -/
theorem unheadsT_apply (x : S256x4x8x64x28.Idx → α) (h : S256x4x8x64x28.Transposes [0, 3, 2, 1, 4] S256x64x8x4x28)
    (w : Fin 256) (n : Fin 64) (b : Fin 8) (hd : Fin 4) (d : Fin 28) :
    transpose S256x64x8x4x28 [0, 3, 2, 1, 4] x h (ix5 w n b hd d) = x (ix5 w hd b n d) := by
  refine transpose_apply _ x h _ _ ?_
  intro a
  match a with
      | ⟨0, _⟩ => rfl
      | ⟨1, _⟩ => rfl
      | ⟨2, _⟩ => rfl
      | ⟨3, _⟩ => rfl
      | ⟨4, _⟩ => rfl

/-- 4 heads of 28 side by side as 112 channels. -/
theorem unheads_apply (x : S256x64x8x4x28.Idx → α) (h : S256x64x8x4x28.ShapeCasts S256x64x8x112)
    (w : Fin 256) (n : Fin 64) (b : Fin 8) (c : Fin 112) :
    shapeCast S256x64x8x112 x h (ix4 w n b c)
      = x (ix5 w n b (⟨c.val / 28, by omega⟩ : Fin 4) (⟨c.val % 28, Nat.mod_lt _ (by norm_num)⟩ : Fin 28)) := by
  refine shapeCast_apply x h _ _ ?_
  refine (Shape.rowMajor_val_five _).trans (Eq.trans ?_ (Shape.rowMajor_val_four _).symm)
  show (((w.val * 64 + n.val) * 8 + b.val) * 4 + c.val / 28) * 28 + c.val % 28
    = ((w.val * 64 + n.val) * 8 + b.val) * 112 + c.val
  omega

/-- The key side's column laid as a row. -/
theorem colT_apply (x : S256x4x8x64x1.Idx → α) (h : S256x4x8x64x1.Transposes [0, 1, 2, 4, 3] S256x4x8x1x64)
    (w : Fin 256) (hd : Fin 4) (b : Fin 8) (z : Fin 1) (j : Fin 64) :
    transpose S256x4x8x1x64 [0, 1, 2, 4, 3] x h (ix5 w hd b z j) = x (ix5 w hd b j z) := by
  refine transpose_apply _ x h _ _ ?_
  intro a
  match a with
      | ⟨0, _⟩ => rfl
      | ⟨1, _⟩ => rfl
      | ⟨2, _⟩ => rfl
      | ⟨3, _⟩ => rfl
      | ⟨4, _⟩ => rfl

/-- A trailing unit axis dropped. -/
theorem dropLast_apply (x : S256x4x8x64x1.Idx → α) (h : S256x4x8x64x1.ShapeCasts S256x4x8x64)
    (w : Fin 256) (hd : Fin 4) (b : Fin 8) (i : Fin 64) :
    shapeCast S256x4x8x64 x h (ix4 w hd b i) = x (ix5 w hd b i (0 : Fin 1)) := by
  refine shapeCast_apply x h _ _ ?_
  refine (Shape.rowMajor_val_five _).trans (Eq.trans ?_ (Shape.rowMajor_val_four _).symm)
  show (((w.val * 4 + hd.val) * 8 + b.val) * 64 + i.val) * 1 + 0 = ((w.val * 4 + hd.val) * 8 + b.val) * 64 + i.val
  omega

/-! ## Broadcasts -/

/-- A one-element vector as a rank-5 unit array. -/
theorem bc_S1_5 (x : S1.Idx → α) (h : S1.BroadcastsInDim S1x1x1x1x1 (![4] : Fin 1 → Fin S1x1x1x1x1.rank))
    (z0 z1 z2 z3 z4 : Fin 1) :
    broadcastInDim S1x1x1x1x1 ![4] h x (ix5 z0 z1 z2 z3 z4) = x (ix1 (0 : Fin 1)) := by
  refine broadcastInDim_apply _ h x _ _ ?_
  intro a
  match a with
      | ⟨0, _⟩ => rfl

/-- A rank-5 unit array over every window, head, depth and token. -/
theorem bc_unit5_col (x : S1x1x1x1x1.Idx → α) (h : S1x1x1x1x1.BroadcastsInDim S256x4x8x64x1 (![0, 1, 2, 3, 4] : Fin 5 → Fin S256x4x8x64x1.rank))
    (w : Fin 256) (hd : Fin 4) (b : Fin 8) (i : Fin 64) (z : Fin 1) :
    broadcastInDim S256x4x8x64x1 ![0, 1, 2, 3, 4] h x (ix5 w hd b i z) = x (ix5 (0 : Fin 1) (0 : Fin 1) (0 : Fin 1) (0 : Fin 1) (0 : Fin 1)) := by
  refine broadcastInDim_apply _ h x _ _ ?_
  intro a
  match a with
      | ⟨0, _⟩ => rfl
      | ⟨1, _⟩ => rfl
      | ⟨2, _⟩ => rfl
      | ⟨3, _⟩ => rfl
      | ⟨4, _⟩ => rfl

/-- A column over the 64 columns of a matrix. -/
theorem bc_col_mat (x : S256x4x8x64x1.Idx → α) (h : S256x4x8x64x1.BroadcastsInDim S256x4x8x64x64 (![0, 1, 2, 3, 4] : Fin 5 → Fin S256x4x8x64x64.rank))
    (w : Fin 256) (hd : Fin 4) (b : Fin 8) (i : Fin 64) (j : Fin 64) :
    broadcastInDim S256x4x8x64x64 ![0, 1, 2, 3, 4] h x (ix5 w hd b i j) = x (ix5 w hd b i (0 : Fin 1)) := by
  refine broadcastInDim_apply _ h x _ _ ?_
  intro a
  match a with
      | ⟨0, _⟩ => rfl
      | ⟨1, _⟩ => rfl
      | ⟨2, _⟩ => rfl
      | ⟨3, _⟩ => rfl
      | ⟨4, _⟩ => rfl

/-- A row over the 64 rows of a matrix. -/
theorem bc_row_mat (x : S256x4x8x1x64.Idx → α) (h : S256x4x8x1x64.BroadcastsInDim S256x4x8x64x64 (![0, 1, 2, 3, 4] : Fin 5 → Fin S256x4x8x64x64.rank))
    (w : Fin 256) (hd : Fin 4) (b : Fin 8) (i : Fin 64) (j : Fin 64) :
    broadcastInDim S256x4x8x64x64 ![0, 1, 2, 3, 4] h x (ix5 w hd b i j) = x (ix5 w hd b (0 : Fin 1) j) := by
  refine broadcastInDim_apply _ h x _ _ ?_
  intro a
  match a with
      | ⟨0, _⟩ => rfl
      | ⟨1, _⟩ => rfl
      | ⟨2, _⟩ => rfl
      | ⟨3, _⟩ => rfl
      | ⟨4, _⟩ => rfl

/-- A vector per window, head and depth as a column. -/
theorem bc_vec_col (x : S256x4x8x64.Idx → α) (h : S256x4x8x64.BroadcastsInDim S256x4x8x64x1 (![0, 1, 2, 3] : Fin 4 → Fin S256x4x8x64x1.rank))
    (w : Fin 256) (hd : Fin 4) (b : Fin 8) (i : Fin 64) (z : Fin 1) :
    broadcastInDim S256x4x8x64x1 ![0, 1, 2, 3] h x (ix5 w hd b i z) = x (ix4 w hd b i) := by
  refine broadcastInDim_apply _ h x _ _ ?_
  intro a
  match a with
      | ⟨0, _⟩ => rfl
      | ⟨1, _⟩ => rfl
      | ⟨2, _⟩ => rfl
      | ⟨3, _⟩ => rfl

/-- A 64 x 64 matrix under three unit axes. -/
theorem bc_mat_unit (x : S64x64.Idx → α) (h : S64x64.BroadcastsInDim S1x1x1x64x64 (![3, 4] : Fin 2 → Fin S1x1x1x64x64.rank))
    (z0 z1 z2 : Fin 1) (i j : Fin 64) :
    broadcastInDim S1x1x1x64x64 ![3, 4] h x (ix5 z0 z1 z2 i j) = x (ix2 i j) := by
  refine broadcastInDim_apply _ h x _ _ ?_
  intro a
  match a with
      | ⟨0, _⟩ => rfl
      | ⟨1, _⟩ => rfl

/-- One matrix over every window, head and depth. -/
theorem bc_unit_mat (x : S1x1x1x64x64.Idx → α) (h : S1x1x1x64x64.BroadcastsInDim S256x4x8x64x64 (![0, 1, 2, 3, 4] : Fin 5 → Fin S256x4x8x64x64.rank))
    (w : Fin 256) (hd : Fin 4) (b : Fin 8) (i : Fin 64) (j : Fin 64) :
    broadcastInDim S256x4x8x64x64 ![0, 1, 2, 3, 4] h x (ix5 w hd b i j) = x (ix5 (0 : Fin 1) (0 : Fin 1) (0 : Fin 1) i j) := by
  refine broadcastInDim_apply _ h x _ _ ?_
  intro a
  match a with
      | ⟨0, _⟩ => rfl
      | ⟨1, _⟩ => rfl
      | ⟨2, _⟩ => rfl
      | ⟨3, _⟩ => rfl
      | ⟨4, _⟩ => rfl

/-- A scalar over every window, head, depth and token. -/
theorem bc_scalar_vec (x : S_.Idx → α) (h : S_.BroadcastsInDim S256x4x8x64 (![] : Fin 0 → Fin S256x4x8x64.rank))
    (w : Fin 256) (hd : Fin 4) (b : Fin 8) (i : Fin 64) :
    broadcastInDim S256x4x8x64 ![] h x (ix4 w hd b i) = x (ix0) := by
  refine broadcastInDim_apply _ h x _ _ ?_
  intro a
  exact a.elim0

/-- A one-element axis followed by another. -/
theorem bc_one_unit (x : S256x4x8x1.Idx → α) (h : S256x4x8x1.BroadcastsInDim S256x4x8x1x1 (![0, 1, 2, 3] : Fin 4 → Fin S256x4x8x1x1.rank))
    (w : Fin 256) (hd : Fin 4) (b : Fin 8) (z0 z1 : Fin 1) :
    broadcastInDim S256x4x8x1x1 ![0, 1, 2, 3] h x (ix5 w hd b z0 z1) = x (ix4 w hd b (0 : Fin 1)) := by
  refine broadcastInDim_apply _ h x _ _ ?_
  intro a
  match a with
      | ⟨0, _⟩ => rfl
      | ⟨1, _⟩ => rfl
      | ⟨2, _⟩ => rfl
      | ⟨3, _⟩ => rfl

/-- A scalar per window, head and depth over a matrix. -/
theorem bc_unit2_mat (x : S256x4x8x1x1.Idx → α) (h : S256x4x8x1x1.BroadcastsInDim S256x4x8x64x64 (![0, 1, 2, 3, 4] : Fin 5 → Fin S256x4x8x64x64.rank))
    (w : Fin 256) (hd : Fin 4) (b : Fin 8) (i : Fin 64) (j : Fin 64) :
    broadcastInDim S256x4x8x64x64 ![0, 1, 2, 3, 4] h x (ix5 w hd b i j) = x (ix5 w hd b (0 : Fin 1) (0 : Fin 1)) := by
  refine broadcastInDim_apply _ h x _ _ ?_
  intro a
  match a with
      | ⟨0, _⟩ => rfl
      | ⟨1, _⟩ => rfl
      | ⟨2, _⟩ => rfl
      | ⟨3, _⟩ => rfl
      | ⟨4, _⟩ => rfl

/-- The bias vector under three unit axes. -/
theorem bc_bias_unit (x : S112.Idx → α) (h : S112.BroadcastsInDim S1x1x1x112 (![3] : Fin 1 → Fin S1x1x1x112.rank))
    (z0 z1 z2 : Fin 1) (o : Fin 112) :
    broadcastInDim S1x1x1x112 ![3] h x (ix4 z0 z1 z2 o) = x (ix1 o) := by
  refine broadcastInDim_apply _ h x _ _ ?_
  intro a
  match a with
      | ⟨0, _⟩ => rfl

/-- The bias vector over every window, token and depth. -/
theorem bc_bias_all (x : S1x1x1x112.Idx → α) (h : S1x1x1x112.BroadcastsInDim S256x64x8x112 (![0, 1, 2, 3] : Fin 4 → Fin S256x64x8x112.rank))
    (w : Fin 256) (n : Fin 64) (b : Fin 8) (o : Fin 112) :
    broadcastInDim S256x64x8x112 ![0, 1, 2, 3] h x (ix4 w n b o) = x (ix4 (0 : Fin 1) (0 : Fin 1) (0 : Fin 1) o) := by
  refine broadcastInDim_apply _ h x _ _ ?_
  intro a
  match a with
      | ⟨0, _⟩ => rfl
      | ⟨1, _⟩ => rfl
      | ⟨2, _⟩ => rfl
      | ⟨3, _⟩ => rfl

/-- A scalar over a 64 x 64 matrix. -/
theorem bc_scalar_mat64 (x : S_.Idx → α) (h : S_.BroadcastsInDim S64x64 (![] : Fin 0 → Fin S64x64.rank))
    (i j : Fin 64) :
    broadcastInDim S64x64 ![] h x (ix2 i j) = x (ix0) := by
  refine broadcastInDim_apply _ h x _ _ ?_
  intro a
  exact a.elim0

/-- A scalar over a 64-vector. -/
theorem bc_scalar_v64 (x : S_.Idx → α) (h : S_.BroadcastsInDim S64 (![] : Fin 0 → Fin S64.rank))
    (i : Fin 64) :
    broadcastInDim S64 ![] h x (ix1 i) = x (ix0) := by
  refine broadcastInDim_apply _ h x _ _ ?_
  intro a
  exact a.elim0

/-- A 64-vector as a column. -/
theorem bc_v64_col (x : S64.Idx → α) (h : S64.BroadcastsInDim S64x1 (![0] : Fin 1 → Fin S64x1.rank))
    (i : Fin 64) (z : Fin 1) :
    broadcastInDim S64x1 ![0] h x (ix2 i z) = x (ix1 i) := by
  refine broadcastInDim_apply _ h x _ _ ?_
  intro a
  match a with
      | ⟨0, _⟩ => rfl

end Cert.ReferenceIdeal.RefValue

end
-- ==== Proof.RefValueDot.lean ====
/-
  The reference's contractions read at an index: each dot_general of the program, at the extended reals, is the sum over
  its one contracted coordinate of the products of the two operands' entries.
-/
import proofs.«155316_j49177375539263_2_alg».proof.ReferenceIdeal
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal

variable [Facts₀]

/-- Tokens times the stacked query and key weights. -/
theorem dotQK_apply (l : FVec Ideal S256x64x8x112 .f32) (r : FVec Ideal S224x112 .f32) (w : Fin 256) (n : Fin 64) (b : Fin 8) (o : Fin 224) :
    Host.dotGeneral dot_S256x64x8x112_S224x112_S256x64x8x224_3_1_012_0_n_n none l r (ix4 w n b o)
      = ∑ c : Fin 112, l (ix4 w n b c) * r (ix2 o c) := by
  show FloatOps.dotGeneral dot_S256x64x8x112_S224x112_S256x64x8x224_3_1_012_0_n_n none .single l r (ix4 w n b o) = _
  refine (Ideal.dotGeneral_apply dot_S256x64x8x112_S224x112_S256x64x8x224_3_1_012_0_n_n none .single l r (ix4 w n b o)).trans ?_
  rw [← Equiv.sum_comp (contrEquiv1 dot_S256x64x8x112_S224x112_S256x64x8x224_3_1_012_0_n_n 112 rfl rfl).symm]
  refine Finset.sum_congr rfl fun c _ => ?_
  have hl : (dot_S256x64x8x112_S224x112_S256x64x8x224_3_1_012_0_n_n).lhsIdx (ix4 w n b o) ((contrEquiv1 dot_S256x64x8x112_S224x112_S256x64x8x224_3_1_012_0_n_n 112 rfl rfl).symm c) = ix4 w n b c := by
    funext a; refine Fin.ext ?_
    match a with
      | ⟨0, _⟩ => rfl
      | ⟨1, _⟩ => rfl
      | ⟨2, _⟩ => rfl
      | ⟨3, _⟩ => rfl
  have hr : (dot_S256x64x8x112_S224x112_S256x64x8x224_3_1_012_0_n_n).rhsIdx (ix4 w n b o) ((contrEquiv1 dot_S256x64x8x112_S224x112_S256x64x8x224_3_1_012_0_n_n 112 rfl rfl).symm c) = ix2 o c := by
    funext a; refine Fin.ext ?_
    match a with
      | ⟨0, _⟩ => rfl
      | ⟨1, _⟩ => rfl
  rw [hl, hr]

/-- A 112-channel array times a square weight. -/
theorem dotLin_apply (l : FVec Ideal S256x64x8x112 .f32) (r : FVec Ideal S112x112 .f32) (w : Fin 256) (n : Fin 64) (b : Fin 8) (o : Fin 112) :
    Host.dotGeneral dot_S256x64x8x112_S112x112_S256x64x8x112_3_1_012_0_n_n none l r (ix4 w n b o)
      = ∑ c : Fin 112, l (ix4 w n b c) * r (ix2 o c) := by
  show FloatOps.dotGeneral dot_S256x64x8x112_S112x112_S256x64x8x112_3_1_012_0_n_n none .single l r (ix4 w n b o) = _
  refine (Ideal.dotGeneral_apply dot_S256x64x8x112_S112x112_S256x64x8x112_3_1_012_0_n_n none .single l r (ix4 w n b o)).trans ?_
  rw [← Equiv.sum_comp (contrEquiv1 dot_S256x64x8x112_S112x112_S256x64x8x112_3_1_012_0_n_n 112 rfl rfl).symm]
  refine Finset.sum_congr rfl fun c _ => ?_
  have hl : (dot_S256x64x8x112_S112x112_S256x64x8x112_3_1_012_0_n_n).lhsIdx (ix4 w n b o) ((contrEquiv1 dot_S256x64x8x112_S112x112_S256x64x8x112_3_1_012_0_n_n 112 rfl rfl).symm c) = ix4 w n b c := by
    funext a; refine Fin.ext ?_
    match a with
      | ⟨0, _⟩ => rfl
      | ⟨1, _⟩ => rfl
      | ⟨2, _⟩ => rfl
      | ⟨3, _⟩ => rfl
  have hr : (dot_S256x64x8x112_S112x112_S256x64x8x112_3_1_012_0_n_n).rhsIdx (ix4 w n b o) ((contrEquiv1 dot_S256x64x8x112_S112x112_S256x64x8x112_3_1_012_0_n_n 112 rfl rfl).symm c) = ix2 o c := by
    funext a; refine Fin.ext ?_
    match a with
      | ⟨0, _⟩ => rfl
      | ⟨1, _⟩ => rfl
  rw [hl, hr]

/-- A head's 28 channels against a one-row weight. -/
theorem dotGate_apply (l : FVec Ideal S256x4x8x64x28 .f32) (r : FVec Ideal S1x28 .f32) (w : Fin 256) (hd : Fin 4) (b : Fin 8) (i : Fin 64) (z : Fin 1) :
    Host.dotGeneral dot_S256x4x8x64x28_S1x28_S256x4x8x64x1_4_1_0123_0_n_n none l r (ix5 w hd b i z)
      = ∑ d : Fin 28, l (ix5 w hd b i d) * r (ix2 z d) := by
  show FloatOps.dotGeneral dot_S256x4x8x64x28_S1x28_S256x4x8x64x1_4_1_0123_0_n_n none .single l r (ix5 w hd b i z) = _
  refine (Ideal.dotGeneral_apply dot_S256x4x8x64x28_S1x28_S256x4x8x64x1_4_1_0123_0_n_n none .single l r (ix5 w hd b i z)).trans ?_
  rw [← Equiv.sum_comp (contrEquiv1 dot_S256x4x8x64x28_S1x28_S256x4x8x64x1_4_1_0123_0_n_n 28 rfl rfl).symm]
  refine Finset.sum_congr rfl fun d _ => ?_
  have hl : (dot_S256x4x8x64x28_S1x28_S256x4x8x64x1_4_1_0123_0_n_n).lhsIdx (ix5 w hd b i z) ((contrEquiv1 dot_S256x4x8x64x28_S1x28_S256x4x8x64x1_4_1_0123_0_n_n 28 rfl rfl).symm d) = ix5 w hd b i d := by
    funext a; refine Fin.ext ?_
    match a with
      | ⟨0, _⟩ => rfl
      | ⟨1, _⟩ => rfl
      | ⟨2, _⟩ => rfl
      | ⟨3, _⟩ => rfl
      | ⟨4, _⟩ => rfl
  have hr : (dot_S256x4x8x64x28_S1x28_S256x4x8x64x1_4_1_0123_0_n_n).rhsIdx (ix5 w hd b i z) ((contrEquiv1 dot_S256x4x8x64x28_S1x28_S256x4x8x64x1_4_1_0123_0_n_n 28 rfl rfl).symm d) = ix2 z d := by
    funext a; refine Fin.ext ?_
    match a with
      | ⟨0, _⟩ => rfl
      | ⟨1, _⟩ => rfl
  rw [hl, hr]

/-- Queries against keys, per window, head and depth. -/
theorem dotSim_apply (l : FVec Ideal S256x4x8x64x28 .f32) (r : FVec Ideal S256x4x8x64x28 .f32) (w : Fin 256) (hd : Fin 4) (b : Fin 8) (i j : Fin 64) :
    Host.dotGeneral dot_S256x4x8x64x28_S256x4x8x64x28_S256x4x8x64x64_4_4_3_3_012_012 none l r (ix5 w hd b i j)
      = ∑ d : Fin 28, l (ix5 w hd b i d) * r (ix5 w hd b j d) := by
  show FloatOps.dotGeneral dot_S256x4x8x64x28_S256x4x8x64x28_S256x4x8x64x64_4_4_3_3_012_012 none .single l r (ix5 w hd b i j) = _
  refine (Ideal.dotGeneral_apply dot_S256x4x8x64x28_S256x4x8x64x28_S256x4x8x64x64_4_4_3_3_012_012 none .single l r (ix5 w hd b i j)).trans ?_
  rw [← Equiv.sum_comp (contrEquiv1 dot_S256x4x8x64x28_S256x4x8x64x28_S256x4x8x64x64_4_4_3_3_012_012 28 rfl rfl).symm]
  refine Finset.sum_congr rfl fun d _ => ?_
  have hl : (dot_S256x4x8x64x28_S256x4x8x64x28_S256x4x8x64x64_4_4_3_3_012_012).lhsIdx (ix5 w hd b i j) ((contrEquiv1 dot_S256x4x8x64x28_S256x4x8x64x28_S256x4x8x64x64_4_4_3_3_012_012 28 rfl rfl).symm d) = ix5 w hd b i d := by
    funext a; refine Fin.ext ?_
    match a with
      | ⟨0, _⟩ => rfl
      | ⟨1, _⟩ => rfl
      | ⟨2, _⟩ => rfl
      | ⟨3, _⟩ => rfl
      | ⟨4, _⟩ => rfl
  have hr : (dot_S256x4x8x64x28_S256x4x8x64x28_S256x4x8x64x64_4_4_3_3_012_012).rhsIdx (ix5 w hd b i j) ((contrEquiv1 dot_S256x4x8x64x28_S256x4x8x64x28_S256x4x8x64x64_4_4_3_3_012_012 28 rfl rfl).symm d) = ix5 w hd b j d := by
    funext a; refine Fin.ext ?_
    match a with
      | ⟨0, _⟩ => rfl
      | ⟨1, _⟩ => rfl
      | ⟨2, _⟩ => rfl
      | ⟨3, _⟩ => rfl
      | ⟨4, _⟩ => rfl
  rw [hl, hr]

/-- A matrix's rows against the first threshold weight. -/
theorem dotM1_apply (l : FVec Ideal S256x4x8x64x64 .f32) (r : FVec Ideal S1x64 .f32) (w : Fin 256) (hd : Fin 4) (b : Fin 8) (i : Fin 64) (z : Fin 1) :
    Host.dotGeneral dot_S256x4x8x64x64_S1x64_S256x4x8x64x1_4_1_0123_0_n_n none l r (ix5 w hd b i z)
      = ∑ j : Fin 64, l (ix5 w hd b i j) * r (ix2 z j) := by
  show FloatOps.dotGeneral dot_S256x4x8x64x64_S1x64_S256x4x8x64x1_4_1_0123_0_n_n none .single l r (ix5 w hd b i z) = _
  refine (Ideal.dotGeneral_apply dot_S256x4x8x64x64_S1x64_S256x4x8x64x1_4_1_0123_0_n_n none .single l r (ix5 w hd b i z)).trans ?_
  rw [← Equiv.sum_comp (contrEquiv1 dot_S256x4x8x64x64_S1x64_S256x4x8x64x1_4_1_0123_0_n_n 64 rfl rfl).symm]
  refine Finset.sum_congr rfl fun j _ => ?_
  have hl : (dot_S256x4x8x64x64_S1x64_S256x4x8x64x1_4_1_0123_0_n_n).lhsIdx (ix5 w hd b i z) ((contrEquiv1 dot_S256x4x8x64x64_S1x64_S256x4x8x64x1_4_1_0123_0_n_n 64 rfl rfl).symm j) = ix5 w hd b i j := by
    funext a; refine Fin.ext ?_
    match a with
      | ⟨0, _⟩ => rfl
      | ⟨1, _⟩ => rfl
      | ⟨2, _⟩ => rfl
      | ⟨3, _⟩ => rfl
      | ⟨4, _⟩ => rfl
  have hr : (dot_S256x4x8x64x64_S1x64_S256x4x8x64x1_4_1_0123_0_n_n).rhsIdx (ix5 w hd b i z) ((contrEquiv1 dot_S256x4x8x64x64_S1x64_S256x4x8x64x1_4_1_0123_0_n_n 64 rfl rfl).symm j) = ix2 z j := by
    funext a; refine Fin.ext ?_
    match a with
      | ⟨0, _⟩ => rfl
      | ⟨1, _⟩ => rfl
  rw [hl, hr]

/-- A 64-vector against the second threshold weight. -/
theorem dotM2a_apply (l : FVec Ideal S256x4x8x64 .f32) (r : FVec Ideal S64x64 .f32) (w : Fin 256) (hd : Fin 4) (b : Fin 8) (m : Fin 64) :
    Host.dotGeneral dot_S256x4x8x64_S64x64_S256x4x8x64_3_1_012_0_n_n none l r (ix4 w hd b m)
      = ∑ n : Fin 64, l (ix4 w hd b n) * r (ix2 m n) := by
  show FloatOps.dotGeneral dot_S256x4x8x64_S64x64_S256x4x8x64_3_1_012_0_n_n none .single l r (ix4 w hd b m) = _
  refine (Ideal.dotGeneral_apply dot_S256x4x8x64_S64x64_S256x4x8x64_3_1_012_0_n_n none .single l r (ix4 w hd b m)).trans ?_
  rw [← Equiv.sum_comp (contrEquiv1 dot_S256x4x8x64_S64x64_S256x4x8x64_3_1_012_0_n_n 64 rfl rfl).symm]
  refine Finset.sum_congr rfl fun n _ => ?_
  have hl : (dot_S256x4x8x64_S64x64_S256x4x8x64_3_1_012_0_n_n).lhsIdx (ix4 w hd b m) ((contrEquiv1 dot_S256x4x8x64_S64x64_S256x4x8x64_3_1_012_0_n_n 64 rfl rfl).symm n) = ix4 w hd b n := by
    funext a; refine Fin.ext ?_
    match a with
      | ⟨0, _⟩ => rfl
      | ⟨1, _⟩ => rfl
      | ⟨2, _⟩ => rfl
      | ⟨3, _⟩ => rfl
  have hr : (dot_S256x4x8x64_S64x64_S256x4x8x64_3_1_012_0_n_n).rhsIdx (ix4 w hd b m) ((contrEquiv1 dot_S256x4x8x64_S64x64_S256x4x8x64_3_1_012_0_n_n 64 rfl rfl).symm n) = ix2 m n := by
    funext a; refine Fin.ext ?_
    match a with
      | ⟨0, _⟩ => rfl
      | ⟨1, _⟩ => rfl
  rw [hl, hr]

/-- A 64-vector against the last threshold weight. -/
theorem dotM2b_apply (l : FVec Ideal S256x4x8x64 .f32) (r : FVec Ideal S1x64 .f32) (w : Fin 256) (hd : Fin 4) (b : Fin 8) (z : Fin 1) :
    Host.dotGeneral dot_S256x4x8x64_S1x64_S256x4x8x1_3_1_012_0_n_n none l r (ix4 w hd b z)
      = ∑ m : Fin 64, l (ix4 w hd b m) * r (ix2 z m) := by
  show FloatOps.dotGeneral dot_S256x4x8x64_S1x64_S256x4x8x1_3_1_012_0_n_n none .single l r (ix4 w hd b z) = _
  refine (Ideal.dotGeneral_apply dot_S256x4x8x64_S1x64_S256x4x8x1_3_1_012_0_n_n none .single l r (ix4 w hd b z)).trans ?_
  rw [← Equiv.sum_comp (contrEquiv1 dot_S256x4x8x64_S1x64_S256x4x8x1_3_1_012_0_n_n 64 rfl rfl).symm]
  refine Finset.sum_congr rfl fun m _ => ?_
  have hl : (dot_S256x4x8x64_S1x64_S256x4x8x1_3_1_012_0_n_n).lhsIdx (ix4 w hd b z) ((contrEquiv1 dot_S256x4x8x64_S1x64_S256x4x8x1_3_1_012_0_n_n 64 rfl rfl).symm m) = ix4 w hd b m := by
    funext a; refine Fin.ext ?_
    match a with
      | ⟨0, _⟩ => rfl
      | ⟨1, _⟩ => rfl
      | ⟨2, _⟩ => rfl
      | ⟨3, _⟩ => rfl
  have hr : (dot_S256x4x8x64_S1x64_S256x4x8x1_3_1_012_0_n_n).rhsIdx (ix4 w hd b z) ((contrEquiv1 dot_S256x4x8x64_S1x64_S256x4x8x1_3_1_012_0_n_n 64 rfl rfl).symm m) = ix2 z m := by
    funext a; refine Fin.ext ?_
    match a with
      | ⟨0, _⟩ => rfl
      | ⟨1, _⟩ => rfl
  rw [hl, hr]

/-- The attention matrix against the values. -/
theorem dotAV_apply (l : FVec Ideal S256x4x8x64x64 .f32) (r : FVec Ideal S256x4x8x64x28 .f32) (w : Fin 256) (hd : Fin 4) (b : Fin 8) (i : Fin 64) (d : Fin 28) :
    Host.dotGeneral dot_S256x4x8x64x64_S256x4x8x64x28_S256x4x8x64x28_4_3_3_4_012_012 none l r (ix5 w hd b i d)
      = ∑ j : Fin 64, l (ix5 w hd b i j) * r (ix5 w hd b j d) := by
  show FloatOps.dotGeneral dot_S256x4x8x64x64_S256x4x8x64x28_S256x4x8x64x28_4_3_3_4_012_012 none .single l r (ix5 w hd b i d) = _
  refine (Ideal.dotGeneral_apply dot_S256x4x8x64x64_S256x4x8x64x28_S256x4x8x64x28_4_3_3_4_012_012 none .single l r (ix5 w hd b i d)).trans ?_
  rw [← Equiv.sum_comp (contrEquiv1 dot_S256x4x8x64x64_S256x4x8x64x28_S256x4x8x64x28_4_3_3_4_012_012 64 rfl rfl).symm]
  refine Finset.sum_congr rfl fun j _ => ?_
  have hl : (dot_S256x4x8x64x64_S256x4x8x64x28_S256x4x8x64x28_4_3_3_4_012_012).lhsIdx (ix5 w hd b i d) ((contrEquiv1 dot_S256x4x8x64x64_S256x4x8x64x28_S256x4x8x64x28_4_3_3_4_012_012 64 rfl rfl).symm j) = ix5 w hd b i j := by
    funext a; refine Fin.ext ?_
    match a with
      | ⟨0, _⟩ => rfl
      | ⟨1, _⟩ => rfl
      | ⟨2, _⟩ => rfl
      | ⟨3, _⟩ => rfl
      | ⟨4, _⟩ => rfl
  have hr : (dot_S256x4x8x64x64_S256x4x8x64x28_S256x4x8x64x28_4_3_3_4_012_012).rhsIdx (ix5 w hd b i d) ((contrEquiv1 dot_S256x4x8x64x64_S256x4x8x64x28_S256x4x8x64x28_4_3_3_4_012_012 64 rfl rfl).symm j) = ix5 w hd b j d := by
    funext a; refine Fin.ext ?_
    match a with
      | ⟨0, _⟩ => rfl
      | ⟨1, _⟩ => rfl
      | ⟨2, _⟩ => rfl
      | ⟨3, _⟩ => rfl
      | ⟨4, _⟩ => rfl
  rw [hl, hr]

end Cert.ReferenceIdeal.RefValue

end
-- ==== Proof.RefValueIn.lean ====
/-
  The reference's first stages read at an index: the image rolled by four and cut into windows is the token array of
  the specification, and the three projections are the specification's query, key and value channels of each head.
-/
import proofs.«155316_j49177375539263_2_alg».proof.Proof.RefStages
import proofs.«155316_j49177375539263_2_alg».proof.Proof.RefValueLay
import proofs.«155316_j49177375539263_2_alg».proof.Proof.RefValueDot
import proofs.«155316_j49177375539263_2_alg».proof.Proof.Spec

noncomputable section

open scoped BigOperators

namespace Cert.ReferenceIdeal.RefValue

open Idealize.ShloMosaic Idealize.ShloMosaic.ValueIdx Cert.ReferenceIdeal Cert.ReferenceIdeal.RefRun Cert.Attn

variable [Facts]

/-- The image rolled forward by four along its rows. -/
theorem st_call0_v2_apply (a0 : FVec Ideal S1x112x8x128x128 .f32) (z : Fin 1) (c : Fin 112) (b : Fin 8) (H W : Fin 128) :
    st_call0_v2 (F := Ideal) a0 (ix5 z c b H W)
      = a0 (ix5 z c b (⟨(H.val + 124) % 128, Nat.mod_lt _ (by norm_num)⟩ : Fin 128) W) := by
  unfold st_call0_v2 st_call0_v0 st_call0_v1
  exact rollH_apply a0 _ _ _ z c b H W

/-- The image rolled forward by four along rows and columns. -/
theorem st_v0_apply (a0 : FVec Ideal S1x112x8x128x128 .f32) (z : Fin 1) (c : Fin 112) (b : Fin 8) (H W : Fin 128) :
    st_v0 (F := Ideal) a0 (ix5 z c b H W)
      = a0 (ix5 z c b (⟨(H.val + 124) % 128, Nat.mod_lt _ (by norm_num)⟩ : Fin 128)
          (⟨(W.val + 124) % 128, Nat.mod_lt _ (by norm_num)⟩ : Fin 128)) := by
  unfold st_v0 st_call0_v3 st_call0_v4
  refine (rollW_apply (st_call0_v2 (F := Ideal) a0) _ _ _ z c b H W).trans ?_
  exact st_call0_v2_apply a0 z c b H _

/-- The window layout of the rolled image is the specification's token array. -/
theorem st_v3_apply (a0 : FVec Ideal S1x112x8x128x128 .f32) (w : Fin 256) (n : Fin 64) (b : Fin 8) (c : Fin 112) :
    st_v3 (F := Ideal) a0 (ix4 w n b c) = tok (imgOf a0) w b n c := by
  unfold st_v3
  refine (windows_apply (st_v2 (F := Ideal) a0) _ w n b c).trans ?_
  unfold st_v2
  refine (perm_apply (st_v1 (F := Ideal) a0) _ _ c b _ _ _ _).trans ?_
  unfold st_v1
  refine (split_apply (st_v0 (F := Ideal) a0) _ _ c b _ _ _ _).trans ?_
  refine (st_v0_apply a0 _ c b _ _).trans ?_
  rfl

section Proj
variable (a0 : FVec Ideal S1x112x8x128x128 .f32) (a1 : FVec Ideal S224x112 .f32) (a2 : FVec Ideal S112x112 .f32) (a3 : FVec Ideal S112x112 .f32) (a4 : FVec Ideal S112 .f32) (a5 : FVec Ideal S1x28 .f32) (a6 : FVec Ideal S1 .f32) (a7 : FVec Ideal S1x28 .f32) (a8 : FVec Ideal S1 .f32) (a9 : FVec Ideal S1x64 .f32) (a10 : FVec Ideal S64x64 .f32) (a11 : FVec Ideal S1x64 .f32)

local notation "PP" => ofArgs a1 a2 a3 a4 a5 a6 a7 a8 a9 a10 a11
local notation "XX" => imgOf a0

/-- The stacked query and key projection of a token. -/
theorem st_v4_apply (w : Fin 256) (n : Fin 64) (b : Fin 8) (o : Fin 224) :
    st_v4 (F := Ideal) a0 a1 (ix4 w n b o) = ∑ c : Fin 112, tok XX w b n c * a1 (ix2 o c) := by
  unfold st_v4
  refine (dotQK_apply _ _ w n b o).trans ?_
  exact Finset.sum_congr rfl fun c _ => congrArg (· * a1 (ix2 o c)) (st_v3_apply a0 w n b c)

/-- The value projection of a token. -/
theorem st_v7_apply (w : Fin 256) (n : Fin 64) (b : Fin 8) (o : Fin 112) :
    st_v7 (F := Ideal) a0 a2 (ix4 w n b o) = ∑ c : Fin 112, tok XX w b n c * a2 (ix2 o c) := by
  unfold st_v7
  refine (dotLin_apply _ _ w n b o).trans ?_
  exact Finset.sum_congr rfl fun c _ => congrArg (· * a2 (ix2 o c)) (st_v3_apply a0 w n b c)

/-- A head's queries. -/
theorem st_v9_apply (w : Fin 256) (hd : Fin 4) (b : Fin 8) (n : Fin 64) (d : Fin 28) :
    st_v9 (F := Ideal) a0 a1 (ix5 w hd b n d) = Qf PP (tok XX w b) n (col hd d) := by
  unfold st_v9
  refine (headsT_apply (st_v8 (F := Ideal) a0 a1) _ w n b hd d).trans ?_
  unfold st_v8
  refine (heads_apply (st_v5 (F := Ideal) a0 a1) _ w n b hd d).trans ?_
  unfold st_v5
  refine (sliceQ_apply (st_v4 (F := Ideal) a0 a1) _ w n b _).trans ?_
  refine (st_v4_apply a0 a1 w n b _).trans ?_
  rfl

/-- A head's keys. -/
theorem st_v11_apply (w : Fin 256) (hd : Fin 4) (b : Fin 8) (n : Fin 64) (d : Fin 28) :
    st_v11 (F := Ideal) a0 a1 (ix5 w hd b n d) = Kf PP (tok XX w b) n (col hd d) := by
  unfold st_v11
  refine (headsT_apply (st_v10 (F := Ideal) a0 a1) _ w n b hd d).trans ?_
  unfold st_v10
  refine (heads_apply (st_v6 (F := Ideal) a0 a1) _ w n b hd d).trans ?_
  unfold st_v6
  refine (sliceK_apply (st_v4 (F := Ideal) a0 a1) _ w n b _).trans ?_
  refine (st_v4_apply a0 a1 w n b _).trans ?_
  rfl

/-- A head's values. -/
theorem st_v13_apply (w : Fin 256) (hd : Fin 4) (b : Fin 8) (n : Fin 64) (d : Fin 28) :
    st_v13 (F := Ideal) a0 a2 (ix5 w hd b n d) = Vf PP (tok XX w b) n (col hd d) := by
  unfold st_v13
  refine (headsT_apply (st_v12 (F := Ideal) a0 a2) _ w n b hd d).trans ?_
  unfold st_v12
  refine (heads_apply (st_v7 (F := Ideal) a0 a2) _ w n b hd d).trans ?_
  refine (st_v7_apply a0 a2 w n b _).trans ?_
  rfl

end Proj

end Cert.ReferenceIdeal.RefValue

end
-- ==== Proof.RefValueWords.lean ====
/-
  Words at an index: a one-bit truth value converted to a float or used in a select, and the 32-bit words of two
  indices below 64.
-/
import proofs.«155316_j49177375539263_2_alg».proof.Proof.Spec
import proofs.«155316_j49177375539263_2_alg».proof.ReferenceIdeal

noncomputable section

open scoped BigOperators

namespace Cert.ReferenceIdeal.RefValue

open Idealize.ShloMosaic Idealize.ShloMosaic.ValueIdx Cert.ReferenceIdeal Cert.Attn

/-! ## Words -/

/-- A one-bit word that is the truth value of p, converted unsigned, is p's indicator. -/
theorem uitofp_ofBool (p : Prop) [Decidable p] :
    FloatOps.uitofp (F := Ideal) .f32 (BitVec.ofBool (decide p)) = ind p := by
  show (((BitVec.ofBool (decide p)).toNat : ℝ) : EReal) = ind p
  unfold ind
  by_cases h : p <;> simp [h]

/-- A select on the truth value of p is the if. -/
theorem select_ofBool {α : Type} (p : Prop) [Decidable p] (a b : α) :
    Scalar.select (BitVec.ofBool (decide p)) a b = if p then a else b := by
  unfold Scalar.select
  by_cases h : p <;> simp [h]

/-- The index normalisation of the diagonal: an index below 64 is not negative, so it is kept. -/
theorem norm_index : ∀ i : Fin 64, Scalar.select (IntOp.cmpi .slt (BitVec.ofNat 32 i.val) 0#32)
    (IntOp.addi (BitVec.ofNat 32 i.val) 64#32) (BitVec.ofNat 32 i.val) = BitVec.ofNat 32 i.val := by decide

/-- Two indices below 64 are equal as 32-bit words exactly when they are equal. -/
theorem eq_words (i j : Fin 64) :
    IntOp.cmpi .eq (IntOp.addi (BitVec.ofNat 32 i.val) 0#32) (BitVec.ofNat 32 j.val) = BitVec.ofBool (decide (i = j)) := by
  show BitVec.ofBool (BitVec.ofNat 32 i.val + 0#32 == BitVec.ofNat 32 j.val) = _
  congr 1
  rw [BitVec.add_zero]
  by_cases h : i = j
  · subst h; simp
  · have hne : BitVec.ofNat 32 i.val ≠ BitVec.ofNat 32 j.val := by
      intro e
      apply h
      apply Fin.ext
      have := congrArg BitVec.toNat e
      simp only [BitVec.toNat_ofNat] at this
      have hi := i.isLt
      have hj := j.isLt
      omega
    simp [h, hne]

end Cert.ReferenceIdeal.RefValue

end
-- ==== Proof.RefValueIdx.lean ====
/-
  The start indices of the diagonal's gather, row i being (i, i), and the identity matrix built from two iotas.
-/
import proofs.«155316_j49177375539263_2_alg».proof.Proof.RefValueIn
import proofs.«155316_j49177375539263_2_alg».proof.Proof.RefValueWords

noncomputable section

open scoped BigOperators

namespace Cert.ReferenceIdeal.RefValue

open Idealize.ShloMosaic Idealize.ShloMosaic.ValueIdx Cert.ReferenceIdeal Cert.ReferenceIdeal.RefRun Cert.Attn

variable [Facts]

/-! ## The start indices of the diagonal's gather, and the identity matrix -/

theorem st_call1_v6_apply (i : Fin 64) : st_call1_v6 (F := Ideal) (ix1 i) = BitVec.ofNat 32 i.val := by
  have h2 : st_call1_v2 (F := Ideal) (ix1 i) = 0#32 := by
    unfold st_call1_v2
    exact (bc_scalar_v64 _ _ i).trans rfl
  have h4 : st_call1_v4 (F := Ideal) (ix1 i) = 64#32 := by
    unfold st_call1_v4
    exact (bc_scalar_v64 _ _ i).trans rfl
  have h0 : st_call1_v0 (F := Ideal) (ix1 i) = BitVec.ofNat 32 i.val := rfl
  unfold st_call1_v6
  show Scalar.select (st_call1_v3 (F := Ideal) (ix1 i)) (st_call1_v5 (F := Ideal) (ix1 i)) (st_call1_v0 (F := Ideal) (ix1 i)) = _
  unfold st_call1_v3 st_call1_v5
  show Scalar.select (IntOp.cmpi .slt (st_call1_v0 (F := Ideal) (ix1 i)) (st_call1_v2 (F := Ideal) (ix1 i)))
    (IntOp.addi (st_call1_v0 (F := Ideal) (ix1 i)) (st_call1_v4 (F := Ideal) (ix1 i))) (st_call1_v0 (F := Ideal) (ix1 i)) = _
  rw [h2, h4, h0]
  exact norm_index i

theorem st_call1_v11_apply (i : Fin 64) : st_call1_v11 (F := Ideal) (ix1 i) = BitVec.ofNat 32 i.val := by
  have h2 : st_call1_v7 (F := Ideal) (ix1 i) = 0#32 := by
    unfold st_call1_v7
    exact (bc_scalar_v64 _ _ i).trans rfl
  have h4 : st_call1_v9 (F := Ideal) (ix1 i) = 64#32 := by
    unfold st_call1_v9
    exact (bc_scalar_v64 _ _ i).trans rfl
  have h0 : st_call1_v1 (F := Ideal) (ix1 i) = BitVec.ofNat 32 i.val := rfl
  unfold st_call1_v11
  show Scalar.select (st_call1_v8 (F := Ideal) (ix1 i)) (st_call1_v10 (F := Ideal) (ix1 i)) (st_call1_v1 (F := Ideal) (ix1 i)) = _
  unfold st_call1_v8 st_call1_v10
  show Scalar.select (IntOp.cmpi .slt (st_call1_v1 (F := Ideal) (ix1 i)) (st_call1_v7 (F := Ideal) (ix1 i)))
    (IntOp.addi (st_call1_v1 (F := Ideal) (ix1 i)) (st_call1_v9 (F := Ideal) (ix1 i))) (st_call1_v1 (F := Ideal) (ix1 i)) = _
  rw [h2, h4, h0]
  exact norm_index i

/-- Row i of the start indices is (i, i). -/
theorem st_call1_v14_apply (i : Fin 64) (c : Fin 2) : st_call1_v14 (F := Ideal) (ix2 i c) = BitVec.ofNat 32 i.val := by
  unfold st_call1_v14
  match c with
  | ⟨0, _⟩ =>
    refine (concatenate_pair_apply_left (t := S64x2) (s₁ := S64x1) (s₂ := S64x1) 1 _ _ _ (ix2 i (0 : Fin 2)) rfl (ix2 i (0 : Fin 1)) ?_).trans ?_
    · intro a
      match a with
      | ⟨0, _⟩ => rfl
      | ⟨1, _⟩ => rfl
    · unfold st_call1_v12
      exact (bc_v64_col _ _ i 0).trans (st_call1_v6_apply i)
  | ⟨1, _⟩ =>
    refine (concatenate_pair_apply_right (t := S64x2) (s₁ := S64x1) (s₂ := S64x1) 1 _ _ _ (ix2 i (1 : Fin 2)) rfl rfl (ix2 i (0 : Fin 1)) ?_ ?_).trans ?_
    · intro a ha
      match a with
      | ⟨0, _⟩ => rfl
      | ⟨1, _⟩ => exact absurd rfl ha
    · rfl
    · unfold st_call1_v13
      exact (bc_v64_col _ _ i 0).trans (st_call1_v11_apply i)

/-- The identity matrix. -/
theorem st_v34_apply (i j : Fin 64) : st_v34 (F := Ideal) (ix2 i j) = eye i j := by
  have h31 : st_v31 (F := Ideal) (ix2 i j) = 0#32 := by
    unfold st_v31
    exact (bc_scalar_mat64 _ _ i j).trans rfl
  unfold st_v34
  show FloatOps.uitofp (F := Ideal) .f32 (st_v33 (F := Ideal) (ix2 i j)) = _
  unfold st_v33
  show FloatOps.uitofp (F := Ideal) .f32 (IntOp.cmpi .eq (st_v32 (F := Ideal) (ix2 i j)) (st_v30 (F := Ideal) (ix2 i j))) = _
  unfold st_v32
  show FloatOps.uitofp (F := Ideal) .f32 (IntOp.cmpi .eq (IntOp.addi (st_v29 (F := Ideal) (ix2 i j)) (st_v31 (F := Ideal) (ix2 i j))) (st_v30 (F := Ideal) (ix2 i j))) = _
  rw [h31]
  show FloatOps.uitofp (F := Ideal) .f32 (IntOp.cmpi .eq (IntOp.addi (BitVec.ofNat 32 i.val) 0#32) (BitVec.ofNat 32 j.val)) = _
  rw [eq_words]
  exact uitofp_ofBool _

end Cert.ReferenceIdeal.RefValue

end
-- ==== Proof.RefValueDiag.lean ====
/-
  The diagonal of each similarity matrix: the reference takes it with a gather whose start indices are (i, i); and the
  identity matrix it builds from two iotas.
-/
import proofs.«155316_j49177375539263_2_alg».proof.ReferenceIdeal
import Idealize.ShloMosaic.Lib.ValueLayout

noncomputable section

open scoped BigOperators

namespace Cert.ReferenceIdeal.RefValue

open Idealize.ShloMosaic Idealize.ShloMosaic.ValueIdx Cert.ReferenceIdeal

variable [Facts₀] {α : Type}

/-- A start index below 64, read signed and clamped into [0, 63], is itself. -/
theorem clamp_ofNat : ∀ i : Fin 64, min (BitVec.ofNat 32 i.val).toInt.toNat (64 - 1) = i.val := by decide

/-- THE GATHER READ AT (w, h, b, i): when the start indices' row i is (i, i), the operand's entry (w, h, b, i, i). -/
theorem diag_apply (x : S256x4x8x64x64.Idx → α) (idx : IVec S64x2 32)
    (hidx : ∀ (i : Fin 64) (c : Fin 2), idx (ix2 i c) = BitVec.ofNat 32 i.val)
    (w : Fin 256) (hd : Fin 4) (b : Fin 8) (i : Fin 64) :
    Host.gather gather_S256x4x8x64x64_S64x2_S256x4x8x64_012_34_n_n_34_1_2564811 x idx (ix4 w hd b i) = x (ix5 w hd b i i) := by
  unfold Host.gather
  refine congrArg x (funext fun a => Fin.ext ?_)
  show (gather_S256x4x8x64x64_S64x2_S256x4x8x64_012_34_n_n_34_1_2564811).start (ix4 w hd b i) idx a + (gather_S256x4x8x64x64_S64x2_S256x4x8x64_012_34_n_n_34_1_2564811).batchCoord (ix4 w hd b i) a + (gather_S256x4x8x64x64_S64x2_S256x4x8x64_012_34_n_n_34_1_2564811).offCoord (ix4 w hd b i) a = _
  have hs0 : (gather_S256x4x8x64x64_S64x2_S256x4x8x64_012_34_n_n_34_1_2564811).siIdx (ix4 w hd b i) ⟨0, (Nat.zero_lt_two : 0 < 2)⟩ = ix2 i (0 : Fin 2) := by
    funext c; refine Fin.ext ?_
    match c with
    | ⟨0, _⟩ => rfl
    | ⟨1, _⟩ => rfl
  have hs1 : (gather_S256x4x8x64x64_S64x2_S256x4x8x64_012_34_n_n_34_1_2564811).siIdx (ix4 w hd b i) ⟨1, (Nat.one_lt_two : 1 < 2)⟩ = ix2 i (1 : Fin 2) := by
    funext c; refine Fin.ext ?_
    match c with
    | ⟨0, _⟩ => rfl
    | ⟨1, _⟩ => rfl
  match a with
  | ⟨0, _⟩ =>
    show 0 + 0 + w.val = w.val
    omega
  | ⟨1, _⟩ =>
    show 0 + 0 + hd.val = hd.val
    omega
  | ⟨2, _⟩ =>
    show 0 + 0 + b.val = b.val
    omega
  | ⟨3, _⟩ =>
    show min (idx ((gather_S256x4x8x64x64_S64x2_S256x4x8x64_012_34_n_n_34_1_2564811).siIdx (ix4 w hd b i) ⟨0, (Nat.zero_lt_two : 0 < 2)⟩)).toInt.toNat (64 - 1) + 0 + 0 = i.val
    rw [hs0, hidx]
    exact clamp_ofNat i
  | ⟨4, _⟩ =>
    show min (idx ((gather_S256x4x8x64x64_S64x2_S256x4x8x64_012_34_n_n_34_1_2564811).siIdx (ix4 w hd b i) ⟨1, (Nat.one_lt_two : 1 < 2)⟩)).toInt.toNat (64 - 1) + 0 + 0 = i.val
    rw [hs1, hidx]
    exact clamp_ofNat i

end Cert.ReferenceIdeal.RefValue

end
-- ==== Proof.RefValueHead1.lean ====
/-
  One head of one window and depth slice, first half: the similarity matrix, the two scalar factors and their rank-one
  product, the diagonal, and the similarity with its diagonal removed — each stage of the reference read at an index is
  the specification's function of the head's queries and keys.
-/
import proofs.«155316_j49177375539263_2_alg».proof.Proof.RefValueIdx
import proofs.«155316_j49177375539263_2_alg».proof.Proof.RefValueDiag

noncomputable section

open scoped BigOperators

namespace Cert.ReferenceIdeal.RefValue

open Idealize.ShloMosaic Idealize.ShloMosaic.ValueIdx Cert.ReferenceIdeal Cert.ReferenceIdeal.RefRun Cert.Attn

variable [Facts]

section Head
variable (a0 : FVec Ideal S1x112x8x128x128 .f32) (a1 : FVec Ideal S224x112 .f32) (a2 : FVec Ideal S112x112 .f32) (a3 : FVec Ideal S112x112 .f32) (a4 : FVec Ideal S112 .f32) (a5 : FVec Ideal S1x28 .f32) (a6 : FVec Ideal S1 .f32) (a7 : FVec Ideal S1x28 .f32) (a8 : FVec Ideal S1 .f32) (a9 : FVec Ideal S1x64 .f32) (a10 : FVec Ideal S64x64 .f32) (a11 : FVec Ideal S1x64 .f32)
variable (w : Fin 256) (hd : Fin 4) (b : Fin 8)

local notation "PP" => ofArgs a1 a2 a3 a4 a5 a6 a7 a8 a9 a10 a11
local notation "XX" => imgOf a0
local notation "Qh" => (fun (i : Fin 64) (e : Fin 28) => Qf PP (tok XX w b) i (col hd e))
local notation "Kh" => (fun (i : Fin 64) (e : Fin 28) => Kf PP (tok XX w b) i (col hd e))
local notation "Vh" => (fun (i : Fin 64) (e : Fin 28) => Vf PP (tok XX w b) i (col hd e))

/-- q_i . k_j -/
theorem st_v22_apply (i j : Fin 64) : st_v22 (F := Ideal) a0 a1 (ix5 w hd b i j) = sim Qh Kh i j := by
  unfold st_v22
  refine (dotSim_apply _ _ w hd b i j).trans ?_
  unfold sim
  exact Finset.sum_congr rfl fun d _ => congrArg₂ (· * ·) (st_v9_apply a0 a1 a2 a3 a4 a5 a6 a7 a8 a9 a10 a11 w hd b i d) (st_v11_apply a0 a1 a2 a3 a4 a5 a6 a7 a8 a9 a10 a11 w hd b j d)

theorem st_v16_apply (i : Fin 64) (z : Fin 1) : st_v16 (F := Ideal) a6 (ix5 w hd b i z) = a6 (ix1 (0 : Fin 1)) := by
  unfold st_v16
  refine (bc_unit5_col _ _ w hd b i z).trans ?_
  unfold st_v15
  exact bc_S1_5 _ _ 0 0 0 0 0

theorem st_v20_apply (i : Fin 64) (z : Fin 1) : st_v20 (F := Ideal) a8 (ix5 w hd b i z) = a8 (ix1 (0 : Fin 1)) := by
  unfold st_v20
  refine (bc_unit5_col _ _ w hd b i z).trans ?_
  unfold st_v19
  exact bc_S1_5 _ _ 0 0 0 0 0

theorem st_v14_apply (i : Fin 64) :
    st_v14 (F := Ideal) a0 a1 a5 (ix5 w hd b i (0 : Fin 1)) = ∑ d : Fin 28, Qh i d * a5 (ix2 (0 : Fin 1) d) := by
  unfold st_v14
  refine (dotGate_apply _ _ w hd b i 0).trans ?_
  exact Finset.sum_congr rfl fun d _ => congrArg (· * a5 (ix2 (0 : Fin 1) d)) (st_v9_apply a0 a1 a2 a3 a4 a5 a6 a7 a8 a9 a10 a11 w hd b i d)

theorem st_v18_apply (j : Fin 64) :
    st_v18 (F := Ideal) a0 a1 a7 (ix5 w hd b j (0 : Fin 1)) = ∑ d : Fin 28, Kh j d * a7 (ix2 (0 : Fin 1) d) := by
  unfold st_v18
  refine (dotGate_apply _ _ w hd b j 0).trans ?_
  exact Finset.sum_congr rfl fun d _ => congrArg (· * a7 (ix2 (0 : Fin 1) d)) (st_v11_apply a0 a1 a2 a3 a4 a5 a6 a7 a8 a9 a10 a11 w hd b j d)

/-- The query side's scalar factor. -/
theorem st_v17_apply (i : Fin 64) : st_v17 (F := Ideal) a0 a1 a5 a6 (ix5 w hd b i (0 : Fin 1)) = Attn.sq PP Qh i := by
  unfold st_v17
  refine (addf_apply (φ := .f32) _ _ _).trans ?_
  rw [st_v14_apply a0 a1 a2 a3 a4 a5 a6 a7 a8 a9 a10 a11 w hd b i, st_v16_apply a6 w hd b i 0]
  rfl

/-- The key side's scalar factor. -/
theorem st_v21_apply (j : Fin 64) : st_v21 (F := Ideal) a0 a1 a7 a8 (ix5 w hd b j (0 : Fin 1)) = Attn.sk PP Kh j := by
  unfold st_v21
  refine (addf_apply (φ := .f32) _ _ _).trans ?_
  rw [st_v18_apply a0 a1 a2 a3 a4 a5 a6 a7 a8 a9 a10 a11 w hd b j, st_v20_apply a8 w hd b j 0]
  rfl

/-- The rank-one weight. -/
theorem st_v26_apply (i j : Fin 64) : st_v26 (F := Ideal) a0 a1 a5 a6 a7 a8 (ix5 w hd b i j) = sigma PP Qh Kh i j := by
  have h24 : st_v24 (F := Ideal) a0 a1 a5 a6 (ix5 w hd b i j) = Attn.sq PP Qh i := by
    unfold st_v24
    exact (bc_col_mat _ _ w hd b i j).trans (st_v17_apply a0 a1 a2 a3 a4 a5 a6 a7 a8 a9 a10 a11 w hd b i)
  have h25 : st_v25 (F := Ideal) a0 a1 a7 a8 (ix5 w hd b i j) = Attn.sk PP Kh j := by
    unfold st_v25
    refine (bc_row_mat _ _ w hd b i j).trans ?_
    unfold st_v23
    exact (colT_apply _ _ w hd b 0 j).trans (st_v21_apply a0 a1 a2 a3 a4 a5 a6 a7 a8 a9 a10 a11 w hd b j)
  unfold st_v26
  refine (mulf_apply (φ := .f32) _ _ _).trans ?_
  rw [h24, h25]
  rfl

/-- The diagonal of the similarity. -/
theorem st_v27_apply (i : Fin 64) : st_v27 (F := Ideal) a0 a1 (ix4 w hd b i) = sim Qh Kh i i := by
  unfold st_v27
  exact (diag_apply _ _ (fun i c => st_call1_v14_apply i c) w hd b i).trans (st_v22_apply a0 a1 a2 a3 a4 a5 a6 a7 a8 a9 a10 a11 w hd b i i)

/-- The diagonal times the identity matrix. -/
theorem st_v38_apply (i j : Fin 64) : st_v38 (F := Ideal) a0 a1 (ix5 w hd b i j) = sim Qh Kh i i * eye i j := by
  have h36 : st_v36 (F := Ideal) a0 a1 (ix5 w hd b i j) = sim Qh Kh i i := by
    unfold st_v36
    refine (bc_col_mat _ _ w hd b i j).trans ?_
    unfold st_v28
    exact (bc_vec_col _ _ w hd b i 0).trans (st_v27_apply a0 a1 a2 a3 a4 a5 a6 a7 a8 a9 a10 a11 w hd b i)
  have h37 : st_v37 (F := Ideal) (ix5 w hd b i j) = eye i j := by
    unfold st_v37
    refine (bc_unit_mat _ _ w hd b i j).trans ?_
    unfold st_v35
    exact (bc_mat_unit _ _ 0 0 0 i j).trans (st_v34_apply i j)
  unfold st_v38
  refine (mulf_apply (φ := .f32) _ _ _).trans ?_
  rw [h36, h37]

/-- The similarity with its diagonal removed. -/
theorem st_v39_apply (i j : Fin 64) : st_v39 (F := Ideal) a0 a1 (ix5 w hd b i j) = simn Qh Kh i j := by
  unfold st_v39
  refine (subf_apply (φ := .f32) _ _ _).trans ?_
  rw [st_v22_apply a0 a1 a2 a3 a4 a5 a6 a7 a8 a9 a10 a11 w hd b i j, st_v38_apply a0 a1 a2 a3 a4 a5 a6 a7 a8 a9 a10 a11 w hd b i j]
  rfl

end Head

end Cert.ReferenceIdeal.RefValue

end
-- ==== Proof.RefValueHead2.lean ====
/-
  One head of one window and depth slice, second half: the threshold computed from the similarity with its diagonal
  removed, the weighted score, its masked row softmax, and the product with the values.
-/
import proofs.«155316_j49177375539263_2_alg».proof.Proof.RefValueHead1
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.RefRun Cert.Attn

variable [Facts]

/-! ## Constants and the reduced axis -/

/-- The single-precision pattern of minus infinity. -/
theorem ofBits_neg_inf : Ideal.ofBits .f32 0xFF800000#32 = ⊥ := by
  simp [Ideal.ofBits, Ideal.ieee]

/-- The last axis of a stack of 64 x 64 matrices can be reduced away. -/
theorem reduces_mat : S256x4x8x64x64.Reduces [4] S256x4x8x64 := by decide

/-- The index of column k of row (w, h, b, i). -/
theorem lift_mat (w : Fin 256) (hd : Fin 4) (b : Fin 8) (i k : Fin 64) :
    reduces_mat.lift (ix4 w hd b i) k = ix5 w hd b i k := by
  funext a
  refine Fin.ext ?_
  match a with
      | ⟨0, _⟩ => rfl
      | ⟨1, _⟩ => rfl
      | ⟨2, _⟩ => rfl
      | ⟨3, _⟩ => rfl
      | ⟨4, _⟩ => rfl

/-! ## Host operations at an index, over variables -/

theorem hostExp_apply {s : Shape} (x : FVec Ideal s .f32) (i : s.Idx) : Host.exp x i = Ideal.exp (x i) := rfl

theorem hostDivf_apply {s : Shape} (x y : FVec Ideal s .f32) (i : s.Idx) : Host.divf x y i = Ideal.div (x i) (y i) := rfl

theorem uitofp_apply {s : Shape} (c : IVec s 1) (i : s.Idx) :
    (uitofp .f32 c : FVec Ideal s .f32) i = FloatOps.uitofp (F := Ideal) .f32 (c i) := rfl

theorem cmp_oge (x y : EReal) : FloatOps.cmpf (F := Ideal) (φ := .f32) .oge x y = BitVec.ofBool (decide (y ≤ x)) := rfl

theorem cmp_ogt (x y : EReal) : FloatOps.cmpf (F := Ideal) (φ := .f32) .ogt x y = BitVec.ofBool (decide (y < x)) := rfl

theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

section Head
variable (a0 : FVec Ideal S1x112x8x128x128 .f32) (a1 : FVec Ideal S224x112 .f32) (a2 : FVec Ideal S112x112 .f32) (a3 : FVec Ideal S112x112 .f32) (a4 : FVec Ideal S112 .f32) (a5 : FVec Ideal S1x28 .f32) (a6 : FVec Ideal S1 .f32) (a7 : FVec Ideal S1x28 .f32) (a8 : FVec Ideal S1 .f32) (a9 : FVec Ideal S1x64 .f32) (a10 : FVec Ideal S64x64 .f32) (a11 : FVec Ideal S1x64 .f32)
variable (w : Fin 256) (hd : Fin 4) (b : Fin 8)

local notation "PP" => ofArgs a1 a2 a3 a4 a5 a6 a7 a8 a9 a10 a11
local notation "XX" => imgOf a0
local notation "Qh" => (fun (i : Fin 64) (e : Fin 28) => Qf PP (tok XX w b) i (col hd e))
local notation "Kh" => (fun (i : Fin 64) (e : Fin 28) => Kf PP (tok XX w b) i (col hd e))
local notation "Vh" => (fun (i : Fin 64) (e : Fin 28) => Vf PP (tok XX w b) i (col hd e))

/-- First threshold layer. -/
theorem st_v41_apply (i : Fin 64) : st_v41 (F := Ideal) a0 a1 a9 (ix4 w hd b i) = theta PP Qh Kh i := by
  unfold st_v41
  refine (dropLast_apply _ _ w hd b i).trans ?_
  unfold st_v40
  refine (dotM1_apply _ _ w hd b i 0).trans ?_
  unfold theta
  exact Finset.sum_congr rfl fun j _ => congrArg (· * a9 (ix2 (0 : Fin 1) j)) (st_v39_apply a0 a1 a2 a3 a4 a5 a6 a7 a8 a9 a10 a11 w hd b i j)

/-- Second threshold layer, before the rectifier. -/
theorem st_v42_apply (m : Fin 64) :
    st_v42 (F := Ideal) a0 a1 a9 a10 (ix4 w hd b m) = ∑ n : Fin 64, theta PP Qh Kh n * a10 (ix2 m n) := by
  unfold st_v42
  refine (dotM2a_apply _ _ w hd b m).trans ?_
  exact Finset.sum_congr rfl fun n _ => congrArg (· * a10 (ix2 m n)) (st_v41_apply a0 a1 a2 a3 a4 a5 a6 a7 a8 a9 a10 a11 w hd b n)

/-- Second threshold layer. -/
theorem st_v43_apply (m : Fin 64) : st_v43 (F := Ideal) a0 a1 a9 a10 (ix4 w hd b m) = theta2 PP Qh Kh m := by
  have h0 : st_call2_v0 (F := Ideal) (ix4 w hd b m) = 0 := by
    unfold st_call2_v0
    refine (bc_scalar_vec _ _ w hd b m).trans ?_
    exact Ideal.ofBits_zero_f32
  have h3 : st_call2_v3 (F := Ideal) (ix4 w hd b m) = slope := by
    unfold st_call2_v3
    refine (bc_scalar_vec _ _ w hd b m).trans ?_
    rfl
  unfold st_v43
  refine (select_apply _ _ _ _).trans ?_
  unfold st_call2_v1 st_call2_v4
  rw [cmpf_apply, mulf_apply (φ := .f32), h0, h3, st_v42_apply a0 a1 a2 a3 a4 a5 a6 a7 a8 a9 a10 a11 w hd b m, cmp_oge]
  unfold theta2 lrelu
  exact select_ofBool _ _ _

/-- The head's threshold. -/
theorem st_v44_apply (z : Fin 1) : st_v44 (F := Ideal) a0 a1 a9 a10 a11 (ix4 w hd b z) = theta3 PP Qh Kh := by
  obtain rfl : z = 0 := Subsingleton.elim _ _
  unfold st_v44
  refine (dotM2b_apply _ _ w hd b 0).trans ?_
  unfold theta3
  exact Finset.sum_congr rfl fun m _ => congrArg (· * a11 (ix2 (0 : Fin 1) m)) (st_v43_apply a0 a1 a2 a3 a4 a5 a6 a7 a8 a9 a10 a11 w hd b m)

/-- The weighted score. -/
theorem st_v46_apply (i j : Fin 64) : st_v46 (F := Ideal) a0 a1 a5 a6 a7 a8 (ix5 w hd b i j) = score PP Qh Kh i j := by
  unfold st_v46
  refine (mulf_apply (φ := .f32) _ _ _).trans ?_
  rw [st_v22_apply a0 a1 a2 a3 a4 a5 a6 a7 a8 a9 a10 a11 w hd b i j, st_v26_apply a0 a1 a2 a3 a4 a5 a6 a7 a8 a9 a10 a11 w hd b i j]
  rfl

theorem st_v48_apply (i : Fin 64) : st_v48 (F := Ideal) (ix4 w hd b i) = ⊥ := by
  unfold st_v48
  refine (bc_scalar_vec _ _ w hd b i).trans ?_
  exact ofBits_neg_inf

/-- A row's maximum as the reduction takes it. -/
theorem st_v47_fold (i : Fin 64) :
    st_v47 (F := Ideal) a0 a1 a5 a6 a7 a8 (ix4 w hd b i)
      = (Finset.univ : Finset (Fin 64)).fold (FloatOps.maximumf (F := Ideal) (φ := .f32)) (Ideal.ofBits .f32 0xFF800000#32)
          (fun k => st_v46 (F := Ideal) a0 a1 a5 a6 a7 a8 (reduces_mat.lift (ix4 w hd b i) k)) := by
  unfold st_v47
  exact Host.reduce_eq_fold_single (s := S256x4x8x64x64) (t := S256x4x8x64) (a := (4 : Fin 5)) (u := S_) (α := EReal)
    (FloatOps.maximumf (F := Ideal) (φ := .f32)) (st_v46 (F := Ideal) a0 a1 a5 a6 a7 a8) (st_cst_0 (F := Ideal)) _ reduces_mat _ (ix4 w hd b i)

theorem st_v47_apply (i : Fin 64) : st_v47 (F := Ideal) a0 a1 a5 a6 a7 a8 (ix4 w hd b i) = rowMax PP Qh Kh i := by
  refine (st_v47_fold a0 a1 a5 a6 a7 a8 w hd b i).trans ?_
  unfold rowMax
  rw [ofBits_neg_inf]
  refine Finset.fold_congr fun k _ => ?_
  exact (congrArg (st_v46 (F := Ideal) a0 a1 a5 a6 a7 a8) (lift_mat w hd b i k)).trans (st_v46_apply a0 a1 a2 a3 a4 a5 a6 a7 a8 a9 a10 a11 w hd b i k)

/-- A row's maximum. -/
theorem st_v49_apply (i : Fin 64) : st_v49 (F := Ideal) a0 a1 a5 a6 a7 a8 (ix4 w hd b i) = rowMax PP Qh Kh i := by
  unfold st_v49
  refine (maximumf_apply (φ := .f32) _ _ _).trans ?_
  rw [st_v48_apply w hd b i, st_v47_apply a0 a1 a2 a3 a4 a5 a6 a7 a8 a9 a10 a11 w hd b i]
  exact max_eq_right bot_le

/-- The shifted exponentials. -/
theorem st_v53_apply (i j : Fin 64) : st_v53 (F := Ideal) a0 a1 a5 a6 a7 a8 (ix5 w hd b i j) = pexp PP Qh Kh i j := by
  have h51 : st_v51 (F := Ideal) a0 a1 a5 a6 a7 a8 (ix5 w hd b i j) = rowMax PP Qh Kh i := by
    unfold st_v51
    refine (bc_col_mat _ _ w hd b i j).trans ?_
    unfold st_v50
    exact (bc_vec_col _ _ w hd b i 0).trans (st_v49_apply a0 a1 a2 a3 a4 a5 a6 a7 a8 a9 a10 a11 w hd b i)
  unfold st_v53
  refine (hostExp_apply _ _).trans ?_
  unfold st_v52
  rw [subf_apply (φ := .f32), st_v46_apply a0 a1 a2 a3 a4 a5 a6 a7 a8 a9 a10 a11 w hd b i j, h51]
  rfl

/-- Their row sums. -/
theorem st_v54_apply (i : Fin 64) : st_v54 (F := Ideal) a0 a1 a5 a6 a7 a8 (ix4 w hd b i) = rowSum PP Qh Kh i := by
  unfold st_v54
  refine (hostReduceAdd_apply _ _ _ _ _).trans ?_
  refine (Ideal.hostReduceAdd_single _ reduces_mat _ _ (ix4 w hd b i)).trans ?_
  unfold rowSum
  have hinit : ∀ hu, st_cst_2 (F := Ideal) (Shape.Idx.first hu) = 0 := fun _ => Ideal.ofBits_zero_f32
  rw [hinit, zero_add]
  refine Finset.sum_congr rfl fun k _ => ?_
  exact (congrArg (st_v53 (F := Ideal) a0 a1 a5 a6 a7 a8) (lift_mat w hd b i k)).trans (st_v53_apply a0 a1 a2 a3 a4 a5 a6 a7 a8 a9 a10 a11 w hd b i k)

/-- The masked softmax. -/
theorem st_v61_apply (i j : Fin 64) :
    st_v61 (F := Ideal) a0 a1 a5 a6 a7 a8 a9 a10 a11 (ix5 w hd b i j) = attn PP Qh Kh i j := by
  have h56 : st_v56 (F := Ideal) a0 a1 a5 a6 a7 a8 (ix5 w hd b i j) = rowSum PP Qh Kh i := by
    unfold st_v56
    refine (bc_col_mat _ _ w hd b i j).trans ?_
    unfold st_v55
    exact (bc_vec_col _ _ w hd b i 0).trans (st_v54_apply a0 a1 a2 a3 a4 a5 a6 a7 a8 a9 a10 a11 w hd b i)
  have h58 : st_v58 (F := Ideal) a0 a1 a9 a10 a11 (ix5 w hd b i j) = theta3 PP Qh Kh := by
    unfold st_v58
    refine (bc_unit2_mat _ _ w hd b i j).trans ?_
    unfold st_v45
    exact (bc_one_unit _ _ w hd b 0 0).trans (st_v44_apply a0 a1 a2 a3 a4 a5 a6 a7 a8 a9 a10 a11 w hd b 0)
  have h57 : st_v57 (F := Ideal) a0 a1 a5 a6 a7 a8 (ix5 w hd b i j) = Ideal.div (pexp PP Qh Kh i j) (rowSum PP Qh Kh i) := by
    unfold st_v57
    refine (hostDivf_apply _ _ _).trans ?_
    rw [st_v53_apply a0 a1 a2 a3 a4 a5 a6 a7 a8 a9 a10 a11 w hd b i j, h56]
  have h60 : st_v60 (F := Ideal) a0 a1 a5 a6 a7 a8 a9 a10 a11 (ix5 w hd b i j) = ind (theta3 PP Qh Kh < score PP Qh Kh i j) := by
    unfold st_v60
    refine (uitofp_apply _ _).trans ?_
    unfold st_v59
    rw [cmpf_apply, st_v46_apply a0 a1 a2 a3 a4 a5 a6 a7 a8 a9 a10 a11 w hd b i j, h58, cmp_ogt]
    exact uitofp_ofBool _
  unfold st_v61
  refine (mulf_apply (φ := .f32) _ _ _).trans ?_
  rw [h57, h60]
  rfl

/-- The head's output. -/
theorem st_v62_apply (i : Fin 64) (d : Fin 28) :
    st_v62 (F := Ideal) a0 a1 a2 a5 a6 a7 a8 a9 a10 a11 (ix5 w hd b i d) = headOut PP Qh Kh Vh i d := by
  unfold st_v62
  refine (dotAV_apply _ _ w hd b i d).trans ?_
  unfold headOut
  exact Finset.sum_congr rfl fun j _ => congrArg₂ (· * ·) (st_v61_apply a0 a1 a2 a3 a4 a5 a6 a7 a8 a9 a10 a11 w hd b i j) (st_v13_apply a0 a1 a2 a3 a4 a5 a6 a7 a8 a9 a10 a11 w hd b j d)

end Head

end Cert.ReferenceIdeal.RefValue

end
-- ==== Proof.RefValueOut.lean ====
/-
  The reference's last stages read at an index: the heads side by side, the output layer and its bias, the window
  layout undone and the image rolled back — the returned array is the specification's result array.
-/
import proofs.«155316_j49177375539263_2_alg».proof.Proof.RefValueHead2

noncomputable section

open scoped BigOperators

namespace Cert.ReferenceIdeal.RefValue

open Idealize.ShloMosaic Idealize.ShloMosaic.ValueIdx Cert.ReferenceIdeal Cert.ReferenceIdeal.RefRun Cert.Attn

variable [Facts]

section Out
variable (a0 : FVec Ideal S1x112x8x128x128 .f32) (a1 : FVec Ideal S224x112 .f32) (a2 : FVec Ideal S112x112 .f32) (a3 : FVec Ideal S112x112 .f32) (a4 : FVec Ideal S112 .f32) (a5 : FVec Ideal S1x28 .f32) (a6 : FVec Ideal S1 .f32) (a7 : FVec Ideal S1x28 .f32) (a8 : FVec Ideal S1 .f32) (a9 : FVec Ideal S1x64 .f32) (a10 : FVec Ideal S64x64 .f32) (a11 : FVec Ideal S1x64 .f32)

local notation "PP" => ofArgs a1 a2 a3 a4 a5 a6 a7 a8 a9 a10 a11
local notation "XX" => imgOf a0

/-- The heads side by side. -/
theorem st_v64_apply (w : Fin 256) (n : Fin 64) (b : Fin 8) (c : Fin 112) :
    st_v64 (F := Ideal) a0 a1 a2 a5 a6 a7 a8 a9 a10 a11 (ix4 w n b c) = headsOut PP (tok XX w b) n c := by
  unfold st_v64
  refine (unheads_apply _ _ w n b c).trans ?_
  unfold st_v63
  refine (unheadsT_apply _ _ w n b _ _).trans ?_
  unfold headsOut headAt
  exact st_v62_apply a0 a1 a2 a3 a4 a5 a6 a7 a8 a9 a10 a11 w (headOf c) b n (chanOf c)

/-- The window's result. -/
theorem st_v68_apply (w : Fin 256) (n : Fin 64) (b : Fin 8) (o : Fin 112) :
    st_v68 (F := Ideal) a0 a1 a2 a3 a4 a5 a6 a7 a8 a9 a10 a11 (ix4 w n b o) = winOut PP (tok XX w b) n o := by
  have h67 : st_v67 (F := Ideal) a4 (ix4 w n b o) = a4 (ix1 o) := by
    unfold st_v67
    refine (bc_bias_all _ _ w n b o).trans ?_
    unfold st_v66
    exact bc_bias_unit _ _ 0 0 0 o
  have h65 : st_v65 (F := Ideal) a0 a1 a2 a3 a5 a6 a7 a8 a9 a10 a11 (ix4 w n b o)
      = ∑ c : Fin 112, headsOut PP (tok XX w b) n c * a3 (ix2 o c) := by
    unfold st_v65
    refine (dotLin_apply _ _ w n b o).trans ?_
    exact Finset.sum_congr rfl fun c _ => congrArg (· * a3 (ix2 o c)) (st_v64_apply a0 a1 a2 a3 a4 a5 a6 a7 a8 a9 a10 a11 w n b c)
  unfold st_v68
  refine (addf_apply (φ := .f32) _ _ _).trans ?_
  rw [h65, h67]
  rfl

/-- The window layout undone: pixel (H, W) is token (H mod 8, W mod 8) of window (H / 8, W / 8). -/
theorem st_v71_apply (z : Fin 1) (c : Fin 112) (b : Fin 8) (H W : Fin 128) :
    st_v71 (F := Ideal) a0 a1 a2 a3 a4 a5 a6 a7 a8 a9 a10 a11 (ix5 z c b H W)
      = st_v68 (F := Ideal) a0 a1 a2 a3 a4 a5 a6 a7 a8 a9 a10 a11 (ix4 (⟨H.val / 8 * 16 + W.val / 8, by omega⟩ : Fin 256)
          (⟨H.val % 8 * 8 + W.val % 8, by omega⟩ : Fin 64) b c) := by
  unfold st_v71
  refine (unsplit_apply _ _ z c b H W).trans ?_
  unfold st_v70
  refine (unperm_apply _ _ z c b _ _ _ _).trans ?_
  unfold st_v69
  exact unwindows_apply _ _ z c b _ _ _ _

/-- The result rolled back by four along its rows. -/
theorem st_call3_v2_apply (z : Fin 1) (c : Fin 112) (b : Fin 8) (H W : Fin 128) :
    st_call3_v2 (F := Ideal) a0 a1 a2 a3 a4 a5 a6 a7 a8 a9 a10 a11 (ix5 z c b H W)
      = st_v71 (F := Ideal) a0 a1 a2 a3 a4 a5 a6 a7 a8 a9 a10 a11 (ix5 z c b (⟨(H.val + 4) % 128, Nat.mod_lt _ (by norm_num)⟩ : Fin 128) W) := by
  unfold st_call3_v2 st_call3_v0 st_call3_v1
  exact rollHb_apply _ _ _ _ z c b H W

/-- The result rolled back by four along rows and columns. -/
theorem st_v72_apply (z : Fin 1) (c : Fin 112) (b : Fin 8) (H W : Fin 128) :
    st_v72 (F := Ideal) a0 a1 a2 a3 a4 a5 a6 a7 a8 a9 a10 a11 (ix5 z c b H W)
      = st_v71 (F := Ideal) a0 a1 a2 a3 a4 a5 a6 a7 a8 a9 a10 a11 (ix5 z c b (⟨(H.val + 4) % 128, Nat.mod_lt _ (by norm_num)⟩ : Fin 128)
          (⟨(W.val + 4) % 128, Nat.mod_lt _ (by norm_num)⟩ : Fin 128)) := by
  unfold st_v72 st_call3_v3 st_call3_v4
  refine (rollWb_apply _ _ _ _ z c b H W).trans ?_
  exact st_call3_v2_apply a0 a1 a2 a3 a4 a5 a6 a7 a8 a9 a10 a11 z c b H _

/-- THE REFERENCE'S RESULT is the specification's result array. -/
theorem refOut_eq : refOut (F := Ideal) a0 a1 a2 a3 a4 a5 a6 a7 a8 a9 a10 a11 = outArr (ofArgs a1 a2 a3 a4 a5 a6 a7 a8 a9 a10 a11) a0 := by
  funext i
  obtain ⟨z, c, b, H, W, rfl⟩ : ∃ (z : Fin 1) (c : Fin 112) (b : Fin 8) (H W : Fin 128), i = ix5 z c b H W :=
    ⟨i 0, i 1, i 2, i 3, i 4, eq_ix5 i⟩
  unfold refOut
  refine (st_v72_apply a0 a1 a2 a3 a4 a5 a6 a7 a8 a9 a10 a11 z c b H W).trans ?_
  refine (st_v71_apply a0 a1 a2 a3 a4 a5 a6 a7 a8 a9 a10 a11 z c b _ _).trans ?_
  refine (st_v68_apply a0 a1 a2 a3 a4 a5 a6 a7 a8 a9 a10 a11 _ _ b c).trans ?_
  rfl

end Out

end Cert.ReferenceIdeal.RefValue

end
-- ==== Proof.RefValue.lean ====
/-
  What the reference computes, index by index: its returned array is the specification's result array.
-/
import proofs.«155316_j49177375539263_2_alg».proof.Proof.RefValueOut
-- ==== Proof.lean ====
/-
  The certificate's five claims. Both idealized programs compute, pixel by pixel, the same function of their
  arguments over the extended reals: the windowed attention of Proof/Spec.lean. The kernel's program does so grid point
  by grid point (a point's body is the window function of its block, Proof/Body.lean; the host operations around the
  region cut the rolled image into windows and put the windows back, Proof/KHostRun.lean); the reference does so in
  one pass over all windows (its run, Proof/RefRun.lean, and that run's value, Proof/RefValue.lean). Nothing in the
  equality needs the inputs finite: every step is an identity of sums, products, maxima and the named functions.
  The three frames are the programs' runs with the results forgotten; the idealization rewrote no operation.
-/
import proofs.«155316_j49177375539263_2_alg».proof.Defs
import proofs.«155316_j49177375539263_2_alg».proof.Proof.Gen.Kernel
import proofs.«155316_j49177375539263_2_alg».proof.Proof.Gen.Kernel.Skeleton
import proofs.«155316_j49177375539263_2_alg».proof.Proof.Gen.Kernel.Launch
import proofs.«155316_j49177375539263_2_alg».proof.Proof.Gen.Kernel.Points
import proofs.«155316_j49177375539263_2_alg».proof.Proof.Gen.Kernel.Frame
import proofs.«155316_j49177375539263_2_alg».proof.Proof.Gen.KernelIdeal
import proofs.«155316_j49177375539263_2_alg».proof.Proof.Gen.KernelIdeal.Skeleton
import proofs.«155316_j49177375539263_2_alg».proof.Proof.Gen.KernelIdeal.Launch
import proofs.«155316_j49177375539263_2_alg».proof.Proof.Gen.KernelIdeal.Points
import proofs.«155316_j49177375539263_2_alg».proof.Proof.Gen.KernelIdeal.Frame
import proofs.«155316_j49177375539263_2_alg».proof.Proof.Gen.ReferenceIdeal
import proofs.«155316_j49177375539263_2_alg».proof.Proof.Gen.Pre_finite_inputs
import proofs.«155316_j49177375539263_2_alg».proof.Proof.Body
import proofs.«155316_j49177375539263_2_alg».proof.Proof.KHostRun
import proofs.«155316_j49177375539263_2_alg».proof.Proof.RefRun
import proofs.«155316_j49177375539263_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefRun.run m ρ)

/-- The idealization rewrote nothing. -/
theorem preserves : Cert.preserves_Kernel_KernelIdeal := trivial

/-- Both runs end at the windowed attention of the arguments. -/
theorem algebraic : Cert.algebraic_KernelIdeal_ReferenceIdeal := by
  intro m ρ m' ρ' _ hagree
  refine ⟨_, Cert.KernelIdeal.KHost.kernel_run Cert.KernelIdeal.Body.body_spec m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refOut_eq]
  obtain ⟨e0, e1, e2, e3, e4, e5, e6, e7, e8, e9, e10, e11⟩ := hagree c
  rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
